-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19_1)) (v1 : (c : Dev Cert.KernelIdeal.nD) → Buf (Elt Ideal) ((c.tc : Thread Cert.KernelIdeal.nD Cert.KernelIdeal.τ).loc Cert.KernelIdeal.main_v19_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_1) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S16x4096x64 : Shape := ⟨3, ![16, 4096, 64]⟩
abbrev S16x1024x64 : Shape := ⟨3, ![16, 1024, 64]⟩
abbrev S1024x16x64 : Shape := ⟨3, ![1024, 16, 64]⟩
abbrev S16x2x2048x64 : Shape := ⟨4, ![16, 2, 2048, 64]⟩
abbrev S16x64x1024 : Shape := ⟨3, ![16, 64, 1024]⟩
abbrev S2x16x2048x2048 : Shape := ⟨4, ![2, 16, 2048, 2048]⟩
abbrev S1x1x256x64 : Shape := ⟨4, ![1, 1, 256, 64]⟩
abbrev S1x1x2048x64 : Shape := ⟨4, ![1, 1, 2048, 64]⟩
abbrev S1x64x1024 : Shape := ⟨3, ![1, 64, 1024]⟩
abbrev S1x1x256x2048 : Shape := ⟨4, ![1, 1, 256, 2048]⟩
abbrev S1x256x1024 : Shape := ⟨3, ![1, 256, 1024]⟩
abbrev S256x1024 : Shape := ⟨2, ![256, 1024]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S64x1024 : Shape := ⟨2, ![64, 1024]⟩

abbrev nBuf : Space → Nat
  | .hbm => 32
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S16x4096x64, .bf16⟩
  | .hbm, ⟨20, _⟩ => ⟨S16x2x2048x64, .bf16⟩
  | .hbm, ⟨21, _⟩ => ⟨S1x1024, .f32⟩
  | .hbm, ⟨22, _⟩ => ⟨S16x4096x64, .bf16⟩
  | .hbm, ⟨23, _⟩ => ⟨S16x2x2048x64, .bf16⟩
  | .hbm, ⟨24, _⟩ => ⟨S1x1024, .f32⟩
  | .hbm, ⟨25, _⟩ => ⟨S16x4096x64, .bf16⟩
  | .hbm, ⟨26, _⟩ => ⟨S16x2x2048x64, .bf16⟩
  | .hbm, ⟨27, _⟩ => ⟨S16x64x1024, .f32⟩
  | .hbm, ⟨28, _⟩ => ⟨S16x64x1024, .bf16⟩
  | .hbm, ⟨29, _⟩ => ⟨S1x1024, .f32⟩
  | .hbm, ⟨30, _⟩ => ⟨S2x16x2048x2048, .f32⟩
  | .hbm, ⟨31, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S16x1024x64, .bf16⟩
  | .local _ .vmem, ⟨5, _⟩ => ⟨S16x1024x64, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S16x1024x64, .bf16⟩
  | .local _ .vmem, ⟨11, _⟩ => ⟨S16x1024x64, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S16x1024x64, .bf16⟩
  | .local _ .vmem, ⟨17, _⟩ => ⟨S16x1024x64, .bf16⟩
  | .local _ .vmem, ⟨18, _⟩ => ⟨S1x1x256x64, .bf16⟩
  | .local _ .vmem, ⟨19, _⟩ => ⟨S1x1x256x64, .bf16⟩
  | .local _ .vmem, ⟨20, _⟩ => ⟨S1x1x2048x64, .bf16⟩
  | .local _ .vmem, ⟨21, _⟩ => ⟨S1x1x2048x64, .bf16⟩
  | .local _ .vmem, ⟨22, _⟩ => ⟨S1x1x2048x64, .bf16⟩
  | .local _ .vmem, ⟨23, _⟩ => ⟨S1x1x2048x64, .bf16⟩
  | .local _ .vmem, ⟨24, _⟩ => ⟨S1x64x1024, .bf16⟩
  | .local _ .vmem, ⟨25, _⟩ => ⟨S1x64x1024, .bf16⟩
  | .local _ .vmem, ⟨26, _⟩ => ⟨S1x1024, .f32⟩
  | .local _ .vmem, ⟨27, _⟩ => ⟨S1x1x256x2048, .f32⟩
  | .local _ .vmem, ⟨28, _⟩ => ⟨S1x1x256x2048, .f32⟩
  | .local _ .vmem, ⟨29, _⟩ => ⟨S1x256x1024, .f32⟩
  | .local _ .vmem, ⟨30, _⟩ => ⟨S1x256x1024, .f32⟩
  | .local _ .vmem, ⟨31, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg5_1 : Ref sig .tc := ⟨.vmem, 28, rfl⟩
abbrev cc3_stg6_0 : Ref sig .tc := ⟨.vmem, 29, rfl⟩
abbrev cc3_stg6_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27
abbrev cc3_sem5_1 : DmaSem sig := 28
abbrev cc3_sem6_0 : DmaSem sig := 29
abbrev cc3_sem6_1 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16x1024x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 8, 16], ![false, false, false]⟩

def k3_cond2 (i : grid3.Coords) : BitVec 1 :=
  let arg2 : BitVec 32 := BitVec.ofNat 32 (i 2).val
  let c15_i32 : BitVec 32 := 15#32
  let v35 : BitVec 1 := Scalar.cmpi .eq arg2 c15_i32
  let v36 : BitVec 32 := Scalar.extui v35
  let c0_i32_28 : BitVec 32 := 0#32
  let v37 : BitVec 1 := Scalar.cmpi .ne v36 c0_i32_28
  v37

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x1x256x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x64x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, false, true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 2 → Memref sig .tc .vmem S1x1x256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev stage3_6 : Fin 2 → Memref sig .tc .vmem S1x256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

class Facts₀ : Prop where
  transposes_S1024x1024_S1024x1024_1_0 : S1024x1024.Transposes [1, 0] S1024x1024
  shapeCasts_S2x2048x1024_S4096x1024 : S2x2048x1024.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x16x64 : S1024x1024.ShapeCasts S1024x16x64
  transposes_S1024x16x64_p1_0_2_S16x1024x64 : S1024x16x64.Transposes [1, 0, 2] S16x1024x64
  inb_S16x1024x64_S16x1024x64_0_0_0 : ∀ a, (![0, 0, 0] : Fin 3 → Nat) a + S16x1024x64.size a ≤ S16x1024x64.size a
  h_S16x1024x64 : 0 < S16x1024x64.numel
  packedbf16_S16x1024x64_S16x1024x64_0_0_0 : (Rect.unit (s := S16x1024x64) ![0, 0, 0] S16x1024x64.size inb_S16x1024x64_S16x1024x64_0_0_0).PackedRows (EltTy.packing .bf16)
  shapeCasts_S16x4096x64_S16x2x2048x64 : S16x4096x64.ShapeCasts S16x2x2048x64
  shapeCasts_S1024x1024_S16x64x1024 : S1024x1024.ShapeCasts S16x64x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x64_S64x1024_S256x1024_1_0_0_1_n_n_wf : DotDims.WF S256x64 S64x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024x64.size a ≤ S16x4096x64.size a
  hwx0_3 : ∀ i : grid0.Coords, EltTy.bits .bf16 = 32 ∨ (Rect.block (s := S16x4096x64) S16x1024x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1024x64.size a ≤ S16x4096x64.size a
  hwx1_3 : ∀ i : grid1.Coords, EltTy.bits .bf16 = 32 ∨ (Rect.block (s := S16x4096x64) S16x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x1024x64.size a ≤ S16x4096x64.size a
  hwx2_3 : ∀ i : grid2.Coords, EltTy.bits .bf16 = 32 ∨ (Rect.block (s := S16x4096x64) S16x1024x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x256x64.size a ≤ S16x2x2048x64.size a
  hwx3_0 : ∀ i : grid3.Coords, EltTy.bits .bf16 = 32 ∨ (Rect.block (s := S16x2x2048x64) S1x1x256x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x64.size a ≤ S16x2x2048x64.size a
  hwx3_1 : ∀ i : grid3.Coords, EltTy.bits .bf16 = 32 ∨ (Rect.block (s := S16x2x2048x64) S1x1x2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x64.size a ≤ S16x2x2048x64.size a
  hwx3_2 : ∀ i : grid3.Coords, EltTy.bits .bf16 = 32 ∨ (Rect.block (s := S16x2x2048x64) S1x1x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x64x1024.size a ≤ S16x64x1024.size a
  hwx3_3 : ∀ i : grid3.Coords, EltTy.bits .bf16 = 32 ∨ (Rect.block (s := S16x64x1024) S1x64x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x256x2048.size a ≤ S2x16x2048x2048.size a
  hwx3_5 : ∀ i : grid3.Coords, EltTy.bits .f32 = 32 ∨ (Rect.block (s := S2x16x2048x2048) S1x1x256x2048.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x256x1024.size a ≤ S2x2048x1024.size a
  hwx3_6 : ∀ i : grid3.Coords, EltTy.bits .f32 = 32 ∨ (Rect.block (s := S2x2048x1024) S1x256x1024.size (cc3_transform_6 i) (hinb3_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S16x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S16x1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S1x1x256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x1x2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x1x2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x64x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v19_0) S1x1x256x2048.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v19_1) S1x256x1024.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KI.RunFold.lean ====
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import proofs.«174660_j36575941493113_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The four regions' proof data, as parameters

Each region K comes with proof data `datK V c` stated at ANY entry contents `V`, and six facts about them: the
arrays are read off `V`; inputs are held at the full share; the body owes nothing at any point; the body
obligation; and the invariant before the first point follows from, and after the last point gives back, the
scoped rest beside the generator register (`ΦA`). Nothing else about a region is used below. -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (dat2 : ((c : Dev nD) → (b : Ref sig .tc) → Buf (Elt F) ((c : Thread nD τ).loc b)) → (c : Dev nD) → Dat τ (Elt F) Unit ℕ (UR sig nD τ) ℕ cfg2 c)
  (dat3 : ((c : Dev nD) → (b : Ref sig .tc) → Buf (Elt F) ((c : Thread nD τ).loc b)) → (c : Dev nD) → Dat τ (Elt F) Unit ℕ (UR sig nD τ) ℕ cfg3 c)

/-! # The buffer contents at each segment boundary: a fold through @main -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references (what region 0's proof data take). -/
abbrev V1 : ((c : Dev nD) → (b : Ref sig .tc) → Buf (Elt F) ((c : Thread nD τ).loc b)) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m dat0 c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
/-- Region 0's exit contents at the TensorCore's references. -/
abbrev V2 : ((c : Dev nD) → (b : Ref sig .tc) → Buf (Elt F) ((c : Thread nD τ).loc b)) := fun c b => W2 m dat0 c b
theorem hF0 (c : Dev nD) (w : Fin cfg0.W) : (dat0 (V1 m) c).arrAt w cfg0.N = V2 m dat0 c (Pipeline.arrRef spec0 w) :=
  (W2_arr m dat0 c w).symm
theorem hrest0 (c : Dev nD) : ∀ b, b ∉ Finset.univ.image (Pipeline.arrRef spec0) → V2 m dat0 c b = V1 m c b :=
  fun b hb => W2_of_ne m dat0 c b fun w e => hb (Finset.mem_image.mpr ⟨w, Finset.mem_univ _, e⟩)

/-- After the second host stretch (region 1's entry). -/
abbrev W3 : Dev nD → Valuation τ sig (Elt F) := fun c => StableHlo.after hostOps1 (W2 m dat0 c)
abbrev V3 : ((c : Dev nD) → (b : Ref sig .tc) → Buf (Elt F) ((c : Thread nD τ).loc b)) := fun c b => W3 m dat0 c b
/-- At region 1's exit. -/
def W4 (c : Dev nD) : Valuation τ sig (Elt F) :=
  Pipeline.withArrays spec1 c (W3 m dat0 c) fun w => (dat1 (V3 m dat0) c).arrAt w cfg1.N
theorem W4_arr (c : Dev nD) (w : Fin cfg1.W) :
    W4 m dat0 dat1 c (Proc.devRef .tc (Pipeline.arrRef spec1 w)) = (dat1 (V3 m dat0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m dat0 dat1 c (Proc.devRef .tc b) = W3 m dat0 c (Proc.devRef .tc b) := by
  unfold W4; exact Pipeline.withArrays_of_ne spec1 c _ _ b hb
abbrev V4 : ((c : Dev nD) → (b : Ref sig .tc) → Buf (Elt F) ((c : Thread nD τ).loc b)) := fun c b => W4 m dat0 dat1 c b
theorem hF1 (c : Dev nD) (w : Fin cfg1.W) : (dat1 (V3 m dat0) c).arrAt w cfg1.N = V4 m dat0 dat1 c (Pipeline.arrRef spec1 w) :=
  (W4_arr m dat0 dat1 c w).symm
theorem hrest1 (c : Dev nD) : ∀ b, b ∉ Finset.univ.image (Pipeline.arrRef spec1) → V4 m dat0 dat1 c b = V3 m dat0 c b :=
  fun b hb => W4_of_ne m dat0 dat1 c b fun w e => hb (Finset.mem_image.mpr ⟨w, Finset.mem_univ _, e⟩)

/-- After the third host stretch (region 2's entry). -/
abbrev W5 : Dev nD → Valuation τ sig (Elt F) := fun c => StableHlo.after hostOps2 (W4 m dat0 dat1 c)
abbrev V5 : ((c : Dev nD) → (b : Ref sig .tc) → Buf (Elt F) ((c : Thread nD τ).loc b)) := fun c b => W5 m dat0 dat1 c b
/-- At region 2's exit. -/
def W6 (c : Dev nD) : Valuation τ sig (Elt F) :=
  Pipeline.withArrays spec2 c (W5 m dat0 dat1 c) fun w => (dat2 (V5 m dat0 dat1) c).arrAt w cfg2.N
theorem W6_arr (c : Dev nD) (w : Fin cfg2.W) :
    W6 m dat0 dat1 dat2 c (Proc.devRef .tc (Pipeline.arrRef spec2 w)) = (dat2 (V5 m dat0 dat1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m dat0 dat1 dat2 c (Proc.devRef .tc b) = W5 m dat0 dat1 c (Proc.devRef .tc b) := by
  unfold W6; exact Pipeline.withArrays_of_ne spec2 c _ _ b hb
abbrev V6 : ((c : Dev nD) → (b : Ref sig .tc) → Buf (Elt F) ((c : Thread nD τ).loc b)) := fun c b => W6 m dat0 dat1 dat2 c b
theorem hF2 (c : Dev nD) (w : Fin cfg2.W) : (dat2 (V5 m dat0 dat1) c).arrAt w cfg2.N = V6 m dat0 dat1 dat2 c (Pipeline.arrRef spec2 w) :=
  (W6_arr m dat0 dat1 dat2 c w).symm
theorem hrest2 (c : Dev nD) : ∀ b, b ∉ Finset.univ.image (Pipeline.arrRef spec2) → V6 m dat0 dat1 dat2 c b = V5 m dat0 dat1 c b :=
  fun b hb => W6_of_ne m dat0 dat1 dat2 c b fun w e => hb (Finset.mem_image.mpr ⟨w, Finset.mem_univ _, e⟩)

/-- After the fourth host stretch (region 3's entry). -/
abbrev W7 : Dev nD → Valuation τ sig (Elt F) := fun c => StableHlo.after hostOps3 (W6 m dat0 dat1 dat2 c)
abbrev V7 : ((c : Dev nD) → (b : Ref sig .tc) → Buf (Elt F) ((c : Thread nD τ).loc b)) := fun c b => W7 m dat0 dat1 dat2 c b
/-- At region 3's exit: what @main returns from. -/
def W8 (c : Dev nD) : Valuation τ sig (Elt F) :=
  Pipeline.withArrays spec3 c (W7 m dat0 dat1 dat2 c) fun w => (dat3 (V7 m dat0 dat1 dat2) c).arrAt w cfg3.N
theorem W8_arr (c : Dev nD) (w : Fin cfg3.W) :
    W8 m dat0 dat1 dat2 dat3 c (Proc.devRef .tc (Pipeline.arrRef spec3 w)) = (dat3 (V7 m dat0 dat1 dat2) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m dat0 dat1 dat2 dat3 c (Proc.devRef .tc b) = W7 m dat0 dat1 dat2 c (Proc.devRef .tc b) := by
  unfold W8; exact Pipeline.withArrays_of_ne spec3 c _ _ b hb
abbrev V8 : ((c : Dev nD) → (b : Ref sig .tc) → Buf (Elt F) ((c : Thread nD τ).loc b)) := fun c b => W8 m dat0 dat1 dat2 dat3 c b
theorem hF3 (c : Dev nD) (w : Fin cfg3.W) : (dat3 (V7 m dat0 dat1 dat2) c).arrAt w cfg3.N = V8 m dat0 dat1 dat2 dat3 c (Pipeline.arrRef spec3 w) :=
  (W8_arr m dat0 dat1 dat2 dat3 c w).symm
theorem hrest3 (c : Dev nD) : ∀ b, b ∉ Finset.univ.image (Pipeline.arrRef spec3) → V8 m dat0 dat1 dat2 dat3 c b = V7 m dat0 dat1 dat2 c b :=
  fun b hb => W8_of_ne m dat0 dat1 dat2 dat3 c b fun w e => hb (Finset.mem_image.mpr ⟨w, Finset.mem_univ _, e⟩)

/-! ## A buffer that no host stretch writes and no region stages ends as launched

The fold at such a buffer walks back to the launch memory: each region's exit contents agree with its entry
contents off the region's arrays, and a host stretch leaves what none of its operations writes. -/

theorem W8_untouched (c : Dev nD) (b : Ref sig .tc)
    (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b)
    (a2 : ∀ w, Pipeline.arrRef spec2 w ≠ b) (a3 : ∀ w, Pipeline.arrRef spec3 w ≠ b) :
    W8 m dat0 dat1 dat2 dat3 c (Proc.devRef .tc b) = m ((c : Thread nD τ).loc b) :=
  calc W8 m dat0 dat1 dat2 dat3 c (Proc.devRef .tc b)
    _ = W7 m dat0 dat1 dat2 c (Proc.devRef .tc b) := W8_of_ne m dat0 dat1 dat2 dat3 c b a3
    _ = W6 m dat0 dat1 dat2 c (Proc.devRef .tc b) := StableHlo.after_of_writes_sub hostOps3 _ hostOps3_writes h3
    _ = W5 m dat0 dat1 c (Proc.devRef .tc b) := W6_of_ne m dat0 dat1 dat2 c b a2
    _ = W4 m dat0 dat1 c (Proc.devRef .tc b) := StableHlo.after_of_writes_sub hostOps2 _ hostOps2_writes h2
    _ = W3 m dat0 c (Proc.devRef .tc b) := W4_of_ne m dat0 dat1 c b a1
    _ = W2 m dat0 c (Proc.devRef .tc b) := StableHlo.after_of_writes_sub hostOps1 _ hostOps1_writes h1
    _ = W1 m c (Proc.devRef .tc b) := W2_of_ne m dat0 c b a0
    _ = W0 m c (Proc.devRef .tc b) := StableHlo.after_of_writes_sub hostOps0 _ hostOps0_writes h0
    _ = m ((c : Thread nD τ).loc b) := rfl

/-! ### The arguments end as launched: every operand a region stages is a reshaped or transposed COPY made by a
    host stretch, so no argument's buffer is an array of any region, and no host operation writes one -/

theorem W8_main_arg0 (c : Dev nD) : W8 m dat0 dat1 dat2 dat3 c (Proc.devRef .tc main_arg0) = m ((c : Thread nD τ).loc main_arg0) :=
  W8_untouched m dat0 dat1 dat2 dat3 c main_arg0 (by decide) (by decide) (by decide) (by decide) (by decide) (by decide) (by decide) (by decide)
theorem W8_main_arg1 (c : Dev nD) : W8 m dat0 dat1 dat2 dat3 c (Proc.devRef .tc main_arg1) = m ((c : Thread nD τ).loc main_arg1) :=
  W8_untouched m dat0 dat1 dat2 dat3 c main_arg1 (by decide) (by decide) (by decide) (by decide) (by decide) (by decide) (by decide) (by decide)
theorem W8_main_arg2 (c : Dev nD) : W8 m dat0 dat1 dat2 dat3 c (Proc.devRef .tc main_arg2) = m ((c : Thread nD τ).loc main_arg2) :=
  W8_untouched m dat0 dat1 dat2 dat3 c main_arg2 (by decide) (by decide) (by decide) (by decide) (by decide) (by decide) (by decide) (by decide)
theorem W8_main_arg3 (c : Dev nD) : W8 m dat0 dat1 dat2 dat3 c (Proc.devRef .tc main_arg3) = m ((c : Thread nD τ).loc main_arg3) :=
  W8_untouched m dat0 dat1 dat2 dat3 c main_arg3 (by decide) (by decide) (by decide) (by decide) (by decide) (by decide) (by decide) (by decide)
theorem W8_main_arg4 (c : Dev nD) : W8 m dat0 dat1 dat2 dat3 c (Proc.devRef .tc main_arg4) = m ((c : Thread nD τ).loc main_arg4) :=
  W8_untouched m dat0 dat1 dat2 dat3 c main_arg4 (by decide) (by decide) (by decide) (by decide) (by decide) (by decide) (by decide) (by decide)
theorem W8_main_arg5 (c : Dev nD) : W8 m dat0 dat1 dat2 dat3 c (Proc.devRef .tc main_arg5) = m ((c : Thread nD τ).loc main_arg5) :=
  W8_untouched m dat0 dat1 dat2 dat3 c main_arg5 (by decide) (by decide) (by decide) (by decide) (by decide) (by decide) (by decide) (by decide)
theorem W8_main_arg6 (c : Dev nD) : W8 m dat0 dat1 dat2 dat3 c (Proc.devRef .tc main_arg6) = m ((c : Thread nD τ).loc main_arg6) :=
  W8_untouched m dat0 dat1 dat2 dat3 c main_arg6 (by decide) (by decide) (by decide) (by decide) (by decide) (by decide) (by decide) (by decide)
theorem W8_main_arg7 (c : Dev nD) : W8 m dat0 dat1 dat2 dat3 c (Proc.devRef .tc main_arg7) = m ((c : Thread nD τ).loc main_arg7) :=
  W8_untouched m dat0 dat1 dat2 dat3 c main_arg7 (by decide) (by decide) (by decide) (by decide) (by decide) (by decide) (by decide) (by decide)
theorem W8_main_arg8 (c : Dev nD) : W8 m dat0 dat1 dat2 dat3 c (Proc.devRef .tc main_arg8) = m ((c : Thread nD τ).loc main_arg8) :=
  W8_untouched m dat0 dat1 dat2 dat3 c main_arg8 (by decide) (by decide) (by decide) (by decide) (by decide) (by decide) (by decide) (by decide)
theorem W8_main_arg9 (c : Dev nD) : W8 m dat0 dat1 dat2 dat3 c (Proc.devRef .tc main_arg9) = m ((c : Thread nD τ).loc main_arg9) :=
  W8_untouched m dat0 dat1 dat2 dat3 c main_arg9 (by decide) (by decide) (by decide) (by decide) (by decide) (by decide) (by decide) (by decide)
theorem W8_main_arg10 (c : Dev nD) : W8 m dat0 dat1 dat2 dat3 c (Proc.devRef .tc main_arg10) = m ((c : Thread nD τ).loc main_arg10) :=
  W8_untouched m dat0 dat1 dat2 dat3 c main_arg10 (by decide) (by decide) (by decide) (by decide) (by decide) (by decide) (by decide) (by decide)

end Cert.KernelIdeal.Fr

end
-- ==== Proof.KI.Run.lean ====
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import proofs.«174660_j36575941493113_2_alg».proof.Proof.Gen.KernelIdeal.Regions
import proofs.«174660_j36575941493113_2_alg».proof.Proof.KI.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The four regions' proof data, as parameters

Each region K comes with proof data `datK V c` stated at ANY entry contents `V`, and six facts about them: the
arrays are read off `V`; inputs are held at the full share; the body owes nothing at any point; the body
obligation; and the invariant before the first point follows from, and after the last point gives back, the
scoped rest beside the generator register (`ΦA`). Nothing else about a region is used below. -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (dat2 : ((c : Dev nD) → (b : Ref sig .tc) → Buf (Elt F) ((c : Thread nD τ).loc b)) → (c : Dev nD) → Dat τ (Elt F) Unit ℕ (UR sig nD τ) ℕ cfg2 c)
  (dat3 : ((c : Dev nD) → (b : Ref sig .tc) → Buf (Elt F) ((c : Thread nD τ).loc b)) → (c : Dev nD) → Dat τ (Elt F) Unit ℕ (UR sig nD τ) ℕ cfg3 c)

/-! # The proof data family and the thread state -/

/-- Every pipeline's proof data, each at its region's entry contents — a literal match, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m dat0) c
  | ⟨2, _⟩ => fun c => dat2 (V5 m dat0 dat1) c
  | ⟨3, _⟩ => fun c => dat3 (V7 m dat0 dat1 dat2) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m dat0 dat1 dat2 dat3 c) ∗ ∃ r, prngReg c r)

/-- A core that owes nothing, as a pipeline point's `owes`: for proof data that owe nothing there and bound the
    recorded pairs by nothing. -/
theorem owesAt_of_owes {cfg : Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
/-- And back: a point's `owes` at data that owe nothing there is the core owing nothing. -/
theorem owes_of_owesAt {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

/-! # The regions as segments -/

variable
  (hA0 : ∀ (V : ((c : Dev nD) → (b : Ref sig .tc) → Buf (Elt F) ((c : Thread nD τ).loc b))) (c : Dev nD) (w : Fin cfg0.W), (dat0 V c).A w = V c (Pipeline.arrRef spec0 w))
  (hq0 : ∀ (V : ((c : Dev nD) → (b : Ref sig .tc) → Buf (Elt F) ((c : Thread nD τ).loc b))) (c : Dev nD) (w : Fin cfg0.W), (dat0 V c).q w = fullShare)
  (howed0 : ∀ (V : ((c : Dev nD) → (b : Ref sig .tc) → Buf (Elt F) ((c : Thread nD τ).loc b))) (c : Dev nD) (t : Fin (cfg0.N + 1)), (dat0 V c).owed t = 0)
  (hrec0 : ∀ (V : ((c : Dev nD) → (b : Ref sig .tc) → Buf (Elt F) ((c : Thread nD τ).loc b))) (c : Dev nD) (t : Fin (cfg0.N + 1)), (dat0 V c).recorded t = Set.univ)
  (hbody0 : ∀ (V : ((c : Dev nD) → (b : Ref sig .tc) → Buf (Elt F) ((c : Thread nD τ).loc b))) (c : Dev nD), BodyObligation (dat0 V c) (defs₀ (F := F)) Variants.none () Set.univ)
  (hin0 : ∀ (V : ((c : Dev nD) → (b : Ref sig .tc) → Buf (Elt F) ((c : Thread nD τ).loc b))) (c : Dev nD), Pipeline.ΦA spec0 c ⊢ (dat0 V c).Φ 0)
  (hout0 : ∀ (V : ((c : Dev nD) → (b : Ref sig .tc) → Buf (Elt F) ((c : Thread nD τ).loc b))) (c : Dev nD), (dat0 V c).Φ (Fin.last cfg0.N) ⊢ Pipeline.ΦA spec0 c)
  (hA1 : ∀ (V : ((c : Dev nD) → (b : Ref sig .tc) → Buf (Elt F) ((c : Thread nD τ).loc b))) (c : Dev nD) (w : Fin cfg1.W), (dat1 V c).A w = V c (Pipeline.arrRef spec1 w))
  (hq1 : ∀ (V : ((c : Dev nD) → (b : Ref sig .tc) → Buf (Elt F) ((c : Thread nD τ).loc b))) (c : Dev nD) (w : Fin cfg1.W), (dat1 V c).q w = fullShare)
  (howed1 : ∀ (V : ((c : Dev nD) → (b : Ref sig .tc) → Buf (Elt F) ((c : Thread nD τ).loc b))) (c : Dev nD) (t : Fin (cfg1.N + 1)), (dat1 V c).owed t = 0)
  (hrec1 : ∀ (V : ((c : Dev nD) → (b : Ref sig .tc) → Buf (Elt F) ((c : Thread nD τ).loc b))) (c : Dev nD) (t : Fin (cfg1.N + 1)), (dat1 V c).recorded t = Set.univ)
  (hbody1 : ∀ (V : ((c : Dev nD) → (b : Ref sig .tc) → Buf (Elt F) ((c : Thread nD τ).loc b))) (c : Dev nD), BodyObligation (dat1 V c) (defs₀ (F := F)) Variants.none () Set.univ)
  (hin1 : ∀ (V : ((c : Dev nD) → (b : Ref sig .tc) → Buf (Elt F) ((c : Thread nD τ).loc b))) (c : Dev nD), Pipeline.ΦA spec1 c ⊢ (dat1 V c).Φ 0)
  (hout1 : ∀ (V : ((c : Dev nD) → (b : Ref sig .tc) → Buf (Elt F) ((c : Thread nD τ).loc b))) (c : Dev nD), (dat1 V c).Φ (Fin.last cfg1.N) ⊢ Pipeline.ΦA spec1 c)
  (hA2 : ∀ (V : ((c : Dev nD) → (b : Ref sig .tc) → Buf (Elt F) ((c : Thread nD τ).loc b))) (c : Dev nD) (w : Fin cfg2.W), (dat2 V c).A w = V c (Pipeline.arrRef spec2 w))
  (hq2 : ∀ (V : ((c : Dev nD) → (b : Ref sig .tc) → Buf (Elt F) ((c : Thread nD τ).loc b))) (c : Dev nD) (w : Fin cfg2.W), (dat2 V c).q w = fullShare)
  (howed2 : ∀ (V : ((c : Dev nD) → (b : Ref sig .tc) → Buf (Elt F) ((c : Thread nD τ).loc b))) (c : Dev nD) (t : Fin (cfg2.N + 1)), (dat2 V c).owed t = 0)
  (hrec2 : ∀ (V : ((c : Dev nD) → (b : Ref sig .tc) → Buf (Elt F) ((c : Thread nD τ).loc b))) (c : Dev nD) (t : Fin (cfg2.N + 1)), (dat2 V c).recorded t = Set.univ)
  (hbody2 : ∀ (V : ((c : Dev nD) → (b : Ref sig .tc) → Buf (Elt F) ((c : Thread nD τ).loc b))) (c : Dev nD), BodyObligation (dat2 V c) (defs₀ (F := F)) Variants.none () Set.univ)
  (hin2 : ∀ (V : ((c : Dev nD) → (b : Ref sig .tc) → Buf (Elt F) ((c : Thread nD τ).loc b))) (c : Dev nD), Pipeline.ΦA spec2 c ⊢ (dat2 V c).Φ 0)
  (hout2 : ∀ (V : ((c : Dev nD) → (b : Ref sig .tc) → Buf (Elt F) ((c : Thread nD τ).loc b))) (c : Dev nD), (dat2 V c).Φ (Fin.last cfg2.N) ⊢ Pipeline.ΦA spec2 c)
  (hA3 : ∀ (V : ((c : Dev nD) → (b : Ref sig .tc) → Buf (Elt F) ((c : Thread nD τ).loc b))) (c : Dev nD) (w : Fin cfg3.W), (dat3 V c).A w = V c (Pipeline.arrRef spec3 w))
  (hq3 : ∀ (V : ((c : Dev nD) → (b : Ref sig .tc) → Buf (Elt F) ((c : Thread nD τ).loc b))) (c : Dev nD) (w : Fin cfg3.W), (dat3 V c).q w = fullShare)
  (howed3 : ∀ (V : ((c : Dev nD) → (b : Ref sig .tc) → Buf (Elt F) ((c : Thread nD τ).loc b))) (c : Dev nD) (t : Fin (cfg3.N + 1)), (dat3 V c).owed t = 0)
  (hrec3 : ∀ (V : ((c : Dev nD) → (b : Ref sig .tc) → Buf (Elt F) ((c : Thread nD τ).loc b))) (c : Dev nD) (t : Fin (cfg3.N + 1)), (dat3 V c).recorded t = Set.univ)
  (hbody3 : ∀ (V : ((c : Dev nD) → (b : Ref sig .tc) → Buf (Elt F) ((c : Thread nD τ).loc b))) (c : Dev nD), BodyObligation (dat3 V c) (defs₀ (F := F)) Variants.none () Set.univ)
  (hin3 : ∀ (V : ((c : Dev nD) → (b : Ref sig .tc) → Buf (Elt F) ((c : Thread nD τ).loc b))) (c : Dev nD), Pipeline.ΦA spec3 c ⊢ (dat3 V c).Φ 0)
  (hout3 : ∀ (V : ((c : Dev nD) → (b : Ref sig .tc) → Buf (Elt F) ((c : Thread nD τ).loc b))) (c : Dev nD), (dat3 V c).Φ (Fin.last cfg3.N) ⊢ Pipeline.ΦA spec3 c)

/-! ## Region 0 -/

include hA0 hq0 howed0 hrec0 in
set_option backward.isDefEq.respectTransparency.types false in
/-- ENTRY of region 0: its arrays are split out of the unscoped buffers at the entry contents (read off them: `hA0`),
    the generator register and the rest set aside, the core owing nothing. -/
theorem reg0_hentry (c : Dev nD) :
    iprop(iprop(StableHlo.held (c : Thread nD τ) (Pipeline.ucRefs τ sig) (W1 m c) ∗ R c) ∗ Pipeline.ownSems0 (fun k : PEmpty => k.elim) c ∗ levAts L lv)
      ⊢ |={Set.univ}=> iprop((pdats m dat0 dat1 dat2 dat3 0 c).arrays ((pdats m dat0 dat1 dat2 dat3 0 c).arrAt · 0) ∗ Pipeline.prefHeld (pcfgs (F := F) 0).pre c (fun _ => fullShare) (adm 0).1
          ∗ (pdats m dat0 dat1 dat2 dat3 0 c).owesAt () 0 ∗ (∃ r, prngReg c r) ∗ Pipeline.unscopedRest (Ix := Unit) (Name := ℕ) (U := UR sig nD τ) (Lvl := ℕ) spec0 c (V1 m c) : sProp 𝕄) := by
  rw [Pipeline.ownSems0_none]
  have hsplit := Pipeline.arrays_of_unscopedBufs (p := 0) (pcfgs (F := F)) adm (pdats m dat0 dat1 dat2 dat3) launch0.win launch0.arr_whole c
    ((pdats m dat0 dat1 dat2 dat3 0 c).share_full fun w => hq0 (V1 m) c w) (V1 m c) fun w => hA0 (V1 m) c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_of_owes (pdats m dat0 dat1 dat2 dat3 0 c) 0 (howed0 (V1 m) c _) (hrec0 (V1 m) c _))
    iexact HO
  isplitl [Hp]; · iexact Hp
  iexact Hrest

include hin0 in
set_option backward.isDefEq.respectTransparency.types false in
/-- The invariant before the first point, from the generator register and the scoped buffers no window stages. -/
theorem reg0_hin (c : Dev nD) :
    iprop((∃ r, prngReg c r) ∗ Pipeline.prefHeld (pcfgs (F := F) 0).pre c (fun _ => fullShare) (adm 0).1 ∗ Pipeline.scopedRest (Pipeline.pin (pcfgs (F := F)) adm 0).spec c)
      ⊢ ((pdats m dat0 dat1 dat2 dat3 0 c).Φ 0 : sProp 𝕄) := by
  refine BIBase.Entails.trans ?_ (hin0 (V1 m) c)
  unfold Pipeline.ΦA
  iintro ⟨Hp, -, Hr⟩
  isplitl [Hr]; · iexact Hr
  iexact Hp

include hout0 in
set_option backward.isDefEq.respectTransparency.types false in
/-- The invariant after the last point gives them back. -/
theorem reg0_hout (c : Dev nD) :
    ((pdats m dat0 dat1 dat2 dat3 0 c).Φ (Fin.last (Pipeline.pin (pcfgs (F := F)) adm 0).N) : sProp 𝕄)
      ⊢ iprop((∃ r, prngReg c r) ∗ Pipeline.ownSems0 (fun k : PEmpty => k.elim) c ∗ Pipeline.scopedRest (Pipeline.pin (pcfgs (F := F)) adm 0).spec c) := by
  rw [Pipeline.ownSems0_none]
  refine BIBase.Entails.trans (hout0 (V1 m) c) ?_
  unfold Pipeline.ΦA
  iintro ⟨Hr, Hp⟩
  isplitl [Hp]; · iexact Hp
  isplitr; · iempintro
  iexact Hr

include hq0 howed0 in
set_option backward.isDefEq.respectTransparency.types false in
/-- EXIT of region 0: its arrays at their final contents and the rest make the unscoped buffers at the exit contents
    (which have the arrays at those contents and agree with the entry contents elsewhere). -/
theorem reg0_hexit (c : Dev nD) :
    iprop((pdats m dat0 dat1 dat2 dat3 0 c).arrays ((pdats m dat0 dat1 dat2 dat3 0 c).arrAt · (Pipeline.pin (pcfgs (F := F)) adm 0).N) ∗ (pdats m dat0 dat1 dat2 dat3 0 c).owesAt () (Fin.last (Pipeline.pin (pcfgs (F := F)) adm 0).N) ∗ (∃ r, prngReg c r) ∗ Pipeline.unscopedRest (Ix := Unit) (Name := ℕ) (U := UR sig nD τ) (Lvl := ℕ) spec0 c (V1 m c))
      ⊢ |={Set.univ}=> (iprop(StableHlo.held (c : Thread nD τ) (Pipeline.ucRefs τ sig) (W2 m dat0 c) ∗ R c) : sProp 𝕄) := by
  have hjoin := Pipeline.unscopedBufs_of_arrays (p := 0) (pcfgs (F := F)) adm (Ix := Unit) (Name := ℕ) (U := UR sig nD τ) (Lvl := ℕ)
    launch0.win launch0.arr_whole c (pdats m dat0 dat1 dat2 dat3) ((pdats m dat0 dat1 dat2 dat3 0 c).share_full fun w => hq0 (V1 m) c w)
    (V1 m c) (V2 m dat0 c) ((pdats m dat0 dat1 dat2 dat3 0 c).arrAt · cfg0.N) (hF0 m dat0 c) (hrest0 m dat0 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owes_of_owesAt (pdats m dat0 dat1 dat2 dat3 0 c) _ (howed0 (V1 m) c _))
  iexact HO

set_option backward.isDefEq.respectTransparency.types false in
/-- REGION 0 over the thread state: entered from every unscoped buffer at the contents after host stretch 0, left at
    its arrays' final contents and every other buffer as entered; nothing is owed; the kernel has no semaphore of
    its own. -/
def reg0 : Pipeline.RegionSeg (pcfgs (F := F)) adm (pdats m dat0 dat1 dat2 dat3) () defs₀ 𝒱₀ L lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ _ _ L lv 0 fun c t => howed0 (V1 m) c t
  pre c := iprop(StableHlo.held (c : Thread nD τ) (Pipeline.ucRefs τ sig) (W1 m c) ∗ R c)
  post c := iprop(StableHlo.held (c : Thread nD τ) (Pipeline.ucRefs τ sig) (W2 m dat0 c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := reg0_hentry m dat0 dat1 dat2 dat3 hA0 hq0 howed0 hrec0 c
  hin c := reg0_hin m dat0 dat1 dat2 dat3 hin0 c
  hout c := reg0_hout m dat0 dat1 dat2 dat3 hout0 c
  hexit c := reg0_hexit m dat0 dat1 dat2 dat3 hq0 howed0 c

/-! ## Region 1 -/

include hA1 hq1 howed1 hrec1 in
set_option backward.isDefEq.respectTransparency.types false in
/-- ENTRY of region 1: its arrays are split out of the unscoped buffers at the entry contents (read off them: `hA1`),
    the generator register and the rest set aside, the core owing nothing. -/
theorem reg1_hentry (c : Dev nD) :
    iprop(iprop(StableHlo.held (c : Thread nD τ) (Pipeline.ucRefs τ sig) (W3 m dat0 c) ∗ R c) ∗ Pipeline.ownSems0 (fun k : PEmpty => k.elim) c ∗ levAts L lv)
      ⊢ |={Set.univ}=> iprop((pdats m dat0 dat1 dat2 dat3 1 c).arrays ((pdats m dat0 dat1 dat2 dat3 1 c).arrAt · 0) ∗ Pipeline.prefHeld (pcfgs (F := F) 1).pre c (fun _ => fullShare) (adm 1).1
          ∗ (pdats m dat0 dat1 dat2 dat3 1 c).owesAt () 0 ∗ (∃ r, prngReg c r) ∗ Pipeline.unscopedRest (Ix := Unit) (Name := ℕ) (U := UR sig nD τ) (Lvl := ℕ) spec1 c (V3 m dat0 c) : sProp 𝕄) := by
  rw [Pipeline.ownSems0_none]
  have hsplit := Pipeline.arrays_of_unscopedBufs (p := 1) (pcfgs (F := F)) adm (pdats m dat0 dat1 dat2 dat3) launch1.win launch1.arr_whole c
    ((pdats m dat0 dat1 dat2 dat3 1 c).share_full fun w => hq1 (V3 m dat0) c w) (V3 m dat0 c) fun w => hA1 (V3 m dat0) c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_of_owes (pdats m dat0 dat1 dat2 dat3 1 c) 0 (howed1 (V3 m dat0) c _) (hrec1 (V3 m dat0) c _))
    iexact HO
  isplitl [Hp]; · iexact Hp
  iexact Hrest

include hin1 in
set_option backward.isDefEq.respectTransparency.types false in
/-- The invariant before the first point, from the generator register and the scoped buffers no window stages. -/
theorem reg1_hin (c : Dev nD) :
    iprop((∃ r, prngReg c r) ∗ Pipeline.prefHeld (pcfgs (F := F) 1).pre c (fun _ => fullShare) (adm 1).1 ∗ Pipeline.scopedRest (Pipeline.pin (pcfgs (F := F)) adm 1).spec c)
      ⊢ ((pdats m dat0 dat1 dat2 dat3 1 c).Φ 0 : sProp 𝕄) := by
  refine BIBase.Entails.trans ?_ (hin1 (V3 m dat0) c)
  unfold Pipeline.ΦA
  iintro ⟨Hp, -, Hr⟩
  isplitl [Hr]; · iexact Hr
  iexact Hp

include hout1 in
set_option backward.isDefEq.respectTransparency.types false in
/-- The invariant after the last point gives them back. -/
theorem reg1_hout (c : Dev nD) :
    ((pdats m dat0 dat1 dat2 dat3 1 c).Φ (Fin.last (Pipeline.pin (pcfgs (F := F)) adm 1).N) : sProp 𝕄)
      ⊢ iprop((∃ r, prngReg c r) ∗ Pipeline.ownSems0 (fun k : PEmpty => k.elim) c ∗ Pipeline.scopedRest (Pipeline.pin (pcfgs (F := F)) adm 1).spec c) := by
  rw [Pipeline.ownSems0_none]
  refine BIBase.Entails.trans (hout1 (V3 m dat0) c) ?_
  unfold Pipeline.ΦA
  iintro ⟨Hr, Hp⟩
  isplitl [Hp]; · iexact Hp
  isplitr; · iempintro
  iexact Hr

include hq1 howed1 in
set_option backward.isDefEq.respectTransparency.types false in
/-- EXIT of region 1: its arrays at their final contents and the rest make the unscoped buffers at the exit contents
    (which have the arrays at those contents and agree with the entry contents elsewhere). -/
theorem reg1_hexit (c : Dev nD) :
    iprop((pdats m dat0 dat1 dat2 dat3 1 c).arrays ((pdats m dat0 dat1 dat2 dat3 1 c).arrAt · (Pipeline.pin (pcfgs (F := F)) adm 1).N) ∗ (pdats m dat0 dat1 dat2 dat3 1 c).owesAt () (Fin.last (Pipeline.pin (pcfgs (F := F)) adm 1).N) ∗ (∃ r, prngReg c r) ∗ Pipeline.unscopedRest (Ix := Unit) (Name := ℕ) (U := UR sig nD τ) (Lvl := ℕ) spec1 c (V3 m dat0 c))
      ⊢ |={Set.univ}=> (iprop(StableHlo.held (c : Thread nD τ) (Pipeline.ucRefs τ sig) (W4 m dat0 dat1 c) ∗ R c) : sProp 𝕄) := by
  have hjoin := Pipeline.unscopedBufs_of_arrays (p := 1) (pcfgs (F := F)) adm (Ix := Unit) (Name := ℕ) (U := UR sig nD τ) (Lvl := ℕ)
    launch1.win launch1.arr_whole c (pdats m dat0 dat1 dat2 dat3) ((pdats m dat0 dat1 dat2 dat3 1 c).share_full fun w => hq1 (V3 m dat0) c w)
    (V3 m dat0 c) (V4 m dat0 dat1 c) ((pdats m dat0 dat1 dat2 dat3 1 c).arrAt · cfg1.N) (hF1 m dat0 dat1 c) (hrest1 m dat0 dat1 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owes_of_owesAt (pdats m dat0 dat1 dat2 dat3 1 c) _ (howed1 (V3 m dat0) c _))
  iexact HO

set_option backward.isDefEq.respectTransparency.types false in
/-- REGION 1 over the thread state: entered from every unscoped buffer at the contents after host stretch 1, left at
    its arrays' final contents and every other buffer as entered; nothing is owed; the kernel has no semaphore of
    its own. -/
def reg1 : Pipeline.RegionSeg (pcfgs (F := F)) adm (pdats m dat0 dat1 dat2 dat3) () defs₀ 𝒱₀ L lv 1 where
  win := launch1.win.to₀
  block_pos := launch1.block_pos
  stage_whole := launch1.stage_whole
  K := PEmpty
  osem k := k.elim
  ho := Pipeline.OwnSemFacts.none _
  hbody c := (hbody1 (V3 m dat0) c).loose
  hwaits := Pipeline.hwaits_of_owed_zero _ _ _ _ L lv 1 fun c t => howed1 (V3 m dat0) c t
  pre c := iprop(StableHlo.held (c : Thread nD τ) (Pipeline.ucRefs τ sig) (W3 m dat0 c) ∗ R c)
  post c := iprop(StableHlo.held (c : Thread nD τ) (Pipeline.ucRefs τ sig) (W4 m dat0 dat1 c) ∗ R c)
  X c := iprop(∃ r, prngReg c r)
  Y c := iprop(∃ r, prngReg c r)
  Z c := Pipeline.unscopedRest (Ix := Unit) (Name := ℕ) (U := UR sig nD τ) (Lvl := ℕ) spec1 c (V3 m dat0 c)
  hentry c := reg1_hentry m dat0 dat1 dat2 dat3 hA1 hq1 howed1 hrec1 c
  hin c := reg1_hin m dat0 dat1 dat2 dat3 hin1 c
  hout c := reg1_hout m dat0 dat1 dat2 dat3 hout1 c
  hexit c := reg1_hexit m dat0 dat1 dat2 dat3 hq1 howed1 c

/-! ## Region 2 -/

include hA2 hq2 howed2 hrec2 in
set_option backward.isDefEq.respectTransparency.types false in
/-- ENTRY of region 2: its arrays are split out of the unscoped buffers at the entry contents (read off them: `hA2`),
    the generator register and the rest set aside, the core owing nothing. -/
theorem reg2_hentry (c : Dev nD) :
    iprop(iprop(StableHlo.held (c : Thread nD τ) (Pipeline.ucRefs τ sig) (W5 m dat0 dat1 c) ∗ R c) ∗ Pipeline.ownSems0 (fun k : PEmpty => k.elim) c ∗ levAts L lv)
      ⊢ |={Set.univ}=> iprop((pdats m dat0 dat1 dat2 dat3 2 c).arrays ((pdats m dat0 dat1 dat2 dat3 2 c).arrAt · 0) ∗ Pipeline.prefHeld (pcfgs (F := F) 2).pre c (fun _ => fullShare) (adm 2).1
          ∗ (pdats m dat0 dat1 dat2 dat3 2 c).owesAt () 0 ∗ (∃ r, prngReg c r) ∗ Pipeline.unscopedRest (Ix := Unit) (Name := ℕ) (U := UR sig nD τ) (Lvl := ℕ) spec2 c (V5 m dat0 dat1 c) : sProp 𝕄) := by
  rw [Pipeline.ownSems0_none]
  have hsplit := Pipeline.arrays_of_unscopedBufs (p := 2) (pcfgs (F := F)) adm (pdats m dat0 dat1 dat2 dat3) launch2.win launch2.arr_whole c
    ((pdats m dat0 dat1 dat2 dat3 2 c).share_full fun w => hq2 (V5 m dat0 dat1) c w) (V5 m dat0 dat1 c) fun w => hA2 (V5 m dat0 dat1) c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_of_owes (pdats m dat0 dat1 dat2 dat3 2 c) 0 (howed2 (V5 m dat0 dat1) c _) (hrec2 (V5 m dat0 dat1) c _))
    iexact HO
  isplitl [Hp]; · iexact Hp
  iexact Hrest

include hin2 in
set_option backward.isDefEq.respectTransparency.types false in
/-- The invariant before the first point, from the generator register and the scoped buffers no window stages. -/
theorem reg2_hin (c : Dev nD) :
    iprop((∃ r, prngReg c r) ∗ Pipeline.prefHeld (pcfgs (F := F) 2).pre c (fun _ => fullShare) (adm 2).1 ∗ Pipeline.scopedRest (Pipeline.pin (pcfgs (F := F)) adm 2).spec c)
      ⊢ ((pdats m dat0 dat1 dat2 dat3 2 c).Φ 0 : sProp 𝕄) := by
  refine BIBase.Entails.trans ?_ (hin2 (V5 m dat0 dat1) c)
  unfold Pipeline.ΦA
  iintro ⟨Hp, -, Hr⟩
  isplitl [Hr]; · iexact Hr
  iexact Hp

include hout2 in
set_option backward.isDefEq.respectTransparency.types false in
/-- The invariant after the last point gives them back. -/
theorem reg2_hout (c : Dev nD) :
    ((pdats m dat0 dat1 dat2 dat3 2 c).Φ (Fin.last (Pipeline.pin (pcfgs (F := F)) adm 2).N) : sProp 𝕄)
      ⊢ iprop((∃ r, prngReg c r) ∗ Pipeline.ownSems0 (fun k : PEmpty => k.elim) c ∗ Pipeline.scopedRest (Pipeline.pin (pcfgs (F := F)) adm 2).spec c) := by
  rw [Pipeline.ownSems0_none]
  refine BIBase.Entails.trans (hout2 (V5 m dat0 dat1) c) ?_
  unfold Pipeline.ΦA
  iintro ⟨Hr, Hp⟩
  isplitl [Hp]; · iexact Hp
  isplitr; · iempintro
  iexact Hr

include hq2 howed2 in
set_option backward.isDefEq.respectTransparency.types false in
/-- EXIT of region 2: its arrays at their final contents and the rest make the unscoped buffers at the exit contents
    (which have the arrays at those contents and agree with the entry contents elsewhere). -/
theorem reg2_hexit (c : Dev nD) :
    iprop((pdats m dat0 dat1 dat2 dat3 2 c).arrays ((pdats m dat0 dat1 dat2 dat3 2 c).arrAt · (Pipeline.pin (pcfgs (F := F)) adm 2).N) ∗ (pdats m dat0 dat1 dat2 dat3 2 c).owesAt () (Fin.last (Pipeline.pin (pcfgs (F := F)) adm 2).N) ∗ (∃ r, prngReg c r) ∗ Pipeline.unscopedRest (Ix := Unit) (Name := ℕ) (U := UR sig nD τ) (Lvl := ℕ) spec2 c (V5 m dat0 dat1 c))
      ⊢ |={Set.univ}=> (iprop(StableHlo.held (c : Thread nD τ) (Pipeline.ucRefs τ sig) (W6 m dat0 dat1 dat2 c) ∗ R c) : sProp 𝕄) := by
  have hjoin := Pipeline.unscopedBufs_of_arrays (p := 2) (pcfgs (F := F)) adm (Ix := Unit) (Name := ℕ) (U := UR sig nD τ) (Lvl := ℕ)
    launch2.win launch2.arr_whole c (pdats m dat0 dat1 dat2 dat3) ((pdats m dat0 dat1 dat2 dat3 2 c).share_full fun w => hq2 (V5 m dat0 dat1) c w)
    (V5 m dat0 dat1 c) (V6 m dat0 dat1 dat2 c) ((pdats m dat0 dat1 dat2 dat3 2 c).arrAt · cfg2.N) (hF2 m dat0 dat1 dat2 c) (hrest2 m dat0 dat1 dat2 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owes_of_owesAt (pdats m dat0 dat1 dat2 dat3 2 c) _ (howed2 (V5 m dat0 dat1) c _))
  iexact HO

set_option backward.isDefEq.respectTransparency.types false in
/-- REGION 2 over the thread state: entered from every unscoped buffer at the contents after host stretch 2, left at
    its arrays' final contents and every other buffer as entered; nothing is owed; the kernel has no semaphore of
    its own. -/
def reg2 : Pipeline.RegionSeg (pcfgs (F := F)) adm (pdats m dat0 dat1 dat2 dat3) () defs₀ 𝒱₀ L lv 2 where
  win := launch2.win.to₀
  block_pos := launch2.block_pos
  stage_whole := launch2.stage_whole
  K := PEmpty
  osem k := k.elim
  ho := Pipeline.OwnSemFacts.none _
  hbody c := (hbody2 (V5 m dat0 dat1) c).loose
  hwaits := Pipeline.hwaits_of_owed_zero _ _ _ _ L lv 2 fun c t => howed2 (V5 m dat0 dat1) c t
  pre c := iprop(StableHlo.held (c : Thread nD τ) (Pipeline.ucRefs τ sig) (W5 m dat0 dat1 c) ∗ R c)
  post c := iprop(StableHlo.held (c : Thread nD τ) (Pipeline.ucRefs τ sig) (W6 m dat0 dat1 dat2 c) ∗ R c)
  X c := iprop(∃ r, prngReg c r)
  Y c := iprop(∃ r, prngReg c r)
  Z c := Pipeline.unscopedRest (Ix := Unit) (Name := ℕ) (U := UR sig nD τ) (Lvl := ℕ) spec2 c (V5 m dat0 dat1 c)
  hentry c := reg2_hentry m dat0 dat1 dat2 dat3 hA2 hq2 howed2 hrec2 c
  hin c := reg2_hin m dat0 dat1 dat2 dat3 hin2 c
  hout c := reg2_hout m dat0 dat1 dat2 dat3 hout2 c
  hexit c := reg2_hexit m dat0 dat1 dat2 dat3 hq2 howed2 c

/-! ## Region 3 -/

include hA3 hq3 howed3 hrec3 in
set_option backward.isDefEq.respectTransparency.types false in
/-- ENTRY of region 3: its arrays are split out of the unscoped buffers at the entry contents (read off them: `hA3`),
    the generator register and the rest set aside, the core owing nothing. -/
theorem reg3_hentry (c : Dev nD) :
    iprop(iprop(StableHlo.held (c : Thread nD τ) (Pipeline.ucRefs τ sig) (W7 m dat0 dat1 dat2 c) ∗ R c) ∗ Pipeline.ownSems0 (fun k : PEmpty => k.elim) c ∗ levAts L lv)
      ⊢ |={Set.univ}=> iprop((pdats m dat0 dat1 dat2 dat3 3 c).arrays ((pdats m dat0 dat1 dat2 dat3 3 c).arrAt · 0) ∗ Pipeline.prefHeld (pcfgs (F := F) 3).pre c (fun _ => fullShare) (adm 3).1
          ∗ (pdats m dat0 dat1 dat2 dat3 3 c).owesAt () 0 ∗ (∃ r, prngReg c r) ∗ Pipeline.unscopedRest (Ix := Unit) (Name := ℕ) (U := UR sig nD τ) (Lvl := ℕ) spec3 c (V7 m dat0 dat1 dat2 c) : sProp 𝕄) := by
  rw [Pipeline.ownSems0_none]
  have hsplit := Pipeline.arrays_of_unscopedBufs (p := 3) (pcfgs (F := F)) adm (pdats m dat0 dat1 dat2 dat3) launch3.win launch3.arr_whole c
    ((pdats m dat0 dat1 dat2 dat3 3 c).share_full fun w => hq3 (V7 m dat0 dat1 dat2) c w) (V7 m dat0 dat1 dat2 c) fun w => hA3 (V7 m dat0 dat1 dat2) c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_of_owes (pdats m dat0 dat1 dat2 dat3 3 c) 0 (howed3 (V7 m dat0 dat1 dat2) c _) (hrec3 (V7 m dat0 dat1 dat2) c _))
    iexact HO
  isplitl [Hp]; · iexact Hp
  iexact Hrest

include hin3 in
set_option backward.isDefEq.respectTransparency.types false in
/-- The invariant before the first point, from the generator register and the scoped buffers no window stages. -/
theorem reg3_hin (c : Dev nD) :
    iprop((∃ r, prngReg c r) ∗ Pipeline.prefHeld (pcfgs (F := F) 3).pre c (fun _ => fullShare) (adm 3).1 ∗ Pipeline.scopedRest (Pipeline.pin (pcfgs (F := F)) adm 3).spec c)
      ⊢ ((pdats m dat0 dat1 dat2 dat3 3 c).Φ 0 : sProp 𝕄) := by
  refine BIBase.Entails.trans ?_ (hin3 (V7 m dat0 dat1 dat2) c)
  unfold Pipeline.ΦA
  iintro ⟨Hp, -, Hr⟩
  isplitl [Hr]; · iexact Hr
  iexact Hp

include hout3 in
set_option backward.isDefEq.respectTransparency.types false in
/-- The invariant after the last point gives them back. -/
theorem reg3_hout (c : Dev nD) :
    ((pdats m dat0 dat1 dat2 dat3 3 c).Φ (Fin.last (Pipeline.pin (pcfgs (F := F)) adm 3).N) : sProp 𝕄)
      ⊢ iprop((∃ r, prngReg c r) ∗ Pipeline.ownSems0 (fun k : PEmpty => k.elim) c ∗ Pipeline.scopedRest (Pipeline.pin (pcfgs (F := F)) adm 3).spec c) := by
  rw [Pipeline.ownSems0_none]
  refine BIBase.Entails.trans (hout3 (V7 m dat0 dat1 dat2) c) ?_
  unfold Pipeline.ΦA
  iintro ⟨Hr, Hp⟩
  isplitl [Hp]; · iexact Hp
  isplitr; · iempintro
  iexact Hr

include hq3 howed3 in
set_option backward.isDefEq.respectTransparency.types false in
/-- EXIT of region 3: its arrays at their final contents and the rest make the unscoped buffers at the exit contents
    (which have the arrays at those contents and agree with the entry contents elsewhere). -/
theorem reg3_hexit (c : Dev nD) :
    iprop((pdats m dat0 dat1 dat2 dat3 3 c).arrays ((pdats m dat0 dat1 dat2 dat3 3 c).arrAt · (Pipeline.pin (pcfgs (F := F)) adm 3).N) ∗ (pdats m dat0 dat1 dat2 dat3 3 c).owesAt () (Fin.last (Pipeline.pin (pcfgs (F := F)) adm 3).N) ∗ (∃ r, prngReg c r) ∗ Pipeline.unscopedRest (Ix := Unit) (Name := ℕ) (U := UR sig nD τ) (Lvl := ℕ) spec3 c (V7 m dat0 dat1 dat2 c))
      ⊢ |={Set.univ}=> (iprop(Tₙ m dat0 dat1 dat2 dat3 c ∗ ∃ W, owes (c : Thread nD τ) (0 : CellTallies nD τ sig Unit) W) : sProp 𝕄) := by
  have hjoin := Pipeline.unscopedBufs_of_arrays (p := 3) (pcfgs (F := F)) adm (Ix := Unit) (Name := ℕ) (U := UR sig nD τ) (Lvl := ℕ)
    launch3.win launch3.arr_whole c (pdats m dat0 dat1 dat2 dat3) ((pdats m dat0 dat1 dat2 dat3 3 c).share_full fun w => hq3 (V7 m dat0 dat1 dat2) c w)
    (V7 m dat0 dat1 dat2 c) (V8 m dat0 dat1 dat2 dat3 c) ((pdats m dat0 dat1 dat2 dat3 3 c).arrAt · cfg3.N) (hF3 m dat0 dat1 dat2 dat3 c) (hrest3 m dat0 dat1 dat2 dat3 c)
  rw [Pipeline.unscopedBufs_held] at hjoin
  iintro ⟨Ha, HO, HY, Hrest⟩
  imodintro
  isplitl [Ha Hrest HY]
  · isplitl [Ha Hrest]
    · iapply hjoin; isplitl [Ha] <;> iassumption
    iexact HY
  iapply (owes_of_owesAt (pdats m dat0 dat1 dat2 dat3 3 c) _ (howed3 (V7 m dat0 dat1 dat2) c _))
  iexact HO

set_option backward.isDefEq.respectTransparency.types false in
/-- REGION 3 over the thread state: entered from every unscoped buffer at the contents after host stretch 3, left at
    its arrays' final contents and every other buffer as entered; nothing is owed; the kernel has no semaphore of
    its own. -/
def reg3 : Pipeline.RegionSeg (pcfgs (F := F)) adm (pdats m dat0 dat1 dat2 dat3) () defs₀ 𝒱₀ L lv 3 where
  win := launch3.win.to₀
  block_pos := launch3.block_pos
  stage_whole := launch3.stage_whole
  K := PEmpty
  osem k := k.elim
  ho := Pipeline.OwnSemFacts.none _
  hbody c := (hbody3 (V7 m dat0 dat1 dat2) c).loose
  hwaits := Pipeline.hwaits_of_owed_zero _ _ _ _ L lv 3 fun c t => howed3 (V7 m dat0 dat1 dat2) c t
  pre c := iprop(StableHlo.held (c : Thread nD τ) (Pipeline.ucRefs τ sig) (W7 m dat0 dat1 dat2 c) ∗ R c)
  post c := iprop(Tₙ m dat0 dat1 dat2 dat3 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m dat0 dat1 dat2 c)
  hentry c := reg3_hentry m dat0 dat1 dat2 dat3 hA3 hq3 howed3 hrec3 c
  hin c := reg3_hin m dat0 dat1 dat2 dat3 hin3 c
  hout c := reg3_hout m dat0 dat1 dat2 dat3 hout3 c
  hexit c := reg3_hexit m dat0 dat1 dat2 dat3 hq3 howed3 c

/-! # @main as segments, and the launch -/

/-- @main's 8 segments in order: a host segment per stretch from its boundary's contents, a region per kernel call. -/
abbrev segs : List (Pipeline.Seg (pcfgs (F := F)) adm (pdats m dat0 dat1 dat2 dat3) () defs₀ 𝒱₀ L lv) :=
  [ .host (hseg hostOps0 hostOps0_sub hostOps0_fresh (W0 m)),
    .region (reg0 m dat0 dat1 dat2 dat3 hA0 hq0 howed0 hrec0 hbody0 hin0 hout0),
    .host (hseg hostOps1 hostOps1_sub hostOps1_fresh (W2 m dat0)),
    .region (reg1 m dat0 dat1 dat2 dat3 hA1 hq1 howed1 hrec1 hbody1 hin1 hout1),
    .host (hseg hostOps2 hostOps2_sub hostOps2_fresh (W4 m dat0 dat1)),
    .region (reg2 m dat0 dat1 dat2 dat3 hA2 hq2 howed2 hrec2 hbody2 hin2 hout2),
    .host (hseg hostOps3 hostOps3_sub hostOps3_fresh (W6 m dat0 dat1 dat2)),
    .region (reg3 m dat0 dat1 dat2 dat3 hA3 hq3 howed3 hrec3 hbody3 hin3 hout3) ]

/-- @main IS the run of the segments: it is the chain of its items, and the segments' run is the same chain. -/
theorem main_run (c : Dev nD) : main (F := F) c = Pipeline.Seg.run (segs m dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3) :=
  (main_chain c).trans (by chain_rfl)

include hA0 hq0 howed0 hrec0 hbody0 hin0 hout0 hA1 hq1 howed1 hrec1 hbody1 hin1 hout1 hA2 hq2 howed2 hrec2 hbody2 hin2 hout2 hA3 hq3 howed3 hrec3 hbody3 hin3 hout3

set_option backward.isDefEq.respectTransparency.types false in
/-- THE RUN. At the compiled mesh, from any memory with zero counters, every weakly fair execution of @main on the
    TensorCores terminates, nothing faulting, and every final memory holds each unscoped buffer of each core at the
    last boundary's contents `W8` — hence satisfies any `Q` that follows from that. -/
theorem run_of {Q : PUnit × MemSt nD τ sig (Elt F) → Prop}
    (hQ : ∀ s : MemSt nD τ sig (Elt F), (∀ c : Dev nD, ∀ b ∈ Pipeline.ucRefs τ sig, s.mem ((c : Thread nD τ).1, b) = W8 m dat0 dat1 dat2 dat3 c b) → Q (⟨⟩, s)) :
    θ_run defs (onTc (τ := τ) (main (F := F))) ⟨m, fun _ => 0, ρ⟩ Q :=
  Pipeline.θ_run_regions_kit (pcfgs (F := F)) adm (pdats m dat0 dat1 dat2 dat3) () cellOf_inj emb₁ defs₀ 𝒱₀ L lv m ρ main
    (segs m dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3)
    (fun c Q => by rw [main_run m dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat0 dat1 dat2 dat3)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m dat0 dat1 dat2 dat3 c b)
    (hfin := fun c s' => by
      iintro ⟨⟨Hh, -⟩, HSI⟩
      unfold StableHlo.held
      imodintro
      iapply (pointsTo_read_all (Pipeline.ucRefs τ sig) (fun b => (((c : Thread nD τ)).1, b)) (W8 m dat0 dat1 dat2 dat3 c) s')
      isplitl [Hh] <;> iassumption)
    (hQ := hQ)

/-- The run with the final memory read at every unscoped buffer of every core. -/
theorem run_main : θ_run defs (onTc (τ := τ) (main (F := F))) ⟨m, fun _ => 0, ρ⟩
    (fun r => ∀ c : Dev nD, ∀ b ∈ Pipeline.ucRefs τ sig, r.2.mem ((c : Thread nD τ).1, b) = W8 m dat0 dat1 dat2 dat3 c b) :=
  run_of m ρ dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3 fun _ h => h

/-- THE FRAME: every weakly fair execution of @main terminates, nothing faulting, and every final state has the
    eleven argument arrays as launched — each read off the last boundary's contents, where it is the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_of m ρ dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3 fun s h c =>
    ⟨(h c _ (mem_uc main_arg0 (by decide))).trans (W8_main_arg0 m dat0 dat1 dat2 dat3 c),
     (h c _ (mem_uc main_arg1 (by decide))).trans (W8_main_arg1 m dat0 dat1 dat2 dat3 c),
     (h c _ (mem_uc main_arg2 (by decide))).trans (W8_main_arg2 m dat0 dat1 dat2 dat3 c),
     (h c _ (mem_uc main_arg3 (by decide))).trans (W8_main_arg3 m dat0 dat1 dat2 dat3 c),
     (h c _ (mem_uc main_arg4 (by decide))).trans (W8_main_arg4 m dat0 dat1 dat2 dat3 c),
     (h c _ (mem_uc main_arg5 (by decide))).trans (W8_main_arg5 m dat0 dat1 dat2 dat3 c),
     (h c _ (mem_uc main_arg6 (by decide))).trans (W8_main_arg6 m dat0 dat1 dat2 dat3 c),
     (h c _ (mem_uc main_arg7 (by decide))).trans (W8_main_arg7 m dat0 dat1 dat2 dat3 c),
     (h c _ (mem_uc main_arg8 (by decide))).trans (W8_main_arg8 m dat0 dat1 dat2 dat3 c),
     (h c _ (mem_uc main_arg9 (by decide))).trans (W8_main_arg9 m dat0 dat1 dat2 dat3 c),
     (h c _ (mem_uc main_arg10 (by decide))).trans (W8_main_arg10 m dat0 dat1 dat2 dat3 c)⟩

end Cert.KernelIdeal.Fr

end
-- ==== Proof.KI.Lin0.lean ====
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the linear projection `y = x · Wᵀ + b` over 4 row blocks, emitted head-major

Windows 0, 1, 2 are the inputs (a [1024,1024] row block of `x`, the whole weight matrix, the whole bias row);
window 3 is the output's [16,1024,64] block. At every grid point the body reads the three input blocks and
overwrites the whole output block with a closed function of them. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved, so the previous point's block is this point's. Stated for any proof data
    whose array is `V`'s and whose body leaves the block in place. Window 0 moves with the point; -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- window 1 (the weights) has a constant block index; -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and so has window 2 (the bias row). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1024x1024 := Rect.unit (s := S1024x1024) ![0, 0] S1024x1024.size inb_S1024x1024_S1024x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S16x1024x64 := Rect.unit (s := S16x1024x64) ![0, 0, 0] S16x1024x64.size inb_S16x1024x64_S16x1024x64_0_0_0

/-! ## What the body leaves in the output window's buffer -/

/-- The output block after the body, from the three input blocks: its one store, of the whole block. -/
def out0_3 (x0 : Vec F S1024x1024 .f32) (x1 : Vec F S1024x1024 .f32) (x2 : Vec F S1x1024 .f32) : Vec F S16x1024x64 .bf16 :=
  View.canon [⟨r0_3, k0_pay1 (View.ld x0 r0_0) (View.ld x1 r0_1) (View.ld x2 r0_2)⟩]

/-- The one store is of the whole block, so it covers it. -/
theorem cover0_3 (p0 : Vec F S16x1024x64 .bf16) (y : S16x1024x64.Idx) :
    ∃ pc ∈ ([⟨r0_3, p0⟩] : List (View.Piece (Elt F) S16x1024x64 .bf16)), y ∈ pc.1.set :=
  View.cover_of_tiled [⟨r0_3, p0⟩] S16x1024x64.size (by rfl) y

/-! ## The body's triple -/

set_option maxHeartbeats 1000000 in
/-- The body on whole staging memrefs, the inputs' at read contents `x0 x1 x2` and the output's at anything (the body
    reads the output buffer before overwriting it, and drops what it read), runs to the continuation holding the
    inputs' as they were and the output's at `out0_3` of the inputs'. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S16x1024x64 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_heads_kernel i arg1 harg1 arg2 harg2 arg3 harg3 arg4 harg4) K := by
  simp only [cc0__linear_heads_kernel_eq_skeleton]; unfold cc0__linear_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them (`V`); after the body at point
    `t` each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Every window is held at full share, -/
theorem hq0 (c : Dev nD) (w : Fin cfg0.W) : (dat0 V c).q w = fullShare := rfl

/-- nothing is owed at any boundary, -/
theorem howed0 (c : Dev nD) (t : Fin (cfg0.N + 1)) : (dat0 V c).owed t = 0 := rfl

/-- and the invariant is the same at every boundary: the class's, at entry and at exit. -/
theorem hin0 (c : Dev nD) : Pipeline.ΦA spec0 c ⊢ (dat0 V c).Φ 0 := by
  show Pipeline.ΦA spec0 c ⊢ Pipeline.ΦA spec0 c
  exact Entails.refl _

theorem hout0 (c : Dev nD) : (dat0 V c).Φ (Fin.last cfg0.N) ⊢ Pipeline.ΦA spec0 c := by
  show Pipeline.ΦA spec0 c ⊢ Pipeline.ΦA spec0 c
  exact Entails.refl _

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Lin1.lean ====
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the linear projection `y = x · Wᵀ + b` over 4 row blocks, emitted head-major

Windows 0, 1, 2 are the inputs (a [1024,1024] row block of `x`, the whole weight matrix, the whole bias row);
window 3 is the output's [16,1024,64] block. At every grid point the body reads the three input blocks and
overwrites the whole output block with a closed function of them. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved, so the previous point's block is this point's. Stated for any proof data
    whose array is `V`'s and whose body leaves the block in place. Window 0 moves with the point; -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- window 1 (the weights) has a constant block index; -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and so has window 2 (the bias row). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S1024x1024 := Rect.unit (s := S1024x1024) ![0, 0] S1024x1024.size inb_S1024x1024_S1024x1024_0_0
abbrev r1_1 : Rect S1024x1024 := Rect.unit (s := S1024x1024) ![0, 0] S1024x1024.size inb_S1024x1024_S1024x1024_0_0
abbrev r1_2 : Rect S1x1024 := Rect.unit (s := S1x1024) ![0, 0] S1x1024.size inb_S1x1024_S1x1024_0_0
abbrev r1_3 : Rect S16x1024x64 := Rect.unit (s := S16x1024x64) ![0, 0, 0] S16x1024x64.size inb_S16x1024x64_S16x1024x64_0_0_0

/-! ## What the body leaves in the output window's buffer -/

/-- The output block after the body, from the three input blocks: its one store, of the whole block. -/
def out1_3 (x0 : Vec F S1024x1024 .f32) (x1 : Vec F S1024x1024 .f32) (x2 : Vec F S1x1024 .f32) : Vec F S16x1024x64 .bf16 :=
  View.canon [⟨r1_3, k1_pay1 (View.ld x0 r1_0) (View.ld x1 r1_1) (View.ld x2 r1_2)⟩]

/-- The one store is of the whole block, so it covers it. -/
theorem cover1_3 (p0 : Vec F S16x1024x64 .bf16) (y : S16x1024x64.Idx) :
    ∃ pc ∈ ([⟨r1_3, p0⟩] : List (View.Piece (Elt F) S16x1024x64 .bf16)), y ∈ pc.1.set :=
  View.cover_of_tiled [⟨r1_3, p0⟩] S16x1024x64.size (by rfl) y

/-! ## The body's triple -/

set_option maxHeartbeats 1000000 in
/-- The body on whole staging memrefs, the inputs' at read contents `x0 x1 x2` and the output's at anything (the body
    reads the output buffer before overwriting it, and drops what it read), runs to the continuation holding the
    inputs' as they were and the output's at `out1_3` of the inputs'. -/
theorem sound_kernel1 (c : Dev nD) (E : Set ℕ) (i : grid1.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S16x1024x64 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_heads_kernel i arg1 harg1 arg2 harg2 arg3 harg3 arg4 harg4) K := by
  simp only [cc1__linear_heads_kernel_eq_skeleton]; unfold cc1__linear_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them (`V`); after the body at point
    `t` each input's buffer at its block and the output's at `out1_3` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Every window is held at full share, -/
theorem hq1 (c : Dev nD) (w : Fin cfg1.W) : (dat1 V c).q w = fullShare := rfl

/-- nothing is owed at any boundary, -/
theorem howed1 (c : Dev nD) (t : Fin (cfg1.N + 1)) : (dat1 V c).owed t = 0 := rfl

/-- and the invariant is the same at every boundary: the class's, at entry and at exit. -/
theorem hin1 (c : Dev nD) : Pipeline.ΦA spec1 c ⊢ (dat1 V c).Φ 0 := by
  show Pipeline.ΦA spec1 c ⊢ Pipeline.ΦA spec1 c
  exact Entails.refl _

theorem hout1 (c : Dev nD) : (dat1 V c).Φ (Fin.last cfg1.N) ⊢ Pipeline.ΦA spec1 c := by
  show Pipeline.ΦA spec1 c ⊢ Pipeline.ΦA spec1 c
  exact Entails.refl _

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Lin2.lean ====
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the linear projection `y = x · Wᵀ + b` over 4 row blocks, emitted head-major

Windows 0, 1, 2 are the inputs (a [1024,1024] row block of `x`, the whole weight matrix, the whole bias row);
window 3 is the output's [16,1024,64] block. At every grid point the body reads the three input blocks and
overwrites the whole output block with a closed function of them. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched the block index has not moved, so the previous point's block is this point's. Stated for any proof data
    whose array is `V`'s and whose body leaves the block in place. Window 0 moves with the point; -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- window 1 (the weights) has a constant block index; -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- and so has window 2 (the bias row). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S16x1024x64 := Rect.unit (s := S16x1024x64) ![0, 0, 0] S16x1024x64.size inb_S16x1024x64_S16x1024x64_0_0_0

/-! ## What the body leaves in the output window's buffer -/

/-- The output block after the body, from the three input blocks: its one store, of the whole block. -/
def out2_3 (x0 : Vec F S1024x1024 .f32) (x1 : Vec F S1024x1024 .f32) (x2 : Vec F S1x1024 .f32) : Vec F S16x1024x64 .bf16 :=
  View.canon [⟨r2_3, k2_pay1 (View.ld x0 r2_0) (View.ld x1 r2_1) (View.ld x2 r2_2)⟩]

/-- The one store is of the whole block, so it covers it. -/
theorem cover2_3 (p0 : Vec F S16x1024x64 .bf16) (y : S16x1024x64.Idx) :
    ∃ pc ∈ ([⟨r2_3, p0⟩] : List (View.Piece (Elt F) S16x1024x64 .bf16)), y ∈ pc.1.set :=
  View.cover_of_tiled [⟨r2_3, p0⟩] S16x1024x64.size (by rfl) y

/-! ## The body's triple -/

set_option maxHeartbeats 1000000 in
/-- The body on whole staging memrefs, the inputs' at read contents `x0 x1 x2` and the output's at anything (the body
    reads the output buffer before overwriting it, and drops what it read), runs to the continuation holding the
    inputs' as they were and the output's at `out2_3` of the inputs'. -/
theorem sound_kernel2 (c : Dev nD) (E : Set ℕ) (i : grid2.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S16x1024x64 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_heads_kernel i arg1 harg1 arg2 harg2 arg3 harg3 arg4 harg4) K := by
  simp only [cc2__linear_heads_kernel_eq_skeleton]; unfold cc2__linear_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them (`V`); after the body at point
    `t` each input's buffer at its block and the output's at `out2_3` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Every window is held at full share, -/
theorem hq2 (c : Dev nD) (w : Fin cfg2.W) : (dat2 V c).q w = fullShare := rfl

/-- nothing is owed at any boundary, -/
theorem howed2 (c : Dev nD) (t : Fin (cfg2.N + 1)) : (dat2 V c).owed t = 0 := rfl

/-- and the invariant is the same at every boundary: the class's, at entry and at exit. -/
theorem hin2 (c : Dev nD) : Pipeline.ΦA spec2 c ⊢ (dat2 V c).Φ 0 := by
  show Pipeline.ΦA spec2 c ⊢ Pipeline.ΦA spec2 c
  exact Entails.refl _

theorem hout2 (c : Dev nD) : (dat2 V c).Φ (Fin.last cfg2.N) ⊢ Pipeline.ΦA spec2 c := by
  show Pipeline.ΦA spec2 c ⊢ Pipeline.ΦA spec2 c
  exact Entails.refl _

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.AttnRuns.lean ====
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## Region 3 (the fused attention and output projection): the windows' blocks

Point t of the grid (batch b, query tile qi, head h; t = (b * 8 + qi) * 16 + h) reads block t of each operand's array:
the query tile of head h, the whole key and value rows of head h, head h's slice of the output weights, the bias. -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched the
    block index has not moved since the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: where it is not fetched the
    block index has not moved since the point before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: where it is not fetched the
    block index has not moved since the point before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not: where it is not fetched the
    block index has not moved since the point before. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not: where it is not fetched the
    block index has not moved since the point before. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branches, decided over the grid

The accumulator is zeroed where the head index is 0 and the result written out where it is 15; the head index is the
point's number modulo 16. -/

/-- The first branch's condition (head index = 0), as the body computes it from the grid coordinates. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)

/-- The second branch's condition (head index = 15). -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle: the result window is stored, and written back, only where the head index is 15 -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel
theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel
theorem liveAt3_6_C : ∀ t : Fin cfg3.N, ¬cond3_0 (grid3.coords t) → cond3_1 (grid3.coords t) → cfg3.idle 6 (grid3.coords t) = false := by decide +kernel

/-! ## The memrefs the body is called with -/

/-- One staging buffer of each output window, through which its contents are stated. -/
abbrev VO3_5 : View sig .tc .vmem S1x1x256x2048 .f32 := (Memref.whole cc3_stg5_0 : Memref sig .tc .vmem S1x1x256x2048 .f32).view
abbrev VO3_6 : View sig .tc .vmem S1x256x1024 .f32 := (Memref.whole cc3_stg6_0 : Memref sig .tc .vmem S1x256x1024 .f32).view
abbrev ms3_0 (t : Fin cfg3.N) : Memref sig .tc .vmem S1x1x256x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x2048x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x2048x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1x256x2048 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x256x1024 .f32 := win3_6.stage (cfg3.slots t 6)
abbrev hs3_6 (t : Fin cfg3.N) : (ms3_6 t).IsWhole := hstage3_6 ((cfg3.slots t 6).cast nbuf3_6)
/-- The accumulator: a whole scoped buffer of the kernel's own, carried from point to point. -/
abbrev scM3_0 : Memref sig .tc .vmem S256x1024 .f32 := Memref.whole cc3_scratch0
abbrev VS3_0 : View sig .tc .vmem S256x1024 .f32 := scM3_0.view

/-- The region's invariant before its first point, opened: every scoped buffer that is no staging buffer of this region at
    some contents — the other regions' staging buffers, then the accumulator as a memref — and the generator register. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d)) ∗ (∃ r, prngReg c r)) := by
  unfold Pipeline.ΦA; rw [scopedRest3_eq]; simp only [scM3_0, owns_whole]; try rfl

end Cert.KernelIdeal.Fr

end
-- ==== Proof.KI.AttnRunA.lean ====
import proofs.«174660_j36575941493113_2_alg».proof.Proof.KI.AttnRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the head index is 0: on whole staging memrefs — the five inputs at their contents, the attention-weights buffer at anything, the result buffer (which this case does not touch) at contents handed back as they were, the accumulator at anything — it runs to the continuation with the inputs as they were and each buffer it stored into holding its stores, as pieces (last first): the accumulator zeroed and then head 0's projected context added; the weights stored whole. The pieces are what the run finds. -/
noncomputable def kernelRun3_A (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) :
    Σ' (L5 : List (View.Piece (Elt F) S1x1x256x2048 .f32)) (L6 : List (View.Piece (Elt F) S1x256x1024 .f32)), { LS0 : List (View.Piece (Elt F) S256x1024 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc3__attn_fused_kernel i arg3 harg3 arg4 harg4 arg5 harg5 arg6 harg6 arg7 harg7 arg8 harg8 arg9 harg9 arg10 harg10) K } := by
  refine ⟨?_, [], ?_, fun xi6 E K => ?run⟩
  case run =>
    simp only [cc3__attn_fused_kernel_eq_skeleton]; unfold cc3__attn_fused_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

end Cert.KernelIdeal.Fr

end
-- ==== Proof.KI.AttnRunB.lean ====
import proofs.«174660_j36575941493113_2_alg».proof.Proof.KI.AttnRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the head index is neither 0 nor 15: the accumulator comes in at what the point before left and goes out with this head's projected context added; the weights stored whole; the result buffer untouched. -/
noncomputable def kernelRun3_B (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    Σ' (L5 : List (View.Piece (Elt F) S1x1x256x2048 .f32)) (L6 : List (View.Piece (Elt F) S1x256x1024 .f32)), { LS0 : List (View.Piece (Elt F) S256x1024 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc3__attn_fused_kernel i arg3 harg3 arg4 harg4 arg5 harg5 arg6 harg6 arg7 harg7 arg8 harg8 arg9 harg9 arg10 harg10) K } := by
  refine ⟨?_, [], ?_, fun xi6 E K => ?run⟩
  case run =>
    simp only [cc3__attn_fused_kernel_eq_skeleton]; unfold cc3__attn_fused_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

end Cert.KernelIdeal.Fr

end
-- ==== Proof.KI.AttnRunC.lean ====
import proofs.«174660_j36575941493113_2_alg».proof.Proof.KI.AttnRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the head index is 15: as the middle case, and the result buffer stored whole with the accumulator plus the bias. -/
noncomputable def kernelRun3_C (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    Σ' (L5 : List (View.Piece (Elt F) S1x1x256x2048 .f32)) (L6 : List (View.Piece (Elt F) S1x256x1024 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc3__attn_fused_kernel i arg3 harg3 arg4 harg4 arg5 harg5 arg6 harg6 arg7 harg7 arg8 harg8 arg9 harg9 arg10 harg10) K } := by
  refine ⟨?_, ?_, ?_, fun E K => ?run⟩
  case run =>
    simp only [cc3__attn_fused_kernel_eq_skeleton]; unfold cc3__attn_fused_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.KernelIdeal.Fr

end
-- ==== Proof.KI.Attn.lean ====
import proofs.«174660_j36575941493113_2_alg».proof.Proof.KI.AttnRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What each case leaves in the two outputs' staging buffers and in the accumulator

Each is the case's pieces read back; where the pieces tile the buffer the reading does not depend on what was there. -/

/-- Case A's pieces for the attention weights tile their block. -/
theorem cover3_A_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (y : S1x1x256x2048.Idx) :
    ∃ pc ∈ (kernelRun3_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun3_A c i arg3 harg3 arg4 harg4 arg5 harg5 arg6 harg6 arg7 harg7 arg8 harg8 arg9 harg9 arg10 harg10 hc0 hc1 x0 x1 x2 x3 x4).1 S1x1x256x2048.size (by sl_kernel_rfl) y

/-- What case A leaves in the attention weights' staging buffer. -/
def out3_A_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) : Vec F S1x1x256x2048 .f32 :=
  VO3_5.read (Elt F) (VO3_5.writes (Elt F) VO3_5.junk (kernelRun3_A c i arg3 harg3 arg4 harg4 arg5 harg5 arg6 harg6 arg7 harg7 arg8 harg8 arg9 harg9 arg10 harg10 hc0 hc1 x0 x1 x2 x3 x4).1)

/-- What case A leaves in the result's staging buffer (nothing is stored there in this case: the window is idle at its points and not written back, and this value is never consulted). -/
def out3_A_6 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) : Vec F S1x256x1024 .f32 :=
  VO3_6.read (Elt F) (VO3_6.writes (Elt F) VO3_6.junk (kernelRun3_A c i arg3 harg3 arg4 harg4 arg5 harg5 arg6 harg6 arg7 harg7 arg8 harg8 arg9 harg9 arg10 harg10 hc0 hc1 x0 x1 x2 x3 x4).2.1)

/-- Case A's pieces for the accumulator tile it. -/
theorem scover3_A_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (y : S256x1024.Idx) :
    ∃ pc ∈ (kernelRun3_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun3_A c i arg3 harg3 arg4 harg4 arg5 harg5 arg6 harg6 arg7 harg7 arg8 harg8 arg9 harg9 arg10 harg10 hc0 hc1 x0 x1 x2 x3 x4).2.2.1 S256x1024.size (by sl_kernel_rfl) y

/-- What case A leaves in the accumulator. -/
def sout3_A_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) : Vec F S256x1024 .f32 :=
  VS3_0.read (Elt F) (VS3_0.writes (Elt F) VS3_0.junk (kernelRun3_A c i arg3 harg3 arg4 harg4 arg5 harg5 arg6 harg6 arg7 harg7 arg8 harg8 arg9 harg9 arg10 harg10 hc0 hc1 x0 x1 x2 x3 x4).2.2.1)

/-- Case B's pieces for the attention weights tile their block. -/
theorem cover3_B_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S1x1x256x2048.Idx) :
    ∃ pc ∈ (kernelRun3_B c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun3_B c i arg3 harg3 arg4 harg4 arg5 harg5 arg6 harg6 arg7 harg7 arg8 harg8 arg9 harg9 arg10 harg10 hc0 hc1 x0 x1 x2 x3 x4 xs0).1 S1x1x256x2048.size (by sl_kernel_rfl) y

/-- What case B leaves in the attention weights' staging buffer. -/
def out3_B_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S1x1x256x2048 .f32 :=
  VO3_5.read (Elt F) (VO3_5.writes (Elt F) VO3_5.junk (kernelRun3_B c i arg3 harg3 arg4 harg4 arg5 harg5 arg6 harg6 arg7 harg7 arg8 harg8 arg9 harg9 arg10 harg10 hc0 hc1 x0 x1 x2 x3 x4 xs0).1)

/-- What case B leaves in the result's staging buffer (nothing is stored there in this case: the window is idle at its points and not written back, and this value is never consulted). -/
def out3_B_6 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S1x256x1024 .f32 :=
  VO3_6.read (Elt F) (VO3_6.writes (Elt F) VO3_6.junk (kernelRun3_B c i arg3 harg3 arg4 harg4 arg5 harg5 arg6 harg6 arg7 harg7 arg8 harg8 arg9 harg9 arg10 harg10 hc0 hc1 x0 x1 x2 x3 x4 xs0).2.1)

/-- Case B's pieces for the accumulator tile it. -/
theorem scover3_B_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S256x1024.Idx) :
    ∃ pc ∈ (kernelRun3_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 x4 xs0).2.2.1 S256x1024.size (by sl_kernel_rfl) y

/-- What case B leaves in the accumulator. -/
def sout3_B_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S256x1024 .f32 :=
  VS3_0.read (Elt F) (VS3_0.writes (Elt F) VS3_0.junk (kernelRun3_B c i arg3 harg3 arg4 harg4 arg5 harg5 arg6 harg6 arg7 harg7 arg8 harg8 arg9 harg9 arg10 harg10 hc0 hc1 x0 x1 x2 x3 x4 xs0).2.2.1)

/-- Case C's pieces for the attention weights tile their block. -/
theorem cover3_C_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S1x1x256x2048.Idx) :
    ∃ pc ∈ (kernelRun3_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).1 S1x1x256x2048.size (by sl_kernel_rfl) y

/-- What case C leaves in the attention weights' staging buffer. -/
def out3_C_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S1x1x256x2048 .f32 :=
  VO3_5.read (Elt F) (VO3_5.writes (Elt F) VO3_5.junk (kernelRun3_C c i arg3 harg3 arg4 harg4 arg5 harg5 arg6 harg6 arg7 harg7 arg8 harg8 arg9 harg9 arg10 harg10 hc0 hc1 x0 x1 x2 x3 x4 xs0).1)

/-- Case C's pieces for the result tile its block. -/
theorem cover3_C_6 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S1x256x1024.Idx) :
    ∃ pc ∈ (kernelRun3_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).2.1 S1x256x1024.size (by sl_kernel_rfl) y

/-- What case C leaves in the result's staging buffer. -/
def out3_C_6 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S1x256x1024 .f32 :=
  VO3_6.read (Elt F) (VO3_6.writes (Elt F) VO3_6.junk (kernelRun3_C c i arg3 harg3 arg4 harg4 arg5 harg5 arg6 harg6 arg7 harg7 arg8 harg8 arg9 harg9 arg10 harg10 hc0 hc1 x0 x1 x2 x3 x4 xs0).2.1)

/-- Case C's pieces for the accumulator tile it. -/
theorem scover3_C_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S256x1024.Idx) :
    ∃ pc ∈ (kernelRun3_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).2.2.1 S256x1024.size (by sl_kernel_rfl) y

/-- What case C leaves in the accumulator. -/
def sout3_C_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S256x1024 .f32 :=
  VS3_0.read (Elt F) (VS3_0.writes (Elt F) VS3_0.junk (kernelRun3_C c i arg3 harg3 arg4 harg4 arg5 harg5 arg6 harg6 arg7 harg7 arg8 harg8 arg9 harg9 arg10 harg10 hc0 hc1 x0 x1 x2 x3 x4 xs0).2.2.1)

/-! ## What the outputs and the accumulator hold after each point -/

/-- After the body at position n: the attention weights' buffer, the result's buffer, the accumulator — the case the
    point's head index selects, run on the point's input blocks, the accumulator taken at what position n - 1 left. -/
def outsAt3 (c : Dev nD) : (n : ℕ) → n < cfg3.N → Vec F S1x1x256x2048 .f32 × Vec F S1x256x1024 .f32 × Vec F S256x1024 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 16 = 0 then
      if h1 : (n + 1) % 16 = 15 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if h1 : (n + 1) % 16 = 15 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)

theorem outsAt3_A (c : Dev nD) (t : Fin cfg3.N) (h0 : t.val % 16 = 0) (h1 : ¬t.val % 16 = 15) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2, out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2, out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point, every scoped buffer that is no staging buffer of
    the region at anything; afterwards the same with the accumulator at what the point before left in it. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2.2)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2.2)) ∗ (∃ r, prngReg c r)) := rfl

theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c (n - 1) (by omega)).2.2)) ∗ (∃ r, prngReg c r)) := by
  cases n with
  | zero => exact absurd rfl hz
  | succ n => rfl

/-! ## The proof data -/

/-- Region 3's proof data on core c: the arrays as the region finds them; after the body at point t each input's buffer
    at its block, the two outputs' at what the accumulation says; the invariant carrying the accumulator. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem hq3 (c : Dev nD) (w : Fin cfg3.W) : (dat3 V c).q w = fullShare := rfl
theorem howed3 (c : Dev nD) (t : Fin (cfg3.N + 1)) : (dat3 V c).owed t = 0 := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 8000000 in
/-- The body at any point: the inputs' memrefs hold their blocks; the head index says which case the point is in; the
    invariant hands the body the accumulator at what the point before left (at anything before the first point) and
    takes it back at this point's contents; nothing is owed throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 256 := lt_of_lt_of_eq t.isLt (show cfg3.N = 256 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  by_cases h0 : t.val % 16 = 0
  · by_cases h1 : t.val % 16 = 15
    · exfalso; omega
    · rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [outsAt3_A V c t h0 h1]
      unfold out3_A_5 sout3_A_0; (try dsimp only)
      by_cases hz : t.val = 0
      · rw [PhiS3_castSucc V c t, PhiS3_zero V c _ _ hz, PhiA3_eq]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨H0, H1, H2, H3, H4, ⟨%e5, H5⟩, H6, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          · unfold owns; iexists _; isplitr
            swap; · iexact HS0
            ipureintro; exact View.read_writes_of_cover _ _ _ _ _ (scover3_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_A_5 c _ _ _ _ _ _ _ _ _ _ _ _ _ _ _ _ _ _ _ _ _ _ _ _)
        iexists _; iexact H6
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexists _; iexact HS0
        iintro ⟨H0, H1, H2, H3, H4, ⟨%e5, H5⟩, H6, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          · unfold owns; iexists _; isplitr
            swap; · iexact HS0
            ipureintro; exact View.read_writes_of_cover _ _ _ _ _ (scover3_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_A_5 c _ _ _ _ _ _ _ _ _ _ _ _ _ _ _ _ _ _ _ _ _ _ _ _)
        iexists _; iexact H6
  · by_cases h1 : t.val % 16 = 15
    · rw [show (dat3 V c).leavesExact 6 t = owns (c : Thread nD τ) (ms3_6 t) fullShare ((dat3 V c).after 6 t) from by
        unfold Dat.leavesExact; rw [liveAt3_6_C t (fun h => h0 ((hcond3_0 t).mp h)) ((hcond3_1 t).mpr h1)], after3_6]
      rw [outsAt3_C V c t h0 h1]
      unfold out3_C_5 out3_C_6 sout3_C_0; (try dsimp only)
      have hz : t.val ≠ 0 := by omega
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          · unfold owns; iexists _; isplitr
            swap; · iexact HS0
            ipureintro; exact View.read_writes_of_cover _ _ _ _ _ (scover3_C_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_C_5 c _ _ _ _ _ _ _ _ _ _ _ _ _ _ _ _ _ _ _ _ _ _ _ _ _)
        unfold owns; iexists _; isplitr
        swap; · iexact H6
        ipureintro; exact View.read_writes_of_cover _ _ _ _ _ (cover3_C_6 c _ _ _ _ _ _ _ _ _ _ _ _ _ _ _ _ _ _ _ _ _ _ _ _ _)
    · rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [outsAt3_B V c t h0 h1]
      unfold out3_B_5 sout3_B_0; (try dsimp only)
      have hz : t.val ≠ 0 := by omega
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨H0, H1, H2, H3, H4, ⟨%e5, H5⟩, H6, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          · unfold owns; iexists _; isplitr
            swap; · iexact HS0
            ipureintro; exact View.read_writes_of_cover _ _ _ _ _ (scover3_B_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_B_5 c _ _ _ _ _ _ _ _ _ _ _ _ _ _ _ _ _ _ _ _ _ _ _ _ _)
        iexists _; iexact H6

/-- The body obligation at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives that back: the accumulator's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

theorem hout3 (c : Dev nD) : (dat3 V c).Φ (Fin.last cfg3.N) ⊢ (Pipeline.ΦA spec3 c : sProp 𝕄) :=
  Phi_out3 V c _ (by rw [Fin.val_last]; have : cfg3.N = 256 := N_3; omega)

end Cert.KernelIdeal.Fr

end
-- ==== Proof.K.RunFold.lean ====
import proofs.«174660_j36575941493113_2_alg».proof.Proof.Gen.Kernel.Launch
import proofs.«174660_j36575941493113_2_alg».proof.Proof.Gen.Kernel.Skeleton
import proofs.«174660_j36575941493113_2_alg».proof.Proof.Gen.Kernel.Points
import proofs.«174660_j36575941493113_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The four regions' proof data, as parameters

Each region K comes with proof data `datK V c` stated at ANY entry contents `V`, and six facts about them: the
arrays are read off `V`; inputs are held at the full share; the body owes nothing at any point; the body
obligation; and the invariant before the first point follows from, and after the last point gives back, the
scoped rest beside the generator register (`ΦA`). Nothing else about a region is used below. -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (dat2 : ((c : Dev nD) → (b : Ref sig .tc) → Buf (Elt F) ((c : Thread nD τ).loc b)) → (c : Dev nD) → Dat τ (Elt F) Unit ℕ (UR sig nD τ) ℕ cfg2 c)
  (dat3 : ((c : Dev nD) → (b : Ref sig .tc) → Buf (Elt F) ((c : Thread nD τ).loc b)) → (c : Dev nD) → Dat τ (Elt F) Unit ℕ (UR sig nD τ) ℕ cfg3 c)

/-! # The buffer contents at each segment boundary: a fold through @main -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references (what region 0's proof data take). -/
abbrev V1 : ((c : Dev nD) → (b : Ref sig .tc) → Buf (Elt F) ((c : Thread nD τ).loc b)) := fun c b => W1 m c b
/-- At region 0's exit: its arrays at what the pipeline leaves (the inputs as entered, each output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m dat0 c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
/-- Region 0's exit contents at the TensorCore's references. -/
abbrev V2 : ((c : Dev nD) → (b : Ref sig .tc) → Buf (Elt F) ((c : Thread nD τ).loc b)) := fun c b => W2 m dat0 c b
theorem hF0 (c : Dev nD) (w : Fin cfg0.W) : (dat0 (V1 m) c).arrAt w cfg0.N = V2 m dat0 c (Pipeline.arrRef spec0 w) :=
  (W2_arr m dat0 c w).symm
theorem hrest0 (c : Dev nD) : ∀ b, b ∉ Finset.univ.image (Pipeline.arrRef spec0) → V2 m dat0 c b = V1 m c b :=
  fun b hb => W2_of_ne m dat0 c b fun w e => hb (Finset.mem_image.mpr ⟨w, Finset.mem_univ _, e⟩)

/-- After the second host stretch (region 1's entry). -/
abbrev W3 : Dev nD → Valuation τ sig (Elt F) := fun c => StableHlo.after hostOps1 (W2 m dat0 c)
abbrev V3 : ((c : Dev nD) → (b : Ref sig .tc) → Buf (Elt F) ((c : Thread nD τ).loc b)) := fun c b => W3 m dat0 c b
/-- At region 1's exit. -/
def W4 (c : Dev nD) : Valuation τ sig (Elt F) :=
  Pipeline.withArrays spec1 c (W3 m dat0 c) fun w => (dat1 (V3 m dat0) c).arrAt w cfg1.N
theorem W4_arr (c : Dev nD) (w : Fin cfg1.W) :
    W4 m dat0 dat1 c (Proc.devRef .tc (Pipeline.arrRef spec1 w)) = (dat1 (V3 m dat0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m dat0 dat1 c (Proc.devRef .tc b) = W3 m dat0 c (Proc.devRef .tc b) := by
  unfold W4; exact Pipeline.withArrays_of_ne spec1 c _ _ b hb
abbrev V4 : ((c : Dev nD) → (b : Ref sig .tc) → Buf (Elt F) ((c : Thread nD τ).loc b)) := fun c b => W4 m dat0 dat1 c b
theorem hF1 (c : Dev nD) (w : Fin cfg1.W) : (dat1 (V3 m dat0) c).arrAt w cfg1.N = V4 m dat0 dat1 c (Pipeline.arrRef spec1 w) :=
  (W4_arr m dat0 dat1 c w).symm
theorem hrest1 (c : Dev nD) : ∀ b, b ∉ Finset.univ.image (Pipeline.arrRef spec1) → V4 m dat0 dat1 c b = V3 m dat0 c b :=
  fun b hb => W4_of_ne m dat0 dat1 c b fun w e => hb (Finset.mem_image.mpr ⟨w, Finset.mem_univ _, e⟩)

/-- After the third host stretch (region 2's entry). -/
abbrev W5 : Dev nD → Valuation τ sig (Elt F) := fun c => StableHlo.after hostOps2 (W4 m dat0 dat1 c)
abbrev V5 : ((c : Dev nD) → (b : Ref sig .tc) → Buf (Elt F) ((c : Thread nD τ).loc b)) := fun c b => W5 m dat0 dat1 c b
/-- At region 2's exit. -/
def W6 (c : Dev nD) : Valuation τ sig (Elt F) :=
  Pipeline.withArrays spec2 c (W5 m dat0 dat1 c) fun w => (dat2 (V5 m dat0 dat1) c).arrAt w cfg2.N
theorem W6_arr (c : Dev nD) (w : Fin cfg2.W) :
    W6 m dat0 dat1 dat2 c (Proc.devRef .tc (Pipeline.arrRef spec2 w)) = (dat2 (V5 m dat0 dat1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m dat0 dat1 dat2 c (Proc.devRef .tc b) = W5 m dat0 dat1 c (Proc.devRef .tc b) := by
  unfold W6; exact Pipeline.withArrays_of_ne spec2 c _ _ b hb
abbrev V6 : ((c : Dev nD) → (b : Ref sig .tc) → Buf (Elt F) ((c : Thread nD τ).loc b)) := fun c b => W6 m dat0 dat1 dat2 c b
theorem hF2 (c : Dev nD) (w : Fin cfg2.W) : (dat2 (V5 m dat0 dat1) c).arrAt w cfg2.N = V6 m dat0 dat1 dat2 c (Pipeline.arrRef spec2 w) :=
  (W6_arr m dat0 dat1 dat2 c w).symm
theorem hrest2 (c : Dev nD) : ∀ b, b ∉ Finset.univ.image (Pipeline.arrRef spec2) → V6 m dat0 dat1 dat2 c b = V5 m dat0 dat1 c b :=
  fun b hb => W6_of_ne m dat0 dat1 dat2 c b fun w e => hb (Finset.mem_image.mpr ⟨w, Finset.mem_univ _, e⟩)

/-- After the fourth host stretch (region 3's entry). -/
abbrev W7 : Dev nD → Valuation τ sig (Elt F) := fun c => StableHlo.after hostOps3 (W6 m dat0 dat1 dat2 c)
abbrev V7 : ((c : Dev nD) → (b : Ref sig .tc) → Buf (Elt F) ((c : Thread nD τ).loc b)) := fun c b => W7 m dat0 dat1 dat2 c b
/-- At region 3's exit: what @main returns from. -/
def W8 (c : Dev nD) : Valuation τ sig (Elt F) :=
  Pipeline.withArrays spec3 c (W7 m dat0 dat1 dat2 c) fun w => (dat3 (V7 m dat0 dat1 dat2) c).arrAt w cfg3.N
theorem W8_arr (c : Dev nD) (w : Fin cfg3.W) :
    W8 m dat0 dat1 dat2 dat3 c (Proc.devRef .tc (Pipeline.arrRef spec3 w)) = (dat3 (V7 m dat0 dat1 dat2) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m dat0 dat1 dat2 dat3 c (Proc.devRef .tc b) = W7 m dat0 dat1 dat2 c (Proc.devRef .tc b) := by
  unfold W8; exact Pipeline.withArrays_of_ne spec3 c _ _ b hb
abbrev V8 : ((c : Dev nD) → (b : Ref sig .tc) → Buf (Elt F) ((c : Thread nD τ).loc b)) := fun c b => W8 m dat0 dat1 dat2 dat3 c b
theorem hF3 (c : Dev nD) (w : Fin cfg3.W) : (dat3 (V7 m dat0 dat1 dat2) c).arrAt w cfg3.N = V8 m dat0 dat1 dat2 dat3 c (Pipeline.arrRef spec3 w) :=
  (W8_arr m dat0 dat1 dat2 dat3 c w).symm
theorem hrest3 (c : Dev nD) : ∀ b, b ∉ Finset.univ.image (Pipeline.arrRef spec3) → V8 m dat0 dat1 dat2 dat3 c b = V7 m dat0 dat1 dat2 c b :=
  fun b hb => W8_of_ne m dat0 dat1 dat2 dat3 c b fun w e => hb (Finset.mem_image.mpr ⟨w, Finset.mem_univ _, e⟩)

/-! ## A buffer that no host stretch writes and no region stages ends as launched

The fold at such a buffer walks back to the launch memory: each region's exit contents agree with its entry
contents off the region's arrays, and a host stretch leaves what none of its operations writes. -/

theorem W8_untouched (c : Dev nD) (b : Ref sig .tc)
    (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b)
    (a2 : ∀ w, Pipeline.arrRef spec2 w ≠ b) (a3 : ∀ w, Pipeline.arrRef spec3 w ≠ b) :
    W8 m dat0 dat1 dat2 dat3 c (Proc.devRef .tc b) = m ((c : Thread nD τ).loc b) :=
  calc W8 m dat0 dat1 dat2 dat3 c (Proc.devRef .tc b)
    _ = W7 m dat0 dat1 dat2 c (Proc.devRef .tc b) := W8_of_ne m dat0 dat1 dat2 dat3 c b a3
    _ = W6 m dat0 dat1 dat2 c (Proc.devRef .tc b) := StableHlo.after_of_writes_sub hostOps3 _ hostOps3_writes h3
    _ = W5 m dat0 dat1 c (Proc.devRef .tc b) := W6_of_ne m dat0 dat1 dat2 c b a2
    _ = W4 m dat0 dat1 c (Proc.devRef .tc b) := StableHlo.after_of_writes_sub hostOps2 _ hostOps2_writes h2
    _ = W3 m dat0 c (Proc.devRef .tc b) := W4_of_ne m dat0 dat1 c b a1
    _ = W2 m dat0 c (Proc.devRef .tc b) := StableHlo.after_of_writes_sub hostOps1 _ hostOps1_writes h1
    _ = W1 m c (Proc.devRef .tc b) := W2_of_ne m dat0 c b a0
    _ = W0 m c (Proc.devRef .tc b) := StableHlo.after_of_writes_sub hostOps0 _ hostOps0_writes h0
    _ = m ((c : Thread nD τ).loc b) := rfl

/-! ### The arguments end as launched: every operand a region stages is a reshaped or transposed COPY made by a
    host stretch, so no argument's buffer is an array of any region, and no host operation writes one -/

theorem W8_main_arg0 (c : Dev nD) : W8 m dat0 dat1 dat2 dat3 c (Proc.devRef .tc main_arg0) = m ((c : Thread nD τ).loc main_arg0) :=
  W8_untouched m dat0 dat1 dat2 dat3 c main_arg0 (by decide) (by decide) (by decide) (by decide) (by decide) (by decide) (by decide) (by decide)
theorem W8_main_arg1 (c : Dev nD) : W8 m dat0 dat1 dat2 dat3 c (Proc.devRef .tc main_arg1) = m ((c : Thread nD τ).loc main_arg1) :=
  W8_untouched m dat0 dat1 dat2 dat3 c main_arg1 (by decide) (by decide) (by decide) (by decide) (by decide) (by decide) (by decide) (by decide)
theorem W8_main_arg2 (c : Dev nD) : W8 m dat0 dat1 dat2 dat3 c (Proc.devRef .tc main_arg2) = m ((c : Thread nD τ).loc main_arg2) :=
  W8_untouched m dat0 dat1 dat2 dat3 c main_arg2 (by decide) (by decide) (by decide) (by decide) (by decide) (by decide) (by decide) (by decide)
theorem W8_main_arg3 (c : Dev nD) : W8 m dat0 dat1 dat2 dat3 c (Proc.devRef .tc main_arg3) = m ((c : Thread nD τ).loc main_arg3) :=
  W8_untouched m dat0 dat1 dat2 dat3 c main_arg3 (by decide) (by decide) (by decide) (by decide) (by decide) (by decide) (by decide) (by decide)
theorem W8_main_arg4 (c : Dev nD) : W8 m dat0 dat1 dat2 dat3 c (Proc.devRef .tc main_arg4) = m ((c : Thread nD τ).loc main_arg4) :=
  W8_untouched m dat0 dat1 dat2 dat3 c main_arg4 (by decide) (by decide) (by decide) (by decide) (by decide) (by decide) (by decide) (by decide)
theorem W8_main_arg5 (c : Dev nD) : W8 m dat0 dat1 dat2 dat3 c (Proc.devRef .tc main_arg5) = m ((c : Thread nD τ).loc main_arg5) :=
  W8_untouched m dat0 dat1 dat2 dat3 c main_arg5 (by decide) (by decide) (by decide) (by decide) (by decide) (by decide) (by decide) (by decide)
theorem W8_main_arg6 (c : Dev nD) : W8 m dat0 dat1 dat2 dat3 c (Proc.devRef .tc main_arg6) = m ((c : Thread nD τ).loc main_arg6) :=
  W8_untouched m dat0 dat1 dat2 dat3 c main_arg6 (by decide) (by decide) (by decide) (by decide) (by decide) (by decide) (by decide) (by decide)
theorem W8_main_arg7 (c : Dev nD) : W8 m dat0 dat1 dat2 dat3 c (Proc.devRef .tc main_arg7) = m ((c : Thread nD τ).loc main_arg7) :=
  W8_untouched m dat0 dat1 dat2 dat3 c main_arg7 (by decide) (by decide) (by decide) (by decide) (by decide) (by decide) (by decide) (by decide)
theorem W8_main_arg8 (c : Dev nD) : W8 m dat0 dat1 dat2 dat3 c (Proc.devRef .tc main_arg8) = m ((c : Thread nD τ).loc main_arg8) :=
  W8_untouched m dat0 dat1 dat2 dat3 c main_arg8 (by decide) (by decide) (by decide) (by decide) (by decide) (by decide) (by decide) (by decide)
theorem W8_main_arg9 (c : Dev nD) : W8 m dat0 dat1 dat2 dat3 c (Proc.devRef .tc main_arg9) = m ((c : Thread nD τ).loc main_arg9) :=
  W8_untouched m dat0 dat1 dat2 dat3 c main_arg9 (by decide) (by decide) (by decide) (by decide) (by decide) (by decide) (by decide) (by decide)
theorem W8_main_arg10 (c : Dev nD) : W8 m dat0 dat1 dat2 dat3 c (Proc.devRef .tc main_arg10) = m ((c : Thread nD τ).loc main_arg10) :=
  W8_untouched m dat0 dat1 dat2 dat3 c main_arg10 (by decide) (by decide) (by decide) (by decide) (by decide) (by decide) (by decide) (by decide)

end Cert.Kernel.Fr

end
-- ==== Proof.K.Run.lean ====
import proofs.«174660_j36575941493113_2_alg».proof.Proof.Gen.Kernel.Launch
import proofs.«174660_j36575941493113_2_alg».proof.Proof.Gen.Kernel.Skeleton
import proofs.«174660_j36575941493113_2_alg».proof.Proof.Gen.Kernel.Points
import proofs.«174660_j36575941493113_2_alg».proof.Proof.Gen.Kernel.Regions
import proofs.«174660_j36575941493113_2_alg».proof.Proof.K.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The four regions' proof data, as parameters

Each region K comes with proof data `datK V c` stated at ANY entry contents `V`, and six facts about them: the
arrays are read off `V`; inputs are held at the full share; the body owes nothing at any point; the body
obligation; and the invariant before the first point follows from, and after the last point gives back, the
scoped rest beside the generator register (`ΦA`). Nothing else about a region is used below. -/

variable
  (dat0 : ((c : Dev nD) → (b : Ref sig .tc) → Buf (Elt F) ((c : Thread nD τ).loc b)) → (c : Dev nD) → Dat τ (Elt F) Unit ℕ (UR sig nD τ) ℕ cfg0 c)
  (dat1 : ((c : Dev nD) → (b : Ref sig .tc) → Buf (Elt F) ((c : Thread nD τ).loc b)) → (c : Dev nD) → Dat τ (Elt F) Unit ℕ (UR sig nD τ) ℕ cfg1 c)
  (dat2 : ((c : Dev nD) → (b : Ref sig .tc) → Buf (Elt F) ((c : Thread nD τ).loc b)) → (c : Dev nD) → Dat τ (Elt F) Unit ℕ (UR sig nD τ) ℕ cfg2 c)
  (dat3 : ((c : Dev nD) → (b : Ref sig .tc) → Buf (Elt F) ((c : Thread nD τ).loc b)) → (c : Dev nD) → Dat τ (Elt F) Unit ℕ (UR sig nD τ) ℕ cfg3 c)

/-! # The proof data family and the thread state -/

/-- Every pipeline's proof data, each at its region's entry contents — a literal match, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m dat0) c
  | ⟨2, _⟩ => fun c => dat2 (V5 m dat0 dat1) c
  | ⟨3, _⟩ => fun c => dat3 (V7 m dat0 dat1 dat2) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W8 m dat0 dat1 dat2 dat3 c) ∗ ∃ r, prngReg c r)

/-- A core that owes nothing, as a pipeline point's `owes`: for proof data that owe nothing there and bound the
    recorded pairs by nothing. -/
theorem owesAt_of_owes {cfg : Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
/-- And back: a point's `owes` at data that owe nothing there is the core owing nothing. -/
theorem owes_of_owesAt {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

/-! # The regions as segments -/

variable
  (hA0 : ∀ (V : ((c : Dev nD) → (b : Ref sig .tc) → Buf (Elt F) ((c : Thread nD τ).loc b))) (c : Dev nD) (w : Fin cfg0.W), (dat0 V c).A w = V c (Pipeline.arrRef spec0 w))
  (hq0 : ∀ (V : ((c : Dev nD) → (b : Ref sig .tc) → Buf (Elt F) ((c : Thread nD τ).loc b))) (c : Dev nD) (w : Fin cfg0.W), (dat0 V c).q w = fullShare)
  (howed0 : ∀ (V : ((c : Dev nD) → (b : Ref sig .tc) → Buf (Elt F) ((c : Thread nD τ).loc b))) (c : Dev nD) (t : Fin (cfg0.N + 1)), (dat0 V c).owed t = 0)
  (hrec0 : ∀ (V : ((c : Dev nD) → (b : Ref sig .tc) → Buf (Elt F) ((c : Thread nD τ).loc b))) (c : Dev nD) (t : Fin (cfg0.N + 1)), (dat0 V c).recorded t = Set.univ)
  (hbody0 : ∀ (V : ((c : Dev nD) → (b : Ref sig .tc) → Buf (Elt F) ((c : Thread nD τ).loc b))) (c : Dev nD), BodyObligation (dat0 V c) (defs₀ (F := F)) Variants.none () Set.univ)
  (hin0 : ∀ (V : ((c : Dev nD) → (b : Ref sig .tc) → Buf (Elt F) ((c : Thread nD τ).loc b))) (c : Dev nD), Pipeline.ΦA spec0 c ⊢ (dat0 V c).Φ 0)
  (hout0 : ∀ (V : ((c : Dev nD) → (b : Ref sig .tc) → Buf (Elt F) ((c : Thread nD τ).loc b))) (c : Dev nD), (dat0 V c).Φ (Fin.last cfg0.N) ⊢ Pipeline.ΦA spec0 c)
  (hA1 : ∀ (V : ((c : Dev nD) → (b : Ref sig .tc) → Buf (Elt F) ((c : Thread nD τ).loc b))) (c : Dev nD) (w : Fin cfg1.W), (dat1 V c).A w = V c (Pipeline.arrRef spec1 w))
  (hq1 : ∀ (V : ((c : Dev nD) → (b : Ref sig .tc) → Buf (Elt F) ((c : Thread nD τ).loc b))) (c : Dev nD) (w : Fin cfg1.W), (dat1 V c).q w = fullShare)
  (howed1 : ∀ (V : ((c : Dev nD) → (b : Ref sig .tc) → Buf (Elt F) ((c : Thread nD τ).loc b))) (c : Dev nD) (t : Fin (cfg1.N + 1)), (dat1 V c).owed t = 0)
  (hrec1 : ∀ (V : ((c : Dev nD) → (b : Ref sig .tc) → Buf (Elt F) ((c : Thread nD τ).loc b))) (c : Dev nD) (t : Fin (cfg1.N + 1)), (dat1 V c).recorded t = Set.univ)
  (hbody1 : ∀ (V : ((c : Dev nD) → (b : Ref sig .tc) → Buf (Elt F) ((c : Thread nD τ).loc b))) (c : Dev nD), BodyObligation (dat1 V c) (defs₀ (F := F)) Variants.none () Set.univ)
  (hin1 : ∀ (V : ((c : Dev nD) → (b : Ref sig .tc) → Buf (Elt F) ((c : Thread nD τ).loc b))) (c : Dev nD), Pipeline.ΦA spec1 c ⊢ (dat1 V c).Φ 0)
  (hout1 : ∀ (V : ((c : Dev nD) → (b : Ref sig .tc) → Buf (Elt F) ((c : Thread nD τ).loc b))) (c : Dev nD), (dat1 V c).Φ (Fin.last cfg1.N) ⊢ Pipeline.ΦA spec1 c)
  (hA2 : ∀ (V : ((c : Dev nD) → (b : Ref sig .tc) → Buf (Elt F) ((c : Thread nD τ).loc b))) (c : Dev nD) (w : Fin cfg2.W), (dat2 V c).A w = V c (Pipeline.arrRef spec2 w))
  (hq2 : ∀ (V : ((c : Dev nD) → (b : Ref sig .tc) → Buf (Elt F) ((c : Thread nD τ).loc b))) (c : Dev nD) (w : Fin cfg2.W), (dat2 V c).q w = fullShare)
  (howed2 : ∀ (V : ((c : Dev nD) → (b : Ref sig .tc) → Buf (Elt F) ((c : Thread nD τ).loc b))) (c : Dev nD) (t : Fin (cfg2.N + 1)), (dat2 V c).owed t = 0)
  (hrec2 : ∀ (V : ((c : Dev nD) → (b : Ref sig .tc) → Buf (Elt F) ((c : Thread nD τ).loc b))) (c : Dev nD) (t : Fin (cfg2.N + 1)), (dat2 V c).recorded t = Set.univ)
  (hbody2 : ∀ (V : ((c : Dev nD) → (b : Ref sig .tc) → Buf (Elt F) ((c : Thread nD τ).loc b))) (c : Dev nD), BodyObligation (dat2 V c) (defs₀ (F := F)) Variants.none () Set.univ)
  (hin2 : ∀ (V : ((c : Dev nD) → (b : Ref sig .tc) → Buf (Elt F) ((c : Thread nD τ).loc b))) (c : Dev nD), Pipeline.ΦA spec2 c ⊢ (dat2 V c).Φ 0)
  (hout2 : ∀ (V : ((c : Dev nD) → (b : Ref sig .tc) → Buf (Elt F) ((c : Thread nD τ).loc b))) (c : Dev nD), (dat2 V c).Φ (Fin.last cfg2.N) ⊢ Pipeline.ΦA spec2 c)
  (hA3 : ∀ (V : ((c : Dev nD) → (b : Ref sig .tc) → Buf (Elt F) ((c : Thread nD τ).loc b))) (c : Dev nD) (w : Fin cfg3.W), (dat3 V c).A w = V c (Pipeline.arrRef spec3 w))
  (hq3 : ∀ (V : ((c : Dev nD) → (b : Ref sig .tc) → Buf (Elt F) ((c : Thread nD τ).loc b))) (c : Dev nD) (w : Fin cfg3.W), (dat3 V c).q w = fullShare)
  (howed3 : ∀ (V : ((c : Dev nD) → (b : Ref sig .tc) → Buf (Elt F) ((c : Thread nD τ).loc b))) (c : Dev nD) (t : Fin (cfg3.N + 1)), (dat3 V c).owed t = 0)
  (hrec3 : ∀ (V : ((c : Dev nD) → (b : Ref sig .tc) → Buf (Elt F) ((c : Thread nD τ).loc b))) (c : Dev nD) (t : Fin (cfg3.N + 1)), (dat3 V c).recorded t = Set.univ)
  (hbody3 : ∀ (V : ((c : Dev nD) → (b : Ref sig .tc) → Buf (Elt F) ((c : Thread nD τ).loc b))) (c : Dev nD), BodyObligation (dat3 V c) (defs₀ (F := F)) Variants.none () Set.univ)
  (hin3 : ∀ (V : ((c : Dev nD) → (b : Ref sig .tc) → Buf (Elt F) ((c : Thread nD τ).loc b))) (c : Dev nD), Pipeline.ΦA spec3 c ⊢ (dat3 V c).Φ 0)
  (hout3 : ∀ (V : ((c : Dev nD) → (b : Ref sig .tc) → Buf (Elt F) ((c : Thread nD τ).loc b))) (c : Dev nD), (dat3 V c).Φ (Fin.last cfg3.N) ⊢ Pipeline.ΦA spec3 c)

/-! ## Region 0 -/

include hA0 hq0 howed0 hrec0 in
set_option backward.isDefEq.respectTransparency.types false in
/-- ENTRY of region 0: its arrays are split out of the unscoped buffers at the entry contents (read off them: `hA0`),
    the generator register and the rest set aside, the core owing nothing. -/
theorem reg0_hentry (c : Dev nD) :
    iprop(iprop(StableHlo.held (c : Thread nD τ) (Pipeline.ucRefs τ sig) (W1 m c) ∗ R c) ∗ Pipeline.ownSems0 (fun k : PEmpty => k.elim) c ∗ levAts L lv)
      ⊢ |={Set.univ}=> iprop((pdats m dat0 dat1 dat2 dat3 0 c).arrays ((pdats m dat0 dat1 dat2 dat3 0 c).arrAt · 0) ∗ Pipeline.prefHeld (pcfgs (F := F) 0).pre c (fun _ => fullShare) (adm 0).1
          ∗ (pdats m dat0 dat1 dat2 dat3 0 c).owesAt () 0 ∗ (∃ r, prngReg c r) ∗ Pipeline.unscopedRest (Ix := Unit) (Name := ℕ) (U := UR sig nD τ) (Lvl := ℕ) spec0 c (V1 m c) : sProp 𝕄) := by
  rw [Pipeline.ownSems0_none]
  have hsplit := Pipeline.arrays_of_unscopedBufs (p := 0) (pcfgs (F := F)) adm (pdats m dat0 dat1 dat2 dat3) launch0.win launch0.arr_whole c
    ((pdats m dat0 dat1 dat2 dat3 0 c).share_full fun w => hq0 (V1 m) c w) (V1 m c) fun w => hA0 (V1 m) c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_of_owes (pdats m dat0 dat1 dat2 dat3 0 c) 0 (howed0 (V1 m) c _) (hrec0 (V1 m) c _))
    iexact HO
  isplitl [Hp]; · iexact Hp
  iexact Hrest

include hin0 in
set_option backward.isDefEq.respectTransparency.types false in
/-- The invariant before the first point, from the generator register and the scoped buffers no window stages. -/
theorem reg0_hin (c : Dev nD) :
    iprop((∃ r, prngReg c r) ∗ Pipeline.prefHeld (pcfgs (F := F) 0).pre c (fun _ => fullShare) (adm 0).1 ∗ Pipeline.scopedRest (Pipeline.pin (pcfgs (F := F)) adm 0).spec c)
      ⊢ ((pdats m dat0 dat1 dat2 dat3 0 c).Φ 0 : sProp 𝕄) := by
  refine BIBase.Entails.trans ?_ (hin0 (V1 m) c)
  unfold Pipeline.ΦA
  iintro ⟨Hp, -, Hr⟩
  isplitl [Hr]; · iexact Hr
  iexact Hp

include hout0 in
set_option backward.isDefEq.respectTransparency.types false in
/-- The invariant after the last point gives them back. -/
theorem reg0_hout (c : Dev nD) :
    ((pdats m dat0 dat1 dat2 dat3 0 c).Φ (Fin.last (Pipeline.pin (pcfgs (F := F)) adm 0).N) : sProp 𝕄)
      ⊢ iprop((∃ r, prngReg c r) ∗ Pipeline.ownSems0 (fun k : PEmpty => k.elim) c ∗ Pipeline.scopedRest (Pipeline.pin (pcfgs (F := F)) adm 0).spec c) := by
  rw [Pipeline.ownSems0_none]
  refine BIBase.Entails.trans (hout0 (V1 m) c) ?_
  unfold Pipeline.ΦA
  iintro ⟨Hr, Hp⟩
  isplitl [Hp]; · iexact Hp
  isplitr; · iempintro
  iexact Hr

include hq0 howed0 in
set_option backward.isDefEq.respectTransparency.types false in
/-- EXIT of region 0: its arrays at their final contents and the rest make the unscoped buffers at the exit contents
    (which have the arrays at those contents and agree with the entry contents elsewhere). -/
theorem reg0_hexit (c : Dev nD) :
    iprop((pdats m dat0 dat1 dat2 dat3 0 c).arrays ((pdats m dat0 dat1 dat2 dat3 0 c).arrAt · (Pipeline.pin (pcfgs (F := F)) adm 0).N) ∗ (pdats m dat0 dat1 dat2 dat3 0 c).owesAt () (Fin.last (Pipeline.pin (pcfgs (F := F)) adm 0).N) ∗ (∃ r, prngReg c r) ∗ Pipeline.unscopedRest (Ix := Unit) (Name := ℕ) (U := UR sig nD τ) (Lvl := ℕ) spec0 c (V1 m c))
      ⊢ |={Set.univ}=> (iprop(StableHlo.held (c : Thread nD τ) (Pipeline.ucRefs τ sig) (W2 m dat0 c) ∗ R c) : sProp 𝕄) := by
  have hjoin := Pipeline.unscopedBufs_of_arrays (p := 0) (pcfgs (F := F)) adm (Ix := Unit) (Name := ℕ) (U := UR sig nD τ) (Lvl := ℕ)
    launch0.win launch0.arr_whole c (pdats m dat0 dat1 dat2 dat3) ((pdats m dat0 dat1 dat2 dat3 0 c).share_full fun w => hq0 (V1 m) c w)
    (V1 m c) (V2 m dat0 c) ((pdats m dat0 dat1 dat2 dat3 0 c).arrAt · cfg0.N) (hF0 m dat0 c) (hrest0 m dat0 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owes_of_owesAt (pdats m dat0 dat1 dat2 dat3 0 c) _ (howed0 (V1 m) c _))
  iexact HO

set_option backward.isDefEq.respectTransparency.types false in
/-- REGION 0 over the thread state: entered from every unscoped buffer at the contents after host stretch 0, left at
    its arrays' final contents and every other buffer as entered; nothing is owed; the kernel has no semaphore of
    its own. -/
def reg0 : Pipeline.RegionSeg (pcfgs (F := F)) adm (pdats m dat0 dat1 dat2 dat3) () defs₀ 𝒱₀ L lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ _ _ L lv 0 fun c t => howed0 (V1 m) c t
  pre c := iprop(StableHlo.held (c : Thread nD τ) (Pipeline.ucRefs τ sig) (W1 m c) ∗ R c)
  post c := iprop(StableHlo.held (c : Thread nD τ) (Pipeline.ucRefs τ sig) (W2 m dat0 c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := reg0_hentry m dat0 dat1 dat2 dat3 hA0 hq0 howed0 hrec0 c
  hin c := reg0_hin m dat0 dat1 dat2 dat3 hin0 c
  hout c := reg0_hout m dat0 dat1 dat2 dat3 hout0 c
  hexit c := reg0_hexit m dat0 dat1 dat2 dat3 hq0 howed0 c

/-! ## Region 1 -/

include hA1 hq1 howed1 hrec1 in
set_option backward.isDefEq.respectTransparency.types false in
/-- ENTRY of region 1: its arrays are split out of the unscoped buffers at the entry contents (read off them: `hA1`),
    the generator register and the rest set aside, the core owing nothing. -/
theorem reg1_hentry (c : Dev nD) :
    iprop(iprop(StableHlo.held (c : Thread nD τ) (Pipeline.ucRefs τ sig) (W3 m dat0 c) ∗ R c) ∗ Pipeline.ownSems0 (fun k : PEmpty => k.elim) c ∗ levAts L lv)
      ⊢ |={Set.univ}=> iprop((pdats m dat0 dat1 dat2 dat3 1 c).arrays ((pdats m dat0 dat1 dat2 dat3 1 c).arrAt · 0) ∗ Pipeline.prefHeld (pcfgs (F := F) 1).pre c (fun _ => fullShare) (adm 1).1
          ∗ (pdats m dat0 dat1 dat2 dat3 1 c).owesAt () 0 ∗ (∃ r, prngReg c r) ∗ Pipeline.unscopedRest (Ix := Unit) (Name := ℕ) (U := UR sig nD τ) (Lvl := ℕ) spec1 c (V3 m dat0 c) : sProp 𝕄) := by
  rw [Pipeline.ownSems0_none]
  have hsplit := Pipeline.arrays_of_unscopedBufs (p := 1) (pcfgs (F := F)) adm (pdats m dat0 dat1 dat2 dat3) launch1.win launch1.arr_whole c
    ((pdats m dat0 dat1 dat2 dat3 1 c).share_full fun w => hq1 (V3 m dat0) c w) (V3 m dat0 c) fun w => hA1 (V3 m dat0) c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_of_owes (pdats m dat0 dat1 dat2 dat3 1 c) 0 (howed1 (V3 m dat0) c _) (hrec1 (V3 m dat0) c _))
    iexact HO
  isplitl [Hp]; · iexact Hp
  iexact Hrest

include hin1 in
set_option backward.isDefEq.respectTransparency.types false in
/-- The invariant before the first point, from the generator register and the scoped buffers no window stages. -/
theorem reg1_hin (c : Dev nD) :
    iprop((∃ r, prngReg c r) ∗ Pipeline.prefHeld (pcfgs (F := F) 1).pre c (fun _ => fullShare) (adm 1).1 ∗ Pipeline.scopedRest (Pipeline.pin (pcfgs (F := F)) adm 1).spec c)
      ⊢ ((pdats m dat0 dat1 dat2 dat3 1 c).Φ 0 : sProp 𝕄) := by
  refine BIBase.Entails.trans ?_ (hin1 (V3 m dat0) c)
  unfold Pipeline.ΦA
  iintro ⟨Hp, -, Hr⟩
  isplitl [Hr]; · iexact Hr
  iexact Hp

include hout1 in
set_option backward.isDefEq.respectTransparency.types false in
/-- The invariant after the last point gives them back. -/
theorem reg1_hout (c : Dev nD) :
    ((pdats m dat0 dat1 dat2 dat3 1 c).Φ (Fin.last (Pipeline.pin (pcfgs (F := F)) adm 1).N) : sProp 𝕄)
      ⊢ iprop((∃ r, prngReg c r) ∗ Pipeline.ownSems0 (fun k : PEmpty => k.elim) c ∗ Pipeline.scopedRest (Pipeline.pin (pcfgs (F := F)) adm 1).spec c) := by
  rw [Pipeline.ownSems0_none]
  refine BIBase.Entails.trans (hout1 (V3 m dat0) c) ?_
  unfold Pipeline.ΦA
  iintro ⟨Hr, Hp⟩
  isplitl [Hp]; · iexact Hp
  isplitr; · iempintro
  iexact Hr

include hq1 howed1 in
set_option backward.isDefEq.respectTransparency.types false in
/-- EXIT of region 1: its arrays at their final contents and the rest make the unscoped buffers at the exit contents
    (which have the arrays at those contents and agree with the entry contents elsewhere). -/
theorem reg1_hexit (c : Dev nD) :
    iprop((pdats m dat0 dat1 dat2 dat3 1 c).arrays ((pdats m dat0 dat1 dat2 dat3 1 c).arrAt · (Pipeline.pin (pcfgs (F := F)) adm 1).N) ∗ (pdats m dat0 dat1 dat2 dat3 1 c).owesAt () (Fin.last (Pipeline.pin (pcfgs (F := F)) adm 1).N) ∗ (∃ r, prngReg c r) ∗ Pipeline.unscopedRest (Ix := Unit) (Name := ℕ) (U := UR sig nD τ) (Lvl := ℕ) spec1 c (V3 m dat0 c))
      ⊢ |={Set.univ}=> (iprop(StableHlo.held (c : Thread nD τ) (Pipeline.ucRefs τ sig) (W4 m dat0 dat1 c) ∗ R c) : sProp 𝕄) := by
  have hjoin := Pipeline.unscopedBufs_of_arrays (p := 1) (pcfgs (F := F)) adm (Ix := Unit) (Name := ℕ) (U := UR sig nD τ) (Lvl := ℕ)
    launch1.win launch1.arr_whole c (pdats m dat0 dat1 dat2 dat3) ((pdats m dat0 dat1 dat2 dat3 1 c).share_full fun w => hq1 (V3 m dat0) c w)
    (V3 m dat0 c) (V4 m dat0 dat1 c) ((pdats m dat0 dat1 dat2 dat3 1 c).arrAt · cfg1.N) (hF1 m dat0 dat1 c) (hrest1 m dat0 dat1 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owes_of_owesAt (pdats m dat0 dat1 dat2 dat3 1 c) _ (howed1 (V3 m dat0) c _))
  iexact HO

set_option backward.isDefEq.respectTransparency.types false in
/-- REGION 1 over the thread state: entered from every unscoped buffer at the contents after host stretch 1, left at
    its arrays' final contents and every other buffer as entered; nothing is owed; the kernel has no semaphore of
    its own. -/
def reg1 : Pipeline.RegionSeg (pcfgs (F := F)) adm (pdats m dat0 dat1 dat2 dat3) () defs₀ 𝒱₀ L lv 1 where
  win := launch1.win.to₀
  block_pos := launch1.block_pos
  stage_whole := launch1.stage_whole
  K := PEmpty
  osem k := k.elim
  ho := Pipeline.OwnSemFacts.none _
  hbody c := (hbody1 (V3 m dat0) c).loose
  hwaits := Pipeline.hwaits_of_owed_zero _ _ _ _ L lv 1 fun c t => howed1 (V3 m dat0) c t
  pre c := iprop(StableHlo.held (c : Thread nD τ) (Pipeline.ucRefs τ sig) (W3 m dat0 c) ∗ R c)
  post c := iprop(StableHlo.held (c : Thread nD τ) (Pipeline.ucRefs τ sig) (W4 m dat0 dat1 c) ∗ R c)
  X c := iprop(∃ r, prngReg c r)
  Y c := iprop(∃ r, prngReg c r)
  Z c := Pipeline.unscopedRest (Ix := Unit) (Name := ℕ) (U := UR sig nD τ) (Lvl := ℕ) spec1 c (V3 m dat0 c)
  hentry c := reg1_hentry m dat0 dat1 dat2 dat3 hA1 hq1 howed1 hrec1 c
  hin c := reg1_hin m dat0 dat1 dat2 dat3 hin1 c
  hout c := reg1_hout m dat0 dat1 dat2 dat3 hout1 c
  hexit c := reg1_hexit m dat0 dat1 dat2 dat3 hq1 howed1 c

/-! ## Region 2 -/

include hA2 hq2 howed2 hrec2 in
set_option backward.isDefEq.respectTransparency.types false in
/-- ENTRY of region 2: its arrays are split out of the unscoped buffers at the entry contents (read off them: `hA2`),
    the generator register and the rest set aside, the core owing nothing. -/
theorem reg2_hentry (c : Dev nD) :
    iprop(iprop(StableHlo.held (c : Thread nD τ) (Pipeline.ucRefs τ sig) (W5 m dat0 dat1 c) ∗ R c) ∗ Pipeline.ownSems0 (fun k : PEmpty => k.elim) c ∗ levAts L lv)
      ⊢ |={Set.univ}=> iprop((pdats m dat0 dat1 dat2 dat3 2 c).arrays ((pdats m dat0 dat1 dat2 dat3 2 c).arrAt · 0) ∗ Pipeline.prefHeld (pcfgs (F := F) 2).pre c (fun _ => fullShare) (adm 2).1
          ∗ (pdats m dat0 dat1 dat2 dat3 2 c).owesAt () 0 ∗ (∃ r, prngReg c r) ∗ Pipeline.unscopedRest (Ix := Unit) (Name := ℕ) (U := UR sig nD τ) (Lvl := ℕ) spec2 c (V5 m dat0 dat1 c) : sProp 𝕄) := by
  rw [Pipeline.ownSems0_none]
  have hsplit := Pipeline.arrays_of_unscopedBufs (p := 2) (pcfgs (F := F)) adm (pdats m dat0 dat1 dat2 dat3) launch2.win launch2.arr_whole c
    ((pdats m dat0 dat1 dat2 dat3 2 c).share_full fun w => hq2 (V5 m dat0 dat1) c w) (V5 m dat0 dat1 c) fun w => hA2 (V5 m dat0 dat1) c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_of_owes (pdats m dat0 dat1 dat2 dat3 2 c) 0 (howed2 (V5 m dat0 dat1) c _) (hrec2 (V5 m dat0 dat1) c _))
    iexact HO
  isplitl [Hp]; · iexact Hp
  iexact Hrest

include hin2 in
set_option backward.isDefEq.respectTransparency.types false in
/-- The invariant before the first point, from the generator register and the scoped buffers no window stages. -/
theorem reg2_hin (c : Dev nD) :
    iprop((∃ r, prngReg c r) ∗ Pipeline.prefHeld (pcfgs (F := F) 2).pre c (fun _ => fullShare) (adm 2).1 ∗ Pipeline.scopedRest (Pipeline.pin (pcfgs (F := F)) adm 2).spec c)
      ⊢ ((pdats m dat0 dat1 dat2 dat3 2 c).Φ 0 : sProp 𝕄) := by
  refine BIBase.Entails.trans ?_ (hin2 (V5 m dat0 dat1) c)
  unfold Pipeline.ΦA
  iintro ⟨Hp, -, Hr⟩
  isplitl [Hr]; · iexact Hr
  iexact Hp

include hout2 in
set_option backward.isDefEq.respectTransparency.types false in
/-- The invariant after the last point gives them back. -/
theorem reg2_hout (c : Dev nD) :
    ((pdats m dat0 dat1 dat2 dat3 2 c).Φ (Fin.last (Pipeline.pin (pcfgs (F := F)) adm 2).N) : sProp 𝕄)
      ⊢ iprop((∃ r, prngReg c r) ∗ Pipeline.ownSems0 (fun k : PEmpty => k.elim) c ∗ Pipeline.scopedRest (Pipeline.pin (pcfgs (F := F)) adm 2).spec c) := by
  rw [Pipeline.ownSems0_none]
  refine BIBase.Entails.trans (hout2 (V5 m dat0 dat1) c) ?_
  unfold Pipeline.ΦA
  iintro ⟨Hr, Hp⟩
  isplitl [Hp]; · iexact Hp
  isplitr; · iempintro
  iexact Hr

include hq2 howed2 in
set_option backward.isDefEq.respectTransparency.types false in
/-- EXIT of region 2: its arrays at their final contents and the rest make the unscoped buffers at the exit contents
    (which have the arrays at those contents and agree with the entry contents elsewhere). -/
theorem reg2_hexit (c : Dev nD) :
    iprop((pdats m dat0 dat1 dat2 dat3 2 c).arrays ((pdats m dat0 dat1 dat2 dat3 2 c).arrAt · (Pipeline.pin (pcfgs (F := F)) adm 2).N) ∗ (pdats m dat0 dat1 dat2 dat3 2 c).owesAt () (Fin.last (Pipeline.pin (pcfgs (F := F)) adm 2).N) ∗ (∃ r, prngReg c r) ∗ Pipeline.unscopedRest (Ix := Unit) (Name := ℕ) (U := UR sig nD τ) (Lvl := ℕ) spec2 c (V5 m dat0 dat1 c))
      ⊢ |={Set.univ}=> (iprop(StableHlo.held (c : Thread nD τ) (Pipeline.ucRefs τ sig) (W6 m dat0 dat1 dat2 c) ∗ R c) : sProp 𝕄) := by
  have hjoin := Pipeline.unscopedBufs_of_arrays (p := 2) (pcfgs (F := F)) adm (Ix := Unit) (Name := ℕ) (U := UR sig nD τ) (Lvl := ℕ)
    launch2.win launch2.arr_whole c (pdats m dat0 dat1 dat2 dat3) ((pdats m dat0 dat1 dat2 dat3 2 c).share_full fun w => hq2 (V5 m dat0 dat1) c w)
    (V5 m dat0 dat1 c) (V6 m dat0 dat1 dat2 c) ((pdats m dat0 dat1 dat2 dat3 2 c).arrAt · cfg2.N) (hF2 m dat0 dat1 dat2 c) (hrest2 m dat0 dat1 dat2 c)
  rw [Pipeline.unscopedBufs_held] at hjoin
  iintro ⟨Ha, HO, HY, Hrest⟩
  imodintro
  isplitl [Ha Hrest]
  · iapply hjoin; isplitl [Ha] <;> iassumption
  isplitl [HY]; · iexact HY
  iapply (owes_of_owesAt (pdats m dat0 dat1 dat2 dat3 2 c) _ (howed2 (V5 m dat0 dat1) c _))
  iexact HO

set_option backward.isDefEq.respectTransparency.types false in
/-- REGION 2 over the thread state: entered from every unscoped buffer at the contents after host stretch 2, left at
    its arrays' final contents and every other buffer as entered; nothing is owed; the kernel has no semaphore of
    its own. -/
def reg2 : Pipeline.RegionSeg (pcfgs (F := F)) adm (pdats m dat0 dat1 dat2 dat3) () defs₀ 𝒱₀ L lv 2 where
  win := launch2.win.to₀
  block_pos := launch2.block_pos
  stage_whole := launch2.stage_whole
  K := PEmpty
  osem k := k.elim
  ho := Pipeline.OwnSemFacts.none _
  hbody c := (hbody2 (V5 m dat0 dat1) c).loose
  hwaits := Pipeline.hwaits_of_owed_zero _ _ _ _ L lv 2 fun c t => howed2 (V5 m dat0 dat1) c t
  pre c := iprop(StableHlo.held (c : Thread nD τ) (Pipeline.ucRefs τ sig) (W5 m dat0 dat1 c) ∗ R c)
  post c := iprop(StableHlo.held (c : Thread nD τ) (Pipeline.ucRefs τ sig) (W6 m dat0 dat1 dat2 c) ∗ R c)
  X c := iprop(∃ r, prngReg c r)
  Y c := iprop(∃ r, prngReg c r)
  Z c := Pipeline.unscopedRest (Ix := Unit) (Name := ℕ) (U := UR sig nD τ) (Lvl := ℕ) spec2 c (V5 m dat0 dat1 c)
  hentry c := reg2_hentry m dat0 dat1 dat2 dat3 hA2 hq2 howed2 hrec2 c
  hin c := reg2_hin m dat0 dat1 dat2 dat3 hin2 c
  hout c := reg2_hout m dat0 dat1 dat2 dat3 hout2 c
  hexit c := reg2_hexit m dat0 dat1 dat2 dat3 hq2 howed2 c

/-! ## Region 3 -/

include hA3 hq3 howed3 hrec3 in
set_option backward.isDefEq.respectTransparency.types false in
/-- ENTRY of region 3: its arrays are split out of the unscoped buffers at the entry contents (read off them: `hA3`),
    the generator register and the rest set aside, the core owing nothing. -/
theorem reg3_hentry (c : Dev nD) :
    iprop(iprop(StableHlo.held (c : Thread nD τ) (Pipeline.ucRefs τ sig) (W7 m dat0 dat1 dat2 c) ∗ R c) ∗ Pipeline.ownSems0 (fun k : PEmpty => k.elim) c ∗ levAts L lv)
      ⊢ |={Set.univ}=> iprop((pdats m dat0 dat1 dat2 dat3 3 c).arrays ((pdats m dat0 dat1 dat2 dat3 3 c).arrAt · 0) ∗ Pipeline.prefHeld (pcfgs (F := F) 3).pre c (fun _ => fullShare) (adm 3).1
          ∗ (pdats m dat0 dat1 dat2 dat3 3 c).owesAt () 0 ∗ (∃ r, prngReg c r) ∗ Pipeline.unscopedRest (Ix := Unit) (Name := ℕ) (U := UR sig nD τ) (Lvl := ℕ) spec3 c (V7 m dat0 dat1 dat2 c) : sProp 𝕄) := by
  rw [Pipeline.ownSems0_none]
  have hsplit := Pipeline.arrays_of_unscopedBufs (p := 3) (pcfgs (F := F)) adm (pdats m dat0 dat1 dat2 dat3) launch3.win launch3.arr_whole c
    ((pdats m dat0 dat1 dat2 dat3 3 c).share_full fun w => hq3 (V7 m dat0 dat1 dat2) c w) (V7 m dat0 dat1 dat2 c) fun w => hA3 (V7 m dat0 dat1 dat2) c w
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · iapply (owesAt_of_owes (pdats m dat0 dat1 dat2 dat3 3 c) 0 (howed3 (V7 m dat0 dat1 dat2) c _) (hrec3 (V7 m dat0 dat1 dat2) c _))
    iexact HO
  isplitl [Hp]; · iexact Hp
  iexact Hrest

include hin3 in
set_option backward.isDefEq.respectTransparency.types false in
/-- The invariant before the first point, from the generator register and the scoped buffers no window stages. -/
theorem reg3_hin (c : Dev nD) :
    iprop((∃ r, prngReg c r) ∗ Pipeline.prefHeld (pcfgs (F := F) 3).pre c (fun _ => fullShare) (adm 3).1 ∗ Pipeline.scopedRest (Pipeline.pin (pcfgs (F := F)) adm 3).spec c)
      ⊢ ((pdats m dat0 dat1 dat2 dat3 3 c).Φ 0 : sProp 𝕄) := by
  refine BIBase.Entails.trans ?_ (hin3 (V7 m dat0 dat1 dat2) c)
  unfold Pipeline.ΦA
  iintro ⟨Hp, -, Hr⟩
  isplitl [Hr]; · iexact Hr
  iexact Hp

include hout3 in
set_option backward.isDefEq.respectTransparency.types false in
/-- The invariant after the last point gives them back. -/
theorem reg3_hout (c : Dev nD) :
    ((pdats m dat0 dat1 dat2 dat3 3 c).Φ (Fin.last (Pipeline.pin (pcfgs (F := F)) adm 3).N) : sProp 𝕄)
      ⊢ iprop((∃ r, prngReg c r) ∗ Pipeline.ownSems0 (fun k : PEmpty => k.elim) c ∗ Pipeline.scopedRest (Pipeline.pin (pcfgs (F := F)) adm 3).spec c) := by
  rw [Pipeline.ownSems0_none]
  refine BIBase.Entails.trans (hout3 (V7 m dat0 dat1 dat2) c) ?_
  unfold Pipeline.ΦA
  iintro ⟨Hr, Hp⟩
  isplitl [Hp]; · iexact Hp
  isplitr; · iempintro
  iexact Hr

include hq3 howed3 in
set_option backward.isDefEq.respectTransparency.types false in
/-- EXIT of region 3: its arrays at their final contents and the rest make the unscoped buffers at the exit contents
    (which have the arrays at those contents and agree with the entry contents elsewhere). -/
theorem reg3_hexit (c : Dev nD) :
    iprop((pdats m dat0 dat1 dat2 dat3 3 c).arrays ((pdats m dat0 dat1 dat2 dat3 3 c).arrAt · (Pipeline.pin (pcfgs (F := F)) adm 3).N) ∗ (pdats m dat0 dat1 dat2 dat3 3 c).owesAt () (Fin.last (Pipeline.pin (pcfgs (F := F)) adm 3).N) ∗ (∃ r, prngReg c r) ∗ Pipeline.unscopedRest (Ix := Unit) (Name := ℕ) (U := UR sig nD τ) (Lvl := ℕ) spec3 c (V7 m dat0 dat1 dat2 c))
      ⊢ |={Set.univ}=> (iprop(Tₙ m dat0 dat1 dat2 dat3 c ∗ ∃ W, owes (c : Thread nD τ) (0 : CellTallies nD τ sig Unit) W) : sProp 𝕄) := by
  have hjoin := Pipeline.unscopedBufs_of_arrays (p := 3) (pcfgs (F := F)) adm (Ix := Unit) (Name := ℕ) (U := UR sig nD τ) (Lvl := ℕ)
    launch3.win launch3.arr_whole c (pdats m dat0 dat1 dat2 dat3) ((pdats m dat0 dat1 dat2 dat3 3 c).share_full fun w => hq3 (V7 m dat0 dat1 dat2) c w)
    (V7 m dat0 dat1 dat2 c) (V8 m dat0 dat1 dat2 dat3 c) ((pdats m dat0 dat1 dat2 dat3 3 c).arrAt · cfg3.N) (hF3 m dat0 dat1 dat2 dat3 c) (hrest3 m dat0 dat1 dat2 dat3 c)
  rw [Pipeline.unscopedBufs_held] at hjoin
  iintro ⟨Ha, HO, HY, Hrest⟩
  imodintro
  isplitl [Ha Hrest HY]
  · isplitl [Ha Hrest]
    · iapply hjoin; isplitl [Ha] <;> iassumption
    iexact HY
  iapply (owes_of_owesAt (pdats m dat0 dat1 dat2 dat3 3 c) _ (howed3 (V7 m dat0 dat1 dat2) c _))
  iexact HO

set_option backward.isDefEq.respectTransparency.types false in
/-- REGION 3 over the thread state: entered from every unscoped buffer at the contents after host stretch 3, left at
    its arrays' final contents and every other buffer as entered; nothing is owed; the kernel has no semaphore of
    its own. -/
def reg3 : Pipeline.RegionSeg (pcfgs (F := F)) adm (pdats m dat0 dat1 dat2 dat3) () defs₀ 𝒱₀ L lv 3 where
  win := launch3.win.to₀
  block_pos := launch3.block_pos
  stage_whole := launch3.stage_whole
  K := PEmpty
  osem k := k.elim
  ho := Pipeline.OwnSemFacts.none _
  hbody c := (hbody3 (V7 m dat0 dat1 dat2) c).loose
  hwaits := Pipeline.hwaits_of_owed_zero _ _ _ _ L lv 3 fun c t => howed3 (V7 m dat0 dat1 dat2) c t
  pre c := iprop(StableHlo.held (c : Thread nD τ) (Pipeline.ucRefs τ sig) (W7 m dat0 dat1 dat2 c) ∗ R c)
  post c := iprop(Tₙ m dat0 dat1 dat2 dat3 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m dat0 dat1 dat2 c)
  hentry c := reg3_hentry m dat0 dat1 dat2 dat3 hA3 hq3 howed3 hrec3 c
  hin c := reg3_hin m dat0 dat1 dat2 dat3 hin3 c
  hout c := reg3_hout m dat0 dat1 dat2 dat3 hout3 c
  hexit c := reg3_hexit m dat0 dat1 dat2 dat3 hq3 howed3 c

/-! # @main as segments, and the launch -/

/-- @main's 8 segments in order: a host segment per stretch from its boundary's contents, a region per kernel call. -/
abbrev segs : List (Pipeline.Seg (pcfgs (F := F)) adm (pdats m dat0 dat1 dat2 dat3) () defs₀ 𝒱₀ L lv) :=
  [ .host (hseg hostOps0 hostOps0_sub hostOps0_fresh (W0 m)),
    .region (reg0 m dat0 dat1 dat2 dat3 hA0 hq0 howed0 hrec0 hbody0 hin0 hout0),
    .host (hseg hostOps1 hostOps1_sub hostOps1_fresh (W2 m dat0)),
    .region (reg1 m dat0 dat1 dat2 dat3 hA1 hq1 howed1 hrec1 hbody1 hin1 hout1),
    .host (hseg hostOps2 hostOps2_sub hostOps2_fresh (W4 m dat0 dat1)),
    .region (reg2 m dat0 dat1 dat2 dat3 hA2 hq2 howed2 hrec2 hbody2 hin2 hout2),
    .host (hseg hostOps3 hostOps3_sub hostOps3_fresh (W6 m dat0 dat1 dat2)),
    .region (reg3 m dat0 dat1 dat2 dat3 hA3 hq3 howed3 hrec3 hbody3 hin3 hout3) ]

/-- @main IS the run of the segments: it is the chain of its items, and the segments' run is the same chain. -/
theorem main_run (c : Dev nD) : main (F := F) c = Pipeline.Seg.run (segs m dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3) :=
  (main_chain c).trans (by chain_rfl)

include hA0 hq0 howed0 hrec0 hbody0 hin0 hout0 hA1 hq1 howed1 hrec1 hbody1 hin1 hout1 hA2 hq2 howed2 hrec2 hbody2 hin2 hout2 hA3 hq3 howed3 hrec3 hbody3 hin3 hout3

set_option backward.isDefEq.respectTransparency.types false in
/-- THE RUN. At the compiled mesh, from any memory with zero counters, every weakly fair execution of @main on the
    TensorCores terminates, nothing faulting, and every final memory holds each unscoped buffer of each core at the
    last boundary's contents `W8` — hence satisfies any `Q` that follows from that. -/
theorem run_of {Q : PUnit × MemSt nD τ sig (Elt F) → Prop}
    (hQ : ∀ s : MemSt nD τ sig (Elt F), (∀ c : Dev nD, ∀ b ∈ Pipeline.ucRefs τ sig, s.mem ((c : Thread nD τ).1, b) = W8 m dat0 dat1 dat2 dat3 c b) → Q (⟨⟩, s)) :
    θ_run defs (onTc (τ := τ) (main (F := F))) ⟨m, fun _ => 0, ρ⟩ Q :=
  Pipeline.θ_run_regions_kit (pcfgs (F := F)) adm (pdats m dat0 dat1 dat2 dat3) () cellOf_inj emb₁ defs₀ 𝒱₀ L lv m ρ main
    (segs m dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3)
    (fun c Q => by rw [main_run m dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat0 dat1 dat2 dat3)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m dat0 dat1 dat2 dat3 c b)
    (hfin := fun c s' => by
      iintro ⟨⟨Hh, -⟩, HSI⟩
      unfold StableHlo.held
      imodintro
      iapply (pointsTo_read_all (Pipeline.ucRefs τ sig) (fun b => (((c : Thread nD τ)).1, b)) (W8 m dat0 dat1 dat2 dat3 c) s')
      isplitl [Hh] <;> iassumption)
    (hQ := hQ)

/-- The run with the final memory read at every unscoped buffer of every core. -/
theorem run_main : θ_run defs (onTc (τ := τ) (main (F := F))) ⟨m, fun _ => 0, ρ⟩
    (fun r => ∀ c : Dev nD, ∀ b ∈ Pipeline.ucRefs τ sig, r.2.mem ((c : Thread nD τ).1, b) = W8 m dat0 dat1 dat2 dat3 c b) :=
  run_of m ρ dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3 fun _ h => h

/-- THE FRAME: every weakly fair execution of @main terminates, nothing faulting, and every final state has the
    eleven argument arrays as launched — each read off the last boundary's contents, where it is the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_of m ρ dat0 dat1 dat2 dat3 hA0 hq0 howed0 hrec0 hbody0 hin0 hout0 hA1 hq1 howed1 hrec1 hbody1 hin1 hout1 hA2 hq2 howed2 hrec2 hbody2 hin2 hout2 hA3 hq3 howed3 hrec3 hbody3 hin3 hout3 fun s h c =>
    ⟨(h c _ (mem_uc main_arg0 (by decide))).trans (W8_main_arg0 m dat0 dat1 dat2 dat3 c),
     (h c _ (mem_uc main_arg1 (by decide))).trans (W8_main_arg1 m dat0 dat1 dat2 dat3 c),
     (h c _ (mem_uc main_arg2 (by decide))).trans (W8_main_arg2 m dat0 dat1 dat2 dat3 c),
     (h c _ (mem_uc main_arg3 (by decide))).trans (W8_main_arg3 m dat0 dat1 dat2 dat3 c),
     (h c _ (mem_uc main_arg4 (by decide))).trans (W8_main_arg4 m dat0 dat1 dat2 dat3 c),
     (h c _ (mem_uc main_arg5 (by decide))).trans (W8_main_arg5 m dat0 dat1 dat2 dat3 c),
     (h c _ (mem_uc main_arg6 (by decide))).trans (W8_main_arg6 m dat0 dat1 dat2 dat3 c),
     (h c _ (mem_uc main_arg7 (by decide))).trans (W8_main_arg7 m dat0 dat1 dat2 dat3 c),
     (h c _ (mem_uc main_arg8 (by decide))).trans (W8_main_arg8 m dat0 dat1 dat2 dat3 c),
     (h c _ (mem_uc main_arg9 (by decide))).trans (W8_main_arg9 m dat0 dat1 dat2 dat3 c),
     (h c _ (mem_uc main_arg10 (by decide))).trans (W8_main_arg10 m dat0 dat1 dat2 dat3 c)⟩

end Cert.Kernel.Fr

end
-- ==== Proof.K.Lin0.lean ====
import proofs.«174660_j36575941493113_2_alg».proof.Proof.Gen.Kernel.Launch
import proofs.«174660_j36575941493113_2_alg».proof.Proof.Gen.Kernel.Skeleton
import proofs.«174660_j36575941493113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the linear projection `y = x · Wᵀ + b` over 4 row blocks, emitted head-major

Windows 0, 1, 2 are the inputs (a [1024,1024] row block of `x`, the whole weight matrix, the whole bias row);
window 3 is the output's [16,1024,64] block. At every grid point the body reads the three input blocks and
overwrites the whole output block with a closed function of them. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved, so the previous point's block is this point's. Stated for any proof data
    whose array is `V`'s and whose body leaves the block in place. Window 0 moves with the point; -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- window 1 (the weights) has a constant block index; -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and so has window 2 (the bias row). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1024x1024 := Rect.unit (s := S1024x1024) ![0, 0] S1024x1024.size inb_S1024x1024_S1024x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0
abbrev r0_3 : Rect S16x1024x64 := Rect.unit (s := S16x1024x64) ![0, 0, 0] S16x1024x64.size inb_S16x1024x64_S16x1024x64_0_0_0

/-! ## What the body leaves in the output window's buffer -/

/-- The output block after the body, from the three input blocks: its one store, of the whole block. -/
def out0_3 (x0 : Vec F S1024x1024 .f32) (x1 : Vec F S1024x1024 .f32) (x2 : Vec F S1x1024 .f32) : Vec F S16x1024x64 .bf16 :=
  View.canon [⟨r0_3, k0_pay1 (View.ld x0 r0_0) (View.ld x1 r0_1) (View.ld x2 r0_2)⟩]

/-- The one store is of the whole block, so it covers it. -/
theorem cover0_3 (p0 : Vec F S16x1024x64 .bf16) (y : S16x1024x64.Idx) :
    ∃ pc ∈ ([⟨r0_3, p0⟩] : List (View.Piece (Elt F) S16x1024x64 .bf16)), y ∈ pc.1.set :=
  View.cover_of_tiled [⟨r0_3, p0⟩] S16x1024x64.size (by rfl) y

/-! ## The body's triple -/

set_option maxHeartbeats 1000000 in
/-- The body on whole staging memrefs, the inputs' at read contents `x0 x1 x2` and the output's at anything (the body
    reads the output buffer before overwriting it, and drops what it read), runs to the continuation holding the
    inputs' as they were and the output's at `out0_3` of the inputs'. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S16x1024x64 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_heads_kernel i arg1 harg1 arg2 harg2 arg3 harg3 arg4 harg4) K := by
  simp only [cc0__linear_heads_kernel_eq_skeleton]; unfold cc0__linear_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core `c`: the arrays as the region finds them (`V`); after the body at point
    `t` each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Every window is held at full share, -/
theorem hq0 (c : Dev nD) (w : Fin cfg0.W) : (dat0 V c).q w = fullShare := rfl

/-- nothing is owed at any boundary, -/
theorem howed0 (c : Dev nD) (t : Fin (cfg0.N + 1)) : (dat0 V c).owed t = 0 := rfl

/-- and the invariant is the same at every boundary: the class's, at entry and at exit. -/
theorem hin0 (c : Dev nD) : Pipeline.ΦA spec0 c ⊢ (dat0 V c).Φ 0 := by
  show Pipeline.ΦA spec0 c ⊢ Pipeline.ΦA spec0 c
  exact Entails.refl _

theorem hout0 (c : Dev nD) : (dat0 V c).Φ (Fin.last cfg0.N) ⊢ Pipeline.ΦA spec0 c := by
  show Pipeline.ΦA spec0 c ⊢ Pipeline.ΦA spec0 c
  exact Entails.refl _

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Lin1.lean ====
import proofs.«174660_j36575941493113_2_alg».proof.Proof.Gen.Kernel.Launch
import proofs.«174660_j36575941493113_2_alg».proof.Proof.Gen.Kernel.Skeleton
import proofs.«174660_j36575941493113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the linear projection `y = x · Wᵀ + b` over 4 row blocks, emitted head-major

Windows 0, 1, 2 are the inputs (a [1024,1024] row block of `x`, the whole weight matrix, the whole bias row);
window 3 is the output's [16,1024,64] block. At every grid point the body reads the three input blocks and
overwrites the whole output block with a closed function of them. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved, so the previous point's block is this point's. Stated for any proof data
    whose array is `V`'s and whose body leaves the block in place. Window 0 moves with the point; -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- window 1 (the weights) has a constant block index; -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and so has window 2 (the bias row). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S1024x1024 := Rect.unit (s := S1024x1024) ![0, 0] S1024x1024.size inb_S1024x1024_S1024x1024_0_0
abbrev r1_1 : Rect S1024x1024 := Rect.unit (s := S1024x1024) ![0, 0] S1024x1024.size inb_S1024x1024_S1024x1024_0_0
abbrev r1_2 : Rect S1x1024 := Rect.unit (s := S1x1024) ![0, 0] S1x1024.size inb_S1x1024_S1x1024_0_0
abbrev r1_3 : Rect S16x1024x64 := Rect.unit (s := S16x1024x64) ![0, 0, 0] S16x1024x64.size inb_S16x1024x64_S16x1024x64_0_0_0

/-! ## What the body leaves in the output window's buffer -/

/-- The output block after the body, from the three input blocks: its one store, of the whole block. -/
def out1_3 (x0 : Vec F S1024x1024 .f32) (x1 : Vec F S1024x1024 .f32) (x2 : Vec F S1x1024 .f32) : Vec F S16x1024x64 .bf16 :=
  View.canon [⟨r1_3, k1_pay1 (View.ld x0 r1_0) (View.ld x1 r1_1) (View.ld x2 r1_2)⟩]

/-- The one store is of the whole block, so it covers it. -/
theorem cover1_3 (p0 : Vec F S16x1024x64 .bf16) (y : S16x1024x64.Idx) :
    ∃ pc ∈ ([⟨r1_3, p0⟩] : List (View.Piece (Elt F) S16x1024x64 .bf16)), y ∈ pc.1.set :=
  View.cover_of_tiled [⟨r1_3, p0⟩] S16x1024x64.size (by rfl) y

/-! ## The body's triple -/

set_option maxHeartbeats 1000000 in
/-- The body on whole staging memrefs, the inputs' at read contents `x0 x1 x2` and the output's at anything (the body
    reads the output buffer before overwriting it, and drops what it read), runs to the continuation holding the
    inputs' as they were and the output's at `out1_3` of the inputs'. -/
theorem sound_kernel1 (c : Dev nD) (E : Set ℕ) (i : grid1.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S16x1024x64 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_heads_kernel i arg1 harg1 arg2 harg2 arg3 harg3 arg4 harg4) K := by
  simp only [cc1__linear_heads_kernel_eq_skeleton]; unfold cc1__linear_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region on core `c`: the arrays as the region finds them (`V`); after the body at point
    `t` each input's buffer at its block and the output's at `out1_3` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Every window is held at full share, -/
theorem hq1 (c : Dev nD) (w : Fin cfg1.W) : (dat1 V c).q w = fullShare := rfl

/-- nothing is owed at any boundary, -/
theorem howed1 (c : Dev nD) (t : Fin (cfg1.N + 1)) : (dat1 V c).owed t = 0 := rfl

/-- and the invariant is the same at every boundary: the class's, at entry and at exit. -/
theorem hin1 (c : Dev nD) : Pipeline.ΦA spec1 c ⊢ (dat1 V c).Φ 0 := by
  show Pipeline.ΦA spec1 c ⊢ Pipeline.ΦA spec1 c
  exact Entails.refl _

theorem hout1 (c : Dev nD) : (dat1 V c).Φ (Fin.last cfg1.N) ⊢ Pipeline.ΦA spec1 c := by
  show Pipeline.ΦA spec1 c ⊢ Pipeline.ΦA spec1 c
  exact Entails.refl _

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Lin2.lean ====
import proofs.«174660_j36575941493113_2_alg».proof.Proof.Gen.Kernel.Launch
import proofs.«174660_j36575941493113_2_alg».proof.Proof.Gen.Kernel.Skeleton
import proofs.«174660_j36575941493113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the linear projection `y = x · Wᵀ + b` over 4 row blocks, emitted head-major

Windows 0, 1, 2 are the inputs (a [1024,1024] row block of `x`, the whole weight matrix, the whole bias row);
window 3 is the output's [16,1024,64] block. At every grid point the body reads the three input blocks and
overwrites the whole output block with a closed function of them. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched the block index has not moved, so the previous point's block is this point's. Stated for any proof data
    whose array is `V`'s and whose body leaves the block in place. Window 0 moves with the point; -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- window 1 (the weights) has a constant block index; -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- and so has window 2 (the bias row). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S16x1024x64 := Rect.unit (s := S16x1024x64) ![0, 0, 0] S16x1024x64.size inb_S16x1024x64_S16x1024x64_0_0_0

/-! ## What the body leaves in the output window's buffer -/

/-- The output block after the body, from the three input blocks: its one store, of the whole block. -/
def out2_3 (x0 : Vec F S1024x1024 .f32) (x1 : Vec F S1024x1024 .f32) (x2 : Vec F S1x1024 .f32) : Vec F S16x1024x64 .bf16 :=
  View.canon [⟨r2_3, k2_pay1 (View.ld x0 r2_0) (View.ld x1 r2_1) (View.ld x2 r2_2)⟩]

/-- The one store is of the whole block, so it covers it. -/
theorem cover2_3 (p0 : Vec F S16x1024x64 .bf16) (y : S16x1024x64.Idx) :
    ∃ pc ∈ ([⟨r2_3, p0⟩] : List (View.Piece (Elt F) S16x1024x64 .bf16)), y ∈ pc.1.set :=
  View.cover_of_tiled [⟨r2_3, p0⟩] S16x1024x64.size (by rfl) y

/-! ## The body's triple -/

set_option maxHeartbeats 1000000 in
/-- The body on whole staging memrefs, the inputs' at read contents `x0 x1 x2` and the output's at anything (the body
    reads the output buffer before overwriting it, and drops what it read), runs to the continuation holding the
    inputs' as they were and the output's at `out2_3` of the inputs'. -/
theorem sound_kernel2 (c : Dev nD) (E : Set ℕ) (i : grid2.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S16x1024x64 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_heads_kernel i arg1 harg1 arg2 harg2 arg3 harg3 arg4 harg4) K := by
  simp only [cc2__linear_heads_kernel_eq_skeleton]; unfold cc2__linear_heads_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of the region on core `c`: the arrays as the region finds them (`V`); after the body at point
    `t` each input's buffer at its block and the output's at `out2_3` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Every window is held at full share, -/
theorem hq2 (c : Dev nD) (w : Fin cfg2.W) : (dat2 V c).q w = fullShare := rfl

/-- nothing is owed at any boundary, -/
theorem howed2 (c : Dev nD) (t : Fin (cfg2.N + 1)) : (dat2 V c).owed t = 0 := rfl

/-- and the invariant is the same at every boundary: the class's, at entry and at exit. -/
theorem hin2 (c : Dev nD) : Pipeline.ΦA spec2 c ⊢ (dat2 V c).Φ 0 := by
  show Pipeline.ΦA spec2 c ⊢ Pipeline.ΦA spec2 c
  exact Entails.refl _

theorem hout2 (c : Dev nD) : (dat2 V c).Φ (Fin.last cfg2.N) ⊢ Pipeline.ΦA spec2 c := by
  show Pipeline.ΦA spec2 c ⊢ Pipeline.ΦA spec2 c
  exact Entails.refl _

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.AttnRuns.lean ====
import proofs.«174660_j36575941493113_2_alg».proof.Proof.Gen.Kernel.Launch
import proofs.«174660_j36575941493113_2_alg».proof.Proof.Gen.Kernel.Skeleton
import proofs.«174660_j36575941493113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## Region 3 (the fused attention and output projection): the windows' blocks

Point t of the grid (batch b, query tile qi, head h; t = (b * 8 + qi) * 16 + h) reads block t of each operand's array:
the query tile of head h, the whole key and value rows of head h, head h's slice of the output weights, the bias. -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched the
    block index has not moved since the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: where it is not fetched the
    block index has not moved since the point before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: where it is not fetched the
    block index has not moved since the point before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not: where it is not fetched the
    block index has not moved since the point before. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not: where it is not fetched the
    block index has not moved since the point before. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branches, decided over the grid

The accumulator is zeroed where the head index is 0 and the result written out where it is 15; the head index is the
point's number modulo 16. -/

/-- The first branch's condition (head index = 0), as the body computes it from the grid coordinates. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)

/-- The second branch's condition (head index = 15). -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle: the result window is stored, and written back, only where the head index is 15 -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

theorem idleAt3_6_A : ∀ t : Fin cfg3.N, cond3_0 (grid3.coords t) → ¬cond3_1 (grid3.coords t) → cfg3.idle 6 (grid3.coords t) = true := by decide +kernel
theorem noFlush3_6_A : ∀ t : Fin cfg3.N, cond3_0 (grid3.coords t) → ¬cond3_1 (grid3.coords t) → (cfg3.win 6).flush t = false := by decide +kernel
theorem idleAt3_6_B : ∀ t : Fin cfg3.N, ¬cond3_0 (grid3.coords t) → ¬cond3_1 (grid3.coords t) → cfg3.idle 6 (grid3.coords t) = true := by decide +kernel
theorem noFlush3_6_B : ∀ t : Fin cfg3.N, ¬cond3_0 (grid3.coords t) → ¬cond3_1 (grid3.coords t) → (cfg3.win 6).flush t = false := by decide +kernel
theorem liveAt3_6_C : ∀ t : Fin cfg3.N, ¬cond3_0 (grid3.coords t) → cond3_1 (grid3.coords t) → cfg3.idle 6 (grid3.coords t) = false := by decide +kernel

/-! ## The memrefs the body is called with -/

/-- One staging buffer of each output window, through which its contents are stated. -/
abbrev VO3_5 : View sig .tc .vmem S1x1x256x2048 .f32 := (Memref.whole cc3_stg5_0 : Memref sig .tc .vmem S1x1x256x2048 .f32).view
abbrev VO3_6 : View sig .tc .vmem S1x256x1024 .f32 := (Memref.whole cc3_stg6_0 : Memref sig .tc .vmem S1x256x1024 .f32).view
abbrev ms3_0 (t : Fin cfg3.N) : Memref sig .tc .vmem S1x1x256x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x2048x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x2048x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1x256x2048 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x256x1024 .f32 := win3_6.stage (cfg3.slots t 6)
abbrev hs3_6 (t : Fin cfg3.N) : (ms3_6 t).IsWhole := hstage3_6 ((cfg3.slots t 6).cast nbuf3_6)
/-- The accumulator: a whole scoped buffer of the kernel's own, carried from point to point. -/
abbrev scM3_0 : Memref sig .tc .vmem S256x1024 .f32 := Memref.whole cc3_scratch0
abbrev VS3_0 : View sig .tc .vmem S256x1024 .f32 := scM3_0.view

/-- The region's invariant before its first point, opened: every scoped buffer that is no staging buffer of this region at
    some contents — the other regions' staging buffers, then the accumulator as a memref — and the generator register. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d)) ∗ (∃ r, prngReg c r)) := by
  unfold Pipeline.ΦA; rw [scopedRest3_eq]; simp only [scM3_0, owns_whole]; try rfl

end Cert.Kernel.Fr

end
-- ==== Proof.K.AttnRunA.lean ====
import proofs.«174660_j36575941493113_2_alg».proof.Proof.K.AttnRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the head index is 0: on whole staging memrefs — the five inputs at their contents, the attention-weights buffer at anything, the result buffer (which this case does not touch) at contents handed back as they were, the accumulator at anything — it runs to the continuation with the inputs as they were and each buffer it stored into holding its stores, as pieces (last first): the accumulator zeroed and then head 0's projected context added; the weights stored whole. The pieces are what the run finds. -/
noncomputable def kernelRun3_A (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) :
    Σ' (L5 : List (View.Piece (Elt F) S1x1x256x2048 .f32)) (L6 : List (View.Piece (Elt F) S1x256x1024 .f32)), { LS0 : List (View.Piece (Elt F) S256x1024 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc3__attn_fused_kernel i arg3 harg3 arg4 harg4 arg5 harg5 arg6 harg6 arg7 harg7 arg8 harg8 arg9 harg9 arg10 harg10) K } := by
  refine ⟨?_, [], ?_, fun xi6 E K => ?run⟩
  case run =>
    simp only [cc3__attn_fused_kernel_eq_skeleton]; unfold cc3__attn_fused_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

end Cert.Kernel.Fr

end
-- ==== Proof.K.AttnRunB.lean ====
import proofs.«174660_j36575941493113_2_alg».proof.Proof.K.AttnRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the head index is neither 0 nor 15: the accumulator comes in at what the point before left and goes out with this head's projected context added; the weights stored whole; the result buffer untouched. -/
noncomputable def kernelRun3_B (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    Σ' (L5 : List (View.Piece (Elt F) S1x1x256x2048 .f32)) (L6 : List (View.Piece (Elt F) S1x256x1024 .f32)), { LS0 : List (View.Piece (Elt F) S256x1024 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc3__attn_fused_kernel i arg3 harg3 arg4 harg4 arg5 harg5 arg6 harg6 arg7 harg7 arg8 harg8 arg9 harg9 arg10 harg10) K } := by
  refine ⟨?_, [], ?_, fun xi6 E K => ?run⟩
  case run =>
    simp only [cc3__attn_fused_kernel_eq_skeleton]; unfold cc3__attn_fused_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

end Cert.Kernel.Fr

end
-- ==== Proof.K.AttnRunC.lean ====
import proofs.«174660_j36575941493113_2_alg».proof.Proof.K.AttnRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the head index is 15: as the middle case, and the result buffer stored whole with the accumulator plus the bias. -/
noncomputable def kernelRun3_C (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    Σ' (L5 : List (View.Piece (Elt F) S1x1x256x2048 .f32)) (L6 : List (View.Piece (Elt F) S1x256x1024 .f32)), { LS0 : List (View.Piece (Elt F) S256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc3__attn_fused_kernel i arg3 harg3 arg4 harg4 arg5 harg5 arg6 harg6 arg7 harg7 arg8 harg8 arg9 harg9 arg10 harg10) K } := by
  refine ⟨?_, ?_, ?_, fun E K => ?run⟩
  case run =>
    simp only [cc3__attn_fused_kernel_eq_skeleton]; unfold cc3__attn_fused_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Kernel.Fr

end
-- ==== Proof.K.Attn.lean ====
import proofs.«174660_j36575941493113_2_alg».proof.Proof.K.AttnRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What each case leaves in the two outputs' staging buffers and in the accumulator

Each is the case's pieces read back; where the pieces tile the buffer the reading does not depend on what was there. -/

/-- Case A's pieces for the attention weights tile their block. -/
theorem cover3_A_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (y : S1x1x256x2048.Idx) :
    ∃ pc ∈ (kernelRun3_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun3_A c i arg3 harg3 arg4 harg4 arg5 harg5 arg6 harg6 arg7 harg7 arg8 harg8 arg9 harg9 arg10 harg10 hc0 hc1 x0 x1 x2 x3 x4).1 S1x1x256x2048.size (by sl_kernel_rfl) y

/-- What case A leaves in the attention weights' staging buffer. -/
def out3_A_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) : Vec F S1x1x256x2048 .f32 :=
  VO3_5.read (Elt F) (VO3_5.writes (Elt F) VO3_5.junk (kernelRun3_A c i arg3 harg3 arg4 harg4 arg5 harg5 arg6 harg6 arg7 harg7 arg8 harg8 arg9 harg9 arg10 harg10 hc0 hc1 x0 x1 x2 x3 x4).1)

/-- What case A leaves in the result's staging buffer (nothing is stored there in this case: the window is idle at its points and not written back, and this value is never consulted). -/
def out3_A_6 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) : Vec F S1x256x1024 .f32 :=
  VO3_6.read (Elt F) (VO3_6.writes (Elt F) VO3_6.junk (kernelRun3_A c i arg3 harg3 arg4 harg4 arg5 harg5 arg6 harg6 arg7 harg7 arg8 harg8 arg9 harg9 arg10 harg10 hc0 hc1 x0 x1 x2 x3 x4).2.1)

/-- Case A's pieces for the accumulator tile it. -/
theorem scover3_A_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (y : S256x1024.Idx) :
    ∃ pc ∈ (kernelRun3_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun3_A c i arg3 harg3 arg4 harg4 arg5 harg5 arg6 harg6 arg7 harg7 arg8 harg8 arg9 harg9 arg10 harg10 hc0 hc1 x0 x1 x2 x3 x4).2.2.1 S256x1024.size (by sl_kernel_rfl) y

/-- What case A leaves in the accumulator. -/
def sout3_A_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) : Vec F S256x1024 .f32 :=
  VS3_0.read (Elt F) (VS3_0.writes (Elt F) VS3_0.junk (kernelRun3_A c i arg3 harg3 arg4 harg4 arg5 harg5 arg6 harg6 arg7 harg7 arg8 harg8 arg9 harg9 arg10 harg10 hc0 hc1 x0 x1 x2 x3 x4).2.2.1)

/-- Case B's pieces for the attention weights tile their block. -/
theorem cover3_B_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S1x1x256x2048.Idx) :
    ∃ pc ∈ (kernelRun3_B c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun3_B c i arg3 harg3 arg4 harg4 arg5 harg5 arg6 harg6 arg7 harg7 arg8 harg8 arg9 harg9 arg10 harg10 hc0 hc1 x0 x1 x2 x3 x4 xs0).1 S1x1x256x2048.size (by sl_kernel_rfl) y

/-- What case B leaves in the attention weights' staging buffer. -/
def out3_B_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S1x1x256x2048 .f32 :=
  VO3_5.read (Elt F) (VO3_5.writes (Elt F) VO3_5.junk (kernelRun3_B c i arg3 harg3 arg4 harg4 arg5 harg5 arg6 harg6 arg7 harg7 arg8 harg8 arg9 harg9 arg10 harg10 hc0 hc1 x0 x1 x2 x3 x4 xs0).1)

/-- What case B leaves in the result's staging buffer (nothing is stored there in this case: the window is idle at its points and not written back, and this value is never consulted). -/
def out3_B_6 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S1x256x1024 .f32 :=
  VO3_6.read (Elt F) (VO3_6.writes (Elt F) VO3_6.junk (kernelRun3_B c i arg3 harg3 arg4 harg4 arg5 harg5 arg6 harg6 arg7 harg7 arg8 harg8 arg9 harg9 arg10 harg10 hc0 hc1 x0 x1 x2 x3 x4 xs0).2.1)

/-- Case B's pieces for the accumulator tile it. -/
theorem scover3_B_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S256x1024.Idx) :
    ∃ pc ∈ (kernelRun3_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun3_B c i arg3 harg3 arg4 harg4 arg5 harg5 arg6 harg6 arg7 harg7 arg8 harg8 arg9 harg9 arg10 harg10 hc0 hc1 x0 x1 x2 x3 x4 xs0).2.2.1 S256x1024.size (by sl_kernel_rfl) y

/-- What case B leaves in the accumulator. -/
def sout3_B_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S256x1024 .f32 :=
  VS3_0.read (Elt F) (VS3_0.writes (Elt F) VS3_0.junk (kernelRun3_B c i arg3 harg3 arg4 harg4 arg5 harg5 arg6 harg6 arg7 harg7 arg8 harg8 arg9 harg9 arg10 harg10 hc0 hc1 x0 x1 x2 x3 x4 xs0).2.2.1)

/-- Case C's pieces for the attention weights tile their block. -/
theorem cover3_C_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S1x1x256x2048.Idx) :
    ∃ pc ∈ (kernelRun3_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).1 S1x1x256x2048.size (by sl_kernel_rfl) y

/-- What case C leaves in the attention weights' staging buffer. -/
def out3_C_5 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S1x1x256x2048 .f32 :=
  VO3_5.read (Elt F) (VO3_5.writes (Elt F) VO3_5.junk (kernelRun3_C c i arg3 harg3 arg4 harg4 arg5 harg5 arg6 harg6 arg7 harg7 arg8 harg8 arg9 harg9 arg10 harg10 hc0 hc1 x0 x1 x2 x3 x4 xs0).1)

/-- Case C's pieces for the result tile its block. -/
theorem cover3_C_6 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S1x256x1024.Idx) :
    ∃ pc ∈ (kernelRun3_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).2.1 S1x256x1024.size (by sl_kernel_rfl) y

/-- What case C leaves in the result's staging buffer. -/
def out3_C_6 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S1x256x1024 .f32 :=
  VO3_6.read (Elt F) (VO3_6.writes (Elt F) VO3_6.junk (kernelRun3_C c i arg3 harg3 arg4 harg4 arg5 harg5 arg6 harg6 arg7 harg7 arg8 harg8 arg9 harg9 arg10 harg10 hc0 hc1 x0 x1 x2 x3 x4 xs0).2.1)

/-- Case C's pieces for the accumulator tile it. -/
theorem scover3_C_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) (y : S256x1024.Idx) :
    ∃ pc ∈ (kernelRun3_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun3_C c i arg3 harg3 arg4 harg4 arg5 harg5 arg6 harg6 arg7 harg7 arg8 harg8 arg9 harg9 arg10 harg10 hc0 hc1 x0 x1 x2 x3 x4 xs0).2.2.1 S256x1024.size (by sl_kernel_rfl) y

/-- What case C leaves in the accumulator. -/
def sout3_C_0 (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) : Vec F S256x1024 .f32 :=
  VS3_0.read (Elt F) (VS3_0.writes (Elt F) VS3_0.junk (kernelRun3_C c i arg3 harg3 arg4 harg4 arg5 harg5 arg6 harg6 arg7 harg7 arg8 harg8 arg9 harg9 arg10 harg10 hc0 hc1 x0 x1 x2 x3 x4 xs0).2.2.1)

/-! ## What the outputs and the accumulator hold after each point -/

/-- After the body at position n: the attention weights' buffer, the result's buffer, the accumulator — the case the
    point's head index selects, run on the point's input blocks, the accumulator taken at what position n - 1 left. -/
def outsAt3 (c : Dev nD) : (n : ℕ) → n < cfg3.N → Vec F S1x1x256x2048 .f32 × Vec F S1x256x1024 .f32 × Vec F S256x1024 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 16 = 0 then
      if h1 : (n + 1) % 16 = 15 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if h1 : (n + 1) % 16 = 15 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2.2)

theorem outsAt3_A (c : Dev nD) (t : Fin cfg3.N) (h0 : t.val % 16 = 0) (h1 : ¬t.val % 16 = 15) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2, out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2, out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point, every scoped buffer that is no staging buffer of
    the region at anything; afterwards the same with the accumulator at what the point before left in it. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2.2)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2.2)) ∗ (∃ r, prngReg c r)) := rfl

theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c (n - 1) (by omega)).2.2)) ∗ (∃ r, prngReg c r)) := by
  cases n with
  | zero => exact absurd rfl hz
  | succ n => rfl

/-! ## The proof data -/

/-- Region 3's proof data on core c: the arrays as the region finds them; after the body at point t each input's buffer
    at its block, the two outputs' at what the accumulation says; the invariant carrying the accumulator. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
    | ⟨6, _⟩ => (outsAt3 V c t.val t.isLt).2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem hq3 (c : Dev nD) (w : Fin cfg3.W) : (dat3 V c).q w = fullShare := rfl
theorem howed3 (c : Dev nD) (t : Fin (cfg3.N + 1)) : (dat3 V c).owed t = 0 := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 8000000 in
/-- The body at any point: the inputs' memrefs hold their blocks; the head index says which case the point is in; the
    invariant hands the body the accumulator at what the point before left (at anything before the first point) and
    takes it back at this point's contents; nothing is owed throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 256 := lt_of_lt_of_eq t.isLt (show cfg3.N = 256 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  by_cases h0 : t.val % 16 = 0
  · by_cases h1 : t.val % 16 = 15
    · exfalso; omega
    · rw [Dat.leavesExact_idle (dat3 V c) 6 t (idleAt3_6_A t ((hcond3_0 t).mpr h0) (fun h => h1 ((hcond3_1 t).mp h))) (noFlush3_6_A t ((hcond3_0 t).mpr h0) (fun h => h1 ((hcond3_1 t).mp h)))]
      rw [outsAt3_A V c t h0 h1]
      unfold out3_A_5 sout3_A_0; (try dsimp only)
      by_cases hz : t.val = 0
      · rw [PhiS3_castSucc V c t, PhiS3_zero V c _ _ hz, PhiA3_eq]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨H0, H1, H2, H3, H4, ⟨%e5, H5⟩, H6, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          · unfold owns; iexists _; isplitr
            swap; · iexact HS0
            ipureintro; exact View.read_writes_of_cover _ _ _ _ _ (scover3_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_A_5 c _ _ _ _ _ _ _ _ _ _ _ _ _ _ _ _ _ _ _ _ _ _ _ _)
        iexists _; iexact H6
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexists _; iexact HS0
        iintro ⟨H0, H1, H2, H3, H4, ⟨%e5, H5⟩, H6, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          · unfold owns; iexists _; isplitr
            swap; · iexact HS0
            ipureintro; exact View.read_writes_of_cover _ _ _ _ _ (scover3_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_A_5 c _ _ _ _ _ _ _ _ _ _ _ _ _ _ _ _ _ _ _ _ _ _ _ _)
        iexists _; iexact H6
  · by_cases h1 : t.val % 16 = 15
    · rw [show (dat3 V c).leavesExact 6 t = owns (c : Thread nD τ) (ms3_6 t) fullShare ((dat3 V c).after 6 t) from by
        unfold Dat.leavesExact; rw [liveAt3_6_C t (fun h => h0 ((hcond3_0 t).mp h)) ((hcond3_1 t).mpr h1)], after3_6]
      rw [outsAt3_C V c t h0 h1]
      unfold out3_C_5 out3_C_6 sout3_C_0; (try dsimp only)
      have hz : t.val ≠ 0 := by omega
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          · unfold owns; iexists _; isplitr
            swap; · iexact HS0
            ipureintro; exact View.read_writes_of_cover _ _ _ _ _ (scover3_C_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_C_5 c _ _ _ _ _ _ _ _ _ _ _ _ _ _ _ _ _ _ _ _ _ _ _ _ _)
        unfold owns; iexists _; isplitr
        swap; · iexact H6
        ipureintro; exact View.read_writes_of_cover _ _ _ _ _ (cover3_C_6 c _ _ _ _ _ _ _ _ _ _ _ _ _ _ _ _ _ _ _ _ _ _ _ _ _)
    · rw [Dat.leavesExact_idle (dat3 V c) 6 t (idleAt3_6_B t (fun h => h0 ((hcond3_0 t).mp h)) (fun h => h1 ((hcond3_1 t).mp h))) (noFlush3_6_B t (fun h => h0 ((hcond3_0 t).mp h)) (fun h => h1 ((hcond3_1 t).mp h)))]
      rw [outsAt3_B V c t h0 h1]
      unfold out3_B_5 sout3_B_0; (try dsimp only)
      have hz : t.val ≠ 0 := by omega
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        iintro ⟨H0, H1, H2, H3, H4, ⟨%e5, H5⟩, H6, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          · unfold owns; iexists _; isplitr
            swap; · iexact HS0
            ipureintro; exact View.read_writes_of_cover _ _ _ _ _ (scover3_B_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover3_B_5 c _ _ _ _ _ _ _ _ _ _ _ _ _ _ _ _ _ _ _ _ _ _ _ _ _)
        iexists _; iexact H6

/-- The body obligation at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives that back: the accumulator's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

theorem hout3 (c : Dev nD) : (dat3 V c).Φ (Fin.last cfg3.N) ⊢ (Pipeline.ΦA spec3 c : sProp 𝕄) :=
  Phi_out3 V c _ (by rw [Fin.val_last]; have : cfg3.N = 256 := N_3; omega)

end Cert.Kernel.Fr

end
-- ==== Proof.KI.AttnPieces.lean ====
import proofs.«174660_j36575941493113_2_alg».proof.Proof.KI.Attn
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## Each case's stores, read back, are the body's arithmetic on the input blocks

Every store of the body writes a whole buffer, so a buffer's contents after the body are the last store's value; a load
of the accumulator after a store into it reads that store's value. -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

theorem out3_A_5_eq (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) :
    out3_A_5 c i arg3 harg3 arg4 harg4 arg5 harg5 arg6 harg6 arg7 harg7 arg8 harg8 arg9 harg9 arg10 harg10 hc0 hc1 x0 x1 x2 x3 x4 = k3_pay5 x0 x1 := by
  unfold out3_A_5
  rw [View.read_writes_junk_eq_canon]
  unfold kernelRun3_A; dsimp only; (try sl_unfold_words)
  rw [View.canon_unit_zero hz4]
  simp only [View.readAt_eq_ld, harg3.read_unread, harg4.read_unread, harg5.read_unread, harg6.read_unread, harg7.read_unread, harg10.read_unread, View.ld_unit_zero (S := S1x1x256x64) hz4, View.ld_unit_zero (S := S1x1x2048x64) hz4, View.ld_unit_zero (S := S1x64x1024) hz3, View.ld_unit_zero (S := S1x1024) hz2, View.ld_unit_zero (S := S256x1024) hz2]

theorem out3_B_5_eq (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    out3_B_5 c i arg3 harg3 arg4 harg4 arg5 harg5 arg6 harg6 arg7 harg7 arg8 harg8 arg9 harg9 arg10 harg10 hc0 hc1 x0 x1 x2 x3 x4 xs0 = k3_pay5 x0 x1 := by
  unfold out3_B_5
  rw [View.read_writes_junk_eq_canon]
  unfold kernelRun3_B; dsimp only; (try sl_unfold_words)
  rw [View.canon_unit_zero hz4]
  simp only [View.readAt_eq_ld, harg3.read_unread, harg4.read_unread, harg5.read_unread, harg6.read_unread, harg7.read_unread, harg10.read_unread, View.ld_unit_zero (S := S1x1x256x64) hz4, View.ld_unit_zero (S := S1x1x2048x64) hz4, View.ld_unit_zero (S := S1x64x1024) hz3, View.ld_unit_zero (S := S1x1024) hz2, View.ld_unit_zero (S := S256x1024) hz2]

theorem out3_C_5_eq (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    out3_C_5 c i arg3 harg3 arg4 harg4 arg5 harg5 arg6 harg6 arg7 harg7 arg8 harg8 arg9 harg9 arg10 harg10 hc0 hc1 x0 x1 x2 x3 x4 xs0 = k3_pay5 x0 x1 := by
  unfold out3_C_5
  rw [View.read_writes_junk_eq_canon]
  unfold kernelRun3_C; dsimp only; (try sl_unfold_words)
  rw [View.canon_unit_zero hz4]
  simp only [View.readAt_eq_ld, harg3.read_unread, harg4.read_unread, harg5.read_unread, harg6.read_unread, harg7.read_unread, harg10.read_unread, View.ld_unit_zero (S := S1x1x256x64) hz4, View.ld_unit_zero (S := S1x1x2048x64) hz4, View.ld_unit_zero (S := S1x64x1024) hz3, View.ld_unit_zero (S := S1x1024) hz2, View.ld_unit_zero (S := S256x1024) hz2]

set_option maxHeartbeats 2000000 in
set_option maxHeartbeats 2000000 in
set_option maxHeartbeats 2000000 in
set_option maxHeartbeats 2000000 in
/-- Where the head index is 0 the accumulator ends at the zeros plus head 0's projected context. -/
theorem sout3_A_0_eq (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) :
    sout3_A_0 c i arg3 harg3 arg4 harg4 arg5 harg5 arg6 harg6 arg7 harg7 arg8 harg8 arg9 harg9 arg10 harg10 hc0 hc1 x0 x1 x2 x3 x4 = k3_pay1 (k3_pay6 x3) (k3_pay7 x0 x1 x2) (k3_pay3 (F := F)) := by
  unfold sout3_A_0
  rw [View.read_writes_junk_eq_canon]
  unfold kernelRun3_A; dsimp only; (try sl_unfold_words)
  rw [View.canon_cons_unit_zero hz2]
  simp only [View.readAt_eq_ld, harg3.read_unread, harg4.read_unread, harg5.read_unread, harg6.read_unread, harg7.read_unread, harg10.read_unread, View.ld_unit_zero (S := S1x1x256x64) hz4, View.ld_unit_zero (S := S1x1x2048x64) hz4, View.ld_unit_zero (S := S1x64x1024) hz3, View.ld_unit_zero (S := S1x1024) hz2, View.ld_unit_zero (S := S256x1024) hz2]
  rw [View.readCov_unit_zero _ hz2]

/-- Elsewhere it ends at what it held plus this head's projected context. -/
theorem sout3_B_0_eq (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : ¬cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    sout3_B_0 c i arg3 harg3 arg4 harg4 arg5 harg5 arg6 harg6 arg7 harg7 arg8 harg8 arg9 harg9 arg10 harg10 hc0 hc1 x0 x1 x2 x3 x4 xs0 = k3_pay1 (k3_pay6 x3) (k3_pay7 x0 x1 x2) xs0 := by
  unfold sout3_B_0
  rw [View.read_writes_junk_eq_canon]
  unfold kernelRun3_B; dsimp only; (try sl_unfold_words)
  rw [View.canon_unit_zero hz2]
  simp only [View.readAt_eq_ld, harg3.read_unread, harg4.read_unread, harg5.read_unread, harg6.read_unread, harg7.read_unread, harg10.read_unread, View.ld_unit_zero (S := S1x1x256x64) hz4, View.ld_unit_zero (S := S1x1x2048x64) hz4, View.ld_unit_zero (S := S1x64x1024) hz3, View.ld_unit_zero (S := S1x1024) hz2, View.ld_unit_zero (S := S256x1024) hz2]

theorem sout3_C_0_eq (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    sout3_C_0 c i arg3 harg3 arg4 harg4 arg5 harg5 arg6 harg6 arg7 harg7 arg8 harg8 arg9 harg9 arg10 harg10 hc0 hc1 x0 x1 x2 x3 x4 xs0 = k3_pay1 (k3_pay6 x3) (k3_pay7 x0 x1 x2) xs0 := by
  unfold sout3_C_0
  rw [View.read_writes_junk_eq_canon]
  unfold kernelRun3_C; dsimp only; (try sl_unfold_words)
  rw [View.canon_unit_zero hz2]
  simp only [View.readAt_eq_ld, harg3.read_unread, harg4.read_unread, harg5.read_unread, harg6.read_unread, harg7.read_unread, harg10.read_unread, View.ld_unit_zero (S := S1x1x256x64) hz4, View.ld_unit_zero (S := S1x1x2048x64) hz4, View.ld_unit_zero (S := S1x64x1024) hz3, View.ld_unit_zero (S := S1x1024) hz2, View.ld_unit_zero (S := S256x1024) hz2]

/-- Where the head index is 15 the result's buffer ends at the accumulator's new contents plus the bias. -/
theorem out3_C_6_eq (c : Dev nD) (i : grid3.Coords) (arg3 : Memref sig .tc .vmem S1x1x256x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x64x1024 .bf16) (harg6 : arg6.IsWhole) (arg7 : Memref sig .tc .vmem S1x1024 .f32) (harg7 : arg7.IsWhole) (arg8 : Memref sig .tc .vmem S1x1x256x2048 .f32) (harg8 : arg8.IsWhole) (arg9 : Memref sig .tc .vmem S1x256x1024 .f32) (harg9 : arg9.IsWhole) (arg10 : Memref sig .tc .vmem S256x1024 .f32) (harg10 : arg10.IsWhole) (hc0 : ¬cond3_0 i) (hc1 : cond3_1 i)
    (x0 : Vec F S1x1x256x64 .bf16) (x1 : Vec F S1x1x2048x64 .bf16) (x2 : Vec F S1x1x2048x64 .bf16) (x3 : Vec F S1x64x1024 .bf16) (x4 : Vec F S1x1024 .f32) (xs0 : Vec F S256x1024 .f32) :
    out3_C_6 c i arg3 harg3 arg4 harg4 arg5 harg5 arg6 harg6 arg7 harg7 arg8 harg8 arg9 harg9 arg10 harg10 hc0 hc1 x0 x1 x2 x3 x4 xs0 = k3_pay2 (k3_pay1 (k3_pay6 x3) (k3_pay7 x0 x1 x2) xs0) x4 := by
  unfold out3_C_6
  rw [View.read_writes_junk_eq_canon]
  unfold kernelRun3_C; dsimp only; (try sl_unfold_words)
  rw [View.canon_unit_zero hz3]
  simp only [View.readAt_eq_ld, harg3.read_unread, harg4.read_unread, harg5.read_unread, harg6.read_unread, harg7.read_unread, harg10.read_unread, View.ld_unit_zero (S := S1x1x256x64) hz4, View.ld_unit_zero (S := S1x1x2048x64) hz4, View.ld_unit_zero (S := S1x64x1024) hz3, View.ld_unit_zero (S := S1x1024) hz2, View.ld_unit_zero (S := S256x1024) hz2]
  rw [View.readCov_unit_zero _ hz2]

/-! ## The proof data, point by point, in the body's arithmetic -/

/-- The accumulator after the body at position n. -/
def acc3 (c : Dev nD) (n : ℕ) (hn : n < cfg3.N) : Vec F S256x1024 .f32 := (outsAt3 V c n hn).2.2

/-- The attention weights' buffer after the body at any point: the softmax payload of the point's query and key blocks. -/
theorem after3_5_pay (c : Dev nD) (t : Fin cfg3.N) :
    (dat3 V c).after 5 t = k3_pay5 (iblk3 V c 0 t) (iblk3 V c 1 t) := by
  rw [after3_5]
  by_cases h0 : t.val % 16 = 0
  · have h1 : ¬t.val % 16 = 15 := by omega
    rw [outsAt3_A V c t h0 h1]; dsimp only
    exact out3_A_5_eq (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)
  · by_cases h1 : t.val % 16 = 15
    · rw [outsAt3_C V c t h0 h1]; dsimp only
      exact out3_C_5_eq (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2
    · rw [outsAt3_B V c t h0 h1]; dsimp only
      exact out3_B_5_eq (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2

/-- The accumulator where the head index is 0. -/
theorem acc3_first (c : Dev nD) (t : Fin cfg3.N) (h0 : t.val % 16 = 0) :
    acc3 V c t.val t.isLt = k3_pay1 (k3_pay6 (iblk3 V c 3 t)) (k3_pay7 (iblk3 V c 0 t) (iblk3 V c 1 t) (iblk3 V c 2 t)) (k3_pay3 (F := F)) := by
  have h1 : ¬t.val % 16 = 15 := by omega
  unfold acc3
  rw [outsAt3_A V c t h0 h1]; dsimp only
  exact sout3_A_0_eq (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)

/-- The accumulator elsewhere: the point before's, plus this head's projected context. -/
theorem acc3_next (c : Dev nD) (t : Fin cfg3.N) (h0 : t.val % 16 ≠ 0) :
    acc3 V c t.val t.isLt = k3_pay1 (k3_pay6 (iblk3 V c 3 t)) (k3_pay7 (iblk3 V c 0 t) (iblk3 V c 1 t) (iblk3 V c 2 t))
      (acc3 V c (t.val - 1) (Nat.lt_of_le_of_lt (Nat.sub_le _ _) t.isLt)) := by
  unfold acc3
  by_cases h1 : t.val % 16 = 15
  · rw [outsAt3_C V c t h0 h1]; dsimp only
    exact sout3_C_0_eq (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2
  · rw [outsAt3_B V c t h0 h1]; dsimp only
    exact sout3_B_0_eq (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.2

/-- The result's buffer where the head index is 15: the accumulator plus the bias. -/
theorem after3_6_pay (c : Dev nD) (t : Fin cfg3.N) (h1 : t.val % 16 = 15) :
    (dat3 V c).after 6 t = k3_pay2 (acc3 V c t.val t.isLt) (iblk3 V c 4 t) := by
  have h0 : ¬t.val % 16 = 0 := by omega
  rw [after3_6, acc3_next V c t h0]
  unfold acc3
  rw [outsAt3_C V c t h0 h1]; dsimp only
  exact out3_C_6_eq (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2.2

end Cert.KernelIdeal.Fr

end
-- ==== Proof.Val.AttnSpecHM.lean ====
/-
  The attention block's closed functions over the extended reals, for head-major operands: the projected
  activations as arrays [16, 2, 2048, 64] read at (head, batch, row, lane), the output weights as an array
  [16, 64, 1024] read at (head, lane, column), the output bias as a row [1, 1024]. Per batch b, head h, query row q:
    score k  = (Σ_d Q[h,b,q,d] · K[h,b,k,d]) · c          (c the scaling word, kept as written)
    rowmax   = the maximum of the row's scores, from the word for −∞
    pexp k   = exp (score k − rowmax),   denom = (the zero word) + Σ_k pexp k,   attn k = pexp k / denom
    ctx d    = Σ_k attn k · V[h,b,k,d]
    out e    = (Σ_h Σ_d ctx h d · Wo[h,d,e]) + bo[0,e].
-/
import Idealize.ShloMosaic.PureOps.Ideal
import Idealize.ShloMosaic.Lib.ValueIdx

noncomputable section

open scoped BigOperators

namespace Cert.KernelIdeal.Val

open Idealize.ShloMosaic Idealize.ShloMosaic.ValueIdx

/-- A projected activation laid out head-major: [16, 2, 2048, 64]. -/
abbrev ActHM : Type := (⟨4, ![16, 2, 2048, 64]⟩ : Shape).Idx → EReal
/-- The output weights per head: [16, 64, 1024]. -/
abbrev WoHM : Type := (⟨3, ![16, 64, 1024]⟩ : Shape).Idx → EReal
/-- The output bias as a row: [1, 1024]. -/
abbrev BiasRow : Type := (⟨2, ![1, 1024]⟩ : Shape).Idx → EReal

/-- The scaled score of query row `q` against key row `k` in head `h` of batch `b`. -/
def scoreHM (Qh Kh : ActHM) (b : Fin 2) (h : Fin 16) (q k : Fin 2048) : EReal :=
  (∑ d : Fin 64, Qh (ix4 h b q d) * Kh (ix4 h b k d)) * Ideal.ofBits .f32 0x3E000000#32

/-- The maximum of row `q`'s scores, from −∞. -/
def rowmaxHM (Qh Kh : ActHM) (b : Fin 2) (h : Fin 16) (q : Fin 2048) : EReal :=
  (Finset.univ : Finset (Fin 2048)).fold max (Ideal.ofBits .f32 0xFF800000#32) (scoreHM Qh Kh b h q)

/-- The exponential of a score less its row's maximum. -/
def pexpHM (Qh Kh : ActHM) (b : Fin 2) (h : Fin 16) (q k : Fin 2048) : EReal :=
  Ideal.exp (scoreHM Qh Kh b h q k - rowmaxHM Qh Kh b h q)

/-- The row's normaliser: zero plus the sum of the row's exponentials. -/
def denomHM (Qh Kh : ActHM) (b : Fin 2) (h : Fin 16) (q : Fin 2048) : EReal :=
  Ideal.ofBits .f32 0x00000000#32 + ∑ k : Fin 2048, pexpHM Qh Kh b h q k

/-- The attention weight: the softmax of the row of scores. -/
def attnHM (Qh Kh : ActHM) (b : Fin 2) (h : Fin 16) (q k : Fin 2048) : EReal :=
  Ideal.div (pexpHM Qh Kh b h q k) (denomHM Qh Kh b h q)

/-- The context: the row's weights applied to the head's values. -/
def ctxHM (Qh Kh Vh : ActHM) (b : Fin 2) (h : Fin 16) (q : Fin 2048) (d : Fin 64) : EReal :=
  ∑ k : Fin 2048, attnHM Qh Kh b h q k * Vh (ix4 h b k d)

/-- The output projection of the heads' contexts, plus the bias. -/
def outHM (Qh Kh Vh : ActHM) (Woh : WoHM) (bo2 : BiasRow) (b : Fin 2) (q : Fin 2048) (e : Fin 1024) : EReal :=
  (∑ h : Fin 16, ∑ d : Fin 64, ctxHM Qh Kh Vh b h q d * Woh (ix3 h d e)) + bo2 (ix2 (0 : Fin 1) e)

end Cert.KernelIdeal.Val

end
-- ==== Proof.Val.AttnLayout.lean ====
/-
  Layout operations read at an index given by coordinates, for the shapes the attention block uses:
  two leading unit axes dropped from or added to a matrix, a vector turned into a column, and a column
  repeated along the rows' second axis.
-/
import Idealize.ShloMosaic.Lib.ValueLayout

namespace Cert.KernelIdeal.Val

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Val
-- ==== Proof.Val.AttnPay4.lean ====
/-
  The attention weights of one (batch, query tile, head) block, read at an index over the extended reals.
  With q a query row of the tile, k a key row and d a lane of the head:
    score q k = (Σ_d Q[q,d] · K[k,d]) · c        (c the scaling word, kept as written)
    rowmax q  = the maximum over k of score q k, from the word for −∞
    pexp q k  = exp (score q k − rowmax q)
    denom q   = (the zero word) + Σ_k pexp q k
    attn q k  = pexp q k / denom q.
-/
import proofs.«174660_j36575941493113_2_alg».proof.Proof.Gen.KernelIdeal.Skeleton
import proofs.«174660_j36575941493113_2_alg».proof.Proof.Val.AttnLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.ValueIdx

/-! ## The closed functions of the query block and the key block -/

/-- The scaled score of query row `q` against key row `k`. -/
def blkScore (x3 : Vec Ideal S1x1x256x64 .bf16) (x5 : Vec Ideal S1x1x2048x64 .bf16) (q : Fin 256) (k : Fin 2048) : EReal :=
  (∑ d : Fin 64, x3 (ix4 (0 : Fin 1) (0 : Fin 1) q d) * x5 (ix4 (0 : Fin 1) (0 : Fin 1) k d)) * Ideal.ofBits .f32 0x3E000000#32

/-- The maximum of row `q`'s scores, from −∞. -/
def blkMax (x3 : Vec Ideal S1x1x256x64 .bf16) (x5 : Vec Ideal S1x1x2048x64 .bf16) (q : Fin 256) : EReal :=
  (Finset.univ : Finset (Fin 2048)).fold max (Ideal.ofBits .f32 0xFF800000#32) (blkScore x3 x5 q)

/-- The exponential of a score less its row's maximum. -/
def blkPexp (x3 : Vec Ideal S1x1x256x64 .bf16) (x5 : Vec Ideal S1x1x2048x64 .bf16) (q : Fin 256) (k : Fin 2048) : EReal :=
  Ideal.exp (blkScore x3 x5 q k - blkMax x3 x5 q)

/-- The row's normaliser: zero plus the sum of the row's exponentials. -/
def blkDenom (x3 : Vec Ideal S1x1x256x64 .bf16) (x5 : Vec Ideal S1x1x2048x64 .bf16) (q : Fin 256) : EReal :=
  Ideal.ofBits .f32 0x00000000#32 + ∑ k : Fin 2048, blkPexp x3 x5 q k

/-- The attention weight. -/
def blkAttn (x3 : Vec Ideal S1x1x256x64 .bf16) (x5 : Vec Ideal S1x1x2048x64 .bf16) (q : Fin 256) (k : Fin 2048) : EReal :=
  Ideal.div (blkPexp x3 x5 q k) (blkDenom x3 x5 q)

/-! ## The score product: [256, 64] by [2048, 64], both contracted on the lane axis -/

theorem pay4_lhs0 (j : S256x2048.Idx) (κ : dot_S256x64_S2048x64_S256x2048_1_1_0_0_n_n.contr.Idx) :
    (dot_S256x64_S2048x64_S256x2048_1_1_0_0_n_n.lhsIdx j κ 0).val = (j 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
theorem pay4_lhs1 (j : S256x2048.Idx) (κ : dot_S256x64_S2048x64_S256x2048_1_1_0_0_n_n.contr.Idx) :
    (dot_S256x64_S2048x64_S256x2048_1_1_0_0_n_n.lhsIdx j κ 1).val = (κ ⟨0, by decide⟩).val :=
  dot_S256x64_S2048x64_S256x2048_1_1_0_0_n_n.lhsIdx_val_of_single rfl j κ
theorem pay4_rhs0 (j : S256x2048.Idx) (κ : dot_S256x64_S2048x64_S256x2048_1_1_0_0_n_n.contr.Idx) :
    (dot_S256x64_S2048x64_S256x2048_1_1_0_0_n_n.rhsIdx j κ 0).val = (j 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
theorem pay4_rhs1 (j : S256x2048.Idx) (κ : dot_S256x64_S2048x64_S256x2048_1_1_0_0_n_n.contr.Idx) :
    (dot_S256x64_S2048x64_S256x2048_1_1_0_0_n_n.rhsIdx j κ 1).val = (κ ⟨0, by decide⟩).val :=
  dot_S256x64_S2048x64_S256x2048_1_1_0_0_n_n.rhsIdx_val_of_single rfl j κ

theorem pay4_lhs (q : Fin 256) (k : Fin 2048) (d : Fin 64) :
    dot_S256x64_S2048x64_S256x2048_1_1_0_0_n_n.lhsIdx (ix2 q k) ((contrEquiv1 dot_S256x64_S2048x64_S256x2048_1_1_0_0_n_n 64 rfl rfl).symm d) = ix2 q d :=
  funext fun a => Fin.ext (by
    match a with
    | ⟨0, _⟩ => exact pay4_lhs0 _ _
    | ⟨1, _⟩ => exact (pay4_lhs1 _ _).trans (contrEquiv1_symm_val dot_S256x64_S2048x64_S256x2048_1_1_0_0_n_n 64 rfl rfl d))

theorem pay4_rhs (q : Fin 256) (k : Fin 2048) (d : Fin 64) :
    dot_S256x64_S2048x64_S256x2048_1_1_0_0_n_n.rhsIdx (ix2 q k) ((contrEquiv1 dot_S256x64_S2048x64_S256x2048_1_1_0_0_n_n 64 rfl rfl).symm d) = ix2 k d :=
  funext fun a => Fin.ext (by
    match a with
    | ⟨0, _⟩ => exact pay4_rhs0 _ _
    | ⟨1, _⟩ => exact (pay4_rhs1 _ _).trans (contrEquiv1_symm_val dot_S256x64_S2048x64_S256x2048_1_1_0_0_n_n 64 rfl rfl d))

/-! ## The block's vectors, named -/

/-- The scores as a vector. -/
def scoresV (x3 : Vec Ideal S1x1x256x64 .bf16) (x5 : Vec Ideal S1x1x2048x64 .bf16) : FVec Ideal S256x2048 .f32 :=
  mulf (matmul dot_S256x64_S2048x64_S256x2048_1_1_0_0_n_n none (shapeCast S256x64 x3 shapeCasts_S1x1x256x64_S256x64 : FVec Ideal S256x64 .bf16)
      (shapeCast S2048x64 x5 shapeCasts_S1x1x2048x64_S2048x64 : FVec Ideal S2048x64 .bf16) (constant S256x2048 .f32 0x00000000#32))
    (broadcast S256x2048 (Scalar.ofBits .f32 0x3E000000#32))

/-- The exponentials as a vector. -/
def pexpV (x3 : Vec Ideal S1x1x256x64 .bf16) (x5 : Vec Ideal S1x1x2048x64 .bf16) : FVec Ideal S256x2048 .f32 :=
  exp (subf (scoresV x3 x5)
    (broadcastTo S256x2048
      (shapeCast S256x1 (multiReduction .maximumf [1] S256 (scoresV x3 x5) 0xFF800000#32 reduces_S256x2048_S256 (.inl rfl) rfl)
        shapeCasts_S256_S256x1)
      broadcasts_S256x1_S256x2048))

/-- The payload is the quotient of the exponentials by their row sums. -/
theorem k3_pay4_eq (x3 : Vec Ideal S1x1x256x64 .bf16) (x5 : Vec Ideal S1x1x2048x64 .bf16) :
    k3_pay4 x3 x5 = divf (pexpV x3 x5)
      (broadcastTo S256x2048
        (shapeCast S256x1 (multiReduction .add [1] S256 (pexpV x3 x5) 0x00000000#32 reduces_S256x2048_S256 (.inl rfl) rfl)
          shapeCasts_S256_S256x1)
        broadcasts_S256x1_S256x2048) := rfl

/-! ## The two lane reductions read at a row -/

/-- The reduced index with the lane coordinate put back is the pair (row, lane). -/
theorem lift_row (q : Fin 256) (k : Fin 2048) : reduces_S256x2048_S256.lift (ix1 q) k = ix2 q k :=
  funext fun a => Fin.ext (by
    match a with
    | ⟨0, _⟩ => rfl
    | ⟨1, _⟩ => rfl)

/-- A row maximum from −∞ is the fold of `max` over the row's 2048 entries. -/
theorem rowmax_read (src : FVec Ideal S256x2048 .f32) (q : Fin 256) :
    multiReduction .maximumf [1] S256 src 0xFF800000#32 reduces_S256x2048_S256 (.inl rfl) rfl (ix1 q)
      = (Finset.univ : Finset (Fin 2048)).fold max (Ideal.ofBits .f32 0xFF800000#32) (fun k => src (ix2 q k)) := by
  refine (Ideal.multiReduction_maximumf_single src 0xFF800000#32 reduces_S256x2048_S256 (.inl rfl) rfl (ix1 q)).trans ?_
  show (Finset.univ : Finset (Fin 2048)).fold max (Ideal.ofBits .f32 0xFF800000#32)
    (fun k => src (reduces_S256x2048_S256.lift (ix1 q) k)) = _
  exact congrArg (fun f : Fin 2048 → EReal => (Finset.univ : Finset (Fin 2048)).fold max (Ideal.ofBits .f32 0xFF800000#32) f)
    (funext fun k => congrArg src (lift_row q k))

/-- A row sum is the sum over the row's 2048 entries. -/
theorem rowsum_read (src : FVec Ideal S256x2048 .f32) (q : Fin 256) :
    multiReduction .add [1] S256 src 0x00000000#32 reduces_S256x2048_S256 (.inl rfl) rfl (ix1 q)
      = ∑ k : Fin 2048, src (ix2 q k) := by
  refine (Ideal.multiReduction_add_single src 0x00000000#32 reduces_S256x2048_S256 (.inl rfl) rfl (ix1 q)).trans ?_
  show ∑ k : Fin 2048, src (reduces_S256x2048_S256.lift (ix1 q) k) = _
  exact Finset.sum_congr rfl fun k _ => congrArg src (lift_row q k)

/-! ## The block read at an index -/

theorem scoresV_apply (x3 : Vec Ideal S1x1x256x64 .bf16) (x5 : Vec Ideal S1x1x2048x64 .bf16) (q : Fin 256) (k : Fin 2048) :
    scoresV x3 x5 (ix2 q k) = blkScore x3 x5 q k := by
  unfold scoresV blkScore
  rw [mulf_apply, broadcast_apply]
  refine congrArg (· * Ideal.ofBits .f32 0x3E000000#32) ?_
  refine (Ideal.matmul_constant_zero_apply dot_S256x64_S2048x64_S256x2048_1_1_0_0_n_n none _ _ (ix2 q k)).trans ?_
  rw [← Equiv.sum_comp (contrEquiv1 dot_S256x64_S2048x64_S256x2048_1_1_0_0_n_n 64 rfl rfl).symm]
  refine Finset.sum_congr rfl fun d _ => ?_
  rw [pay4_lhs, pay4_rhs, shapeCast_11ab_ab_apply, shapeCast_11ab_ab_apply]

theorem pexpV_apply (x3 : Vec Ideal S1x1x256x64 .bf16) (x5 : Vec Ideal S1x1x2048x64 .bf16) (q : Fin 256) (k : Fin 2048) :
    pexpV x3 x5 (ix2 q k) = blkPexp x3 x5 q k := by
  unfold pexpV blkPexp blkMax
  show Ideal.exp (scoresV x3 x5 (ix2 q k) - broadcastTo S256x2048
      (shapeCast S256x1 (multiReduction .maximumf [1] S256 (scoresV x3 x5) 0xFF800000#32 reduces_S256x2048_S256 (.inl rfl) rfl)
        shapeCasts_S256_S256x1) broadcasts_S256x1_S256x2048 (ix2 q k)) = _
  rw [broadcastTo_a1_ab_apply, shapeCast_a_a1_apply, rowmax_read, scoresV_apply]
  exact congrArg (fun f : Fin 2048 → EReal => Ideal.exp (blkScore x3 x5 q k
      - (Finset.univ : Finset (Fin 2048)).fold max (Ideal.ofBits .f32 0xFF800000#32) f))
    (funext fun k' => scoresV_apply x3 x5 q k')

/-- The attention weights of the block at (query row, key row). -/
theorem k3_pay4_apply (x3 : Vec Ideal S1x1x256x64 .bf16) (x5 : Vec Ideal S1x1x2048x64 .bf16) (q : Fin 256) (k : Fin 2048) :
    k3_pay4 x3 x5 (ix2 q k) = blkAttn x3 x5 q k := by
  rw [k3_pay4_eq, divf_apply, broadcastTo_a1_ab_apply, shapeCast_a_a1_apply, rowsum_read, pexpV_apply]
  unfold blkAttn blkDenom
  rw [Ideal.ofBits_zero_f32, zero_add]
  exact congrArg (Ideal.div (blkPexp x3 x5 q k)) (Finset.sum_congr rfl fun k' _ => pexpV_apply x3 x5 q k')

/-- The same with every function written out. -/
theorem k3_pay4_apply_explicit (x3 : Vec Ideal S1x1x256x64 .bf16) (x5 : Vec Ideal S1x1x2048x64 .bf16) (q : Fin 256) (k : Fin 2048) :
    k3_pay4 x3 x5 (ix2 q k)
      = Ideal.div
          (Ideal.exp ((∑ d : Fin 64, x3 (ix4 (0 : Fin 1) (0 : Fin 1) q d) * x5 (ix4 (0 : Fin 1) (0 : Fin 1) k d)) * Ideal.ofBits .f32 0x3E000000#32
            - (Finset.univ : Finset (Fin 2048)).fold max (Ideal.ofBits .f32 0xFF800000#32)
                (fun k' => (∑ d : Fin 64, x3 (ix4 (0 : Fin 1) (0 : Fin 1) q d) * x5 (ix4 (0 : Fin 1) (0 : Fin 1) k' d)) * Ideal.ofBits .f32 0x3E000000#32)))
          (Ideal.ofBits .f32 0x00000000#32 + ∑ k'' : Fin 2048,
            Ideal.exp ((∑ d : Fin 64, x3 (ix4 (0 : Fin 1) (0 : Fin 1) q d) * x5 (ix4 (0 : Fin 1) (0 : Fin 1) k'' d)) * Ideal.ofBits .f32 0x3E000000#32
              - (Finset.univ : Finset (Fin 2048)).fold max (Ideal.ofBits .f32 0xFF800000#32)
                  (fun k' => (∑ d : Fin 64, x3 (ix4 (0 : Fin 1) (0 : Fin 1) q d) * x5 (ix4 (0 : Fin 1) (0 : Fin 1) k' d)) * Ideal.ofBits .f32 0x3E000000#32))) :=
  k3_pay4_apply x3 x5 q k

end Cert.KernelIdeal.Val
-- ==== Proof.Val.AttnPaySmall.lean ====
/-
  The attention block's small payloads read at an index, over the extended reals: the zero block, the
  weight block with its unit axis dropped, the attention block with two unit axes added, the output
  block (accumulator plus bias row), and the accumulator's update (accumulator plus a 64-term product sum).
-/
import proofs.«174660_j36575941493113_2_alg».proof.Proof.Gen.KernelIdeal.Skeleton
import proofs.«174660_j36575941493113_2_alg».proof.Proof.Val.AttnLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-- The zero block: every entry is the extended real 0. -/
theorem k3_pay3_apply (q : Fin 256) (e : Fin 1024) : k3_pay3 (F := Ideal) (ix2 q e) = 0 := by
  unfold k3_pay3
  show shapeCast S256x1024 (broadcast S256x1024 (Scalar.ofBits (F := Ideal) .f32 0x00000000#32))
    shapeCasts_S256x1024_S256x1024 (ix2 q e) = 0
  rw [shapeCast_self]
  exact Ideal.ofBits_zero_f32

/-- The weight block [1, 64, 1024] read as a matrix [64, 1024]. -/
theorem k3_pay6_apply (x6 : Vec Ideal S1x64x1024 .bf16) (d : Fin 64) (e : Fin 1024) :
    k3_pay6 x6 (ix2 d e) = x6 (ix3 (0 : Fin 1) d e) := by
  unfold k3_pay6
  exact shapeCast_1ab_ab_apply x6 shapeCasts_S1x64x1024_S64x1024 d e

/-- The attention block stored with two leading unit axes. -/
theorem k3_pay5_apply (x3 : Vec Ideal S1x1x256x64 .bf16) (x5 : Vec Ideal S1x1x2048x64 .bf16) (q : Fin 256) (k : Fin 2048) :
    k3_pay5 x3 x5 (ix4 (0 : Fin 1) (0 : Fin 1) q k) = k3_pay4 x3 x5 (ix2 q k) := by
  unfold k3_pay5
  exact shapeCast_ab_11ab_apply (k3_pay4 x3 x5) shapeCasts_S256x2048_S1x1x256x2048 0 0 q k

/-- The same at any unit coordinates. -/
theorem k3_pay5_apply_unit (x3 : Vec Ideal S1x1x256x64 .bf16) (x5 : Vec Ideal S1x1x2048x64 .bf16) (u v : Fin 1)
    (q : Fin 256) (k : Fin 2048) :
    k3_pay5 x3 x5 (ix4 u v q k) = k3_pay4 x3 x5 (ix2 q k) := by
  unfold k3_pay5
  exact shapeCast_ab_11ab_apply (k3_pay4 x3 x5) shapeCasts_S256x2048_S1x1x256x2048 u v q k

/-- The output block: the accumulator plus the bias row. -/
theorem k3_pay2_apply (a : Vec Ideal S256x1024 .f32) (b : Vec Ideal S1x1024 .f32) (q : Fin 256) (e : Fin 1024) :
    k3_pay2 a b (ix3 (0 : Fin 1) q e) = a (ix2 q e) + b (ix2 (0 : Fin 1) e) := by
  unfold k3_pay2
  refine (shapeCast_ab_1ab_apply _ shapeCasts_S256x1024_S1x256x1024 0 q e).trans ?_
  rw [addf_apply, broadcastTo_1b_ab_apply, shapeCast_self]

/-- The same at any unit coordinate of the block. -/
theorem k3_pay2_apply_unit (a : Vec Ideal S256x1024 .f32) (b : Vec Ideal S1x1024 .f32) (u : Fin 1) (q : Fin 256) (e : Fin 1024) :
    k3_pay2 a b (ix3 u q e) = a (ix2 q e) + b (ix2 (0 : Fin 1) e) := by
  unfold k3_pay2
  refine (shapeCast_ab_1ab_apply _ shapeCasts_S256x1024_S1x256x1024 u q e).trans ?_
  rw [addf_apply, broadcastTo_1b_ab_apply, shapeCast_self]

/-! ## The accumulator's update: a [256, 64] by [64, 1024] product -/

theorem pay1_lhs0 (j : S256x1024.Idx) (κ : dot_S256x64_S64x1024_S256x1024_1_0_0_1_n_n.contr.Idx) :
    (dot_S256x64_S64x1024_S256x1024_1_0_0_1_n_n.lhsIdx j κ 0).val = (j 0).val := by
  unfold DotDims.lhsIdx
  rw [dif_neg (show ¬(0 : Fin S256x64.rank) ∈ dot_S256x64_S64x1024_S256x1024_1_0_0_1_n_n.lhsBatch by decide),
    dif_pos (show (0 : Fin S256x64.rank) ∈ dot_S256x64_S64x1024_S256x1024_1_0_0_1_n_n.lhsNonContracting by decide)]
  rfl
theorem pay1_lhs1 (j : S256x1024.Idx) (κ : dot_S256x64_S64x1024_S256x1024_1_0_0_1_n_n.contr.Idx) :
    (dot_S256x64_S64x1024_S256x1024_1_0_0_1_n_n.lhsIdx j κ 1).val = (κ ⟨0, by decide⟩).val :=
  dot_S256x64_S64x1024_S256x1024_1_0_0_1_n_n.lhsIdx_val_of_single rfl j κ
theorem pay1_rhs0 (j : S256x1024.Idx) (κ : dot_S256x64_S64x1024_S256x1024_1_0_0_1_n_n.contr.Idx) :
    (dot_S256x64_S64x1024_S256x1024_1_0_0_1_n_n.rhsIdx j κ 0).val = (κ ⟨0, by decide⟩).val :=
  dot_S256x64_S64x1024_S256x1024_1_0_0_1_n_n.rhsIdx_val_of_single rfl j κ
theorem pay1_rhs1 (j : S256x1024.Idx) (κ : dot_S256x64_S64x1024_S256x1024_1_0_0_1_n_n.contr.Idx) :
    (dot_S256x64_S64x1024_S256x1024_1_0_0_1_n_n.rhsIdx j κ 1).val = (j 1).val := by
  unfold DotDims.rhsIdx
  rw [dif_neg (show ¬(1 : Fin S64x1024.rank) ∈ dot_S256x64_S64x1024_S256x1024_1_0_0_1_n_n.rhsBatch by decide),
    dif_pos (show (1 : Fin S64x1024.rank) ∈ dot_S256x64_S64x1024_S256x1024_1_0_0_1_n_n.rhsNonContracting by decide)]
  rfl

theorem pay1_lhs (q : Fin 256) (e : Fin 1024) (d : Fin 64) :
    dot_S256x64_S64x1024_S256x1024_1_0_0_1_n_n.lhsIdx (ix2 q e)
      ((contrEquiv1 dot_S256x64_S64x1024_S256x1024_1_0_0_1_n_n 64 rfl rfl).symm d) = ix2 q d :=
  funext fun a => Fin.ext (by
    match a with
    | ⟨0, _⟩ => exact pay1_lhs0 _ _
    | ⟨1, _⟩ => exact (pay1_lhs1 _ _).trans (contrEquiv1_symm_val dot_S256x64_S64x1024_S256x1024_1_0_0_1_n_n 64 rfl rfl d))

theorem pay1_rhs (q : Fin 256) (e : Fin 1024) (d : Fin 64) :
    dot_S256x64_S64x1024_S256x1024_1_0_0_1_n_n.rhsIdx (ix2 q e)
      ((contrEquiv1 dot_S256x64_S64x1024_S256x1024_1_0_0_1_n_n 64 rfl rfl).symm d) = ix2 d e :=
  funext fun a => Fin.ext (by
    match a with
    | ⟨0, _⟩ => exact (pay1_rhs0 _ _).trans (contrEquiv1_symm_val dot_S256x64_S64x1024_S256x1024_1_0_0_1_n_n 64 rfl rfl d)
    | ⟨1, _⟩ => exact pay1_rhs1 _ _)

/-- The accumulator's update: the old entry plus the sum over the head's 64 lanes of context times weight. -/
theorem k3_pay1_apply (w : FVec Ideal S64x1024 .bf16) (c : FVec Ideal S256x64 .bf16) (a : Vec Ideal S256x1024 .f32)
    (q : Fin 256) (e : Fin 1024) :
    k3_pay1 w c a (ix2 q e) = a (ix2 q e) + ∑ d : Fin 64, c (ix2 q d) * w (ix2 d e) := by
  unfold k3_pay1
  show shapeCast S256x1024 (addf a (matmul dot_S256x64_S64x1024_S256x1024_1_0_0_1_n_n none c w
    (constant (F := Ideal) S256x1024 .f32 0x00000000#32))) shapeCasts_S256x1024_S256x1024 (ix2 q e) = _
  rw [shapeCast_self, addf_apply]
  refine congrArg (a (ix2 q e) + ·) ?_
  refine (Ideal.matmul_constant_zero_apply dot_S256x64_S64x1024_S256x1024_1_0_0_1_n_n none c w (ix2 q e)).trans ?_
  rw [← Equiv.sum_comp (contrEquiv1 dot_S256x64_S64x1024_S256x1024_1_0_0_1_n_n 64 rfl rfl).symm]
  refine Finset.sum_congr rfl fun d _ => ?_
  rw [pay1_lhs, pay1_rhs]

end Cert.KernelIdeal.Val
-- ==== Proof.Val.AttnFinal5.lean ====
/-
  The attention weights' array after the fused attention region, over the extended reals.

  The region's grid is (batch b, query tile qi of 256 rows, head h); point (b, qi, h) reads rows 256·qi … 256·qi + 255
  of the projected query of head h, batch b, all 2048 rows of the projected key of the same head and batch, and writes
  back the block of weights at (b, h, 256·qi …, all key rows). The block a point writes is the softmax, row by row, of
  the scaled scores of its query rows against the key rows; so every block is the restriction of ONE function of the
  two projected activations, the blocks cover the array, and the array ends holding that function:
  at (b, h, q, k) the weight `attnHM Qh Kh b h q k`.
-/
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import proofs.«174660_j36575941493113_2_alg».proof.Proof.Val.AttnSpecHM
import proofs.«174660_j36575941493113_2_alg».proof.Proof.Val.AttnPay4
import proofs.«174660_j36575941493113_2_alg».proof.Proof.Val.AttnPaySmall
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

/-- The softmax formula of a query block and a key block, at (query row, key row) of the block. -/
def PayFormula : Prop :=
  ∀ (x3 : Vec Ideal S1x1x256x64 .bf16) (x5 : Vec Ideal S1x1x2048x64 .bf16) (q : Fin 256) (k : Fin 2048),
    k3_pay5 x3 x5 (ix4 (0 : Fin 1) (0 : Fin 1) q k)
      = Ideal.div
          (Ideal.exp ((∑ d : Fin 64, x3 (ix4 (0 : Fin 1) (0 : Fin 1) q d) * x5 (ix4 (0 : Fin 1) (0 : Fin 1) k d)) * Ideal.ofBits .f32 0x3E000000#32
            - (Finset.univ : Finset (Fin 2048)).fold max (Ideal.ofBits .f32 0xFF800000#32)
                (fun k' => (∑ d : Fin 64, x3 (ix4 (0 : Fin 1) (0 : Fin 1) q d) * x5 (ix4 (0 : Fin 1) (0 : Fin 1) k' d)) * Ideal.ofBits .f32 0x3E000000#32)))
          (Ideal.ofBits .f32 0x00000000#32 + ∑ k'' : Fin 2048,
            Ideal.exp ((∑ d : Fin 64, x3 (ix4 (0 : Fin 1) (0 : Fin 1) q d) * x5 (ix4 (0 : Fin 1) (0 : Fin 1) k'' d)) * Ideal.ofBits .f32 0x3E000000#32
              - (Finset.univ : Finset (Fin 2048)).fold max (Ideal.ofBits .f32 0xFF800000#32)
                  (fun k' => (∑ d : Fin 64, x3 (ix4 (0 : Fin 1) (0 : Fin 1) q d) * x5 (ix4 (0 : Fin 1) (0 : Fin 1) k' d)) * Ideal.ofBits .f32 0x3E000000#32)))

/-- One point's block of weights. Where the query block is rows `256·qi + ·` of head `h`, batch `b`, the key block
    all rows of the same head and batch, and the output block rows `256·qi + ·` of batch `b`, head `h`, the payload
    is the weights read through the output block's embedding. -/
theorem pay5_block (hpay : PayFormula) (Qh Kh : ActHM) (b : Fin 2) (h : Fin 16) (qi : ℕ)
    (e0 : S1x1x256x64.Idx → S16x2x2048x64.Idx) (e1 : S1x1x2048x64.Idx → S16x2x2048x64.Idx)
    (e5 : S1x1x256x2048.Idx → S2x16x2048x2048.Idx)
    (he0 : ∀ y, ((e0 y) 0).val = h.val ∧ ((e0 y) 1).val = b.val ∧ ((e0 y) 2).val = qi * 256 + (y 2).val ∧ ((e0 y) 3).val = (y 3).val)
    (he1 : ∀ y, ((e1 y) 0).val = h.val ∧ ((e1 y) 1).val = b.val ∧ ((e1 y) 2).val = (y 2).val ∧ ((e1 y) 3).val = (y 3).val)
    (he5 : ∀ y, ((e5 y) 0).val = b.val ∧ ((e5 y) 1).val = h.val ∧ ((e5 y) 2).val = qi * 256 + (y 2).val ∧ ((e5 y) 3).val = (y 3).val) :
    k3_pay5 (F := Ideal) (fun y => Qh (e0 y)) (fun y => Kh (e1 y))
      = fun j => attnHM Qh Kh ((e5 j) 0) ((e5 j) 1) ((e5 j) 2) ((e5 j) 3) := by
  funext j
  have j0 : j 0 = (0 : Fin 1) := Fin.ext (by have : (j 0).val < 1 := (j 0).isLt; show (j 0).val = 0; omega)
  have j1 : j 1 = (0 : Fin 1) := Fin.ext (by have : (j 1).val < 1 := (j 1).isLt; show (j 1).val = 0; omega)
  obtain ⟨q, k, rfl⟩ : ∃ (q : Fin 256) (k : Fin 2048), j = ix4 (0 : Fin 1) (0 : Fin 1) q k :=
    ⟨j 2, j 3, (eq_ix4 j).trans (by rw [j0, j1]; rfl)⟩
  obtain ⟨c0, c1, c2, c3⟩ := he5 (ix4 (0 : Fin 1) (0 : Fin 1) q k)
  have hb : e5 (ix4 (0 : Fin 1) (0 : Fin 1) q k) 0 = b := Fin.ext c0
  have hh : e5 (ix4 (0 : Fin 1) (0 : Fin 1) q k) 1 = h := Fin.ext c1
  have hk : e5 (ix4 (0 : Fin 1) (0 : Fin 1) q k) 3 = k := Fin.ext c3
  have hQ : (e5 (ix4 (0 : Fin 1) (0 : Fin 1) q k) 2).val = qi * 256 + q.val := c2
  generalize e5 (ix4 (0 : Fin 1) (0 : Fin 1) q k) 2 = Q at hQ
  have h0 : ∀ (d : Fin 64), e0 (ix4 (0 : Fin 1) (0 : Fin 1) q d) = ix4 h b Q d := by
    intro d
    obtain ⟨a0, a1, a2, a3⟩ := he0 (ix4 (0 : Fin 1) (0 : Fin 1) q d)
    refine (eq_ix4 _).trans ?_
    congr 1
    · exact Fin.ext a0
    · exact Fin.ext a1
    · exact Fin.ext (a2.trans hQ.symm)
    · exact Fin.ext a3
  have h1 : ∀ (k : Fin 2048) (d : Fin 64), e1 (ix4 (0 : Fin 1) (0 : Fin 1) k d) = ix4 h b k d := by
    intro k d
    obtain ⟨a0, a1, a2, a3⟩ := he1 (ix4 (0 : Fin 1) (0 : Fin 1) k d)
    refine (eq_ix4 _).trans ?_
    congr 1
    · exact Fin.ext a0
    · exact Fin.ext a1
    · exact Fin.ext a2
    · exact Fin.ext a3
  rw [hb, hh, hk, hpay]
  unfold attnHM denomHM pexpHM rowmaxHM scoreHM
  simp only [h0, h1]
  rfl

/-! ## Where the blocks sit

  Point `t = (b·8 + qi)·16 + h` of the grid (2, 8, 16) reads the query block at (h, b, qi, 0), the key block at
  (h, b, 0, 0) and writes the weights' block at (b, h, qi, 0): decided once over the 256 points. -/

theorem block_indices : ∀ t : Fin cfg3.N,
    win3_5.index t (0 : Fin 4) = t.val / 128 ∧ win3_5.index t (1 : Fin 4) = t.val % 16
    ∧ win3_5.index t (2 : Fin 4) = t.val / 16 % 8 ∧ win3_5.index t (3 : Fin 4) = 0
    ∧ win3_0.index t (0 : Fin 4) = t.val % 16 ∧ win3_0.index t (1 : Fin 4) = t.val / 128
    ∧ win3_0.index t (2 : Fin 4) = t.val / 16 % 8 ∧ win3_0.index t (3 : Fin 4) = 0
    ∧ win3_1.index t (0 : Fin 4) = t.val % 16 ∧ win3_1.index t (1 : Fin 4) = t.val / 128
    ∧ win3_1.index t (2 : Fin 4) = 0 ∧ win3_1.index t (3 : Fin 4) = 0 :=
  (by decide +kernel : ∀ t : Fin grid3.N, _)

/-! ## From the blocks to the array -/

section Array

variable (V : (c : Dev nD) → (b : Ref sig .tc) → Buf (Elt Ideal) ((c : Thread nD τ).loc b)) (c : Dev nD)
  (dat : Pipeline.Dat τ (Elt Ideal) Unit ℕ (UR sig nD τ) ℕ cfg3 c)

/-- What point `t` writes back to the weights' array is block `t` of the weights of the two projected
    activations as the region finds them. -/
theorem flushed5_eq (hpay : PayFormula)
    (hafter5 : ∀ t : Fin cfg3.N, dat.after 5 t
      = Gen.k3_pay5 (((cfg3.win 0).blk t).view.read (Elt Ideal) (V c (Pipeline.arrRef spec3 0)))
          (((cfg3.win 1).blk t).view.read (Elt Ideal) (V c (Pipeline.arrRef spec3 1))))
    (t : Fin cfg3.N) :
    dat.flushed 5 t = ((cfg3.win 5).blk t).view.read (Elt Ideal)
      (fun i => attnHM (V c main_v9) (V c main_v12) (i 0) (i 1) (i 2) (i 3)) := by
  show (cfg3.win 5).cut (grid3.coords t) (dat.after 5 t) = _
  rw [hafter5]
  obtain ⟨f0, f1, f2, f3, f4, f5, f6, f7, f8, f9, f10, f11⟩ := block_indices t
  have ht : t.val < 256 := t.isLt
  show k3_pay5 (F := Ideal) (fun y => (V c main_v9 : ActHM) (((cfg3.win 0).blk t).view.emb y))
      (fun y => (V c main_v12 : ActHM) (((cfg3.win 1).blk t).view.emb y))
    = fun j => attnHM (V c main_v9) (V c main_v12) ((((cfg3.win 5).blk t).view.emb j) 0)
        ((((cfg3.win 5).blk t).view.emb j) 1) ((((cfg3.win 5).blk t).view.emb j) 2) ((((cfg3.win 5).blk t).view.emb j) 3)
  refine pay5_block hpay (V c main_v9) (V c main_v12) ⟨t.val / 128, by omega⟩ ⟨t.val % 16, by omega⟩ (t.val / 16 % 8)
    (fun y => ((cfg3.win 0).blk t).view.emb y) (fun y => ((cfg3.win 1).blk t).view.emb y)
    (fun j => ((cfg3.win 5).blk t).view.emb j)
    (fun y => ⟨?_, ?_, ?_, ?_⟩) (fun y => ⟨?_, ?_, ?_, ?_⟩) (fun y => ⟨?_, ?_, ?_, ?_⟩)
  · show win3_0.index t (0 : Fin 4) * 1 + 1 * (y 0).val = t.val % 16
    have hy : (y 0).val < 1 := (y 0).isLt
    omega
  · show win3_0.index t (1 : Fin 4) * 1 + 1 * (y 1).val = t.val / 128
    have hy : (y 1).val < 1 := (y 1).isLt
    omega
  · show win3_0.index t (2 : Fin 4) * 256 + 1 * (y 2).val = t.val / 16 % 8 * 256 + (y 2).val
    omega
  · show win3_0.index t (3 : Fin 4) * 64 + 1 * (y 3).val = (y 3).val
    omega
  · show win3_1.index t (0 : Fin 4) * 1 + 1 * (y 0).val = t.val % 16
    have hy : (y 0).val < 1 := (y 0).isLt
    omega
  · show win3_1.index t (1 : Fin 4) * 1 + 1 * (y 1).val = t.val / 128
    have hy : (y 1).val < 1 := (y 1).isLt
    omega
  · show win3_1.index t (2 : Fin 4) * 2048 + 1 * (y 2).val = (y 2).val
    omega
  · show win3_1.index t (3 : Fin 4) * 64 + 1 * (y 3).val = (y 3).val
    omega
  · show win3_5.index t (0 : Fin 4) * 1 + 1 * (y 0).val = t.val / 128
    have hy : (y 0).val < 1 := (y 0).isLt
    omega
  · show win3_5.index t (1 : Fin 4) * 1 + 1 * (y 1).val = t.val % 16
    have hy : (y 1).val < 1 := (y 1).isLt
    omega
  · show win3_5.index t (2 : Fin 4) * 256 + 1 * (y 2).val = t.val / 16 % 8 * 256 + (y 2).val
    omega
  · show win3_5.index t (3 : Fin 4) * 2048 + 1 * (y 3).val = (y 3).val
    omega

/-- An index of the weights' array is in point `t`'s block iff each coordinate is in the block's range on its axis. -/
theorem mem_blk5 (t : Fin cfg3.N) (i : S2x16x2048x2048.Idx) :
    i ∈ ((cfg3.win 5).blk t).view.set ↔ ∀ a : Fin 4, win3_5.index t a * S1x1x256x2048.size a ≤ (i a).val
      ∧ (i a).val < win3_5.index t a * S1x1x256x2048.size a + S1x1x256x2048.size a := by
  show i ∈ ((View.whole main_v19_0).slice (win3_5.rect t)).set ↔ _
  rw [View.set_slice_whole, Rect.mem_set_unit]
  exact Iff.rfl

/-- Every index (b, h, q, k) of the weights' array is in the block of the point `(b·8 + q / 256)·16 + h`. -/
theorem cover5 (i : S2x16x2048x2048.Idx) :
    ∃ t : Fin cfg3.N, (cfg3.win 5).flush t = true ∧ i ∈ ((cfg3.win 5).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ : ∃ t : Fin cfg3.N, t.val = ((i 0).val * 8 + (i 2).val / 256) * 16 + (i 1).val :=
    ⟨⟨((i 0).val * 8 + (i 2).val / 256) * 16 + (i 1).val, by show _ < 256; omega⟩, rfl⟩
  obtain ⟨f0, f1, f2, f3, -⟩ := block_indices t
  refine ⟨t, flush3_5 t, ?_⟩
  rw [mem_blk5]
  intro a
  match a with
  | ⟨0, _⟩ =>
    show win3_5.index t (0 : Fin 4) * 1 ≤ (i 0).val ∧ (i 0).val < win3_5.index t (0 : Fin 4) * 1 + 1
    omega
  | ⟨1, _⟩ =>
    show win3_5.index t (1 : Fin 4) * 1 ≤ (i 1).val ∧ (i 1).val < win3_5.index t (1 : Fin 4) * 1 + 1
    omega
  | ⟨2, _⟩ =>
    show win3_5.index t (2 : Fin 4) * 256 ≤ (i 2).val ∧ (i 2).val < win3_5.index t (2 : Fin 4) * 256 + 256
    omega
  | ⟨3, _⟩ =>
    show win3_5.index t (3 : Fin 4) * 2048 ≤ (i 3).val ∧ (i 3).val < win3_5.index t (3 : Fin 4) * 2048 + 2048
    omega

/-- THE WEIGHTS' ARRAY after the region: at (b, h, q, k) the softmax weight of query row `q` against key row `k`
    in head `h` of batch `b`, of the two projected activations as the region finds them. -/
theorem arr5_of_pay (hpay : PayFormula)
    (hafter5 : ∀ t : Fin cfg3.N, dat.after 5 t
      = Gen.k3_pay5 (((cfg3.win 0).blk t).view.read (Elt Ideal) (V c (Pipeline.arrRef spec3 0)))
          (((cfg3.win 1).blk t).view.read (Elt Ideal) (V c (Pipeline.arrRef spec3 1)))) :
    dat.arrAt 5 cfg3.N = fun i => attnHM (V c main_v9) (V c main_v12) (i 0) (i 1) (i 2) (i 3) :=
  dat.arrAt_eq_of_cover 5 _ (fun t _ => flushed5_eq V c dat hpay hafter5 t) cover5

/-- The payload's formula holds: the stored block is the weights' matrix with two leading unit axes, and the
    matrix at (q, k) is the softmax weight of the blocks' rows. -/
theorem payFormula : PayFormula := fun x3 x5 q k =>
  (k3_pay5_apply x3 x5 q k).trans (k3_pay4_apply_explicit x3 x5 q k)

/-- THE WEIGHTS' ARRAY after the region, from what the body leaves in the output's staging buffer at each point. -/
theorem arr5
    (hafter5 : ∀ t : Fin cfg3.N, dat.after 5 t
      = Gen.k3_pay5 (((cfg3.win 0).blk t).view.read (Elt Ideal) (V c (Pipeline.arrRef spec3 0)))
          (((cfg3.win 1).blk t).view.read (Elt Ideal) (V c (Pipeline.arrRef spec3 1)))) :
    dat.arrAt 5 cfg3.N = fun i => attnHM (V c main_v9) (V c main_v12) (i 0) (i 1) (i 2) (i 3) :=
  arr5_of_pay V c dat payFormula hafter5

end Array

end Cert.KernelIdeal.Val

end
-- ==== Proof.Val.AttnPay7.lean ====
/-
  The context of one (batch, query tile, head) block read at an index over the extended reals: at query
  row q and lane d, the sum over the 2048 key rows of the attention weight times the value entry. The two
  format changes are the identity on extended reals.
-/
import proofs.«174660_j36575941493113_2_alg».proof.Proof.Gen.KernelIdeal.Skeleton
import proofs.«174660_j36575941493113_2_alg».proof.Proof.Val.AttnLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.ValueIdx

/-! ## The context product: [256, 2048] by [2048, 64] -/

theorem pay7_lhs0 (j : S256x64.Idx) (κ : dot_S256x2048_S2048x64_S256x64_1_0_0_1_n_n.contr.Idx) :
    (dot_S256x2048_S2048x64_S256x64_1_0_0_1_n_n.lhsIdx j κ 0).val = (j 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem pay7_lhs1 (j : S256x64.Idx) (κ : dot_S256x2048_S2048x64_S256x64_1_0_0_1_n_n.contr.Idx) :
    (dot_S256x2048_S2048x64_S256x64_1_0_0_1_n_n.lhsIdx j κ 1).val = (κ ⟨0, by decide⟩).val :=
  dot_S256x2048_S2048x64_S256x64_1_0_0_1_n_n.lhsIdx_val_of_single rfl j κ
theorem pay7_rhs0 (j : S256x64.Idx) (κ : dot_S256x2048_S2048x64_S256x64_1_0_0_1_n_n.contr.Idx) :
    (dot_S256x2048_S2048x64_S256x64_1_0_0_1_n_n.rhsIdx j κ 0).val = (κ ⟨0, by decide⟩).val :=
  dot_S256x2048_S2048x64_S256x64_1_0_0_1_n_n.rhsIdx_val_of_single rfl j κ
theorem pay7_rhs1 (j : S256x64.Idx) (κ : dot_S256x2048_S2048x64_S256x64_1_0_0_1_n_n.contr.Idx) :
    (dot_S256x2048_S2048x64_S256x64_1_0_0_1_n_n.rhsIdx j κ 1).val = (j 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

theorem pay7_lhs (q : Fin 256) (d : Fin 64) (k : Fin 2048) :
    dot_S256x2048_S2048x64_S256x64_1_0_0_1_n_n.lhsIdx (ix2 q d) ((contrEquiv1 dot_S256x2048_S2048x64_S256x64_1_0_0_1_n_n 2048 rfl rfl).symm k) = ix2 q k :=
  funext fun a => Fin.ext (by
    match a with
    | ⟨0, _⟩ => exact pay7_lhs0 _ _
    | ⟨1, _⟩ => exact (pay7_lhs1 _ _).trans (contrEquiv1_symm_val dot_S256x2048_S2048x64_S256x64_1_0_0_1_n_n 2048 rfl rfl k))

theorem pay7_rhs (q : Fin 256) (d : Fin 64) (k : Fin 2048) :
    dot_S256x2048_S2048x64_S256x64_1_0_0_1_n_n.rhsIdx (ix2 q d) ((contrEquiv1 dot_S256x2048_S2048x64_S256x64_1_0_0_1_n_n 2048 rfl rfl).symm k) = ix2 k d :=
  funext fun a => Fin.ext (by
    match a with
    | ⟨0, _⟩ => exact (pay7_rhs0 _ _).trans (contrEquiv1_symm_val dot_S256x2048_S2048x64_S256x64_1_0_0_1_n_n 2048 rfl rfl k)
    | ⟨1, _⟩ => exact pay7_rhs1 _ _)

/-- The context at (query row, lane): the attention weights of the row applied to the value block's lane. -/
theorem k3_pay7_apply (x3 : Vec Ideal S1x1x256x64 .bf16) (x5 : Vec Ideal S1x1x2048x64 .bf16)
    (x7 : Vec Ideal S1x1x2048x64 .bf16) (q : Fin 256) (d : Fin 64) :
    k3_pay7 x3 x5 x7 (ix2 q d)
      = ∑ k : Fin 2048, k3_pay4 x3 x5 (ix2 q k) * x7 (ix4 (0 : Fin 1) (0 : Fin 1) k d) := by
  unfold k3_pay7
  show matmul dot_S256x2048_S2048x64_S256x64_1_0_0_1_n_n none (truncf .bf16 (k3_pay4 x3 x5) bitsLt_bf16_f32)
    (shapeCast S2048x64 x7 shapeCasts_S1x1x2048x64_S2048x64 : FVec Ideal S2048x64 .bf16) (constant (F := Ideal) S256x64 .f32 0x00000000#32) (ix2 q d) = _
  refine (Ideal.matmul_constant_zero_apply dot_S256x2048_S2048x64_S256x64_1_0_0_1_n_n none _ _ (ix2 q d)).trans ?_
  rw [← Equiv.sum_comp (contrEquiv1 dot_S256x2048_S2048x64_S256x64_1_0_0_1_n_n 2048 rfl rfl).symm]
  refine Finset.sum_congr rfl fun k _ => ?_
  rw [pay7_lhs, pay7_rhs, truncf_apply, shapeCast_11ab_ab_apply]

end Cert.KernelIdeal.Val
-- ==== Proof.Val.AttnFinal6.lean ====
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import proofs.«174660_j36575941493113_2_alg».proof.Proof.Val.AttnSpecHM
import proofs.«174660_j36575941493113_2_alg».proof.Proof.Val.AttnPaySmall
import proofs.«174660_j36575941493113_2_alg».proof.Proof.Val.AttnPay4
import proofs.«174660_j36575941493113_2_alg».proof.Proof.Val.AttnPay7
import Idealize.ShloMosaic.Lib.Pipeline.Value

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx
open Idealize.SL Idealize.SL.RA

/-! # The output array of the attention region, index by index

The grid is (batch b, query tile qi, head h) with the head fastest: point t = (b·8 + qi)·16 + h. At every point the
body adds the head's share Σ_d ctx[q,d]·Wo[h,d,e] to a [256,1024] accumulator that it zeroes at head 0; at head 15 it
writes the accumulator plus the bias row to the output's block (b, qi). So after head j the accumulator holds
((0 + P_0) + P_1) + … + P_j, and the block written back at head 15 is Σ_h P_h + bias: the output projection of the
sixteen heads' contexts. -/

/-! ## The grid's points -/

theorem idx6_0 : ∀ t : Fin cfg3.N,
    win3_0.index t (0 : Fin 4) = t.val % 16 ∧ win3_0.index t (1 : Fin 4) = t.val / 128
    ∧ win3_0.index t (2 : Fin 4) = t.val / 16 % 8 ∧ win3_0.index t (3 : Fin 4) = 0 :=
  (by decide +kernel : ∀ t : Fin grid3.N, _)
theorem idx6_1 : ∀ t : Fin cfg3.N,
    win3_1.index t (0 : Fin 4) = t.val % 16 ∧ win3_1.index t (1 : Fin 4) = t.val / 128
    ∧ win3_1.index t (2 : Fin 4) = 0 ∧ win3_1.index t (3 : Fin 4) = 0 :=
  (by decide +kernel : ∀ t : Fin grid3.N, _)
theorem idx6_2 : ∀ t : Fin cfg3.N,
    win3_2.index t (0 : Fin 4) = t.val % 16 ∧ win3_2.index t (1 : Fin 4) = t.val / 128
    ∧ win3_2.index t (2 : Fin 4) = 0 ∧ win3_2.index t (3 : Fin 4) = 0 :=
  (by decide +kernel : ∀ t : Fin grid3.N, _)
theorem idx6_3 : ∀ t : Fin cfg3.N,
    win3_3.index t (0 : Fin 3) = t.val % 16 ∧ win3_3.index t (1 : Fin 3) = 0 ∧ win3_3.index t (2 : Fin 3) = 0 :=
  (by decide +kernel : ∀ t : Fin grid3.N, _)
theorem idx6_4 : ∀ t : Fin cfg3.N, win3_4.index t (0 : Fin 2) = 0 ∧ win3_4.index t (1 : Fin 2) = 0 :=
  (by decide +kernel : ∀ t : Fin grid3.N, _)
theorem idx6_6 : ∀ t : Fin cfg3.N,
    win3_6.index t (0 : Fin 3) = t.val / 128 ∧ win3_6.index t (1 : Fin 3) = t.val / 16 % 8 ∧ win3_6.index t (2 : Fin 3) = 0 :=
  (by decide +kernel : ∀ t : Fin grid3.N, _)

theorem pt6_lt (t : Fin cfg3.N) : t.val < 256 := by
  have h : t.val < grid3.N := t.isLt
  rw [N_3] at h; exact h

/-- The head of a point. -/
def pt6H (t : Fin cfg3.N) : Fin 16 := ⟨t.val % 16, Nat.mod_lt _ (by decide)⟩
/-- The batch of a point. -/
def pt6B (t : Fin cfg3.N) : Fin 2 := ⟨t.val / 128, by have := pt6_lt t; omega⟩
/-- Row q' of a point's query tile, as a row of the sequence. -/
def pt6Row (t : Fin cfg3.N) (q' : Fin 256) : Fin 2048 := ⟨t.val / 16 % 8 * 256 + q'.val, by have := q'.isLt; omega⟩

/-! ## One head's share of an output entry -/

/-- Head h's share of the output at (b, q, e): its context row against its slice of the output weights. -/
def headTermHM (Qh Kh Vh : ActHM) (Woh : WoHM) (b : Fin 2) (h : Fin 16) (q : Fin 2048) (e : Fin 1024) : EReal :=
  ∑ d : Fin 64, ctxHM Qh Kh Vh b h q d * Woh (ix3 h d e)

/-- The shares of heads 0 … j, added in that order. -/
def partHM (Qh Kh Vh : ActHM) (Woh : WoHM) (b : Fin 2) (q : Fin 2048) (e : Fin 1024) (j : ℕ) : EReal :=
  ∑ n ∈ Finset.range (j + 1), if hn : n < 16 then headTermHM Qh Kh Vh Woh b ⟨n, hn⟩ q e else 0

theorem outHM_eq_heads (Qh Kh Vh : ActHM) (Woh : WoHM) (bo2 : BiasRow) (b : Fin 2) (q : Fin 2048) (e : Fin 1024) :
    outHM Qh Kh Vh Woh bo2 b q e = (∑ h : Fin 16, headTermHM Qh Kh Vh Woh b h q e) + bo2 (ix2 (0 : Fin 1) e) := rfl

/-- All sixteen shares: the sum over the heads. -/
theorem partHM_last (Qh Kh Vh : ActHM) (Woh : WoHM) (b : Fin 2) (q : Fin 2048) (e : Fin 1024) :
    partHM Qh Kh Vh Woh b q e 15 = ∑ h : Fin 16, headTermHM Qh Kh Vh Woh b h q e := by
  unfold partHM
  show ∑ n ∈ Finset.range 16, (if hn : n < 16 then headTermHM Qh Kh Vh Woh b ⟨n, hn⟩ q e else 0) = _
  rw [Finset.sum_range]
  exact Finset.sum_congr rfl fun h _ => by rw [dif_pos h.isLt]

/-! ## A block's attention weights are the rows' softmax -/

section Block
variable (x0 : Vec Ideal S1x1x256x64 .bf16) (x1 x2 : Vec Ideal S1x1x2048x64 .bf16) (x3 : Vec Ideal S1x64x1024 .bf16)
  (Qh Kh Vh : ActHM) (Woh : WoHM) (b : Fin 2) (h : Fin 16) (row : Fin 256 → Fin 2048)
  (h0 : ∀ q' d, x0 (ix4 (0 : Fin 1) (0 : Fin 1) q' d) = Qh (ix4 h b (row q') d))
  (h1 : ∀ k d, x1 (ix4 (0 : Fin 1) (0 : Fin 1) k d) = Kh (ix4 h b k d))
  (h2 : ∀ k d, x2 (ix4 (0 : Fin 1) (0 : Fin 1) k d) = Vh (ix4 h b k d))
  (h3 : ∀ d e, x3 (ix3 (0 : Fin 1) d e) = Woh (ix3 h d e))

include h0 h1 in
theorem blkScore_eqHM (q' : Fin 256) (k : Fin 2048) : blkScore x0 x1 q' k = scoreHM Qh Kh b h (row q') k := by
  unfold blkScore scoreHM
  exact congrArg (· * Ideal.ofBits .f32 0x3E000000#32) (Finset.sum_congr rfl fun d _ => by rw [h0, h1])

include h0 h1 in
theorem blkMax_eqHM (q' : Fin 256) : blkMax x0 x1 q' = rowmaxHM Qh Kh b h (row q') := by
  unfold blkMax rowmaxHM
  exact congrArg (fun f : Fin 2048 → EReal => (Finset.univ : Finset (Fin 2048)).fold max (Ideal.ofBits .f32 0xFF800000#32) f)
    (funext fun k => blkScore_eqHM x0 x1 Qh Kh b h row h0 h1 q' k)

include h0 h1 in
theorem blkPexp_eqHM (q' : Fin 256) (k : Fin 2048) : blkPexp x0 x1 q' k = pexpHM Qh Kh b h (row q') k := by
  unfold blkPexp pexpHM
  rw [blkScore_eqHM x0 x1 Qh Kh b h row h0 h1, blkMax_eqHM x0 x1 Qh Kh b h row h0 h1]

include h0 h1 in
theorem blkDenom_eqHM (q' : Fin 256) : blkDenom x0 x1 q' = denomHM Qh Kh b h (row q') := by
  unfold blkDenom denomHM
  exact congrArg (Ideal.ofBits .f32 0x00000000#32 + ·) (Finset.sum_congr rfl fun k _ => blkPexp_eqHM x0 x1 Qh Kh b h row h0 h1 q' k)

include h0 h1 in
theorem blkAttn_eqHM (q' : Fin 256) (k : Fin 2048) : blkAttn x0 x1 q' k = attnHM Qh Kh b h (row q') k := by
  unfold blkAttn attnHM
  rw [blkPexp_eqHM x0 x1 Qh Kh b h row h0 h1, blkDenom_eqHM x0 x1 Qh Kh b h row h0 h1]

include h0 h1 h2 h3 in
/-- One point's update of the accumulator, at an entry: the old entry plus the head's share. -/
theorem step6_apply (a : Vec Ideal S256x1024 .f32) (q' : Fin 256) (e : Fin 1024) :
    k3_pay1 (k3_pay6 x3) (k3_pay7 x0 x1 x2) a (ix2 q' e) = a (ix2 q' e) + headTermHM Qh Kh Vh Woh b h (row q') e := by
  rw [k3_pay1_apply]
  refine congrArg (a (ix2 q' e) + ·) ?_
  unfold headTermHM
  refine Finset.sum_congr rfl fun d _ => ?_
  rw [k3_pay7_apply, k3_pay6_apply, h3]
  refine congrArg (· * Woh (ix3 h d e)) ?_
  unfold ctxHM
  refine Finset.sum_congr rfl fun k _ => ?_
  rw [k3_pay4_apply, blkAttn_eqHM x0 x1 Qh Kh b h row h0 h1, h2]

end Block

/-! ## The windows' blocks at a point, read off the arrays -/

variable (V : (c : Dev nD) → (b : Ref sig .tc) → Buf (Elt Ideal) ((c : Thread nD τ).loc b))

/-- Window w's block at point t, read off its array as the region finds it. -/
abbrev iblk6 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

theorem iblk6_0_apply (c : Dev nD) (t : Fin cfg3.N) (q' : Fin 256) (d : Fin 64) :
    iblk6 V c 0 t (ix4 (0 : Fin 1) (0 : Fin 1) q' d) = (V c main_v9 : ActHM) (ix4 (pt6H t) (pt6B t) (pt6Row t q') d) := by
  obtain ⟨e0, e1, e2, e3⟩ := idx6_0 t
  show V c main_v9 (((cfg3.win 0).blk t).view.emb (ix4 (0 : Fin 1) (0 : Fin 1) q' d)) = V c main_v9 _
  refine congrArg (V c main_v9) ?_
  funext a; apply Fin.ext
  match a with
  | ⟨0, _⟩ => show win3_0.index t (0 : Fin 4) * 1 + 1 * 0 = t.val % 16; omega
  | ⟨1, _⟩ => show win3_0.index t (1 : Fin 4) * 1 + 1 * 0 = t.val / 128; omega
  | ⟨2, _⟩ => show win3_0.index t (2 : Fin 4) * 256 + 1 * q'.val = t.val / 16 % 8 * 256 + q'.val; omega
  | ⟨3, _⟩ => show win3_0.index t (3 : Fin 4) * 64 + 1 * d.val = d.val; omega

theorem iblk6_1_apply (c : Dev nD) (t : Fin cfg3.N) (k : Fin 2048) (d : Fin 64) :
    iblk6 V c 1 t (ix4 (0 : Fin 1) (0 : Fin 1) k d) = (V c main_v12 : ActHM) (ix4 (pt6H t) (pt6B t) k d) := by
  obtain ⟨e0, e1, e2, e3⟩ := idx6_1 t
  show V c main_v12 (((cfg3.win 1).blk t).view.emb (ix4 (0 : Fin 1) (0 : Fin 1) k d)) = V c main_v12 _
  refine congrArg (V c main_v12) ?_
  funext a; apply Fin.ext
  match a with
  | ⟨0, _⟩ => show win3_1.index t (0 : Fin 4) * 1 + 1 * 0 = t.val % 16; omega
  | ⟨1, _⟩ => show win3_1.index t (1 : Fin 4) * 1 + 1 * 0 = t.val / 128; omega
  | ⟨2, _⟩ => show win3_1.index t (2 : Fin 4) * 2048 + 1 * k.val = k.val; omega
  | ⟨3, _⟩ => show win3_1.index t (3 : Fin 4) * 64 + 1 * d.val = d.val; omega

theorem iblk6_2_apply (c : Dev nD) (t : Fin cfg3.N) (k : Fin 2048) (d : Fin 64) :
    iblk6 V c 2 t (ix4 (0 : Fin 1) (0 : Fin 1) k d) = (V c main_v15 : ActHM) (ix4 (pt6H t) (pt6B t) k d) := by
  obtain ⟨e0, e1, e2, e3⟩ := idx6_2 t
  show V c main_v15 (((cfg3.win 2).blk t).view.emb (ix4 (0 : Fin 1) (0 : Fin 1) k d)) = V c main_v15 _
  refine congrArg (V c main_v15) ?_
  funext a; apply Fin.ext
  match a with
  | ⟨0, _⟩ => show win3_2.index t (0 : Fin 4) * 1 + 1 * 0 = t.val % 16; omega
  | ⟨1, _⟩ => show win3_2.index t (1 : Fin 4) * 1 + 1 * 0 = t.val / 128; omega
  | ⟨2, _⟩ => show win3_2.index t (2 : Fin 4) * 2048 + 1 * k.val = k.val; omega
  | ⟨3, _⟩ => show win3_2.index t (3 : Fin 4) * 64 + 1 * d.val = d.val; omega

theorem iblk6_3_apply (c : Dev nD) (t : Fin cfg3.N) (d : Fin 64) (e : Fin 1024) :
    iblk6 V c 3 t (ix3 (0 : Fin 1) d e) = (V c main_v17 : WoHM) (ix3 (pt6H t) d e) := by
  obtain ⟨e0, e1, e2⟩ := idx6_3 t
  show V c main_v17 (((cfg3.win 3).blk t).view.emb (ix3 (0 : Fin 1) d e)) = V c main_v17 _
  refine congrArg (V c main_v17) ?_
  funext a; apply Fin.ext
  match a with
  | ⟨0, _⟩ => show win3_3.index t (0 : Fin 3) * 1 + 1 * 0 = t.val % 16; omega
  | ⟨1, _⟩ => show win3_3.index t (1 : Fin 3) * 64 + 1 * d.val = d.val; omega
  | ⟨2, _⟩ => show win3_3.index t (2 : Fin 3) * 1024 + 1 * e.val = e.val; omega

theorem iblk6_4_apply (c : Dev nD) (t : Fin cfg3.N) (e : Fin 1024) :
    iblk6 V c 4 t (ix2 (0 : Fin 1) e) = (V c main_v18 : BiasRow) (ix2 (0 : Fin 1) e) := by
  obtain ⟨e0, e1⟩ := idx6_4 t
  show V c main_v18 (((cfg3.win 4).blk t).view.emb (ix2 (0 : Fin 1) e)) = V c main_v18 _
  refine congrArg (V c main_v18) ?_
  funext a; apply Fin.ext
  match a with
  | ⟨0, _⟩ => show win3_4.index t (0 : Fin 2) * 1 + 1 * 0 = 0; omega
  | ⟨1, _⟩ => show win3_4.index t (1 : Fin 2) * 1024 + 1 * e.val = e.val; omega

/-- A point's update of the accumulator at an entry, over the arrays. -/
theorem point6_apply (c : Dev nD) (t : Fin cfg3.N) (a : Vec Ideal S256x1024 .f32) (q' : Fin 256) (e : Fin 1024) :
    k3_pay1 (k3_pay6 (iblk6 V c 3 t)) (k3_pay7 (iblk6 V c 0 t) (iblk6 V c 1 t) (iblk6 V c 2 t)) a (ix2 q' e)
      = a (ix2 q' e) + headTermHM (V c main_v9) (V c main_v12) (V c main_v15) (V c main_v17) (pt6B t) (pt6H t) (pt6Row t q') e :=
  step6_apply (iblk6 V c 0 t) (iblk6 V c 1 t) (iblk6 V c 2 t) (iblk6 V c 3 t) (V c main_v9) (V c main_v12) (V c main_v15) (V c main_v17)
    (pt6B t) (pt6H t) (pt6Row t) (iblk6_0_apply V c t) (iblk6_1_apply V c t) (iblk6_2_apply V c t) (iblk6_3_apply V c t) a q' e

/-! ## The accumulator after each point -/

section Acc
variable (c : Dev nD) (S : (n : ℕ) → n < cfg3.N → Vec Ideal S256x1024 .f32)
  (hS0 : ∀ t : Fin cfg3.N, t.val % 16 = 0 → S t.val t.isLt
    = k3_pay1 (k3_pay6 (iblk6 V c 3 t)) (k3_pay7 (iblk6 V c 0 t) (iblk6 V c 1 t) (iblk6 V c 2 t)) (k3_pay3 (F := Ideal)))
  (hSs : ∀ t : Fin cfg3.N, t.val % 16 ≠ 0 → S t.val t.isLt
    = k3_pay1 (k3_pay6 (iblk6 V c 3 t)) (k3_pay7 (iblk6 V c 0 t) (iblk6 V c 1 t) (iblk6 V c 2 t))
        (S (t.val - 1) (Nat.lt_of_le_of_lt (Nat.sub_le _ _) t.isLt)))

include hS0 hSs in
/-- After head j of a (batch, query tile) group the accumulator holds the shares of heads 0 … j, added in order
    from the zero block. -/
theorem acc6_apply : ∀ (n : ℕ) (hn : n < cfg3.N) (q' : Fin 256) (e : Fin 1024),
    S n hn (ix2 q' e) = partHM (V c main_v9) (V c main_v12) (V c main_v15) (V c main_v17) (pt6B ⟨n, hn⟩) (pt6Row ⟨n, hn⟩ q') e (n % 16) := by
  intro n
  induction n with
  | zero =>
    intro hn q' e
    have h : S 0 hn = k3_pay1 (k3_pay6 (iblk6 V c 3 ⟨0, hn⟩)) (k3_pay7 (iblk6 V c 0 ⟨0, hn⟩) (iblk6 V c 1 ⟨0, hn⟩) (iblk6 V c 2 ⟨0, hn⟩)) (k3_pay3 (F := Ideal)) :=
      hS0 ⟨0, hn⟩ rfl
    rw [h, point6_apply V c ⟨0, hn⟩ (k3_pay3 (F := Ideal)) q' e, k3_pay3_apply, zero_add]
    unfold partHM
    show _ = ∑ m ∈ Finset.range 1, (if hm : m < 16 then headTermHM (V c main_v9) (V c main_v12) (V c main_v15) (V c main_v17) (pt6B ⟨0, hn⟩) ⟨m, hm⟩ (pt6Row ⟨0, hn⟩ q') e else 0)
    rw [Finset.sum_range_one, dif_pos (by decide : 0 < 16)]
    rfl
  | succ n ih =>
    intro hn q' e
    have hlt : n + 1 < 256 := pt6_lt ⟨n + 1, hn⟩
    by_cases hz : (n + 1) % 16 = 0
    · have h : S (n + 1) hn = k3_pay1 (k3_pay6 (iblk6 V c 3 ⟨n + 1, hn⟩)) (k3_pay7 (iblk6 V c 0 ⟨n + 1, hn⟩) (iblk6 V c 1 ⟨n + 1, hn⟩) (iblk6 V c 2 ⟨n + 1, hn⟩)) (k3_pay3 (F := Ideal)) :=
        hS0 ⟨n + 1, hn⟩ hz
      rw [h, point6_apply V c ⟨n + 1, hn⟩ (k3_pay3 (F := Ideal)) q' e, k3_pay3_apply, zero_add, hz]
      unfold partHM
      show _ = ∑ m ∈ Finset.range 1, (if hm : m < 16 then headTermHM (V c main_v9) (V c main_v12) (V c main_v15) (V c main_v17) (pt6B ⟨n + 1, hn⟩) ⟨m, hm⟩ (pt6Row ⟨n + 1, hn⟩ q') e else 0)
      rw [Finset.sum_range_one, dif_pos (by decide : 0 < 16)]
      have hh : pt6H ⟨n + 1, hn⟩ = ⟨0, by decide⟩ := Fin.ext hz
      rw [hh]
    · have hn' : n < cfg3.N := Nat.lt_of_succ_lt hn
      have h : S (n + 1) hn = k3_pay1 (k3_pay6 (iblk6 V c 3 ⟨n + 1, hn⟩)) (k3_pay7 (iblk6 V c 0 ⟨n + 1, hn⟩) (iblk6 V c 1 ⟨n + 1, hn⟩) (iblk6 V c 2 ⟨n + 1, hn⟩)) (S n hn') :=
        hSs ⟨n + 1, hn⟩ hz
      rw [h, point6_apply V c ⟨n + 1, hn⟩ (S n hn') q' e, ih hn' q' e]
      have hb : pt6B ⟨n, hn'⟩ = pt6B ⟨n + 1, hn⟩ := Fin.ext (by show n / 128 = (n + 1) / 128; omega)
      have hr : pt6Row ⟨n, hn'⟩ q' = pt6Row ⟨n + 1, hn⟩ q' :=
        Fin.ext (by show n / 16 % 8 * 256 + q'.val = (n + 1) / 16 % 8 * 256 + q'.val; omega)
      have hm : (n + 1) % 16 = n % 16 + 1 := by omega
      have hlt16 : n % 16 + 1 < 16 := by omega
      have hh : pt6H ⟨n + 1, hn⟩ = ⟨n % 16 + 1, hlt16⟩ := Fin.ext hm
      rw [hb, hr, hm, hh]
      unfold partHM
      rw [Finset.sum_range_succ _ (n % 16 + 1), dif_pos hlt16]

end Acc

/-! ## From the blocks to the array -/

/-- The output array as one function of the five arrays the region reads. -/
def G6 (c : Dev nD) : S2x2048x1024.Idx → EReal := fun i =>
  outHM (V c main_v9) (V c main_v12) (V c main_v15) (V c main_v17) (V c main_v18) (i 0) (i 1) (i 2)

/-- An index of the array is in point t's block iff each coordinate is in the block's range on its axis. -/
theorem mem_blk6 (t : Fin cfg3.N) (i : S2x2048x1024.Idx) :
    i ∈ ((cfg3.win 6).blk t).view.set ↔ ∀ a : Fin 3, win3_6.index t a * S1x256x1024.size a ≤ (i a).val ∧ (i a).val < win3_6.index t a * S1x256x1024.size a + S1x256x1024.size a := by
  show i ∈ ((View.whole main_v19_1).slice (win3_6.rect t)).set ↔ _
  rw [View.set_slice_whole, Rect.mem_set_unit]
  exact Iff.rfl

/-- Entry (b, q, ·) lies in the block written back at the last head of group (b, q / 256). -/
theorem cover6 (i : S2x2048x1024.Idx) : ∃ t : Fin cfg3.N, (cfg3.win 6).flush t = true ∧ i ∈ ((cfg3.win 6).blk t).view.set := by
  have h0 : (i 0).val < 2 := (i 0).isLt
  have h1 : (i 1).val < 2048 := (i 1).isLt
  have h2 : (i 2).val < 1024 := (i 2).isLt
  obtain ⟨n, hn⟩ : ∃ n, n = ((i 0).val * 8 + (i 1).val / 256) * 16 + 15 := ⟨_, rfl⟩
  have hlt : n < cfg3.N := by show n < grid3.N; rw [N_3]; omega
  refine ⟨⟨n, hlt⟩, (flush3_6 _).mpr (by show n % 16 = 15; omega), ?_⟩
  rw [mem_blk6]
  obtain ⟨e0, e1, e2⟩ := idx6_6 ⟨n, hlt⟩
  intro a
  match a with
  | ⟨0, _⟩ => show win3_6.index ⟨n, hlt⟩ (0 : Fin 3) * 1 ≤ (i 0).val ∧ (i 0).val < win3_6.index ⟨n, hlt⟩ (0 : Fin 3) * 1 + 1; rw [e0]; show n / 128 * 1 ≤ (i 0).val ∧ (i 0).val < n / 128 * 1 + 1; omega
  | ⟨1, _⟩ => show win3_6.index ⟨n, hlt⟩ (1 : Fin 3) * 256 ≤ (i 1).val ∧ (i 1).val < win3_6.index ⟨n, hlt⟩ (1 : Fin 3) * 256 + 256; rw [e1]; show n / 16 % 8 * 256 ≤ (i 1).val ∧ (i 1).val < n / 16 % 8 * 256 + 256; omega
  | ⟨2, _⟩ => show win3_6.index ⟨n, hlt⟩ (2 : Fin 3) * 1024 ≤ (i 2).val ∧ (i 2).val < win3_6.index ⟨n, hlt⟩ (2 : Fin 3) * 1024 + 1024; rw [e2]; omega

section Final
variable (c : Dev nD) (dat : Pipeline.Dat τ (Elt Ideal) Unit ℕ (UR sig nD τ) ℕ cfg3 c)
  (S : (n : ℕ) → n < cfg3.N → Vec Ideal S256x1024 .f32)
  (hS0 : ∀ t : Fin cfg3.N, t.val % 16 = 0 → S t.val t.isLt
    = k3_pay1 (k3_pay6 (iblk6 V c 3 t)) (k3_pay7 (iblk6 V c 0 t) (iblk6 V c 1 t) (iblk6 V c 2 t)) (k3_pay3 (F := Ideal)))
  (hSs : ∀ t : Fin cfg3.N, t.val % 16 ≠ 0 → S t.val t.isLt
    = k3_pay1 (k3_pay6 (iblk6 V c 3 t)) (k3_pay7 (iblk6 V c 0 t) (iblk6 V c 1 t) (iblk6 V c 2 t))
        (S (t.val - 1) (Nat.lt_of_le_of_lt (Nat.sub_le _ _) t.isLt)))
  (hafter6 : ∀ t : Fin cfg3.N, t.val % 16 = 15 → dat.after 6 t = k3_pay2 (S t.val t.isLt) (iblk6 V c 4 t))

include hS0 hSs hafter6 in
/-- What a point of the last head writes back is its block of the closed function. -/
theorem flushed6_eq (t : Fin cfg3.N) (hf : (cfg3.win 6).flush t = true) :
    dat.flushed 6 t = ((cfg3.win 6).blk t).view.read (Elt Ideal) (G6 V c) := by
  have h15 : t.val % 16 = 15 := (flush3_6 t).mp hf
  show (cfg3.win 6).cut (grid3.coords t) (dat.after 6 t) = _
  rw [hafter6 t h15]
  funext j
  obtain ⟨u, q', e, rfl⟩ : ∃ (u : Fin 1) (q' : Fin 256) (e : Fin 1024), j = ix3 u q' e := ⟨j 0, j 1, j 2, eq_ix3 j⟩
  obtain rfl : u = 0 := Subsingleton.elim _ _
  show k3_pay2 (S t.val t.isLt) (iblk6 V c 4 t) (ix3 (0 : Fin 1) q' e) = G6 V c (((cfg3.win 6).blk t).view.emb (ix3 (0 : Fin 1) q' e))
  refine (k3_pay2_apply (S t.val t.isLt) (iblk6 V c 4 t) q' e).trans ?_
  obtain ⟨e0, e1, e2⟩ := idx6_6 t
  have hi : ((cfg3.win 6).blk t).view.emb (ix3 (0 : Fin 1) q' e) = ix3 (pt6B t) (pt6Row t q') e := by
    funext a; apply Fin.ext
    match a with
    | ⟨0, _⟩ => show win3_6.index t (0 : Fin 3) * 1 + 1 * 0 = t.val / 128; omega
    | ⟨1, _⟩ => show win3_6.index t (1 : Fin 3) * 256 + 1 * q'.val = t.val / 16 % 8 * 256 + q'.val; omega
    | ⟨2, _⟩ => show win3_6.index t (2 : Fin 3) * 1024 + 1 * e.val = e.val; omega
  rw [hi, acc6_apply V c S hS0 hSs t.val t.isLt q' e, iblk6_4_apply V c t e, h15, partHM_last]
  rfl

include hS0 hSs hafter6 in
/-- THE ARRAY after the region: the output projection of the sixteen heads' contexts plus the bias, entry by entry. -/
theorem final6 : dat.arrAt 6 cfg3.N = G6 V c :=
  dat.arrAt_eq_of_cover 6 (G6 V c) (fun t hf => flushed6_eq V c dat S hS0 hSs hafter6 t hf) cover6

end Final

end Cert.KernelIdeal.Val

end
-- ==== Proof.Spec.lean ====
/-
  The closed functions of the attention layer over the extended reals, index by index.

  Inputs: three activations x : [2, 2048, 1024], four weight matrices W : [1024, 1024] (row e, column k:
  y = x · Wᵀ), four biases b : [1024]. A column e of a projected activation belongs to head e / 64 at lane
  e % 64; `col h d = 64·h + d` is the inverse. Per batch bb, head h, query row q:
    score k   = (Σ_d Q[bb,q,col h d] · K[bb,k,col h d]) · (1/8)
    rowmax    = the maximum of the scores of the row, from −∞
    pexp k    = exp (score k − rowmax),   denom = 0 + Σ_k pexp k,   attn k = pexp k / denom
    ctx d     = Σ_k attn k · V[bb,k,col h d]
    out e     = (Σ_h Σ_d ctx h d · Wo[e, col h d]) + bo[e].
  The three float literals stay the 32-bit words they are written as.
-/
import Idealize.ShloMosaic.PureOps.Ideal
import Idealize.ShloMosaic.Lib.ValueIdx

noncomputable section

open scoped BigOperators

namespace Cert.Spec

open Idealize.ShloMosaic Idealize.ShloMosaic.ValueIdx

/-- An activation array [2, 2048, 1024]. -/
abbrev Act : Type := (⟨3, ![2, 2048, 1024]⟩ : Shape).Idx → EReal
/-- A weight matrix [1024, 1024]. -/
abbrev Mat : Type := (⟨2, ![1024, 1024]⟩ : Shape).Idx → EReal
/-- A bias vector [1024]. -/
abbrev Bias : Type := (⟨1, ![1024]⟩ : Shape).Idx → EReal
/-- The attention weights [2, 16, 2048, 2048]. -/
abbrev Wts : Type := (⟨4, ![2, 16, 2048, 2048]⟩ : Shape).Idx → EReal
/-- A projected activation read by coordinates: batch, row, column. -/
abbrev Proj : Type := Fin 2 → Fin 2048 → Fin 1024 → EReal

/-! ## The column of head `h`, lane `d` -/

/-- Column `64·h + d` of the model dimension: lane `d` of head `h`. -/
def col (h : Fin 16) (d : Fin 64) : Fin 1024 :=
  ⟨h.val * 64 + d.val, by have := h.isLt; have := d.isLt; omega⟩
/-- The head of a column: `e / 64`. -/
def colHead (e : Fin 1024) : Fin 16 := ⟨e.val / 64, by have := e.isLt; omega⟩
/-- The lane of a column: `e % 64`. -/
def colLane (e : Fin 1024) : Fin 64 := ⟨e.val % 64, by omega⟩

theorem col_val (h : Fin 16) (d : Fin 64) : (col h d).val = h.val * 64 + d.val := rfl
theorem colHead_val (e : Fin 1024) : (colHead e).val = e.val / 64 := rfl
theorem colLane_val (e : Fin 1024) : (colLane e).val = e.val % 64 := rfl

theorem colHead_col (h : Fin 16) (d : Fin 64) : colHead (col h d) = h :=
  Fin.ext (by have := d.isLt; show (h.val * 64 + d.val) / 64 = h.val; omega)
theorem colLane_col (h : Fin 16) (d : Fin 64) : colLane (col h d) = d :=
  Fin.ext (by have := d.isLt; show (h.val * 64 + d.val) % 64 = d.val; omega)
theorem col_colHead_colLane (e : Fin 1024) : col (colHead e) (colLane e) = e :=
  Fin.ext (by show e.val / 64 * 64 + e.val % 64 = e.val; omega)

/-- Columns are the pairs (head, lane). -/
def colEquiv : Fin 16 × Fin 64 ≃ Fin 1024 where
  toFun p := col p.1 p.2
  invFun e := (colHead e, colLane e)
  left_inv p := Prod.ext (colHead_col p.1 p.2) (colLane_col p.1 p.2)
  right_inv e := col_colHead_colLane e

/-- A sum over the 1024 columns is the sum over the heads of the sums over the lanes. -/
theorem sum_col {M : Type*} [AddCommMonoid M] (f : Fin 1024 → M) :
    ∑ e : Fin 1024, f e = ∑ h : Fin 16, ∑ d : Fin 64, f (col h d) := by
  rw [← Equiv.sum_comp colEquiv f, Fintype.sum_prod_type]
  rfl

/-! ## The functions -/

/-- A linear layer `x · Wᵀ + b` at batch `bb`, row `t`, column `e`. -/
def lin (x : Act) (W : Mat) (b : Bias) : Proj := fun bb t e =>
  (∑ k : Fin 1024, x (ix3 bb t k) * W (ix2 e k)) + b (ix1 e)

/-- The scaled score of query row `q` against key row `k` in head `h`. -/
def score (Q K : Proj) (bb : Fin 2) (h : Fin 16) (q k : Fin 2048) : EReal :=
  (∑ d : Fin 64, Q bb q (col h d) * K bb k (col h d)) * Ideal.ofBits .f32 0x3E000000#32

/-- The maximum of a row of 2048 entries, from −∞. -/
def rowmax (f : Fin 2048 → EReal) : EReal :=
  (Finset.univ : Finset (Fin 2048)).fold max (Ideal.ofBits .f32 0xFF800000#32) f

/-- The exponential of a score less its row's maximum. -/
def pexp (Q K : Proj) (bb : Fin 2) (h : Fin 16) (q k : Fin 2048) : EReal :=
  Ideal.exp (score Q K bb h q k - rowmax (score Q K bb h q))

/-- The row's normaliser: zero plus the sum of the row's exponentials. -/
def denom (Q K : Proj) (bb : Fin 2) (h : Fin 16) (q : Fin 2048) : EReal :=
  Ideal.ofBits .f32 0x00000000#32 + ∑ k : Fin 2048, pexp Q K bb h q k

/-- The attention weight (softmax of the row of scores). -/
def attn (Q K : Proj) (bb : Fin 2) (h : Fin 16) (q k : Fin 2048) : EReal :=
  Ideal.div (pexp Q K bb h q k) (denom Q K bb h q)

/-- The context: the weights applied to the values of the head. -/
def ctx (Q K V : Proj) (bb : Fin 2) (h : Fin 16) (q : Fin 2048) (d : Fin 64) : EReal :=
  ∑ k : Fin 2048, attn Q K bb h q k * V bb k (col h d)

/-- The output projection of the heads' contexts laid side by side. -/
def out (Q K V : Proj) (Wo : Mat) (bo : Bias) (bb : Fin 2) (q : Fin 2048) (e : Fin 1024) : EReal :=
  (∑ h : Fin 16, ∑ d : Fin 64, ctx Q K V bb h q d * Wo (ix2 e (col h d))) + bo (ix1 e)

/-! ## The two results as whole arrays of the eleven inputs -/

/-- The attention weights [2, 16, 2048, 2048] of (query, key, Wq, bq, Wk, bk). -/
def attnArr (x0 x1 : Act) (x3 : Mat) (x4 : Bias) (x5 : Mat) (x6 : Bias) : Wts := fun i =>
  attn (lin x0 x3 x4) (lin x1 x5 x6) (i 0) (i 1) (i 2) (i 3)

/-- The output [2, 2048, 1024] of (query, key, value, Wq, bq, Wk, bk, Wv, bv, Wo, bo). -/
def outArr (x0 x1 x2 : Act) (x3 : Mat) (x4 : Bias) (x5 : Mat) (x6 : Bias) (x7 : Mat) (x8 : Bias) (x9 : Mat)
    (x10 : Bias) : Act := fun i =>
  out (lin x0 x3 x4) (lin x1 x5 x6) (lin x2 x7 x8) x9 x10 (i 0) (i 1) (i 2)

theorem attnArr_apply (x0 x1 : Act) (x3 : Mat) (x4 : Bias) (x5 : Mat) (x6 : Bias) (bb : Fin 2) (h : Fin 16)
    (q k : Fin 2048) :
    attnArr x0 x1 x3 x4 x5 x6 (ix4 bb h q k) = attn (lin x0 x3 x4) (lin x1 x5 x6) bb h q k := rfl

theorem outArr_apply (x0 x1 x2 : Act) (x3 : Mat) (x4 : Bias) (x5 : Mat) (x6 : Bias) (x7 : Mat) (x8 : Bias)
    (x9 : Mat) (x10 : Bias) (bb : Fin 2) (q : Fin 2048) (e : Fin 1024) :
    outArr x0 x1 x2 x3 x4 x5 x6 x7 x8 x9 x10 (ix3 bb q e)
      = out (lin x0 x3 x4) (lin x1 x5 x6) (lin x2 x7 x8) x9 x10 bb q e := rfl

end Cert.Spec

end
-- ==== Proof.Val.LinPay.lean ====
/-
  The three projection regions' payload at F := Ideal, entry by entry.

  Each region multiplies a [1024, 1024] block of activations by the [1024, 1024] transposed weights into a zero
  accumulator, adds the [1, 1024] bias row to every row, reads the [1024, 1024] result as [1024, 16, 64] (a column e is
  head e / 64, lane e % 64) and emits it head-major, [16, 1024, 64]. Over the extended reals the format changes are
  the identity, so entry (h, r, d) of the payload is
      Σ_k x(r, k) · w(k, col h d)  +  b(0, col h d).
-/
import proofs.«174660_j36575941493113_2_alg».proof.Proof.Gen.KernelIdeal.Skeleton
import proofs.«174660_j36575941493113_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx
open Cert.Spec (col)

/-! ## The block product at an index -/

theorem lhs_0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator at (r, c): the sum over k of a (r, k) * b (k, c). -/
theorem mm_apply (a b : FVec Ideal S1024x1024 .bf16) (r c : Fin 1024) :
    matmul dot_S1024x1024_S1024x1024_S1024x1024_1_0_0_1_n_n none a b (constant S1024x1024 .f32 0x00000000#32) (ix2 r c)
      = ∑ k : Fin 1024, a (ix2 r k) * b (ix2 k c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r c) ((contrEquiv1 dot_S1024x1024_S1024x1024_S1024x1024_1_0_0_1_n_n 1024 rfl rfl).symm k) = ix2 r k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 r c) ((contrEquiv1 dot_S1024x1024_S1024x1024_S1024x1024_1_0_0_1_n_n 1024 rfl rfl).symm k) = ix2 k c := funext fun a => Fin.ext (by
    match a with
    | ⟨0, _⟩ => exact (rhs_0 _ _).trans hk
    | ⟨1, _⟩ => exact rhs_1 _ _)
  rw [el, er] <;> rfl

/-! ## The linear regions' payload at an index -/

/-- The payload of each of the three projection regions as one term of its loaded blocks: the block product
    of the activations and the weights into a zero accumulator, plus the bias row broadcast over the rows, split into
    heads ([1024, 1024] read as [1024, 16, 64]) and emitted head-major ([16, 1024, 64]). -/
def linPay {F : FTy → Type} [FloatOps F] (x0 x1 : Vec F S1024x1024 .f32) (x2 : Vec F S1x1024 .f32) : FVec F S16x1024x64 .bf16 :=
  transpose S16x1024x64 [1, 0, 2]
    (shapeCast S1024x16x64
      (truncf .bf16
        (addf
          (matmul dot_S1024x1024_S1024x1024_S1024x1024_1_0_0_1_n_n none
            (truncf .bf16 (shapeCast S1024x1024 x0 shapeCasts_S1024x1024_S1024x1024) bitsLt_bf16_f32)
            (truncf .bf16 (shapeCast S1024x1024 x1 shapeCasts_S1024x1024_S1024x1024) bitsLt_bf16_f32)
            (constant S1024x1024 .f32 0x00000000#32))
          (broadcastTo S1024x1024 (shapeCast S1x1024 x2 shapeCasts_S1x1024_S1x1024) broadcasts_S1x1024_S1024x1024))
        bitsLt_bf16_f32)
      shapeCasts_S1024x1024_S1024x16x64)
    transposes_S1024x16x64_p1_0_2_S16x1024x64

theorem k0_pay1_eq {F : FTy → Type} [FloatOps F] (x0 x1 : Vec F S1024x1024 .f32) (x2 : Vec F S1x1024 .f32) :
    k0_pay1 x0 x1 x2 = linPay x0 x1 x2 := rfl
theorem k1_pay1_eq {F : FTy → Type} [FloatOps F] (x0 x1 : Vec F S1024x1024 .f32) (x2 : Vec F S1x1024 .f32) :
    k1_pay1 x0 x1 x2 = linPay x0 x1 x2 := rfl
theorem k2_pay1_eq {F : FTy → Type} [FloatOps F] (x0 x1 : Vec F S1024x1024 .f32) (x2 : Vec F S1x1024 .f32) :
    k2_pay1 x0 x1 x2 = linPay x0 x1 x2 := rfl

/-- The bias row broadcast over the rows, read at (r, c): the row's entry c. -/
theorem bias_apply (x2 : FVec Ideal S1x1024 .f32) (r c : Fin 1024) :
    broadcastTo S1024x1024 x2 broadcasts_S1x1024_S1024x1024 (ix2 r c) = x2 (ix2 0 c) :=
  broadcastTo_apply x2 broadcasts_S1x1024_S1024x1024 (ix2 r c) (ix2 0 c) (fun a => match a with
    | ⟨0, _⟩ => by show (0 : Nat) = if (1 : Nat) = 1 then 0 else r.val; rw [if_pos rfl]
    | ⟨1, _⟩ => by show c.val = if (1024 : Nat) = 1 then 0 else c.val; rw [if_neg (by decide)])

/-- At F := Ideal, where the format changes are the identity: entry (h, r, d) of the payload is row r of the
    activations times column h * 64 + d of the weights, plus the bias at that column. -/
theorem linPay_apply (x0 x1 : Vec Ideal S1024x1024 .f32) (x2 : Vec Ideal S1x1024 .f32) (h : Fin 16) (r : Fin 1024) (d : Fin 64) :
    linPay (F := Ideal) x0 x1 x2 (ix3 h r d)
      = (∑ k : Fin 1024, x0 (ix2 r k) * x1 (ix2 k (col h d))) + x2 (ix2 0 (col h d)) := by
  unfold linPay
  rw [transpose_apply [1, 0, 2] _ transposes_S1024x16x64_p1_0_2_S16x1024x64 (ix3 h r d) (ix3 r h d)
    (fun b => match b with | ⟨0, _⟩ => rfl | ⟨1, _⟩ => rfl | ⟨2, _⟩ => rfl)]
  rw [shapeCast_apply _ shapeCasts_S1024x1024_S1024x16x64 (ix3 r h d) (ix2 r (col h d))
    (by rw [Shape.rowMajor_val_two, Shape.rowMajor_val_three]
        show r.val * 1024 + (h.val * 64 + d.val) = (r.val * 16 + h.val) * 64 + d.val
        omega)]
  rw [truncf_apply, addf_apply, mm_apply, bias_apply]
  rw [shapeCast_self, shapeCast_self, shapeCast_self]
  rfl

/-- Region 0's payload at (h, r, d). -/
theorem k0_pay1_apply (x0 x1 : Vec Ideal S1024x1024 .f32) (x2 : Vec Ideal S1x1024 .f32) (h : Fin 16) (r : Fin 1024) (d : Fin 64) :
    k0_pay1 (F := Ideal) x0 x1 x2 (ix3 h r d)
      = (∑ k : Fin 1024, x0 (ix2 r k) * x1 (ix2 k (col h d))) + x2 (ix2 0 (col h d)) := by
  rw [k0_pay1_eq]; exact linPay_apply x0 x1 x2 h r d
/-- Region 1's payload at (h, r, d). -/
theorem k1_pay1_apply (x0 x1 : Vec Ideal S1024x1024 .f32) (x2 : Vec Ideal S1x1024 .f32) (h : Fin 16) (r : Fin 1024) (d : Fin 64) :
    k1_pay1 (F := Ideal) x0 x1 x2 (ix3 h r d)
      = (∑ k : Fin 1024, x0 (ix2 r k) * x1 (ix2 k (col h d))) + x2 (ix2 0 (col h d)) := by
  rw [k1_pay1_eq]; exact linPay_apply x0 x1 x2 h r d
/-- Region 2's payload at (h, r, d). -/
theorem k2_pay1_apply (x0 x1 : Vec Ideal S1024x1024 .f32) (x2 : Vec Ideal S1x1024 .f32) (h : Fin 16) (r : Fin 1024) (d : Fin 64) :
    k2_pay1 (F := Ideal) x0 x1 x2 (ix3 h r d)
      = (∑ k : Fin 1024, x0 (ix2 r k) * x1 (ix2 k (col h d))) + x2 (ix2 0 (col h d)) := by
  rw [k2_pay1_eq]; exact linPay_apply x0 x1 x2 h r d

end Cert.KernelIdeal.Val

end
-- ==== Proof.Val.LinFinal.lean ====
/-
  From the blocks to the array: what each projection region leaves in its output array, at F := Ideal.

  Region K (K = 0, 1, 2) runs over four points. Point t reads rows 1024·t … 1024·t + 1023 of the [4096, 1024]
  activations, the whole [1024, 1024] transposed weights and the whole [1, 1024] bias row, and writes rows
  1024·t … 1024·t + 1023 (on the middle axis) of the [16, 4096, 64] output. The payload's entry (h, r, d) is
  Σ_k x(r, k) · w(k, col h d) + b(0, col h d), so what point t writes back is block t of the one function
      linArr xs wt bs (h, R, d) = Σ_k xs(R, k) · wt(k, col h d) + bs(0, col h d),
  and since row R lies in the block of point R / 1024, the four blocks tile the array: it ends holding linArr.

  The statements take the region's proof data as a variable with one hypothesis: what the body leaves in the output
  window's buffer is the payload of the three input blocks as the region finds them.
-/
import proofs.«174660_j36575941493113_2_alg».proof.Proof.Gen.KernelIdeal.Launch
import proofs.«174660_j36575941493113_2_alg».proof.Proof.Gen.KernelIdeal.Skeleton
import proofs.«174660_j36575941493113_2_alg».proof.Proof.Gen.KernelIdeal.Points
import proofs.«174660_j36575941493113_2_alg».proof.Proof.Val.LinPay
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat Cfg Window)
open Cert.Spec (col)

/-- What a projection region leaves in its [16, 4096, 64] output array, as a function of the arrays it reads: entry
    (h, R, d) is row R of the activations times column col h d of the weights, plus the bias at that column. -/
def linArr (xs : S4096x1024.Idx → EReal) (wt : S1024x1024.Idx → EReal) (bs : S1x1024.Idx → EReal) : S16x4096x64.Idx → EReal :=
  fun i => (∑ k : Fin 1024, xs (ix2 (i 1) k) * wt (ix2 k (col (i 0) (i 2)))) + bs (ix2 0 (col (i 0) (i 2)))

theorem linArr_apply (xs : S4096x1024.Idx → EReal) (wt : S1024x1024.Idx → EReal) (bs : S1x1024.Idx → EReal)
    (h : Fin 16) (R : Fin 4096) (d : Fin 64) :
    linArr xs wt bs (ix3 h R d) = (∑ k : Fin 1024, xs (ix2 R k) * wt (ix2 k (col h d))) + bs (ix2 0 (col h d)) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- One point's payload is its block of rows of `linArr`: with the activation block being rows q·1024 … q·1024 + 1023
    of the activations, and the weight and bias blocks the whole arrays, entry (h, r, d) of the payload is entry
    (h, q·1024 + r, d) of `linArr`. -/
theorem pay_block (pay : Vec Ideal S1024x1024 .f32 → Vec Ideal S1024x1024 .f32 → Vec Ideal S1x1024 .f32 → FVec Ideal S16x1024x64 .bf16)
    (hpay : ∀ x0 x1 x2, pay x0 x1 x2 = linPay (F := Ideal) x0 x1 x2)
    (xs : S4096x1024.Idx → EReal) (wt : S1024x1024.Idx → EReal) (bs : S1x1024.Idx → EReal)
    (x0 x1 : Vec Ideal S1024x1024 .f32) (x2 : Vec Ideal S1x1024 .f32) (q : Nat)
    (h0 : ∀ (r k : Fin 1024) (R : Fin 4096), R.val = q * 1024 + r.val → x0 (ix2 r k) = xs (ix2 R k))
    (h1 : ∀ i, x1 i = wt i) (h2 : ∀ i, x2 i = bs i)
    (j : S16x1024x64.Idx) (i : S16x4096x64.Idx)
    (hi0 : (i 0).val = (j 0).val) (hi1 : (i 1).val = q * 1024 + (j 1).val) (hi2 : (i 2).val = (j 2).val) :
    pay x0 x1 x2 j = linArr xs wt bs i := by
  obtain ⟨h, r, d, rfl⟩ : ∃ (h : Fin 16) (r : Fin 1024) (d : Fin 64), j = ix3 h r d := ⟨j 0, j 1, j 2, eq_ix3 j⟩
  obtain ⟨h', R, d', rfl⟩ : ∃ (h' : Fin 16) (R : Fin 4096) (d' : Fin 64), i = ix3 h' R d' := ⟨i 0, i 1, i 2, eq_ix3 i⟩
  obtain rfl : h' = h := Fin.ext hi0
  obtain rfl : d' = d := Fin.ext hi2
  rw [hpay, linPay_apply, linArr_apply, h2]
  exact congrArg (· + bs (ix2 0 (col h' d'))) (Finset.sum_congr rfl fun k _ => by rw [h0 r k R hi1, h1])

/-- The block index maps of region 0, decided over its four points: the activations' and the output's row block is
    the point, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- An index of the output array is in point `t`'s block iff each coordinate is in the block's range on its axis. -/
theorem mem_blk0 (t : Fin cfg0.N) (i : S16x4096x64.Idx) :
    i ∈ ((cfg0.win 3).blk t).view.set ↔ ∀ a : Fin 3, win0_3.index t a * S16x1024x64.size a ≤ (i a).val ∧ (i a).val < win0_3.index t a * S16x1024x64.size a + S16x1024x64.size a := by
  show i ∈ ((View.whole main_v8).slice (win0_3.rect t)).set ↔ _
  rw [View.set_slice_whole, Rect.mem_set_unit]
  exact Iff.rfl

section Region0
variable (V : (c : Dev nD) → (b : Ref sig .tc) → Buf (Elt Ideal) ((c : Thread nD τ).loc b))
variable (c : Dev nD) (dat : Dat τ (Elt Ideal) Unit ℕ (UR sig nD τ) ℕ cfg0 c)

/-- WHAT POINT `t` WRITES BACK is block `t` of `linArr` of the arrays the region reads, as it finds them. -/
theorem flushed0_eq
    (hafter3 : ∀ t, dat.after 3 t = View.canon [⟨Rect.unit (s := S16x1024x64) ![0, 0, 0] S16x1024x64.size inb_S16x1024x64_S16x1024x64_0_0_0,
        k0_pay1
          (View.ld (((cfg0.win 0).blk t).view.read (Elt Ideal) (V c (Pipeline.arrRef spec0 0))) (Rect.unit (s := S1024x1024) ![0, 0] S1024x1024.size inb_S1024x1024_S1024x1024_0_0))
          (View.ld (((cfg0.win 1).blk t).view.read (Elt Ideal) (V c (Pipeline.arrRef spec0 1))) (Rect.unit (s := S1024x1024) ![0, 0] S1024x1024.size inb_S1024x1024_S1024x1024_0_0))
          (View.ld (((cfg0.win 2).blk t).view.read (Elt Ideal) (V c (Pipeline.arrRef spec0 2))) (Rect.unit (s := S1x1024) ![0, 0] S1x1024.size inb_S1x1024_S1x1024_0_0))⟩])
    (t : Fin cfg0.N) :
    dat.flushed 3 t = ((cfg0.win 3).blk t).view.read (Elt Ideal) (linArr (V c main_v4) (V c main_v0) (V c main_v7)) := by
  show (cfg0.win 3).cut (grid0.coords t) (dat.after 3 t) = _
  rw [hafter3]
  rw [View.canon_unit_zero hz3]
  simp only [View.ld_unit_zero (S := S1024x1024) hz2, View.ld_unit_zero (S := S1x1024) hz2]
  obtain ⟨e00, e01, e10, e11, e20, e21, e30, e31, e32⟩ := idx_facts0 t
  funext j
  refine pay_block k0_pay1 k0_pay1_eq (V c main_v4) (V c main_v0) (V c main_v7)
    (((cfg0.win 0).blk t).view.read (Elt Ideal) (V c (Pipeline.arrRef spec0 0)))
    (((cfg0.win 1).blk t).view.read (Elt Ideal) (V c (Pipeline.arrRef spec0 1)))
    (((cfg0.win 2).blk t).view.read (Elt Ideal) (V c (Pipeline.arrRef spec0 2)))
    t.val ?_ ?_ ?_ j (((cfg0.win 3).blk t).view.emb j) ?_ ?_ ?_
  · intro r k R hR
    show V c main_v4 (((cfg0.win 0).blk t).view.emb (ix2 r k)) = V c main_v4 (ix2 R k)
    refine congrArg (V c main_v4) (funext fun a => Fin.ext ?_)
    match a with
    | ⟨0, _⟩ => show win0_0.index t (0 : Fin 2) * 1024 + 1 * r.val = R.val; omega
    | ⟨1, _⟩ => show win0_0.index t (1 : Fin 2) * 1024 + 1 * k.val = k.val; omega
  · intro i
    show V c main_v0 (((cfg0.win 1).blk t).view.emb i) = V c main_v0 i
    refine congrArg (V c main_v0) (funext fun a => Fin.ext ?_)
    match a with
    | ⟨0, _⟩ => show win0_1.index t (0 : Fin 2) * 1024 + 1 * (i 0).val = (i 0).val; omega
    | ⟨1, _⟩ => show win0_1.index t (1 : Fin 2) * 1024 + 1 * (i 1).val = (i 1).val; omega
  · intro i
    show V c main_v7 (((cfg0.win 2).blk t).view.emb i) = V c main_v7 i
    refine congrArg (V c main_v7) (funext fun a => Fin.ext ?_)
    match a with
    | ⟨0, _⟩ => show win0_2.index t (0 : Fin 2) * 1 + 1 * (i 0).val = (i 0).val; omega
    | ⟨1, _⟩ => show win0_2.index t (1 : Fin 2) * 1024 + 1 * (i 1).val = (i 1).val; omega
  · show win0_3.index t (0 : Fin 3) * 16 + 1 * (j 0).val = (j 0).val; omega
  · show win0_3.index t (1 : Fin 3) * 1024 + 1 * (j 1).val = t.val * 1024 + (j 1).val; omega
  · show win0_3.index t (2 : Fin 3) * 64 + 1 * (j 2).val = (j 2).val; omega

/-- THE OUTPUT ARRAY after the region: `linArr` of the arrays the region reads. Row R of the output is written by
    point R / 1024, and the four points' blocks tile the array. -/
theorem lin0_final
    (hafter3 : ∀ t, dat.after 3 t = View.canon [⟨Rect.unit (s := S16x1024x64) ![0, 0, 0] S16x1024x64.size inb_S16x1024x64_S16x1024x64_0_0_0,
        k0_pay1
          (View.ld (((cfg0.win 0).blk t).view.read (Elt Ideal) (V c (Pipeline.arrRef spec0 0))) (Rect.unit (s := S1024x1024) ![0, 0] S1024x1024.size inb_S1024x1024_S1024x1024_0_0))
          (View.ld (((cfg0.win 1).blk t).view.read (Elt Ideal) (V c (Pipeline.arrRef spec0 1))) (Rect.unit (s := S1024x1024) ![0, 0] S1024x1024.size inb_S1024x1024_S1024x1024_0_0))
          (View.ld (((cfg0.win 2).blk t).view.read (Elt Ideal) (V c (Pipeline.arrRef spec0 2))) (Rect.unit (s := S1x1024) ![0, 0] S1x1024.size inb_S1x1024_S1x1024_0_0))⟩]) :
    dat.arrAt 3 cfg0.N = linArr (V c main_v4) (V c main_v0) (V c main_v7) :=
  dat.arrAt_eq_of_cover 3 (linArr (V c main_v4) (V c main_v0) (V c main_v7)) (fun t _ => flushed0_eq V c dat hafter3 t) fun i => by
    have hi0 : (i 0).val < 16 := (i 0).isLt
    have hi1 : (i 1).val < 4096 := (i 1).isLt
    have hi2 : (i 2).val < 64 := (i 2).isLt
    refine ⟨⟨(i 1).val / 1024, by rw [show cfg0.N = 4 from N_0]; omega⟩, flush0_3 _, ?_⟩
    rw [mem_blk0]
    obtain ⟨e00, e01, e10, e11, e20, e21, e30, e31, e32⟩ := idx_facts0 ⟨(i 1).val / 1024, by rw [show cfg0.N = 4 from N_0]; omega⟩
    intro a
    match a with
    | ⟨0, _⟩ => show win0_3.index _ (0 : Fin 3) * 16 ≤ (i 0).val ∧ (i 0).val < win0_3.index _ (0 : Fin 3) * 16 + 16; rw [e30]; omega
    | ⟨1, _⟩ => show win0_3.index _ (1 : Fin 3) * 1024 ≤ (i 1).val ∧ (i 1).val < win0_3.index _ (1 : Fin 3) * 1024 + 1024; rw [e31]; show (i 1).val / 1024 * 1024 ≤ (i 1).val ∧ (i 1).val < (i 1).val / 1024 * 1024 + 1024; omega
    | ⟨2, _⟩ => show win0_3.index _ (2 : Fin 3) * 64 ≤ (i 2).val ∧ (i 2).val < win0_3.index _ (2 : Fin 3) * 64 + 64; rw [e32]; omega
end Region0

/-- The block index maps of region 1, decided over its four points: the activations' and the output's row block is
    the point, every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0 :=
  (by decide +kernel : ∀ t : Fin grid1.N, _)

/-- An index of the output array is in point `t`'s block iff each coordinate is in the block's range on its axis. -/
theorem mem_blk1 (t : Fin cfg1.N) (i : S16x4096x64.Idx) :
    i ∈ ((cfg1.win 3).blk t).view.set ↔ ∀ a : Fin 3, win1_3.index t a * S16x1024x64.size a ≤ (i a).val ∧ (i a).val < win1_3.index t a * S16x1024x64.size a + S16x1024x64.size a := by
  show i ∈ ((View.whole main_v11).slice (win1_3.rect t)).set ↔ _
  rw [View.set_slice_whole, Rect.mem_set_unit]
  exact Iff.rfl

section Region1
variable (V : (c : Dev nD) → (b : Ref sig .tc) → Buf (Elt Ideal) ((c : Thread nD τ).loc b))
variable (c : Dev nD) (dat : Dat τ (Elt Ideal) Unit ℕ (UR sig nD τ) ℕ cfg1 c)

/-- WHAT POINT `t` WRITES BACK is block `t` of `linArr` of the arrays the region reads, as it finds them. -/
theorem flushed1_eq
    (hafter3 : ∀ t, dat.after 3 t = View.canon [⟨Rect.unit (s := S16x1024x64) ![0, 0, 0] S16x1024x64.size inb_S16x1024x64_S16x1024x64_0_0_0,
        k1_pay1
          (View.ld (((cfg1.win 0).blk t).view.read (Elt Ideal) (V c (Pipeline.arrRef spec1 0))) (Rect.unit (s := S1024x1024) ![0, 0] S1024x1024.size inb_S1024x1024_S1024x1024_0_0))
          (View.ld (((cfg1.win 1).blk t).view.read (Elt Ideal) (V c (Pipeline.arrRef spec1 1))) (Rect.unit (s := S1024x1024) ![0, 0] S1024x1024.size inb_S1024x1024_S1024x1024_0_0))
          (View.ld (((cfg1.win 2).blk t).view.read (Elt Ideal) (V c (Pipeline.arrRef spec1 2))) (Rect.unit (s := S1x1024) ![0, 0] S1x1024.size inb_S1x1024_S1x1024_0_0))⟩])
    (t : Fin cfg1.N) :
    dat.flushed 3 t = ((cfg1.win 3).blk t).view.read (Elt Ideal) (linArr (V c main_v5) (V c main_v1) (V c main_v10)) := by
  show (cfg1.win 3).cut (grid1.coords t) (dat.after 3 t) = _
  rw [hafter3]
  rw [View.canon_unit_zero hz3]
  simp only [View.ld_unit_zero (S := S1024x1024) hz2, View.ld_unit_zero (S := S1x1024) hz2]
  obtain ⟨e00, e01, e10, e11, e20, e21, e30, e31, e32⟩ := idx_facts1 t
  funext j
  refine pay_block k1_pay1 k1_pay1_eq (V c main_v5) (V c main_v1) (V c main_v10)
    (((cfg1.win 0).blk t).view.read (Elt Ideal) (V c (Pipeline.arrRef spec1 0)))
    (((cfg1.win 1).blk t).view.read (Elt Ideal) (V c (Pipeline.arrRef spec1 1)))
    (((cfg1.win 2).blk t).view.read (Elt Ideal) (V c (Pipeline.arrRef spec1 2)))
    t.val ?_ ?_ ?_ j (((cfg1.win 3).blk t).view.emb j) ?_ ?_ ?_
  · intro r k R hR
    show V c main_v5 (((cfg1.win 0).blk t).view.emb (ix2 r k)) = V c main_v5 (ix2 R k)
    refine congrArg (V c main_v5) (funext fun a => Fin.ext ?_)
    match a with
    | ⟨0, _⟩ => show win1_0.index t (0 : Fin 2) * 1024 + 1 * r.val = R.val; omega
    | ⟨1, _⟩ => show win1_0.index t (1 : Fin 2) * 1024 + 1 * k.val = k.val; omega
  · intro i
    show V c main_v1 (((cfg1.win 1).blk t).view.emb i) = V c main_v1 i
    refine congrArg (V c main_v1) (funext fun a => Fin.ext ?_)
    match a with
    | ⟨0, _⟩ => show win1_1.index t (0 : Fin 2) * 1024 + 1 * (i 0).val = (i 0).val; omega
    | ⟨1, _⟩ => show win1_1.index t (1 : Fin 2) * 1024 + 1 * (i 1).val = (i 1).val; omega
  · intro i
    show V c main_v10 (((cfg1.win 2).blk t).view.emb i) = V c main_v10 i
    refine congrArg (V c main_v10) (funext fun a => Fin.ext ?_)
    match a with
    | ⟨0, _⟩ => show win1_2.index t (0 : Fin 2) * 1 + 1 * (i 0).val = (i 0).val; omega
    | ⟨1, _⟩ => show win1_2.index t (1 : Fin 2) * 1024 + 1 * (i 1).val = (i 1).val; omega
  · show win1_3.index t (0 : Fin 3) * 16 + 1 * (j 0).val = (j 0).val; omega
  · show win1_3.index t (1 : Fin 3) * 1024 + 1 * (j 1).val = t.val * 1024 + (j 1).val; omega
  · show win1_3.index t (2 : Fin 3) * 64 + 1 * (j 2).val = (j 2).val; omega

/-- THE OUTPUT ARRAY after the region: `linArr` of the arrays the region reads. Row R of the output is written by
    point R / 1024, and the four points' blocks tile the array. -/
theorem lin1_final
    (hafter3 : ∀ t, dat.after 3 t = View.canon [⟨Rect.unit (s := S16x1024x64) ![0, 0, 0] S16x1024x64.size inb_S16x1024x64_S16x1024x64_0_0_0,
        k1_pay1
          (View.ld (((cfg1.win 0).blk t).view.read (Elt Ideal) (V c (Pipeline.arrRef spec1 0))) (Rect.unit (s := S1024x1024) ![0, 0] S1024x1024.size inb_S1024x1024_S1024x1024_0_0))
          (View.ld (((cfg1.win 1).blk t).view.read (Elt Ideal) (V c (Pipeline.arrRef spec1 1))) (Rect.unit (s := S1024x1024) ![0, 0] S1024x1024.size inb_S1024x1024_S1024x1024_0_0))
          (View.ld (((cfg1.win 2).blk t).view.read (Elt Ideal) (V c (Pipeline.arrRef spec1 2))) (Rect.unit (s := S1x1024) ![0, 0] S1x1024.size inb_S1x1024_S1x1024_0_0))⟩]) :
    dat.arrAt 3 cfg1.N = linArr (V c main_v5) (V c main_v1) (V c main_v10) :=
  dat.arrAt_eq_of_cover 3 (linArr (V c main_v5) (V c main_v1) (V c main_v10)) (fun t _ => flushed1_eq V c dat hafter3 t) fun i => by
    have hi0 : (i 0).val < 16 := (i 0).isLt
    have hi1 : (i 1).val < 4096 := (i 1).isLt
    have hi2 : (i 2).val < 64 := (i 2).isLt
    refine ⟨⟨(i 1).val / 1024, by rw [show cfg1.N = 4 from N_1]; omega⟩, flush1_3 _, ?_⟩
    rw [mem_blk1]
    obtain ⟨e00, e01, e10, e11, e20, e21, e30, e31, e32⟩ := idx_facts1 ⟨(i 1).val / 1024, by rw [show cfg1.N = 4 from N_1]; omega⟩
    intro a
    match a with
    | ⟨0, _⟩ => show win1_3.index _ (0 : Fin 3) * 16 ≤ (i 0).val ∧ (i 0).val < win1_3.index _ (0 : Fin 3) * 16 + 16; rw [e30]; omega
    | ⟨1, _⟩ => show win1_3.index _ (1 : Fin 3) * 1024 ≤ (i 1).val ∧ (i 1).val < win1_3.index _ (1 : Fin 3) * 1024 + 1024; rw [e31]; show (i 1).val / 1024 * 1024 ≤ (i 1).val ∧ (i 1).val < (i 1).val / 1024 * 1024 + 1024; omega
    | ⟨2, _⟩ => show win1_3.index _ (2 : Fin 3) * 64 ≤ (i 2).val ∧ (i 2).val < win1_3.index _ (2 : Fin 3) * 64 + 64; rw [e32]; omega
end Region1

/-- The block index maps of region 2, decided over its four points: the activations' and the output's row block is
    the point, every other block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = 0 ∧ win2_3.index t (1 : Fin 3) = t.val ∧ win2_3.index t (2 : Fin 3) = 0 :=
  (by decide +kernel : ∀ t : Fin grid2.N, _)

/-- An index of the output array is in point `t`'s block iff each coordinate is in the block's range on its axis. -/
theorem mem_blk2 (t : Fin cfg2.N) (i : S16x4096x64.Idx) :
    i ∈ ((cfg2.win 3).blk t).view.set ↔ ∀ a : Fin 3, win2_3.index t a * S16x1024x64.size a ≤ (i a).val ∧ (i a).val < win2_3.index t a * S16x1024x64.size a + S16x1024x64.size a := by
  show i ∈ ((View.whole main_v14).slice (win2_3.rect t)).set ↔ _
  rw [View.set_slice_whole, Rect.mem_set_unit]
  exact Iff.rfl

section Region2
variable (V : (c : Dev nD) → (b : Ref sig .tc) → Buf (Elt Ideal) ((c : Thread nD τ).loc b))
variable (c : Dev nD) (dat : Dat τ (Elt Ideal) Unit ℕ (UR sig nD τ) ℕ cfg2 c)

/-- WHAT POINT `t` WRITES BACK is block `t` of `linArr` of the arrays the region reads, as it finds them. -/
theorem flushed2_eq
    (hafter3 : ∀ t, dat.after 3 t = View.canon [⟨Rect.unit (s := S16x1024x64) ![0, 0, 0] S16x1024x64.size inb_S16x1024x64_S16x1024x64_0_0_0,
        k2_pay1
          (View.ld (((cfg2.win 0).blk t).view.read (Elt Ideal) (V c (Pipeline.arrRef spec2 0))) (Rect.unit (s := S1024x1024) ![0, 0] S1024x1024.size inb_S1024x1024_S1024x1024_0_0))
          (View.ld (((cfg2.win 1).blk t).view.read (Elt Ideal) (V c (Pipeline.arrRef spec2 1))) (Rect.unit (s := S1024x1024) ![0, 0] S1024x1024.size inb_S1024x1024_S1024x1024_0_0))
          (View.ld (((cfg2.win 2).blk t).view.read (Elt Ideal) (V c (Pipeline.arrRef spec2 2))) (Rect.unit (s := S1x1024) ![0, 0] S1x1024.size inb_S1x1024_S1x1024_0_0))⟩])
    (t : Fin cfg2.N) :
    dat.flushed 3 t = ((cfg2.win 3).blk t).view.read (Elt Ideal) (linArr (V c main_v6) (V c main_v2) (V c main_v13)) := by
  show (cfg2.win 3).cut (grid2.coords t) (dat.after 3 t) = _
  rw [hafter3]
  rw [View.canon_unit_zero hz3]
  simp only [View.ld_unit_zero (S := S1024x1024) hz2, View.ld_unit_zero (S := S1x1024) hz2]
  obtain ⟨e00, e01, e10, e11, e20, e21, e30, e31, e32⟩ := idx_facts2 t
  funext j
  refine pay_block k2_pay1 k2_pay1_eq (V c main_v6) (V c main_v2) (V c main_v13)
    (((cfg2.win 0).blk t).view.read (Elt Ideal) (V c (Pipeline.arrRef spec2 0)))
    (((cfg2.win 1).blk t).view.read (Elt Ideal) (V c (Pipeline.arrRef spec2 1)))
    (((cfg2.win 2).blk t).view.read (Elt Ideal) (V c (Pipeline.arrRef spec2 2)))
    t.val ?_ ?_ ?_ j (((cfg2.win 3).blk t).view.emb j) ?_ ?_ ?_
  · intro r k R hR
    show V c main_v6 (((cfg2.win 0).blk t).view.emb (ix2 r k)) = V c main_v6 (ix2 R k)
    refine congrArg (V c main_v6) (funext fun a => Fin.ext ?_)
    match a with
    | ⟨0, _⟩ => show win2_0.index t (0 : Fin 2) * 1024 + 1 * r.val = R.val; omega
    | ⟨1, _⟩ => show win2_0.index t (1 : Fin 2) * 1024 + 1 * k.val = k.val; omega
  · intro i
    show V c main_v2 (((cfg2.win 1).blk t).view.emb i) = V c main_v2 i
    refine congrArg (V c main_v2) (funext fun a => Fin.ext ?_)
    match a with
    | ⟨0, _⟩ => show win2_1.index t (0 : Fin 2) * 1024 + 1 * (i 0).val = (i 0).val; omega
    | ⟨1, _⟩ => show win2_1.index t (1 : Fin 2) * 1024 + 1 * (i 1).val = (i 1).val; omega
  · intro i
    show V c main_v13 (((cfg2.win 2).blk t).view.emb i) = V c main_v13 i
    refine congrArg (V c main_v13) (funext fun a => Fin.ext ?_)
    match a with
    | ⟨0, _⟩ => show win2_2.index t (0 : Fin 2) * 1 + 1 * (i 0).val = (i 0).val; omega
    | ⟨1, _⟩ => show win2_2.index t (1 : Fin 2) * 1024 + 1 * (i 1).val = (i 1).val; omega
  · show win2_3.index t (0 : Fin 3) * 16 + 1 * (j 0).val = (j 0).val; omega
  · show win2_3.index t (1 : Fin 3) * 1024 + 1 * (j 1).val = t.val * 1024 + (j 1).val; omega
  · show win2_3.index t (2 : Fin 3) * 64 + 1 * (j 2).val = (j 2).val; omega

/-- THE OUTPUT ARRAY after the region: `linArr` of the arrays the region reads. Row R of the output is written by
    point R / 1024, and the four points' blocks tile the array. -/
theorem lin2_final
    (hafter3 : ∀ t, dat.after 3 t = View.canon [⟨Rect.unit (s := S16x1024x64) ![0, 0, 0] S16x1024x64.size inb_S16x1024x64_S16x1024x64_0_0_0,
        k2_pay1
          (View.ld (((cfg2.win 0).blk t).view.read (Elt Ideal) (V c (Pipeline.arrRef spec2 0))) (Rect.unit (s := S1024x1024) ![0, 0] S1024x1024.size inb_S1024x1024_S1024x1024_0_0))
          (View.ld (((cfg2.win 1).blk t).view.read (Elt Ideal) (V c (Pipeline.arrRef spec2 1))) (Rect.unit (s := S1024x1024) ![0, 0] S1024x1024.size inb_S1024x1024_S1024x1024_0_0))
          (View.ld (((cfg2.win 2).blk t).view.read (Elt Ideal) (V c (Pipeline.arrRef spec2 2))) (Rect.unit (s := S1x1024) ![0, 0] S1x1024.size inb_S1x1024_S1x1024_0_0))⟩]) :
    dat.arrAt 3 cfg2.N = linArr (V c main_v6) (V c main_v2) (V c main_v13) :=
  dat.arrAt_eq_of_cover 3 (linArr (V c main_v6) (V c main_v2) (V c main_v13)) (fun t _ => flushed2_eq V c dat hafter3 t) fun i => by
    have hi0 : (i 0).val < 16 := (i 0).isLt
    have hi1 : (i 1).val < 4096 := (i 1).isLt
    have hi2 : (i 2).val < 64 := (i 2).isLt
    refine ⟨⟨(i 1).val / 1024, by rw [show cfg2.N = 4 from N_2]; omega⟩, flush2_3 _, ?_⟩
    rw [mem_blk2]
    obtain ⟨e00, e01, e10, e11, e20, e21, e30, e31, e32⟩ := idx_facts2 ⟨(i 1).val / 1024, by rw [show cfg2.N = 4 from N_2]; omega⟩
    intro a
    match a with
    | ⟨0, _⟩ => show win2_3.index _ (0 : Fin 3) * 16 ≤ (i 0).val ∧ (i 0).val < win2_3.index _ (0 : Fin 3) * 16 + 16; rw [e30]; omega
    | ⟨1, _⟩ => show win2_3.index _ (1 : Fin 3) * 1024 ≤ (i 1).val ∧ (i 1).val < win2_3.index _ (1 : Fin 3) * 1024 + 1024; rw [e31]; show (i 1).val / 1024 * 1024 ≤ (i 1).val ∧ (i 1).val < (i 1).val / 1024 * 1024 + 1024; omega
    | ⟨2, _⟩ => show win2_3.index _ (2 : Fin 3) * 64 ≤ (i 2).val ∧ (i 2).val < win2_3.index _ (2 : Fin 3) * 64 + 64; rw [e32]; omega
end Region2

end Cert.KernelIdeal.Val

end
-- ==== Proof.Val.Arrays.lean ====
import proofs.«174660_j36575941493113_2_alg».proof.Proof.KI.AttnPieces
import proofs.«174660_j36575941493113_2_alg».proof.Proof.KI.Lin0
import proofs.«174660_j36575941493113_2_alg».proof.Proof.KI.Lin1
import proofs.«174660_j36575941493113_2_alg».proof.Proof.KI.Lin2
import proofs.«174660_j36575941493113_2_alg».proof.Proof.Val.AttnFinal5
import proofs.«174660_j36575941493113_2_alg».proof.Proof.Val.AttnFinal6
import proofs.«174660_j36575941493113_2_alg».proof.Proof.Val.LinFinal

noncomputable section

namespace Cert.KernelIdeal.Val

open Cert.KernelIdeal Cert.KernelIdeal.Gen Cert.KernelIdeal.Fr
open Idealize.ShloMosaic Idealize.ShloMosaic.TcCoe Idealize.SL.Sem

variable (V : (c : Dev nD) → (b : Ref sig .tc) → Buf (Elt Ideal) ((c : Thread nD τ).loc b))

/-! ## What each region leaves in its output arrays, over the extended reals, from the arrays it is entered with -/

/-- Region 3's attention weights: entry (b, h, q, k) is the softmax over k of the scaled scores of head h's query row q of
    batch b against its key rows. -/
theorem arr5_dat3 (c : Dev nD) :
    (dat3 (F := Ideal) V c).arrAt 5 cfg3.N = fun i => attnHM (V c main_v9) (V c main_v12) (i 0) (i 1) (i 2) (i 3) :=
  arr5 V c (dat3 V c) (fun t => after3_5_pay V c t)

/-- Region 3's result: entry (b, q, e) is the sum over the heads of the head's context row times its slice of the output
    weights, plus the bias — the accumulator's sixteen additions, in order, are that sum. -/
theorem arr6_dat3 (c : Dev nD) : (dat3 (F := Ideal) V c).arrAt 6 cfg3.N = G6 V c :=
  final6 V c (dat3 V c) (acc3 V c) (acc3_first V c) (acc3_next V c) (after3_6_pay V c)

/-- Regions 0, 1, 2: entry (h, R, d) of the head-major projection is row R of the activations against column h·64+d of the
    transposed weights, plus the bias. -/
theorem arr3_dat0 (c : Dev nD) :
    (dat0 (F := Ideal) V c).arrAt 3 cfg0.N = linArr (V c main_v4) (V c main_v0) (V c main_v7) :=
  lin0_final V c (dat0 V c) (fun t => by rw [after0_3]; rfl)
theorem arr3_dat1 (c : Dev nD) :
    (dat1 (F := Ideal) V c).arrAt 3 cfg1.N = linArr (V c main_v5) (V c main_v1) (V c main_v10) :=
  lin1_final V c (dat1 V c) (fun t => by rw [after1_3]; rfl)
theorem arr3_dat2 (c : Dev nD) :
    (dat2 (F := Ideal) V c).arrAt 3 cfg2.N = linArr (V c main_v6) (V c main_v2) (V c main_v13) :=
  lin2_final V c (dat2 V c) (fun t => by rw [after2_3]; rfl)

end Cert.KernelIdeal.Val

end
-- ==== Proof.Val.HostGlue.lean ====
/-
  The host operations between the regions, read at an index, at F := Ideal.

  Between the four regions the program only moves data: the weight matrices are transposed, the [2, 2048, 1024]
  activations are read as [4096, 1024] (row bb·2048 + t is batch bb's row t), a bias [1024] is read as a row
  [1, 1024], a region's [16, 4096, 64] output is read as [16, 2, 2048, 64], and the transposed output weights are read
  as [16, 64, 1024] (row col h d is head h, lane d) and narrowed, which over the extended reals is the identity.
  First each written buffer as a term of the buffers read; then those terms at an index; then the two facts the
  attention region's value rests on: a projection as the region reads it is the linear layer at (bb, t, col h d),
  and the output weights as it reads them are Wo at (e, col h d).
-/
import proofs.«174660_j36575941493113_2_alg».proof.Proof.Gen.KernelIdeal.Launch
import proofs.«174660_j36575941493113_2_alg».proof.Proof.Spec
import proofs.«174660_j36575941493113_2_alg».proof.Proof.Val.LinFinal
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx
open Cert.Spec (col)

/-! ## The host operations between the regions, as terms of the buffers they read -/

section Host
variable {F : FTy → Type} [FloatOps F] (X : Valuation τ sig (Elt F))

/-! Before region 0: the four weight matrices transposed, the three activations read as [4096, 1024], the query
    bias as a row. -/
theorem host0_v0 : StableHlo.after (hostOps0 (F := F)) X (Proc.devRef .tc main_v0) = transpose S1024x1024 [1, 0] (X (Proc.devRef .tc main_arg3) : S1024x1024.Idx → Elt F .f32) transposes_S1024x1024_S1024x1024_1_0 := by
  after_results <;> rfl
theorem host0_v1 : StableHlo.after (hostOps0 (F := F)) X (Proc.devRef .tc main_v1) = transpose S1024x1024 [1, 0] (X (Proc.devRef .tc main_arg5) : S1024x1024.Idx → Elt F .f32) transposes_S1024x1024_S1024x1024_1_0 := by
  after_results <;> rfl
theorem host0_v2 : StableHlo.after (hostOps0 (F := F)) X (Proc.devRef .tc main_v2) = transpose S1024x1024 [1, 0] (X (Proc.devRef .tc main_arg7) : S1024x1024.Idx → Elt F .f32) transposes_S1024x1024_S1024x1024_1_0 := by
  after_results <;> rfl
theorem host0_v3 : StableHlo.after (hostOps0 (F := F)) X (Proc.devRef .tc main_v3) = transpose S1024x1024 [1, 0] (X (Proc.devRef .tc main_arg9) : S1024x1024.Idx → Elt F .f32) transposes_S1024x1024_S1024x1024_1_0 := by
  after_results <;> rfl
theorem host0_v4 : StableHlo.after (hostOps0 (F := F)) X (Proc.devRef .tc main_v4) = shapeCast S4096x1024 (X (Proc.devRef .tc main_arg0) : S2x2048x1024.Idx → Elt F .f32) shapeCasts_S2x2048x1024_S4096x1024 := by
  after_results <;> rfl
theorem host0_v5 : StableHlo.after (hostOps0 (F := F)) X (Proc.devRef .tc main_v5) = shapeCast S4096x1024 (X (Proc.devRef .tc main_arg1) : S2x2048x1024.Idx → Elt F .f32) shapeCasts_S2x2048x1024_S4096x1024 := by
  after_results <;> rfl
theorem host0_v6 : StableHlo.after (hostOps0 (F := F)) X (Proc.devRef .tc main_v6) = shapeCast S4096x1024 (X (Proc.devRef .tc main_arg2) : S2x2048x1024.Idx → Elt F .f32) shapeCasts_S2x2048x1024_S4096x1024 := by
  after_results <;> rfl
theorem host0_v7 : StableHlo.after (hostOps0 (F := F)) X (Proc.devRef .tc main_v7) = shapeCast S1x1024 (X (Proc.devRef .tc main_arg4) : S1024.Idx → Elt F .f32) shapeCasts_S1024_S1x1024 := by
  after_results <;> rfl

/-! Between regions 0 and 1: region 0's output split by batch, the key bias as a row. -/
theorem host1_v9 : StableHlo.after (hostOps1 (F := F)) X (Proc.devRef .tc main_v9) = shapeCast S16x2x2048x64 (X (Proc.devRef .tc main_v8) : S16x4096x64.Idx → Elt F .bf16) shapeCasts_S16x4096x64_S16x2x2048x64 := by
  after_results <;> rfl
theorem host1_v10 : StableHlo.after (hostOps1 (F := F)) X (Proc.devRef .tc main_v10) = shapeCast S1x1024 (X (Proc.devRef .tc main_arg6) : S1024.Idx → Elt F .f32) shapeCasts_S1024_S1x1024 := by
  after_results <;> rfl

/-! Between regions 1 and 2: region 1's output split by batch, the value bias as a row. -/
theorem host2_v12 : StableHlo.after (hostOps2 (F := F)) X (Proc.devRef .tc main_v12) = shapeCast S16x2x2048x64 (X (Proc.devRef .tc main_v11) : S16x4096x64.Idx → Elt F .bf16) shapeCasts_S16x4096x64_S16x2x2048x64 := by
  after_results <;> rfl
theorem host2_v13 : StableHlo.after (hostOps2 (F := F)) X (Proc.devRef .tc main_v13) = shapeCast S1x1024 (X (Proc.devRef .tc main_arg8) : S1024.Idx → Elt F .f32) shapeCasts_S1024_S1x1024 := by
  after_results <;> rfl

/-! Between regions 2 and 3: region 2's output split by batch, the transposed output weights split by head (and
    narrowed), the output bias as a row. -/
theorem host3_v15 : StableHlo.after (hostOps3 (F := F)) X (Proc.devRef .tc main_v15) = shapeCast S16x2x2048x64 (X (Proc.devRef .tc main_v14) : S16x4096x64.Idx → Elt F .bf16) shapeCasts_S16x4096x64_S16x2x2048x64 := by
  after_results <;> rfl
theorem host3_v16 : StableHlo.after (hostOps3 (F := F)) X (Proc.devRef .tc main_v16) = shapeCast S16x64x1024 (X (Proc.devRef .tc main_v3) : S1024x1024.Idx → Elt F .f32) shapeCasts_S1024x1024_S16x64x1024 := by
  after_results <;> rfl
theorem host3_v17 : StableHlo.after (hostOps3 (F := F)) X (Proc.devRef .tc main_v17) = (truncf .bf16 (shapeCast S16x64x1024 (X (Proc.devRef .tc main_v3) : S1024x1024.Idx → Elt F .f32) shapeCasts_S1024x1024_S16x64x1024 : FVec F S16x64x1024 .f32) bitsLt_bf16_f32 : FVec F S16x64x1024 .bf16) := by
  after_results <;> rfl
theorem host3_v18 : StableHlo.after (hostOps3 (F := F)) X (Proc.devRef .tc main_v18) = shapeCast S1x1024 (X (Proc.devRef .tc main_arg10) : S1024.Idx → Elt F .f32) shapeCasts_S1024_S1x1024 := by
  after_results <;> rfl

end Host

/-! ## Those terms at an index -/

/-- Row `bb * 2048 + t` of a [4096, ·] array: batch `bb`'s row `t`. -/
def row (bb : Fin 2) (t : Fin 2048) : Fin 4096 := ⟨bb.val * 2048 + t.val, by have := bb.isLt; have := t.isLt; omega⟩

theorem row_val (bb : Fin 2) (t : Fin 2048) : (row bb t).val = bb.val * 2048 + t.val := rfl

/-- A transposed matrix at (a, b) is the matrix at (b, a). -/
theorem transpose2_apply {α : Type} (x : S1024x1024.Idx → α) (a b : Fin 1024) :
    transpose S1024x1024 [1, 0] x transposes_S1024x1024_S1024x1024_1_0 (ix2 a b) = x (ix2 b a) :=
  transpose_apply [1, 0] x transposes_S1024x1024_S1024x1024_1_0 (ix2 a b) (ix2 b a) (fun i => match i with | ⟨0, _⟩ => rfl | ⟨1, _⟩ => rfl)

/-- [2, 2048, 1024] read as [4096, 1024]: row bb * 2048 + t is batch bb's row t. -/
theorem rows_apply {α : Type} (x : S2x2048x1024.Idx → α) (bb : Fin 2) (t : Fin 2048) (k : Fin 1024) :
    shapeCast S4096x1024 x shapeCasts_S2x2048x1024_S4096x1024 (ix2 (row bb t) k) = x (ix3 bb t k) :=
  shapeCast_apply x shapeCasts_S2x2048x1024_S4096x1024 (ix2 (row bb t) k) (ix3 bb t k)
    (by rw [Shape.rowMajor_val_three, Shape.rowMajor_val_two]
        show (bb.val * 2048 + t.val) * 1024 + k.val = (bb.val * 2048 + t.val) * 1024 + k.val
        rfl)

/-- [1024] read as [1, 1024]. -/
theorem biasRow_apply {α : Type} (x : S1024.Idx → α) (e : Fin 1024) :
    shapeCast S1x1024 x shapeCasts_S1024_S1x1024 (ix2 0 e) = x (ix1 e) :=
  shapeCast_apply x shapeCasts_S1024_S1x1024 (ix2 0 e) (ix1 e)
    (by rw [Shape.rowMajor_val_one, Shape.rowMajor_val_two]
        show e.val = 0 * 1024 + e.val
        omega)

/-- [16, 4096, 64] read as [16, 2, 2048, 64]: (h, bb, t, d) is (h, bb * 2048 + t, d). -/
theorem heads_apply {α : Type} (y : S16x4096x64.Idx → α) (h : Fin 16) (bb : Fin 2) (t : Fin 2048) (d : Fin 64) :
    shapeCast S16x2x2048x64 y shapeCasts_S16x4096x64_S16x2x2048x64 (ix4 h bb t d) = y (ix3 h (row bb t) d) :=
  shapeCast_apply y shapeCasts_S16x4096x64_S16x2x2048x64 (ix4 h bb t d) (ix3 h (row bb t) d)
    (by rw [Shape.rowMajor_val_three, Shape.rowMajor_val_four]
        show (h.val * 4096 + (bb.val * 2048 + t.val)) * 64 + d.val = ((h.val * 2 + bb.val) * 2048 + t.val) * 64 + d.val
        omega)

/-- [1024, 1024] read as [16, 64, 1024]: (h, d, e) is (col h d, e). -/
theorem headRows_apply {α : Type} (x : S1024x1024.Idx → α) (h : Fin 16) (d : Fin 64) (e : Fin 1024) :
    shapeCast S16x64x1024 x shapeCasts_S1024x1024_S16x64x1024 (ix3 h d e) = x (ix2 (col h d) e) :=
  shapeCast_apply x shapeCasts_S1024x1024_S16x64x1024 (ix3 h d e) (ix2 (col h d) e)
    (by rw [Shape.rowMajor_val_two, Shape.rowMajor_val_three]
        show (h.val * 64 + d.val) * 1024 + e.val = (h.val * 64 + d.val) * 1024 + e.val
        rfl)

/-! ## What region 3 reads, at F := Ideal -/

/-- A projection as region 3 reads it: the region's output array — `linArr` of the activations read as [4096, 1024],
    the transposed weights and the bias row — split by batch, at (h, bb, t, d), is the linear layer at batch bb,
    row t, column col h d. -/
theorem proj_apply (x : Spec.Act) (W : Spec.Mat) (b : Spec.Bias) (h : Fin 16) (bb : Fin 2) (t : Fin 2048) (d : Fin 64) :
    shapeCast S16x2x2048x64
        (linArr (shapeCast S4096x1024 x shapeCasts_S2x2048x1024_S4096x1024)
          (transpose S1024x1024 [1, 0] W transposes_S1024x1024_S1024x1024_1_0)
          (shapeCast S1x1024 b shapeCasts_S1024_S1x1024))
        shapeCasts_S16x4096x64_S16x2x2048x64 (ix4 h bb t d)
      = Spec.lin x W b bb t (col h d) := by
  rw [heads_apply, linArr_apply, biasRow_apply]
  unfold Spec.lin
  refine congrArg (· + b (ix1 (col h d))) (Finset.sum_congr rfl fun k _ => ?_)
  rw [rows_apply, transpose2_apply]

/-- The output weights as region 3 reads them: transposed, split by head, narrowed (the identity over the extended
    reals): entry (h, d, e) is Wo (e, col h d). -/
theorem woHeads_apply (Wo : Spec.Mat) (h : Fin 16) (d : Fin 64) (e : Fin 1024) :
    (truncf .bf16 (shapeCast S16x64x1024 (transpose S1024x1024 [1, 0] Wo transposes_S1024x1024_S1024x1024_1_0) shapeCasts_S1024x1024_S16x64x1024 : FVec Ideal S16x64x1024 .f32) bitsLt_bf16_f32 : FVec Ideal S16x64x1024 .bf16) (ix3 h d e)
      = Wo (ix2 e (col h d)) := by
  rw [truncf_apply, headRows_apply, transpose2_apply]

end Cert.KernelIdeal.Val

end
-- ==== Proof.Val.Entry3.lean ====
/-
  What the attention region finds in the arrays it reads, as functions of the launch contents of the arguments.

  The program is four regions with host stretches between them. A host stretch only writes the buffers of its own
  operations; a region only changes its own arrays. So, walking back from the attention region's entry: each projected
  activation it reads is a projection region's output array split by batch, that output array is the linear layer of
  arrays which the first host stretch made from the arguments, and the output weights and bias it reads are copies the
  host stretches made from the arguments. Hence: a projection at (h, bb, t, d) is the linear layer at (bb, t, col h d),
  the output weights at (h, d, e) are Wo at (e, col h d), and the bias row at (0, e) is bo at e.
-/
import proofs.«174660_j36575941493113_2_alg».proof.Proof.Gen.KernelIdeal.Regions
import proofs.«174660_j36575941493113_2_alg».proof.Proof.Val.HostGlue

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx
open Cert.Spec (col)

/-- The buffer contents at launch (`W0`) and at the exits of the three projection regions (`W2`, `W4`, `W6`): off its
    own arrays a region leaves what the host stretch before it left, and its output array is the linear layer of the
    arrays it read. -/
structure Fold (W0 W2 W4 W6 : Valuation τ sig (Elt Ideal)) : Prop where
  h2 : ∀ b : Ref sig .tc, (∀ w, Pipeline.arrRef spec0 w ≠ b) →
    W2 (Proc.devRef .tc b) = StableHlo.after hostOps0 W0 (Proc.devRef .tc b)
  h4 : ∀ b : Ref sig .tc, (∀ w, Pipeline.arrRef spec1 w ≠ b) →
    W4 (Proc.devRef .tc b) = StableHlo.after hostOps1 W2 (Proc.devRef .tc b)
  h6 : ∀ b : Ref sig .tc, (∀ w, Pipeline.arrRef spec2 w ≠ b) →
    W6 (Proc.devRef .tc b) = StableHlo.after hostOps2 W4 (Proc.devRef .tc b)
  a2 : W2 (Proc.devRef .tc main_v8) = linArr (StableHlo.after hostOps0 W0 (Proc.devRef .tc main_v4))
    (StableHlo.after hostOps0 W0 (Proc.devRef .tc main_v0)) (StableHlo.after hostOps0 W0 (Proc.devRef .tc main_v7))
  a4 : W4 (Proc.devRef .tc main_v11) = linArr (StableHlo.after hostOps1 W2 (Proc.devRef .tc main_v5))
    (StableHlo.after hostOps1 W2 (Proc.devRef .tc main_v1)) (StableHlo.after hostOps1 W2 (Proc.devRef .tc main_v10))
  a6 : W6 (Proc.devRef .tc main_v14) = linArr (StableHlo.after hostOps2 W4 (Proc.devRef .tc main_v6))
    (StableHlo.after hostOps2 W4 (Proc.devRef .tc main_v2)) (StableHlo.after hostOps2 W4 (Proc.devRef .tc main_v13))

namespace Fold

variable {W0 W2 W4 W6 : Valuation τ sig (Elt Ideal)} (hf : Fold W0 W2 W4 W6)
include hf

/-- Through the first host stretch and region: a buffer neither writes is as launched. -/
theorem step2 (b : Ref sig .tc) (hw : b ∉ hostOps0_W) (ha : ∀ w, Pipeline.arrRef spec0 w ≠ b) :
    W2 (Proc.devRef .tc b) = W0 (Proc.devRef .tc b) :=
  (hf.h2 b ha).trans (StableHlo.after_of_writes_sub hostOps0 _ hostOps0_writes hw)

/-- Through the second host stretch and region. -/
theorem step4 (b : Ref sig .tc) (hw : b ∉ hostOps1_W) (ha : ∀ w, Pipeline.arrRef spec1 w ≠ b) :
    W4 (Proc.devRef .tc b) = W2 (Proc.devRef .tc b) :=
  (hf.h4 b ha).trans (StableHlo.after_of_writes_sub hostOps1 _ hostOps1_writes hw)

/-- Through the third host stretch and region. -/
theorem step6 (b : Ref sig .tc) (hw : b ∉ hostOps2_W) (ha : ∀ w, Pipeline.arrRef spec2 w ≠ b) :
    W6 (Proc.devRef .tc b) = W4 (Proc.devRef .tc b) :=
  (hf.h6 b ha).trans (StableHlo.after_of_writes_sub hostOps2 _ hostOps2_writes hw)

/-- The query projection as the attention region reads it. -/
theorem entryQ (h : Fin 16) (bb : Fin 2) (t : Fin 2048) (d : Fin 64) :
    (StableHlo.after hostOps3 W6 (Proc.devRef .tc main_v9) : S16x2x2048x64.Idx → EReal) (ix4 h bb t d)
      = Spec.lin (W0 (Proc.devRef .tc main_arg0)) (W0 (Proc.devRef .tc main_arg3)) (W0 (Proc.devRef .tc main_arg4)) bb t (col h d) := by
  have e1 : StableHlo.after hostOps3 W6 (Proc.devRef .tc main_v9) = W6 (Proc.devRef .tc main_v9) :=
    StableHlo.after_of_writes_sub hostOps3 _ hostOps3_writes (by decide)
  have e2 : W6 (Proc.devRef .tc main_v9) = W4 (Proc.devRef .tc main_v9) := hf.step6 main_v9 (by decide) (by decide)
  have e3 : W4 (Proc.devRef .tc main_v9) = StableHlo.after hostOps1 W2 (Proc.devRef .tc main_v9) := hf.h4 main_v9 (by decide)
  rw [e1, e2, e3, host1_v9 W2, hf.a2, host0_v4 W0, host0_v0 W0, host0_v7 W0]
  exact proj_apply _ _ _ h bb t d

/-- The key projection as the attention region reads it. -/
theorem entryK (h : Fin 16) (bb : Fin 2) (t : Fin 2048) (d : Fin 64) :
    (StableHlo.after hostOps3 W6 (Proc.devRef .tc main_v12) : S16x2x2048x64.Idx → EReal) (ix4 h bb t d)
      = Spec.lin (W0 (Proc.devRef .tc main_arg1)) (W0 (Proc.devRef .tc main_arg5)) (W0 (Proc.devRef .tc main_arg6)) bb t (col h d) := by
  have e1 : StableHlo.after hostOps3 W6 (Proc.devRef .tc main_v12) = W6 (Proc.devRef .tc main_v12) :=
    StableHlo.after_of_writes_sub hostOps3 _ hostOps3_writes (by decide)
  have e2 : W6 (Proc.devRef .tc main_v12) = StableHlo.after hostOps2 W4 (Proc.devRef .tc main_v12) := hf.h6 main_v12 (by decide)
  have x5 : StableHlo.after hostOps1 W2 (Proc.devRef .tc main_v5) = StableHlo.after hostOps0 W0 (Proc.devRef .tc main_v5) :=
    (StableHlo.after_of_writes_sub hostOps1 _ hostOps1_writes (by decide)).trans (hf.h2 main_v5 (by decide))
  have x1 : StableHlo.after hostOps1 W2 (Proc.devRef .tc main_v1) = StableHlo.after hostOps0 W0 (Proc.devRef .tc main_v1) :=
    (StableHlo.after_of_writes_sub hostOps1 _ hostOps1_writes (by decide)).trans (hf.h2 main_v1 (by decide))
  have x6 : W2 (Proc.devRef .tc main_arg6) = W0 (Proc.devRef .tc main_arg6) := hf.step2 main_arg6 (by decide) (by decide)
  rw [e1, e2, host2_v12 W4, hf.a4, x5, x1, host1_v10 W2, x6, host0_v5 W0, host0_v1 W0]
  exact proj_apply _ _ _ h bb t d

/-- The value projection as the attention region reads it. -/
theorem entryV (h : Fin 16) (bb : Fin 2) (t : Fin 2048) (d : Fin 64) :
    (StableHlo.after hostOps3 W6 (Proc.devRef .tc main_v15) : S16x2x2048x64.Idx → EReal) (ix4 h bb t d)
      = Spec.lin (W0 (Proc.devRef .tc main_arg2)) (W0 (Proc.devRef .tc main_arg7)) (W0 (Proc.devRef .tc main_arg8)) bb t (col h d) := by
  have x6 : StableHlo.after hostOps2 W4 (Proc.devRef .tc main_v6) = StableHlo.after hostOps0 W0 (Proc.devRef .tc main_v6) :=
    (StableHlo.after_of_writes_sub hostOps2 _ hostOps2_writes (by decide)).trans
      ((hf.step4 main_v6 (by decide) (by decide)).trans (hf.h2 main_v6 (by decide)))
  have x2 : StableHlo.after hostOps2 W4 (Proc.devRef .tc main_v2) = StableHlo.after hostOps0 W0 (Proc.devRef .tc main_v2) :=
    (StableHlo.after_of_writes_sub hostOps2 _ hostOps2_writes (by decide)).trans
      ((hf.step4 main_v2 (by decide) (by decide)).trans (hf.h2 main_v2 (by decide)))
  have x8 : W4 (Proc.devRef .tc main_arg8) = W0 (Proc.devRef .tc main_arg8) :=
    (hf.step4 main_arg8 (by decide) (by decide)).trans (hf.step2 main_arg8 (by decide) (by decide))
  rw [host3_v15 W6, hf.a6, x6, x2, host2_v13 W4, x8, host0_v6 W0, host0_v2 W0]
  exact proj_apply _ _ _ h bb t d

/-- The output weights as the attention region reads them. -/
theorem entryWo (h : Fin 16) (d : Fin 64) (e : Fin 1024) :
    (StableHlo.after hostOps3 W6 (Proc.devRef .tc main_v17) : S16x64x1024.Idx → EReal) (ix3 h d e)
      = (W0 (Proc.devRef .tc main_arg9) : S1024x1024.Idx → EReal) (ix2 e (col h d)) := by
  have x3 : W6 (Proc.devRef .tc main_v3) = StableHlo.after hostOps0 W0 (Proc.devRef .tc main_v3) :=
    (hf.step6 main_v3 (by decide) (by decide)).trans
      ((hf.step4 main_v3 (by decide) (by decide)).trans (hf.h2 main_v3 (by decide)))
  rw [host3_v17 W6, x3, host0_v3 W0]
  exact woHeads_apply _ h d e

/-- The output bias as the attention region reads it. -/
theorem entryBo (e : Fin 1024) :
    (StableHlo.after hostOps3 W6 (Proc.devRef .tc main_v18) : S1x1024.Idx → EReal) (ix2 (0 : Fin 1) e)
      = (W0 (Proc.devRef .tc main_arg10) : S1024.Idx → EReal) (ix1 e) := by
  have x10 : W6 (Proc.devRef .tc main_arg10) = W0 (Proc.devRef .tc main_arg10) :=
    (hf.step6 main_arg10 (by decide) (by decide)).trans
      ((hf.step4 main_arg10 (by decide) (by decide)).trans (hf.step2 main_arg10 (by decide) (by decide)))
  rw [host3_v18 W6, x10]
  exact biasRow_apply _ e

end Fold

end Cert.KernelIdeal.Val

end
-- ==== Proof.Val.HMtoSpec.lean ====
/-
  The head-major closed functions are the closed functions of the attention layer, once the head-major operands are
  read as the projected activations at column `col h d`, the per-head output weights as the weight matrix at
  (e, col h d), and the bias row as the bias vector: the same sums, folds and quotients term by term.
-/
import proofs.«174660_j36575941493113_2_alg».proof.Proof.Spec
import proofs.«174660_j36575941493113_2_alg».proof.Proof.Val.AttnSpecHM

noncomputable section

open scoped BigOperators

namespace Cert.KernelIdeal.Val

open Idealize.ShloMosaic Idealize.ShloMosaic.ValueIdx

section Pointwise

variable (Qh Kh Vh : ActHM) (Woh : WoHM) (bo2 : BiasRow)
variable (Q K Vp : Cert.Spec.Proj) (Wo : Cert.Spec.Mat) (bo : Cert.Spec.Bias)

/-- The scaled score. -/
theorem scoreHM_eq
    (hQ : ∀ (h : Fin 16) (b : Fin 2) (t : Fin 2048) (d : Fin 64), Qh (ix4 h b t d) = Q b t (Cert.Spec.col h d))
    (hK : ∀ (h : Fin 16) (b : Fin 2) (t : Fin 2048) (d : Fin 64), Kh (ix4 h b t d) = K b t (Cert.Spec.col h d))
    (b : Fin 2) (h : Fin 16) (q k : Fin 2048) :
    scoreHM Qh Kh b h q k = Cert.Spec.score Q K b h q k := by
  unfold scoreHM Cert.Spec.score
  congr 1
  exact Finset.sum_congr rfl fun d _ => by rw [hQ, hK]

/-- The row of scores. -/
theorem scoreHM_row
    (hQ : ∀ (h : Fin 16) (b : Fin 2) (t : Fin 2048) (d : Fin 64), Qh (ix4 h b t d) = Q b t (Cert.Spec.col h d))
    (hK : ∀ (h : Fin 16) (b : Fin 2) (t : Fin 2048) (d : Fin 64), Kh (ix4 h b t d) = K b t (Cert.Spec.col h d))
    (b : Fin 2) (h : Fin 16) (q : Fin 2048) :
    scoreHM Qh Kh b h q = Cert.Spec.score Q K b h q :=
  funext fun k => scoreHM_eq Qh Kh Q K hQ hK b h q k

/-- The row maximum. -/
theorem rowmaxHM_eq
    (hQ : ∀ (h : Fin 16) (b : Fin 2) (t : Fin 2048) (d : Fin 64), Qh (ix4 h b t d) = Q b t (Cert.Spec.col h d))
    (hK : ∀ (h : Fin 16) (b : Fin 2) (t : Fin 2048) (d : Fin 64), Kh (ix4 h b t d) = K b t (Cert.Spec.col h d))
    (b : Fin 2) (h : Fin 16) (q : Fin 2048) :
    rowmaxHM Qh Kh b h q = Cert.Spec.rowmax (Cert.Spec.score Q K b h q) := by
  unfold rowmaxHM Cert.Spec.rowmax
  rw [scoreHM_row Qh Kh Q K hQ hK b h q]

/-- The exponential of a score less its row's maximum. -/
theorem pexpHM_eq
    (hQ : ∀ (h : Fin 16) (b : Fin 2) (t : Fin 2048) (d : Fin 64), Qh (ix4 h b t d) = Q b t (Cert.Spec.col h d))
    (hK : ∀ (h : Fin 16) (b : Fin 2) (t : Fin 2048) (d : Fin 64), Kh (ix4 h b t d) = K b t (Cert.Spec.col h d))
    (b : Fin 2) (h : Fin 16) (q k : Fin 2048) :
    pexpHM Qh Kh b h q k = Cert.Spec.pexp Q K b h q k := by
  unfold pexpHM Cert.Spec.pexp
  rw [scoreHM_eq Qh Kh Q K hQ hK b h q k, rowmaxHM_eq Qh Kh Q K hQ hK b h q]

/-- The row's normaliser. -/
theorem denomHM_eq
    (hQ : ∀ (h : Fin 16) (b : Fin 2) (t : Fin 2048) (d : Fin 64), Qh (ix4 h b t d) = Q b t (Cert.Spec.col h d))
    (hK : ∀ (h : Fin 16) (b : Fin 2) (t : Fin 2048) (d : Fin 64), Kh (ix4 h b t d) = K b t (Cert.Spec.col h d))
    (b : Fin 2) (h : Fin 16) (q : Fin 2048) :
    denomHM Qh Kh b h q = Cert.Spec.denom Q K b h q := by
  unfold denomHM Cert.Spec.denom
  congr 1
  exact Finset.sum_congr rfl fun k _ => pexpHM_eq Qh Kh Q K hQ hK b h q k

/-- The attention weight. -/
theorem attnHM_eq
    (hQ : ∀ (h : Fin 16) (b : Fin 2) (t : Fin 2048) (d : Fin 64), Qh (ix4 h b t d) = Q b t (Cert.Spec.col h d))
    (hK : ∀ (h : Fin 16) (b : Fin 2) (t : Fin 2048) (d : Fin 64), Kh (ix4 h b t d) = K b t (Cert.Spec.col h d))
    (b : Fin 2) (h : Fin 16) (q k : Fin 2048) :
    attnHM Qh Kh b h q k = Cert.Spec.attn Q K b h q k := by
  unfold attnHM Cert.Spec.attn
  rw [pexpHM_eq Qh Kh Q K hQ hK b h q k, denomHM_eq Qh Kh Q K hQ hK b h q]

/-- The context of a head. -/
theorem ctxHM_eq
    (hQ : ∀ (h : Fin 16) (b : Fin 2) (t : Fin 2048) (d : Fin 64), Qh (ix4 h b t d) = Q b t (Cert.Spec.col h d))
    (hK : ∀ (h : Fin 16) (b : Fin 2) (t : Fin 2048) (d : Fin 64), Kh (ix4 h b t d) = K b t (Cert.Spec.col h d))
    (hV : ∀ (h : Fin 16) (b : Fin 2) (t : Fin 2048) (d : Fin 64), Vh (ix4 h b t d) = Vp b t (Cert.Spec.col h d))
    (b : Fin 2) (h : Fin 16) (q : Fin 2048) (d : Fin 64) :
    ctxHM Qh Kh Vh b h q d = Cert.Spec.ctx Q K Vp b h q d := by
  unfold ctxHM Cert.Spec.ctx
  exact Finset.sum_congr rfl fun k _ => by rw [attnHM_eq Qh Kh Q K hQ hK b h q k, hV]

/-- The output projection. -/
theorem outHM_eq
    (hQ : ∀ (h : Fin 16) (b : Fin 2) (t : Fin 2048) (d : Fin 64), Qh (ix4 h b t d) = Q b t (Cert.Spec.col h d))
    (hK : ∀ (h : Fin 16) (b : Fin 2) (t : Fin 2048) (d : Fin 64), Kh (ix4 h b t d) = K b t (Cert.Spec.col h d))
    (hV : ∀ (h : Fin 16) (b : Fin 2) (t : Fin 2048) (d : Fin 64), Vh (ix4 h b t d) = Vp b t (Cert.Spec.col h d))
    (hW : ∀ (h : Fin 16) (d : Fin 64) (e : Fin 1024), Woh (ix3 h d e) = Wo (ix2 e (Cert.Spec.col h d)))
    (hb : ∀ e : Fin 1024, bo2 (ix2 (0 : Fin 1) e) = bo (ix1 e))
    (b : Fin 2) (q : Fin 2048) (e : Fin 1024) :
    outHM Qh Kh Vh Woh bo2 b q e = Cert.Spec.out Q K Vp Wo bo b q e := by
  unfold outHM Cert.Spec.out
  rw [hb e]
  congr 1
  exact Finset.sum_congr rfl fun h _ => Finset.sum_congr rfl fun d _ => by
    rw [ctxHM_eq Qh Kh Vh Q K Vp hQ hK hV b h q d, hW]

end Pointwise

/-! ## The two results as whole arrays -/

/-- The head-major attention weights, as an array [2, 16, 2048, 2048], are the attention weights of the inputs. -/
theorem attnHM_arr (Qh Kh : ActHM) (x0 x1 : Cert.Spec.Act) (x3 : Cert.Spec.Mat) (x4 : Cert.Spec.Bias)
    (x5 : Cert.Spec.Mat) (x6 : Cert.Spec.Bias)
    (hQ : ∀ (h : Fin 16) (b : Fin 2) (t : Fin 2048) (d : Fin 64),
      Qh (ix4 h b t d) = Cert.Spec.lin x0 x3 x4 b t (Cert.Spec.col h d))
    (hK : ∀ (h : Fin 16) (b : Fin 2) (t : Fin 2048) (d : Fin 64),
      Kh (ix4 h b t d) = Cert.Spec.lin x1 x5 x6 b t (Cert.Spec.col h d)) :
    (fun i : (⟨4, ![2, 16, 2048, 2048]⟩ : Shape).Idx => attnHM Qh Kh (i 0) (i 1) (i 2) (i 3))
      = Cert.Spec.attnArr x0 x1 x3 x4 x5 x6 :=
  funext fun i => attnHM_eq Qh Kh (Cert.Spec.lin x0 x3 x4) (Cert.Spec.lin x1 x5 x6) hQ hK (i 0) (i 1) (i 2) (i 3)

/-- The head-major output, as an array [2, 2048, 1024], is the output of the inputs. -/
theorem outHM_arr (Qh Kh Vh : ActHM) (Woh : WoHM) (bo2 : BiasRow) (x0 x1 x2 : Cert.Spec.Act) (x3 : Cert.Spec.Mat)
    (x4 : Cert.Spec.Bias) (x5 : Cert.Spec.Mat) (x6 : Cert.Spec.Bias) (x7 : Cert.Spec.Mat) (x8 : Cert.Spec.Bias)
    (x9 : Cert.Spec.Mat) (x10 : Cert.Spec.Bias)
    (hQ : ∀ (h : Fin 16) (b : Fin 2) (t : Fin 2048) (d : Fin 64),
      Qh (ix4 h b t d) = Cert.Spec.lin x0 x3 x4 b t (Cert.Spec.col h d))
    (hK : ∀ (h : Fin 16) (b : Fin 2) (t : Fin 2048) (d : Fin 64),
      Kh (ix4 h b t d) = Cert.Spec.lin x1 x5 x6 b t (Cert.Spec.col h d))
    (hV : ∀ (h : Fin 16) (b : Fin 2) (t : Fin 2048) (d : Fin 64),
      Vh (ix4 h b t d) = Cert.Spec.lin x2 x7 x8 b t (Cert.Spec.col h d))
    (hW : ∀ (h : Fin 16) (d : Fin 64) (e : Fin 1024), Woh (ix3 h d e) = x9 (ix2 e (Cert.Spec.col h d)))
    (hb : ∀ e : Fin 1024, bo2 (ix2 (0 : Fin 1) e) = x10 (ix1 e)) :
    (fun i : (⟨3, ![2, 2048, 1024]⟩ : Shape).Idx => outHM Qh Kh Vh Woh bo2 (i 0) (i 1) (i 2))
      = Cert.Spec.outArr x0 x1 x2 x3 x4 x5 x6 x7 x8 x9 x10 :=
  funext fun i => outHM_eq Qh Kh Vh Woh bo2 (Cert.Spec.lin x0 x3 x4) (Cert.Spec.lin x1 x5 x6)
    (Cert.Spec.lin x2 x7 x8) x9 x10 hQ hK hV hW hb (i 0) (i 1) (i 2)

end Cert.KernelIdeal.Val

end
-- ==== Proof.Val.ChainOut.lean ====
/-
  The two arrays the program returns, as the closed functions of the launch contents of its eleven arguments.

  The attention region's two output arrays are the head-major closed functions of the five arrays it reads; those five
  arrays, walked back through the host stretches and the three projection regions, are the projections of the
  arguments, the output weights and the output bias; and the head-major closed functions of those are the closed
  functions of the attention layer.
-/
import proofs.«174660_j36575941493113_2_alg».proof.Proof.KI.RunFold
import proofs.«174660_j36575941493113_2_alg».proof.Proof.Val.Arrays
import proofs.«174660_j36575941493113_2_alg».proof.Proof.Val.Entry3
import proofs.«174660_j36575941493113_2_alg».proof.Proof.Val.HMtoSpec

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

/-- The four regions' proof data over the extended reals, each as a function of the contents it is entered with. -/
local notation "D0" => (fun V c => Cert.KernelIdeal.Fr.dat0 (F := Ideal) V c)
local notation "D1" => (fun V c => Cert.KernelIdeal.Fr.dat1 (F := Ideal) V c)
local notation "D2" => (fun V c => Cert.KernelIdeal.Fr.dat2 (F := Ideal) V c)
local notation "D3" => (fun V c => Cert.KernelIdeal.Fr.dat3 (F := Ideal) V c)

variable (m : (ℓ : Loc nD τ sig) → Buf (Elt Ideal) ℓ) (c : Dev nD)

/-- The contents at launch and at the three projection regions' exits are related as `Fold` asks. -/
theorem fold : Fold (Fr.W0 m c) (Fr.W2 m D0 c) (Fr.W4 m D0 D1 c) (Fr.W6 m D0 D1 D2 c) where
  h2 := fun b hb => Fr.W2_of_ne m D0 c b hb
  h4 := fun b hb => Fr.W4_of_ne m D0 D1 c b hb
  h6 := fun b hb => Fr.W6_of_ne m D0 D1 D2 c b hb
  a2 := (Fr.W2_arr m D0 c 3).trans (arr3_dat0 (Fr.V1 m) c)
  a4 := (Fr.W4_arr m D0 D1 c 3).trans (arr3_dat1 (Fr.V3 m D0) c)
  a6 := (Fr.W6_arr m D0 D1 D2 c 3).trans (arr3_dat2 (Fr.V5 m D0 D1) c)

/-- The query projection the attention region reads is the linear layer of (query, Wq, bq). -/
theorem chainQ' : ∀ (h : Fin 16) (b : Fin 2) (t : Fin 2048) (d : Fin 64),
    (Fr.V7 m D0 D1 D2 c main_v9 : ActHM) (ix4 h b t d)
      = Cert.Spec.lin (m ((c.tc : Thread nD τ).loc main_arg0)) (m ((c.tc : Thread nD τ).loc main_arg3)) (m ((c.tc : Thread nD τ).loc main_arg4)) b t (Cert.Spec.col h d) :=
  fun h b t d => (fold m c).entryQ h b t d

/-- The key projection the attention region reads is the linear layer of (key, Wk, bk). -/
theorem chainK' : ∀ (h : Fin 16) (b : Fin 2) (t : Fin 2048) (d : Fin 64),
    (Fr.V7 m D0 D1 D2 c main_v12 : ActHM) (ix4 h b t d)
      = Cert.Spec.lin (m ((c.tc : Thread nD τ).loc main_arg1)) (m ((c.tc : Thread nD τ).loc main_arg5)) (m ((c.tc : Thread nD τ).loc main_arg6)) b t (Cert.Spec.col h d) :=
  fun h b t d => (fold m c).entryK h b t d

/-- The value projection the attention region reads is the linear layer of (value, Wv, bv). -/
theorem chainV' : ∀ (h : Fin 16) (b : Fin 2) (t : Fin 2048) (d : Fin 64),
    (Fr.V7 m D0 D1 D2 c main_v15 : ActHM) (ix4 h b t d)
      = Cert.Spec.lin (m ((c.tc : Thread nD τ).loc main_arg2)) (m ((c.tc : Thread nD τ).loc main_arg7)) (m ((c.tc : Thread nD τ).loc main_arg8)) b t (Cert.Spec.col h d) :=
  fun h b t d => (fold m c).entryV h b t d

/-- The output weights the attention region reads are Wo, transposed and split by head. -/
theorem chainW : ∀ (h : Fin 16) (d : Fin 64) (e : Fin 1024),
    (Fr.V7 m D0 D1 D2 c main_v17 : WoHM) (ix3 h d e) = (m ((c.tc : Thread nD τ).loc main_arg9)) (ix2 e (Cert.Spec.col h d)) :=
  fun h d e => (fold m c).entryWo h d e

/-- The output bias the attention region reads is bo as a row. -/
theorem chainB : ∀ e : Fin 1024,
    (Fr.V7 m D0 D1 D2 c main_v18 : BiasRow) (ix2 (0 : Fin 1) e) = (m ((c.tc : Thread nD τ).loc main_arg10)) (ix1 e) :=
  fun e => (fold m c).entryBo e

/-- The attention weights the program returns. -/
theorem kernel_attn :
    Fr.W8 m D0 D1 D2 D3 c (Proc.devRef .tc main_v19_0)
      = Cert.Spec.attnArr (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (Fr.W8_arr m D0 D1 D2 D3 c 5).trans ((arr5_dat3 (Fr.V7 m D0 D1 D2) c).trans
    (attnHM_arr _ _ _ _ _ _ _ _ (chainQ' m c) (chainK' m c)))

/-- The output the program returns. -/
theorem kernel_out :
    Fr.W8 m D0 D1 D2 D3 c (Proc.devRef .tc main_v19_1)
      = Cert.Spec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (Fr.W8_arr m D0 D1 D2 D3 c 6).trans ((arr6_dat3 (Fr.V7 m D0 D1 D2) c).trans
    (outHM_arr _ _ _ _ _ _ _ _ _ _ _ _ _ _ _ _ (chainQ' m c) (chainK' m c) (chainV' m c) (chainW m c) (chainB m c)))

end Cert.KernelIdeal.Val

end
-- ==== Proof.Ref.Proj.lean ====
/-
  The reference's three projections read at an index: each is reshaped [2, 2048, 1024] → [2, 2048, 16, 64] and
  transposed to [2, 16, 2048, 64], so its element (bb, h, t, d) is the linear layer's element (bb, t, 64·h + d).
-/
import proofs.«174660_j36575941493113_2_alg».proof.Proof.Gen.ReferenceIdeal.Read
import proofs.«174660_j36575941493113_2_alg».proof.Proof.Spec

noncomputable section

open scoped BigOperators

namespace Cert.RefSide

open Cert.ReferenceIdeal Cert.ReferenceIdeal.Gen Cert.ReferenceIdeal.Read
open Idealize.ShloMosaic Idealize.ShloMosaic.ValueIdx
open Cert.Spec

/-- The row-major position of (bb, t, h, d) in [2, 2048, 16, 64], split over [2, 2048, 1024], is (bb, t, 64·h + d). -/
theorem act_idx_eq (bb : Fin 2) (t : Fin 2048) (h : Fin 16) (d : Fin 64) (j : (⟨3, ![2, 2048, 1024]⟩ : Shape).Idx)
    (h0 : (j 0).val = (((bb.val * 2048 + t.val) * 16 + h.val) * 64 + d.val) / 2097152)
    (h1 : (j 1).val = (((bb.val * 2048 + t.val) * 16 + h.val) * 64 + d.val) / 1024 % 2048)
    (h2 : (j 2).val = (((bb.val * 2048 + t.val) * 16 + h.val) * 64 + d.val) % 1024) :
    j = ix3 bb t (col h d) := by
  have hb := bb.isLt
  have ht := t.isLt
  have hh := h.isLt
  have hd := d.isLt
  funext a
  match a with
  | ⟨0, _⟩ => exact Fin.ext (h0.trans (by show _ = bb.val; omega))
  | ⟨1, _⟩ => exact Fin.ext (h1.trans (by show _ = t.val; omega))
  | ⟨2, _⟩ => exact Fin.ext (h2.trans (by show _ = h.val * 64 + d.val; omega))

/-- The query projection, head-major, at (batch, head, row, lane) is the linear layer at column `col h d`. -/
theorem v5_apply (x0 : Act) (x3 : Mat) (x4 : Bias) (bb : Fin 2) (h : Fin 16) (t : Fin 2048) (d : Fin 64) :
    val_main_v5 (F := Ideal) x0 x3 x4 (ix4 bb h t d) = lin x0 x3 x4 bb t (col h d) := by
  rw [val_main_v5_apply, val_main_v4_apply, val_main_v3_apply, val_main_v0_apply, val_main_v2_apply,
    val_main_v1_apply]
  have hI : idx_main_v4 (idx_main_v5 (ix4 bb h t d)) = ix3 bb t (col h d) :=
    act_idx_eq bb t h d _ rfl rfl rfl
  rw [hI]
  have el : ∀ k : Fin 1024, lidx_main_v0 (ix3 bb t (col h d)) k = ix3 bb t k := fun k => funext fun a => Fin.ext (by
    match a with
    | ⟨0, _⟩ => rfl
    | ⟨1, _⟩ => rfl
    | ⟨2, _⟩ => rfl)
  have er : ∀ k : Fin 1024, ridx_main_v0 (ix3 bb t (col h d)) k = ix2 (col h d) k := fun k => funext fun a => Fin.ext (by
    match a with
    | ⟨0, _⟩ => rfl
    | ⟨1, _⟩ => rfl)
  have eb : idx_main_v1 (idx_main_v2 (ix3 bb t (col h d))) = ix1 (col h d) := funext fun a => Fin.ext (by
    match a with
    | ⟨0, _⟩ => rfl)
  rw [eb]
  show (∑ k : Fin 1024, x0 (lidx_main_v0 (ix3 bb t (col h d)) k) * x3 (ridx_main_v0 (ix3 bb t (col h d)) k))
      + x4 (ix1 (col h d)) = (∑ k : Fin 1024, x0 (ix3 bb t k) * x3 (ix2 (col h d) k)) + x4 (ix1 (col h d))
  congr 1
  refine Finset.sum_congr rfl fun k _ => ?_
  rw [el k, er k]

/-- The key projection, head-major, at (batch, head, row, lane) is the linear layer at column `col h d`. -/
theorem v11_apply (x1 : Act) (x5 : Mat) (x6 : Bias) (bb : Fin 2) (h : Fin 16) (t : Fin 2048) (d : Fin 64) :
    val_main_v11 (F := Ideal) x1 x5 x6 (ix4 bb h t d) = lin x1 x5 x6 bb t (col h d) := by
  rw [val_main_v11_apply, val_main_v10_apply, val_main_v9_apply, val_main_v6_apply, val_main_v8_apply,
    val_main_v7_apply]
  have hI : idx_main_v10 (idx_main_v11 (ix4 bb h t d)) = ix3 bb t (col h d) :=
    act_idx_eq bb t h d _ rfl rfl rfl
  rw [hI]
  have el : ∀ k : Fin 1024, lidx_main_v6 (ix3 bb t (col h d)) k = ix3 bb t k := fun k => funext fun a => Fin.ext (by
    match a with
    | ⟨0, _⟩ => rfl
    | ⟨1, _⟩ => rfl
    | ⟨2, _⟩ => rfl)
  have er : ∀ k : Fin 1024, ridx_main_v6 (ix3 bb t (col h d)) k = ix2 (col h d) k := fun k => funext fun a => Fin.ext (by
    match a with
    | ⟨0, _⟩ => rfl
    | ⟨1, _⟩ => rfl)
  have eb : idx_main_v7 (idx_main_v8 (ix3 bb t (col h d))) = ix1 (col h d) := funext fun a => Fin.ext (by
    match a with
    | ⟨0, _⟩ => rfl)
  rw [eb]
  show (∑ k : Fin 1024, x1 (lidx_main_v6 (ix3 bb t (col h d)) k) * x5 (ridx_main_v6 (ix3 bb t (col h d)) k))
      + x6 (ix1 (col h d)) = (∑ k : Fin 1024, x1 (ix3 bb t k) * x5 (ix2 (col h d) k)) + x6 (ix1 (col h d))
  congr 1
  refine Finset.sum_congr rfl fun k _ => ?_
  rw [el k, er k]

/-- The value projection, head-major, at (batch, head, row, lane) is the linear layer at column `col h d`. -/
theorem v17_apply (x2 : Act) (x7 : Mat) (x8 : Bias) (bb : Fin 2) (h : Fin 16) (t : Fin 2048) (d : Fin 64) :
    val_main_v17 (F := Ideal) x2 x7 x8 (ix4 bb h t d) = lin x2 x7 x8 bb t (col h d) := by
  rw [val_main_v17_apply, val_main_v16_apply, val_main_v15_apply, val_main_v12_apply, val_main_v14_apply,
    val_main_v13_apply]
  have hI : idx_main_v16 (idx_main_v17 (ix4 bb h t d)) = ix3 bb t (col h d) :=
    act_idx_eq bb t h d _ rfl rfl rfl
  rw [hI]
  have el : ∀ k : Fin 1024, lidx_main_v12 (ix3 bb t (col h d)) k = ix3 bb t k := fun k => funext fun a => Fin.ext (by
    match a with
    | ⟨0, _⟩ => rfl
    | ⟨1, _⟩ => rfl
    | ⟨2, _⟩ => rfl)
  have er : ∀ k : Fin 1024, ridx_main_v12 (ix3 bb t (col h d)) k = ix2 (col h d) k := fun k => funext fun a => Fin.ext (by
    match a with
    | ⟨0, _⟩ => rfl
    | ⟨1, _⟩ => rfl)
  have eb : idx_main_v13 (idx_main_v14 (ix3 bb t (col h d))) = ix1 (col h d) := funext fun a => Fin.ext (by
    match a with
    | ⟨0, _⟩ => rfl)
  rw [eb]
  show (∑ k : Fin 1024, x2 (lidx_main_v12 (ix3 bb t (col h d)) k) * x7 (ridx_main_v12 (ix3 bb t (col h d)) k))
      + x8 (ix1 (col h d)) = (∑ k : Fin 1024, x2 (ix3 bb t k) * x7 (ix2 (col h d) k)) + x8 (ix1 (col h d))
  congr 1
  refine Finset.sum_congr rfl fun k _ => ?_
  rw [el k, er k]

end Cert.RefSide

end
-- ==== Proof.Ref.Softmax.lean ====
/-
  The reference's scores and softmax read at an index: the scaled scores, the row maximum (a fold of max from −∞ over
  the key axis, then one more max with −∞, which changes nothing), the exponentials, their sum from zero, the quotient.
-/
import proofs.«174660_j36575941493113_2_alg».proof.Proof.Ref.Proj

noncomputable section

open scoped BigOperators

namespace Cert.RefSide

open Cert.ReferenceIdeal Cert.ReferenceIdeal.Gen Cert.ReferenceIdeal.Read
open Idealize.ShloMosaic Idealize.ShloMosaic.ValueIdx
open Cert.Spec

/-- −∞ is the identity of max. -/
theorem max_negInf (y : EReal) : max (Ideal.ofBits .f32 0xFF800000#32) y = y := by
  simp [Ideal.ofBits, Ideal.ieee]

/-- The reduced index (bb, h, q) with `k` put back on the key axis is (bb, h, q, k). -/
theorem lift_ix3 (hR : (⟨4, ![2, 16, 2048, 2048]⟩ : Shape).Reduces [3] (⟨3, ![2, 16, 2048]⟩ : Shape)) (bb : Fin 2)
    (h : Fin 16) (q : Fin 2048) (k : Fin ((⟨4, ![2, 16, 2048, 2048]⟩ : Shape).size 3)) :
    hR.lift (ix3 bb h q) k = ix4 bb h q (⟨k.val, k.isLt⟩ : Fin 2048) := by
  funext c
  apply Fin.ext
  fin_cases c <;> rfl

/-- The scaled score. -/
theorem v20_apply (x0 x1 : Act) (x3 : Mat) (x4 : Bias) (x5 : Mat) (x6 : Bias) (bb : Fin 2) (h : Fin 16) (q k : Fin 2048) :
    val_main_v20 (F := Ideal) x0 x1 x3 x4 x5 x6 (ix4 bb h q k) = score (lin x0 x3 x4) (lin x1 x5 x6) bb h q k := by
  rw [val_main_v20_apply, val_main_v18_apply, val_main_v19_apply, val_main_cst_apply]
  have el : ∀ d : Fin 64, lidx_main_v18 (ix4 bb h q k) d = ix4 bb h q d := fun d => funext fun a => Fin.ext (by
    match a with
    | ⟨0, _⟩ => rfl
    | ⟨1, _⟩ => rfl
    | ⟨2, _⟩ => rfl
    | ⟨3, _⟩ => rfl)
  have er : ∀ d : Fin 64, ridx_main_v18 (ix4 bb h q k) d = ix4 bb h k d := fun d => funext fun a => Fin.ext (by
    match a with
    | ⟨0, _⟩ => rfl
    | ⟨1, _⟩ => rfl
    | ⟨2, _⟩ => rfl
    | ⟨3, _⟩ => rfl)
  show (∑ d : Fin 64, val_main_v5 (F := Ideal) x0 x3 x4 (lidx_main_v18 (ix4 bb h q k) d)
        * val_main_v11 (F := Ideal) x1 x5 x6 (ridx_main_v18 (ix4 bb h q k) d)) * Ideal.ofBits .f32 0x3E000000#32
      = (∑ d : Fin 64, lin x0 x3 x4 bb q (col h d) * lin x1 x5 x6 bb k (col h d)) * Ideal.ofBits .f32 0x3E000000#32
  congr 1
  refine Finset.sum_congr rfl fun d _ => ?_
  rw [el d, er d, v5_apply, v11_apply]

/-- The reduction with a maximum body over the key axis is the fold of max over the row of scores. -/
theorem v21_apply (x0 x1 : Act) (x3 : Mat) (x4 : Bias) (x5 : Mat) (x6 : Bias) (bb : Fin 2) (h : Fin 16) (q : Fin 2048) :
    val_main_v21 (F := Ideal) x0 x1 x3 x4 x5 x6 (ix3 bb h q) = rowmax (score (lin x0 x3 x4) (lin x1 x5 x6) bb h q) := by
  have hR : (⟨4, ![2, 16, 2048, 2048]⟩ : Shape).Reduces [3] (⟨3, ![2, 16, 2048]⟩ : Shape) := by decide
  unfold val_main_v21
  rw [Host.reduce_eq_fold_single FloatOps.maximumf _ _ reducesTo_S2x16x2048x2048_S2x16x2048_d3 hR h_S_]
  have hf : (val_main_v20 (F := Ideal) x0 x1 x3 x4 x5 x6 ∘ hR.lift (ix3 bb h q)) = score (lin x0 x3 x4) (lin x1 x5 x6) bb h q :=
    funext fun k => by
      show val_main_v20 (F := Ideal) x0 x1 x3 x4 x5 x6 (hR.lift (ix3 bb h q) k) = _
      rw [lift_ix3 hR bb h q k, v20_apply]
      rfl
  exact congrArg (fun f => Finset.fold max (Ideal.ofBits .f32 0xFF800000#32) f (Finset.univ : Finset (Fin 2048))) hf

/-- One more maximum with −∞ leaves the row maximum as it is. -/
theorem v23_apply (x0 x1 : Act) (x3 : Mat) (x4 : Bias) (x5 : Mat) (x6 : Bias) (bb : Fin 2) (h : Fin 16) (q : Fin 2048) :
    val_main_v23 (F := Ideal) x0 x1 x3 x4 x5 x6 (ix3 bb h q) = rowmax (score (lin x0 x3 x4) (lin x1 x5 x6) bb h q) := by
  rw [val_main_v23_apply, val_main_v22_apply, val_main_cst_1_apply, v21_apply]
  exact max_negInf _

/-- The exponential of the score less the row maximum. -/
theorem v27_apply (x0 x1 : Act) (x3 : Mat) (x4 : Bias) (x5 : Mat) (x6 : Bias) (bb : Fin 2) (h : Fin 16) (q k : Fin 2048) :
    val_main_v27 (F := Ideal) x0 x1 x3 x4 x5 x6 (ix4 bb h q k) = pexp (lin x0 x3 x4) (lin x1 x5 x6) bb h q k := by
  rw [val_main_v27_apply, val_main_v26_apply, val_main_v25_apply, val_main_v24_apply]
  have e : idx_main_v24 (idx_main_v25 (ix4 bb h q k)) = ix3 bb h q := funext fun a => Fin.ext (by
    match a with
    | ⟨0, _⟩ => rfl
    | ⟨1, _⟩ => rfl
    | ⟨2, _⟩ => rfl)
  rw [e, v20_apply, v23_apply]
  rfl

/-- The sum of the row's exponentials, from zero. -/
theorem v28_apply (x0 x1 : Act) (x3 : Mat) (x4 : Bias) (x5 : Mat) (x6 : Bias) (bb : Fin 2) (h : Fin 16) (q : Fin 2048) :
    val_main_v28 (F := Ideal) x0 x1 x3 x4 x5 x6 (ix3 bb h q) = denom (lin x0 x3 x4) (lin x1 x5 x6) bb h q := by
  rw [val_main_v28_apply, val_main_cst_2_apply]
  show Ideal.ofBits .f32 0x00000000#32
        + (∑ k : Fin 2048, val_main_v27 (F := Ideal) x0 x1 x3 x4 x5 x6 (idx_main_v28 (ix3 bb h q) k))
      = Ideal.ofBits .f32 0x00000000#32 + ∑ k : Fin 2048, pexp (lin x0 x3 x4) (lin x1 x5 x6) bb h q k
  congr 1
  refine Finset.sum_congr rfl fun k _ => ?_
  have e : idx_main_v28 (ix3 bb h q) k = ix4 bb h q k := funext fun a => Fin.ext (by
    match a with
    | ⟨0, _⟩ => rfl
    | ⟨1, _⟩ => rfl
    | ⟨2, _⟩ => rfl
    | ⟨3, _⟩ => rfl)
  rw [e, v27_apply]

/-- The attention weight. -/
theorem v31_apply (x0 x1 : Act) (x3 : Mat) (x4 : Bias) (x5 : Mat) (x6 : Bias) (bb : Fin 2) (h : Fin 16) (q k : Fin 2048) :
    val_main_v31 (F := Ideal) x0 x1 x3 x4 x5 x6 (ix4 bb h q k) = attn (lin x0 x3 x4) (lin x1 x5 x6) bb h q k := by
  rw [val_main_v31_apply, val_main_v30_apply, val_main_v29_apply]
  have e : idx_main_v29 (idx_main_v30 (ix4 bb h q k)) = ix3 bb h q := funext fun a => Fin.ext (by
    match a with
    | ⟨0, _⟩ => rfl
    | ⟨1, _⟩ => rfl
    | ⟨2, _⟩ => rfl)
  rw [e, v27_apply, v28_apply]
  rfl

/-- The reference's attention weights are the softmax of the scaled scores of the projected query and key. -/
theorem ref_attn (x0 x1 : Act) (x3 : Mat) (x4 : Bias) (x5 : Mat) (x6 : Bias) :
    val_main_v31 (F := Ideal) x0 x1 x3 x4 x5 x6 = attnArr x0 x1 x3 x4 x5 x6 := by
  funext i
  obtain ⟨bb, h, q, k, rfl⟩ : ∃ (bb : Fin 2) (h : Fin 16) (q k : Fin 2048), i = ix4 bb h q k :=
    ⟨i 0, i 1, i 2, i 3, eq_ix4 i⟩
  rw [v31_apply, attnArr_apply]

end Cert.RefSide

end
-- ==== Proof.Ref.Out.lean ====
/-
  The reference's context and output read at an index. The context (bb, h, q, d) is the weights of the row applied to
  the head's values; it is transposed to [2, 2048, 16, 64] and reshaped to [2, 2048, 1024], so column k of the result
  is head k / 64 at lane k % 64; the output projection sums over the 1024 columns, which is the sum over the heads of
  the sums over the lanes.
-/
import proofs.«174660_j36575941493113_2_alg».proof.Proof.Ref.Softmax

noncomputable section

open scoped BigOperators

namespace Cert.RefSide

open Cert.ReferenceIdeal Cert.ReferenceIdeal.Gen Cert.ReferenceIdeal.Read
open Idealize.ShloMosaic Idealize.ShloMosaic.ValueIdx
open Cert.Spec

/-- The context of a head. -/
theorem v32_apply (x0 x1 x2 : Act) (x3 : Mat) (x4 : Bias) (x5 : Mat) (x6 : Bias) (x7 : Mat) (x8 : Bias) (bb : Fin 2) (h : Fin 16) (q : Fin 2048) (d : Fin 64) :
    val_main_v32 (F := Ideal) x0 x1 x2 x3 x4 x5 x6 x7 x8 (ix4 bb h q d) = ctx (lin x0 x3 x4) (lin x1 x5 x6) (lin x2 x7 x8) bb h q d := by
  rw [val_main_v32_apply]
  have el : ∀ k : Fin 2048, lidx_main_v32 (ix4 bb h q d) k = ix4 bb h q k := fun k => funext fun a => Fin.ext (by
    match a with
    | ⟨0, _⟩ => rfl
    | ⟨1, _⟩ => rfl
    | ⟨2, _⟩ => rfl
    | ⟨3, _⟩ => rfl)
  have er : ∀ k : Fin 2048, ridx_main_v32 (ix4 bb h q d) k = ix4 bb h k d := fun k => funext fun a => Fin.ext (by
    match a with
    | ⟨0, _⟩ => rfl
    | ⟨1, _⟩ => rfl
    | ⟨2, _⟩ => rfl
    | ⟨3, _⟩ => rfl)
  refine Finset.sum_congr rfl fun k _ => ?_
  rw [el k, er k, v31_apply, v17_apply]

/-- Position (bb, q, k) of [2, 2048, 1024], split over [2, 2048, 16, 64] and transposed, is (bb, k / 64, q, k % 64). -/
theorem ctx_idx_eq (bb : Fin 2) (q : Fin 2048) (k : Fin 1024) (j : (⟨4, ![2, 16, 2048, 64]⟩ : Shape).Idx)
    (h0 : (j 0).val = ((bb.val * 2048 + q.val) * 1024 + k.val) / 2097152)
    (h1 : (j 1).val = ((bb.val * 2048 + q.val) * 1024 + k.val) / 64 % 16)
    (h2 : (j 2).val = ((bb.val * 2048 + q.val) * 1024 + k.val) / 1024 % 2048)
    (h3 : (j 3).val = ((bb.val * 2048 + q.val) * 1024 + k.val) % 64) :
    j = ix4 bb (colHead k) q (colLane k) := by
  have hb := bb.isLt
  have hq := q.isLt
  have hk := k.isLt
  funext a
  match a with
  | ⟨0, _⟩ => exact Fin.ext (h0.trans (by show _ = bb.val; omega))
  | ⟨1, _⟩ => exact Fin.ext (h1.trans (by show _ = k.val / 64; omega))
  | ⟨2, _⟩ => exact Fin.ext (h2.trans (by show _ = q.val; omega))
  | ⟨3, _⟩ => exact Fin.ext (h3.trans (by show _ = k.val % 64; omega))

/-- The heads' contexts laid side by side: column `k` is head `k / 64` at lane `k % 64`. -/
theorem v34_apply (x0 x1 x2 : Act) (x3 : Mat) (x4 : Bias) (x5 : Mat) (x6 : Bias) (x7 : Mat) (x8 : Bias) (bb : Fin 2) (q : Fin 2048) (k : Fin 1024) :
    val_main_v34 (F := Ideal) x0 x1 x2 x3 x4 x5 x6 x7 x8 (ix3 bb q k) = ctx (lin x0 x3 x4) (lin x1 x5 x6) (lin x2 x7 x8) bb (colHead k) q (colLane k) := by
  rw [val_main_v34_apply, val_main_v33_apply]
  have e : idx_main_v33 (idx_main_v34 (ix3 bb q k)) = ix4 bb (colHead k) q (colLane k) :=
    ctx_idx_eq bb q k _ rfl rfl rfl rfl
  rw [e, v32_apply]

/-- The output projection. -/
theorem v38_apply (x0 x1 x2 : Act) (x3 : Mat) (x4 : Bias) (x5 : Mat) (x6 : Bias) (x7 : Mat) (x8 : Bias) (x9 : Mat) (x10 : Bias) (bb : Fin 2) (q : Fin 2048) (e : Fin 1024) :
    val_main_v38 (F := Ideal) x0 x1 x2 x3 x4 x5 x6 x7 x8 x9 x10 (ix3 bb q e) = out (lin x0 x3 x4) (lin x1 x5 x6) (lin x2 x7 x8) x9 x10 bb q e := by
  rw [val_main_v38_apply, val_main_v35_apply, val_main_v37_apply, val_main_v36_apply]
  have el : ∀ k : Fin 1024, lidx_main_v35 (ix3 bb q e) k = ix3 bb q k := fun k => funext fun a => Fin.ext (by
    match a with
    | ⟨0, _⟩ => rfl
    | ⟨1, _⟩ => rfl
    | ⟨2, _⟩ => rfl)
  have er : ∀ k : Fin 1024, ridx_main_v35 (ix3 bb q e) k = ix2 e k := fun k => funext fun a => Fin.ext (by
    match a with
    | ⟨0, _⟩ => rfl
    | ⟨1, _⟩ => rfl)
  have eb : idx_main_v36 (idx_main_v37 (ix3 bb q e)) = ix1 e := funext fun a => Fin.ext (by
    match a with
    | ⟨0, _⟩ => rfl)
  rw [eb]
  show (∑ k : Fin 1024, val_main_v34 (F := Ideal) x0 x1 x2 x3 x4 x5 x6 x7 x8 (lidx_main_v35 (ix3 bb q e) k) * x9 (ridx_main_v35 (ix3 bb q e) k))
        + x10 (ix1 e)
      = (∑ h : Fin 16, ∑ d : Fin 64, ctx (lin x0 x3 x4) (lin x1 x5 x6) (lin x2 x7 x8) bb h q d * x9 (ix2 e (col h d))) + x10 (ix1 e)
  congr 1
  have hs : ∀ k : Fin 1024,
      val_main_v34 (F := Ideal) x0 x1 x2 x3 x4 x5 x6 x7 x8 (lidx_main_v35 (ix3 bb q e) k) * x9 (ridx_main_v35 (ix3 bb q e) k)
        = ctx (lin x0 x3 x4) (lin x1 x5 x6) (lin x2 x7 x8) bb (colHead k) q (colLane k) * x9 (ix2 e k) := fun k => by
    rw [el k, er k, v34_apply]
  refine (Finset.sum_congr rfl fun k _ => hs k).trans ?_
  rw [sum_col]
  refine Finset.sum_congr rfl fun h _ => Finset.sum_congr rfl fun d _ => ?_
  rw [colHead_col, colLane_col]

/-- The reference's output is the output projection of the heads' contexts. -/
theorem ref_out (x0 x1 x2 : Act) (x3 : Mat) (x4 : Bias) (x5 : Mat) (x6 : Bias) (x7 : Mat) (x8 : Bias) (x9 : Mat) (x10 : Bias) :
    val_main_v38 (F := Ideal) x0 x1 x2 x3 x4 x5 x6 x7 x8 x9 x10 = outArr x0 x1 x2 x3 x4 x5 x6 x7 x8 x9 x10 := by
  funext i
  obtain ⟨bb, q, e, rfl⟩ : ∃ (bb : Fin 2) (q : Fin 2048) (e : Fin 1024), i = ix3 bb q e := ⟨i 0, i 1, i 2, eq_ix3 i⟩
  rw [v38_apply, outArr_apply]

end Cert.RefSide

end
-- ==== Proof.Ref.Run.lean ====
/-
  The two results of the reference's run, as terms of the launch contents of the eleven arguments, are the closed
  functions of those contents.
-/
import proofs.«174660_j36575941493113_2_alg».proof.Proof.Ref.Out

noncomputable section

namespace Cert.RefSide

open Cert.ReferenceIdeal Cert.ReferenceIdeal.Gen Cert.ReferenceIdeal.Read
open Idealize.ShloMosaic Idealize.ShloMosaic.TcCoe Idealize.SL.Sem
open Cert.Spec

/-- The attention weights the reference returns. -/
theorem ref_attn_run (m : (ℓ : Loc nD τ sig) → Buf (Elt Ideal) ℓ) (c : Dev nD) :
    Cert.ReferenceIdeal.Value.res_main_v31 m c
      = attnArr (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) :=
  (val_main_v31_eq m c).trans (ref_attn _ _ _ _ _ _)

/-- The output the reference returns. -/
theorem ref_out_run (m : (ℓ : Loc nD τ sig) → Buf (Elt Ideal) ℓ) (c : Dev nD) :
    Cert.ReferenceIdeal.Value.res_main_v38 m c
      = outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v38_eq m c).trans (ref_out _ _ _ _ _ _ _ _ _ _ _)

end Cert.RefSide

end
-- ==== Proof.lean ====
/- The certificate of a multi-head attention layer computed by four kernel launches — three linear projections that
   emit queries, keys and values head-major, and one fused launch that, per batch, query tile and head, forms the scaled
   scores, their softmax over the keys, the head's context rows and that head's share of the output projection,
   accumulated over the sixteen heads — against the textbook formulation.
   Over the extended reals the two programs compute one function of the arguments: a change of float format is the
   identity, a product of blocks into a zero accumulator is the sum over the contracted axis, the sum over the 1024
   columns of the concatenated context is the sum over heads of the sum over a head's 64 columns, and the accumulator's
   sixteen additions from zero are that outer sum; only commutativity and associativity of addition are used, so the
   inputs' finiteness is never opened.
   The frames: each program runs to the end without a fault and leaves its arguments as launched — for the two kernel
   programs by following the buffers through the host operations and the four launches, the fused launch's accumulator
   carried in its invariant from point to point. -/
import proofs.«174660_j36575941493113_2_alg».proof.Defs
import proofs.«174660_j36575941493113_2_alg».proof.Proof.Gen.Kernel
import proofs.«174660_j36575941493113_2_alg».proof.Proof.Gen.KernelIdeal
import proofs.«174660_j36575941493113_2_alg».proof.Proof.Gen.ReferenceIdeal
import proofs.«174660_j36575941493113_2_alg».proof.Proof.Gen.Pre_finite_inputs
import proofs.«174660_j36575941493113_2_alg».proof.Proof.Gen.ReferenceIdeal.Read
import proofs.«174660_j36575941493113_2_alg».proof.Proof.KI.Run
import proofs.«174660_j36575941493113_2_alg».proof.Proof.KI.Lin0
import proofs.«174660_j36575941493113_2_alg».proof.Proof.KI.Lin1
import proofs.«174660_j36575941493113_2_alg».proof.Proof.KI.Lin2
import proofs.«174660_j36575941493113_2_alg».proof.Proof.KI.Attn
import proofs.«174660_j36575941493113_2_alg».proof.Proof.K.Run
import proofs.«174660_j36575941493113_2_alg».proof.Proof.K.Lin0
import proofs.«174660_j36575941493113_2_alg».proof.Proof.K.Lin1
import proofs.«174660_j36575941493113_2_alg».proof.Proof.K.Lin2
import proofs.«174660_j36575941493113_2_alg».proof.Proof.K.Attn
import proofs.«174660_j36575941493113_2_alg».proof.Proof.Val.ChainOut
import proofs.«174660_j36575941493113_2_alg».proof.Proof.Ref.Run
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_K : Cert.frame_Kernel := fun m ρ _ =>
  Cert.Kernel.Fr.frame m ρ (fun V c => Cert.Kernel.Fr.dat0 V c) (fun V c => Cert.Kernel.Fr.dat1 V c) (fun V c => Cert.Kernel.Fr.dat2 V c) (fun V c => Cert.Kernel.Fr.dat3 V c)
    Cert.Kernel.Fr.A_eq0 Cert.Kernel.Fr.hq0 Cert.Kernel.Fr.howed0 (fun _ _ _ => rfl) Cert.Kernel.Fr.body_obligation0 Cert.Kernel.Fr.hin0 Cert.Kernel.Fr.hout0
    Cert.Kernel.Fr.A_eq1 Cert.Kernel.Fr.hq1 Cert.Kernel.Fr.howed1 (fun _ _ _ => rfl) Cert.Kernel.Fr.body_obligation1 Cert.Kernel.Fr.hin1 Cert.Kernel.Fr.hout1
    Cert.Kernel.Fr.A_eq2 Cert.Kernel.Fr.hq2 Cert.Kernel.Fr.howed2 (fun _ _ _ => rfl) Cert.Kernel.Fr.body_obligation2 Cert.Kernel.Fr.hin2 Cert.Kernel.Fr.hout2
    Cert.Kernel.Fr.A_eq3 Cert.Kernel.Fr.hq3 Cert.Kernel.Fr.howed3 (fun _ _ _ => rfl) Cert.Kernel.Fr.body_obligation3 Cert.Kernel.Fr.hin3 Cert.Kernel.Fr.hout3

/-- So does the kernel program read over the extended reals. -/
theorem frame_KI : Cert.frame_KernelIdeal := fun m ρ _ =>
  Cert.KernelIdeal.Fr.frame m ρ (fun V c => Cert.KernelIdeal.Fr.dat0 V c) (fun V c => Cert.KernelIdeal.Fr.dat1 V c) (fun V c => Cert.KernelIdeal.Fr.dat2 V c) (fun V c => Cert.KernelIdeal.Fr.dat3 V c)
    Cert.KernelIdeal.Fr.A_eq0 Cert.KernelIdeal.Fr.hq0 Cert.KernelIdeal.Fr.howed0 (fun _ _ _ => rfl) Cert.KernelIdeal.Fr.body_obligation0 Cert.KernelIdeal.Fr.hin0 Cert.KernelIdeal.Fr.hout0
    Cert.KernelIdeal.Fr.A_eq1 Cert.KernelIdeal.Fr.hq1 Cert.KernelIdeal.Fr.howed1 (fun _ _ _ => rfl) Cert.KernelIdeal.Fr.body_obligation1 Cert.KernelIdeal.Fr.hin1 Cert.KernelIdeal.Fr.hout1
    Cert.KernelIdeal.Fr.A_eq2 Cert.KernelIdeal.Fr.hq2 Cert.KernelIdeal.Fr.howed2 (fun _ _ _ => rfl) Cert.KernelIdeal.Fr.body_obligation2 Cert.KernelIdeal.Fr.hin2 Cert.KernelIdeal.Fr.hout2
    Cert.KernelIdeal.Fr.A_eq3 Cert.KernelIdeal.Fr.hq3 Cert.KernelIdeal.Fr.howed3 (fun _ _ _ => rfl) Cert.KernelIdeal.Fr.body_obligation3 Cert.KernelIdeal.Fr.hin3 Cert.KernelIdeal.Fr.hout3

/-- The reference is host operations only: its run, with the results dropped. -/
theorem frame_RI : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Over the extended reals both programs end with the attention weights at the softmax of the scaled scores of the
    projected queries against the projected keys, and the output at the heads' context rows against the output weights
    plus the bias — one function of the arguments on both sides. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Spec.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact Cert.KernelIdeal.Fr.run_of m ρ (fun V c => Cert.KernelIdeal.Fr.dat0 V c) (fun V c => Cert.KernelIdeal.Fr.dat1 V c) (fun V c => Cert.KernelIdeal.Fr.dat2 V c) (fun V c => Cert.KernelIdeal.Fr.dat3 V c)
      Cert.KernelIdeal.Fr.A_eq0 Cert.KernelIdeal.Fr.hq0 Cert.KernelIdeal.Fr.howed0 (fun _ _ _ => rfl) Cert.KernelIdeal.Fr.body_obligation0 Cert.KernelIdeal.Fr.hin0 Cert.KernelIdeal.Fr.hout0
      Cert.KernelIdeal.Fr.A_eq1 Cert.KernelIdeal.Fr.hq1 Cert.KernelIdeal.Fr.howed1 (fun _ _ _ => rfl) Cert.KernelIdeal.Fr.body_obligation1 Cert.KernelIdeal.Fr.hin1 Cert.KernelIdeal.Fr.hout1
      Cert.KernelIdeal.Fr.A_eq2 Cert.KernelIdeal.Fr.hq2 Cert.KernelIdeal.Fr.howed2 (fun _ _ _ => rfl) Cert.KernelIdeal.Fr.body_obligation2 Cert.KernelIdeal.Fr.hin2 Cert.KernelIdeal.Fr.hout2
      Cert.KernelIdeal.Fr.A_eq3 Cert.KernelIdeal.Fr.hq3 Cert.KernelIdeal.Fr.howed3 (fun _ _ _ => rfl) Cert.KernelIdeal.Fr.body_obligation3 Cert.KernelIdeal.Fr.hin3 Cert.KernelIdeal.Fr.hout3
      (fun s h c =>
        ⟨(h c _ (Cert.KernelIdeal.Fr.mem_uc Cert.KernelIdeal.main_v19_1 (by decide))).trans (Cert.KernelIdeal.Val.kernel_out m c),
         (h c _ (Cert.KernelIdeal.Fr.mem_uc Cert.KernelIdeal.main_v19_0 (by decide))).trans (Cert.KernelIdeal.Val.kernel_attn m c),
         (h c _ (Cert.KernelIdeal.Fr.mem_uc Cert.KernelIdeal.main_arg0 (by decide))).trans (Cert.KernelIdeal.Fr.W8_main_arg0 m _ _ _ _ c),
         (h c _ (Cert.KernelIdeal.Fr.mem_uc Cert.KernelIdeal.main_arg1 (by decide))).trans (Cert.KernelIdeal.Fr.W8_main_arg1 m _ _ _ _ c),
         (h c _ (Cert.KernelIdeal.Fr.mem_uc Cert.KernelIdeal.main_arg2 (by decide))).trans (Cert.KernelIdeal.Fr.W8_main_arg2 m _ _ _ _ c),
         (h c _ (Cert.KernelIdeal.Fr.mem_uc Cert.KernelIdeal.main_arg3 (by decide))).trans (Cert.KernelIdeal.Fr.W8_main_arg3 m _ _ _ _ c),
         (h c _ (Cert.KernelIdeal.Fr.mem_uc Cert.KernelIdeal.main_arg4 (by decide))).trans (Cert.KernelIdeal.Fr.W8_main_arg4 m _ _ _ _ c),
         (h c _ (Cert.KernelIdeal.Fr.mem_uc Cert.KernelIdeal.main_arg5 (by decide))).trans (Cert.KernelIdeal.Fr.W8_main_arg5 m _ _ _ _ c),
         (h c _ (Cert.KernelIdeal.Fr.mem_uc Cert.KernelIdeal.main_arg6 (by decide))).trans (Cert.KernelIdeal.Fr.W8_main_arg6 m _ _ _ _ c),
         (h c _ (Cert.KernelIdeal.Fr.mem_uc Cert.KernelIdeal.main_arg7 (by decide))).trans (Cert.KernelIdeal.Fr.W8_main_arg7 m _ _ _ _ c),
         (h c _ (Cert.KernelIdeal.Fr.mem_uc Cert.KernelIdeal.main_arg8 (by decide))).trans (Cert.KernelIdeal.Fr.W8_main_arg8 m _ _ _ _ c),
         (h c _ (Cert.KernelIdeal.Fr.mem_uc Cert.KernelIdeal.main_arg9 (by decide))).trans (Cert.KernelIdeal.Fr.W8_main_arg9 m _ _ _ _ c),
         (h c _ (Cert.KernelIdeal.Fr.mem_uc Cert.KernelIdeal.main_arg10 (by decide))).trans (Cert.KernelIdeal.Fr.W8_main_arg10 m _ _ _ _ c)⟩)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.RefSide.ref_out_run m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    · rw [Cert.RefSide.ref_attn_run m' c, (hagree c).1, (hagree c).2.1, (hagree c).2.2.2.1, (hagree c).2.2.2.2.1, (hagree c).2.2.2.2.2.1, (hagree c).2.2.2.2.2.2.1]

theorem claim : Cert.Claim := ⟨Cert.Kernel.Gen.facts, Cert.KernelIdeal.Gen.facts, Cert.ReferenceIdeal.Gen.facts, Cert.Pre_finite_inputs.Gen.facts,
  frame_K, frame_KI, frame_RI, preserves, algebraic⟩

end Cert.Proof

end
